-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x133 : Shape := ⟨2, ![32768, 133]⟩
abbrev S65536x147 : Shape := ⟨2, ![65536, 147]⟩
abbrev S32768x6 : Shape := ⟨2, ![32768, 6]⟩
abbrev S65536 : Shape := ⟨1, ![65536]⟩
abbrev S147x256 : Shape := ⟨2, ![147, 256]⟩
abbrev S256x256 : Shape := ⟨2, ![256, 256]⟩
abbrev S256 : Shape := ⟨1, ![256]⟩
abbrev S389x256 : Shape := ⟨2, ![389, 256]⟩
abbrev S_ : Shape := ⟨0, ![]⟩

class Facts : Prop where
  bcast_S_S32768x133 : S_.BroadcastsInDim S32768x133 (![] : Fin 0 → Fin S32768x133.rank)
  reducesTo_S32768x133_S_d0_1 : S32768x133.ReducesTo [0, 1] S_
  h_S_ : 0 < S_.numel
  bcast_S_S65536x147 : S_.BroadcastsInDim S65536x147 (![] : Fin 0 → Fin S65536x147.rank)
  reducesTo_S65536x147_S_d0_1 : S65536x147.ReducesTo [0, 1] S_
  bcast_S_S147x256 : S_.BroadcastsInDim S147x256 (![] : Fin 0 → Fin S147x256.rank)
  reducesTo_S147x256_S_d0_1 : S147x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S389x256 : S_.BroadcastsInDim S389x256 (![] : Fin 0 → Fin S389x256.rank)
  reducesTo_S389x256_S_d0_1 : S389x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg10 : FVec F S256x256 .f32) (main_arg11 : FVec F S256 .f32) (main_arg12 : FVec F S389x256 .f32) (main_arg13 : FVec F S256 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S389x256 .f32 := Host.absf main_arg12
  let main_cst_16 : FVec F S_ .f32 := constant S_ .f32 0x7F800000#32
  let main_v45 : FVec F S389x256 .f32 := broadcastInDim S389x256 ![] bcast_S_S389x256 main_cst_16
  let main_v46 : IVec S389x256 1 := cmpf .olt main_v44 main_v45
  let main_c_17 : IVec S_ 1 := constantI S_ 1 1#1
  let main_v47 : IVec S_ 1 := (fun x v => Host.reduce IntOp.andi x v reducesTo_S389x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg7 : FVec F S147x256 .f32) (main_arg8 : FVec F S256x256 .f32) (main_arg9 : FVec F S256x256 .f32) (main_arg10 : FVec F S256x256 .f32) (main_arg11 : FVec F S256 .f32) (main_arg12 : FVec F S389x256 .f32) (main_arg13 : FVec F S256 .f32) (main_v13 : IVec S_ 1) (main_v16 : IVec S65536x147 1) : IVec S_ 1 :=
  let main_c_5 : IVec S_ 1 := constantI S_ 1 1#1
  let main_v17 : IVec S_ 1 := (fun x v => Host.reduce IntOp.andi x v reducesTo_S65536x147_S_d0_1 h_S_) main_v16 main_c_5
  let main_v18 : IVec S_ 1 := andi main_v13 main_v17
  let main_v19 : FVec F S147x256 .f32 := Host.absf main_arg7
  let main_cst_6 : FVec F S_ .f32 := constant S_ .f32 0x7F800000#32
  let main_v20 : FVec F S147x256 .f32 := broadcastInDim S147x256 ![] bcast_S_S147x256 main_cst_6
  let main_v21 : IVec S147x256 1 := cmpf .olt main_v19 main_v20
  let main_c_7 : IVec S_ 1 := constantI S_ 1 1#1
  let main_v22 : IVec S_ 1 := (fun x v => Host.reduce IntOp.andi x v reducesTo_S147x256_S_d0_1 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S32768x133 .f32) (main_arg1 : FVec F S32768x133 .f32) (main_arg2 : FVec F S65536x147 .f32) (main_arg3 : FVec F S65536x147 .f32) (main_arg4 : IVec S32768x6 32) (main_arg5 : IVec S65536 32) (main_arg6 : IVec S65536 32) (main_arg7 : FVec F S147x256 .f32) (main_arg8 : FVec F S256x256 .f32) (main_arg9 : FVec F S256x256 .f32) (main_arg10 : FVec F S256x256 .f32) (main_arg11 : FVec F S256 .f32) (main_arg12 : FVec F S389x256 .f32) (main_arg13 : FVec F S256 .f32) : IVec S_ 1 :=
  let main_v0 : FVec F S32768x133 .f32 := Host.absf main_arg0
  let main_cst : FVec F S_ .f32 := constant S_ .f32 0x7F800000#32
  let main_v1 : FVec F S32768x133 .f32 := broadcastInDim S32768x133 ![] bcast_S_S32768x133 main_cst
  let main_v2 : IVec S32768x133 1 := cmpf .olt main_v0 main_v1
  let main_c : IVec S_ 1 := constantI S_ 1 1#1
  let main_v3 : IVec S_ 1 := (fun x v => Host.reduce IntOp.andi x v reducesTo_S32768x133_S_d0_1 h_S_) main_v2 main_c
  let main_v4 : FVec F S32768x133 .f32 := Host.absf main_arg1
  let main_cst_0 : FVec F S_ .f32 := constant S_ .f32 0x7F800000#32
  let main_v5 : FVec F S32768x133 .f32 := broadcastInDim S32768x133 ![] bcast_S_S32768x133 main_cst_0
  let main_v6 : IVec S32768x133 1 := cmpf .olt main_v4 main_v5
  let main_c_1 : IVec S_ 1 := constantI S_ 1 1#1
  let main_v7 : IVec S_ 1 := (fun x v => Host.reduce IntOp.andi x v reducesTo_S32768x133_S_d0_1 h_S_) main_v6 main_c_1
  let main_v8 : IVec S_ 1 := andi main_v3 main_v7
  let main_v9 : FVec F S65536x147 .f32 := Host.absf main_arg2
  let main_cst_2 : FVec F S_ .f32 := constant S_ .f32 0x7F800000#32
  let main_v10 : FVec F S65536x147 .f32 := broadcastInDim S65536x147 ![] bcast_S_S65536x147 main_cst_2
  let main_v11 : IVec S65536x147 1 := cmpf .olt main_v9 main_v10
  let main_c_3 : IVec S_ 1 := constantI S_ 1 1#1
  let main_v12 : IVec S_ 1 := (fun x v => Host.reduce IntOp.andi x v reducesTo_S65536x147_S_d0_1 h_S_) main_v11 main_c_3
  let main_v13 : IVec S_ 1 := andi main_v8 main_v12
  let main_v14 : FVec F S65536x147 .f32 := Host.absf main_arg3
  let main_cst_4 : FVec F S_ .f32 := constant S_ .f32 0x7F800000#32
  let main_v15 : FVec F S65536x147 .f32 := broadcastInDim S65536x147 ![] bcast_S_S65536x147 main_cst_4
  let main_v16 : IVec S65536x147 1 := cmpf .olt main_v14 main_v15
  fn_part1 (F := F) main_arg7 main_arg8 main_arg9 main_arg10 main_arg11 main_arg12 main_arg13 main_v13 main_v16
-- ==== Kernel.lean ====
abbrev S32768x133 : Shape := ⟨2, ![32768, 133]⟩
abbrev S65536x147 : Shape := ⟨2, ![65536, 147]⟩
abbrev S32768x6 : Shape := ⟨2, ![32768, 6]⟩
abbrev S65536 : Shape := ⟨1, ![65536]⟩
abbrev S147x256 : Shape := ⟨2, ![147, 256]⟩
abbrev S256x256 : Shape := ⟨2, ![256, 256]⟩
abbrev S256 : Shape := ⟨1, ![256]⟩
abbrev S389x256 : Shape := ⟨2, ![389, 256]⟩
abbrev S1x256 : Shape := ⟨2, ![1, 256]⟩
abbrev S65536x256 : Shape := ⟨2, ![65536, 256]⟩
abbrev S_ : Shape := ⟨0, ![]⟩
abbrev S32768x6x1 : Shape := ⟨3, ![32768, 6, 1]⟩
abbrev S32768x6x256 : Shape := ⟨3, ![32768, 6, 256]⟩
abbrev S32768x256 : Shape := ⟨2, ![32768, 256]⟩
abbrev S65536x1 : Shape := ⟨2, ![65536, 1]⟩
abbrev S512x128x256 : Shape := ⟨3, ![512, 128, 256]⟩
abbrev S133x256 : Shape := ⟨2, ![133, 256]⟩
abbrev S512x256 : Shape := ⟨2, ![512, 256]⟩
abbrev S2048x147 : Shape := ⟨2, ![2048, 147]⟩
abbrev S2048x256 : Shape := ⟨2, ![2048, 256]⟩
abbrev S8x128x256 : Shape := ⟨3, ![8, 128, 256]⟩
abbrev S1024x256 : Shape := ⟨2, ![1024, 256]⟩
abbrev S8x128x128 : Shape := ⟨3, ![8, 128, 128]⟩
abbrev S8x128 : Shape := ⟨2, ![8, 128]⟩
abbrev S8x128x1 : Shape := ⟨3, ![8, 128, 1]⟩
abbrev S2048x133 : Shape := ⟨2, ![2048, 133]⟩
abbrev S32x256 : Shape := ⟨2, ![32, 256]⟩
abbrev S32x64x256 : Shape := ⟨3, ![32, 64, 256]⟩

abbrev nBuf : Space → Nat
  | .hbm => 238
  | .vmem => 67
  | .smem => 0
  | _ => 0

abbrev hbmTy0_0 (i : Nat) : BufTy := match i % 128 with
  | 0 => ⟨S32768x133, .f32⟩
  | 1 => ⟨S32768x133, .f32⟩
  | 2 => ⟨S65536x147, .f32⟩
  | 3 => ⟨S65536x147, .f32⟩
  | 4 => ⟨S32768x6, .i32⟩
  | 5 => ⟨S65536, .i32⟩
  | 6 => ⟨S65536, .i32⟩
  | 7 => ⟨S147x256, .f32⟩
  | 8 => ⟨S256x256, .f32⟩
  | 9 => ⟨S256x256, .f32⟩
  | 10 => ⟨S256x256, .f32⟩
  | 11 => ⟨S256, .f32⟩
  | 12 => ⟨S389x256, .f32⟩
  | 13 => ⟨S256, .f32⟩
  | 14 => ⟨S1x256, .f32⟩
  | 15 => ⟨S1x256, .f32⟩
  | 16 => ⟨S65536x256, .f32⟩
  | 17 => ⟨S65536x256, .f32⟩
  | 18 => ⟨S65536x256, .f32⟩
  | 19 => ⟨S65536x256, .f32⟩
  | 20 => ⟨S_, .i32⟩
  | 21 => ⟨S32768x6, .i32⟩
  | 22 => ⟨S32768x6, .i1⟩
  | 23 => ⟨S_, .i32⟩
  | 24 => ⟨S32768x6, .i32⟩
  | 25 => ⟨S32768x6, .i32⟩
  | 26 => ⟨S32768x6, .i32⟩
  | 27 => ⟨S32768x6x1, .i32⟩
  | 28 => ⟨S32768x6x256, .f32⟩
  | 29 => ⟨S_, .f32⟩
  | 30 => ⟨S32768x256, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x256, .f32⟩
  | 40 => ⟨S_, .i32⟩
  | 41 => ⟨S65536, .i32⟩
  | 42 => ⟨S65536, .i1⟩
  | 43 => ⟨S_, .i32⟩
  | 44 => ⟨S65536, .i32⟩
  | 45 => ⟨S65536, .i32⟩
  | 46 => ⟨S65536, .i32⟩
  | 47 => ⟨S65536x1, .i32⟩
  | 48 => ⟨S65536x256, .f32⟩
  | 49 => ⟨S65536x256, .f32⟩
  | 50 => ⟨S_, .i32⟩
  | 51 => ⟨S32768x6, .i32⟩
  | 52 => ⟨S32768x6, .i1⟩
  | 53 => ⟨S_, .i32⟩
  | 54 => ⟨S32768x6, .i32⟩
  | 55 => ⟨S32768x6, .i32⟩
  | 56 => ⟨S32768x6, .i32⟩
  | 57 => ⟨S32768x6x1, .i32⟩
  | 58 => ⟨S32768x6x256, .f32⟩
  | 59 => ⟨S_, .f32⟩
  | 60 => ⟨S32768x256, .f32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S65536x1, .i32⟩
  | 69 => ⟨S65536x256, .f32⟩
  | 70 => ⟨S_, .i32⟩
  | 71 => ⟨S65536, .i32⟩
  | 72 => ⟨S65536, .i1⟩
  | 73 => ⟨S_, .i32⟩
  | 74 => ⟨S65536, .i32⟩
  | 75 => ⟨S65536, .i32⟩
  | 76 => ⟨S65536, .i32⟩
  | 77 => ⟨S65536x1, .i32⟩
  | 78 => ⟨S65536x256, .f32⟩
  | 79 => ⟨S65536x256, .f32⟩
  | 80 => ⟨S512x128x256, .f32⟩
  | 81 => ⟨S512x128x256, .f32⟩
  | 82 => ⟨S512x128x256, .f32⟩
  | 83 => ⟨S512x128x256, .f32⟩
  | 84 => ⟨S512x128x256, .f32⟩
  | 85 => ⟨S512x128x256, .f32⟩
  | 86 => ⟨S65536x256, .f32⟩
  | 87 => ⟨S65536x256, .f32⟩
  | 88 => ⟨S_, .i32⟩
  | 89 => ⟨S32768x6, .i32⟩
  | 90 => ⟨S32768x6, .i1⟩
  | 91 => ⟨S_, .i32⟩
  | 92 => ⟨S32768x6, .i32⟩
  | 93 => ⟨S32768x6, .i32⟩
  | 94 => ⟨S32768x6, .i32⟩
  | 95 => ⟨S32768x6x1, .i32⟩
  | 96 => ⟨S32768x6x256, .f32⟩
  | 97 => ⟨S_, .f32⟩
  | 98 => ⟨S32768x256, .f32⟩
  | 99 => ⟨S_, .i32⟩
  | 100 => ⟨S65536, .i32⟩
  | 101 => ⟨S65536, .i1⟩
  | 102 => ⟨S_, .i32⟩
  | 103 => ⟨S65536, .i32⟩
  | 104 => ⟨S65536, .i32⟩
  | 105 => ⟨S65536, .i32⟩
  | 106 => ⟨S65536x1, .i32⟩
  | 107 => ⟨S65536x256, .f32⟩
  | 108 => ⟨S_, .i32⟩
  | 109 => ⟨S65536, .i32⟩
  | 110 => ⟨S65536, .i1⟩
  | 111 => ⟨S_, .i32⟩
  | 112 => ⟨S65536, .i32⟩
  | 113 => ⟨S65536, .i32⟩
  | 114 => ⟨S65536, .i32⟩
  | 115 => ⟨S65536x1, .i32⟩
  | 116 => ⟨S65536x256, .f32⟩
  | 117 => ⟨S65536x256, .f32⟩
  | 118 => ⟨S_, .i32⟩
  | 119 => ⟨S32768x6, .i32⟩
  | 120 => ⟨S32768x6, .i1⟩
  | 121 => ⟨S_, .i32⟩
  | 122 => ⟨S32768x6, .i32⟩
  | 123 => ⟨S32768x6, .i32⟩
  | 124 => ⟨S32768x6, .i32⟩
  | 125 => ⟨S32768x6x1, .i32⟩
  | 126 => ⟨S32768x6x256, .f32⟩
  | 127 => ⟨S_, .f32⟩
  | _ => ⟨S32768x133, .f32⟩

abbrev hbmTy0_1 (i : Nat) : BufTy := match i % 128 with
  | 0 => ⟨S32768x256, .f32⟩
  | 1 => ⟨S_, .i32⟩
  | 2 => ⟨S65536, .i32⟩
  | 3 => ⟨S65536, .i1⟩
  | 4 => ⟨S_, .i32⟩
  | 5 => ⟨S65536, .i32⟩
  | 6 => ⟨S65536, .i32⟩
  | 7 => ⟨S65536, .i32⟩
  | 8 => ⟨S65536x1, .i32⟩
  | 9 => ⟨S65536x256, .f32⟩
  | 10 => ⟨S_, .i32⟩
  | 11 => ⟨S65536, .i32⟩
  | 12 => ⟨S65536, .i1⟩
  | 13 => ⟨S_, .i32⟩
  | 14 => ⟨S65536, .i32⟩
  | 15 => ⟨S65536, .i32⟩
  | 16 => ⟨S65536, .i32⟩
  | 17 => ⟨S65536x1, .i32⟩
  | 18 => ⟨S65536x256, .f32⟩
  | 19 => ⟨S65536x256, .f32⟩
  | 20 => ⟨S512x128x256, .f32⟩
  | 21 => ⟨S512x128x256, .f32⟩
  | 22 => ⟨S512x128x256, .f32⟩
  | 23 => ⟨S512x128x256, .f32⟩
  | 24 => ⟨S512x128x256, .f32⟩
  | 25 => ⟨S512x128x256, .f32⟩
  | 26 => ⟨S65536x256, .f32⟩
  | 27 => ⟨S65536x256, .f32⟩
  | 28 => ⟨S65536x256, .f32⟩
  | 29 => ⟨S65536x256, .f32⟩
  | 30 => ⟨S65536x256, .f32⟩
  | 31 => ⟨S65536x256, .f32⟩
  | 32 => ⟨S32768x133, .f32⟩
  | 33 => ⟨S32768x133, .f32⟩
  | 34 => ⟨S_, .i32⟩
  | 35 => ⟨S32768x6, .i32⟩
  | 36 => ⟨S32768x6, .i1⟩
  | 37 => ⟨S_, .i32⟩
  | 38 => ⟨S32768x6, .i32⟩
  | 39 => ⟨S32768x6, .i32⟩
  | 40 => ⟨S32768x6, .i32⟩
  | 41 => ⟨S32768x6x1, .i32⟩
  | 42 => ⟨S32768x6x256, .f32⟩
  | 43 => ⟨S_, .f32⟩
  | 44 => ⟨S32768x256, .f32⟩
  | 45 => ⟨S_, .i32⟩
  | 46 => ⟨S65536, .i32⟩
  | 47 => ⟨S65536, .i1⟩
  | 48 => ⟨S_, .i32⟩
  | 49 => ⟨S65536, .i32⟩
  | 50 => ⟨S65536, .i32⟩
  | 51 => ⟨S65536, .i32⟩
  | 52 => ⟨S65536x1, .i32⟩
  | 53 => ⟨S65536x256, .f32⟩
  | 54 => ⟨S_, .i32⟩
  | 55 => ⟨S65536, .i32⟩
  | 56 => ⟨S65536, .i1⟩
  | 57 => ⟨S_, .i32⟩
  | 58 => ⟨S65536, .i32⟩
  | 59 => ⟨S65536, .i32⟩
  | 60 => ⟨S65536, .i32⟩
  | 61 => ⟨S65536x1, .i32⟩
  | 62 => ⟨S65536x256, .f32⟩
  | 63 => ⟨S65536x256, .f32⟩
  | 64 => ⟨S65536x256, .f32⟩
  | 65 => ⟨S_, .i32⟩
  | 66 => ⟨S32768x6, .i32⟩
  | 67 => ⟨S32768x6, .i1⟩
  | 68 => ⟨S_, .i32⟩
  | 69 => ⟨S32768x6, .i32⟩
  | 70 => ⟨S32768x6, .i32⟩
  | 71 => ⟨S32768x6, .i32⟩
  | 72 => ⟨S32768x6x1, .i32⟩
  | 73 => ⟨S32768x6x256, .f32⟩
  | 74 => ⟨S_, .f32⟩
  | 75 => ⟨S32768x256, .f32⟩
  | 76 => ⟨S_, .i32⟩
  | 77 => ⟨S65536, .i32⟩
  | 78 => ⟨S65536, .i1⟩
  | 79 => ⟨S_, .i32⟩
  | 80 => ⟨S65536, .i32⟩
  | 81 => ⟨S65536, .i32⟩
  | 82 => ⟨S65536, .i32⟩
  | 83 => ⟨S65536x1, .i32⟩
  | 84 => ⟨S65536x256, .f32⟩
  | 85 => ⟨S_, .i32⟩
  | 86 => ⟨S65536, .i32⟩
  | 87 => ⟨S65536, .i1⟩
  | 88 => ⟨S_, .i32⟩
  | 89 => ⟨S65536, .i32⟩
  | 90 => ⟨S65536, .i32⟩
  | 91 => ⟨S65536, .i32⟩
  | 92 => ⟨S65536x1, .i32⟩
  | 93 => ⟨S65536x256, .f32⟩
  | 94 => ⟨S65536x256, .f32⟩
  | 95 => ⟨S65536x256, .f32⟩
  | 96 => ⟨S_, .i32⟩
  | 97 => ⟨S32768x6, .i32⟩
  | 98 => ⟨S32768x6, .i1⟩
  | 99 => ⟨S_, .i32⟩
  | 100 => ⟨S32768x6, .i32⟩
  | 101 => ⟨S32768x6, .i32⟩
  | 102 => ⟨S32768x6, .i32⟩
  | 103 => ⟨S32768x6x1, .i32⟩
  | 104 => ⟨S32768x6x256, .f32⟩
  | 105 => ⟨S_, .f32⟩
  | 106 => ⟨S32768x256, .f32⟩
  | 107 => ⟨S133x256, .f32⟩
  | 108 => ⟨S256x256, .f32⟩
  | 109 => ⟨S512x256, .f32⟩
  | _ => ⟨S32768x133, .f32⟩

abbrev hbmTy (i : Nat) : BufTy := match i / 128 with
  | 0 => hbmTy0_0 i
  | 1 => hbmTy0_1 i
  | _ => ⟨S32768x133, .f32⟩

abbrev bufTy : (tb : Table) → Fin (tcTables nBuf tb) → BufTy
  | .hbm, ⟨i, _⟩ => hbmTy i
  | .local _ .vmem, ⟨0, _⟩ => ⟨S2048x147, .f32⟩
  | .local _ .vmem, ⟨1, _⟩ => ⟨S2048x147, .f32⟩
  | .local _ .vmem, ⟨2, _⟩ => ⟨S147x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x147, .f32⟩
  | .local _ .vmem, ⟨8, _⟩ => ⟨S2048x147, .f32⟩
  | .local _ .vmem, ⟨9, _⟩ => ⟨S147x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | .local _ .vmem, ⟨17, _⟩ => ⟨S8x128x256, .f32⟩
  | .local _ .vmem, ⟨18, _⟩ => ⟨S8x128x256, .f32⟩
  | .local _ .vmem, ⟨19, _⟩ => ⟨S8x128x256, .f32⟩
  | .local _ .vmem, ⟨20, _⟩ => ⟨S8x128x256, .f32⟩
  | .local _ .vmem, ⟨21, _⟩ => ⟨S8x128x256, .f32⟩
  | .local _ .vmem, ⟨22, _⟩ => ⟨S256x256, .f32⟩
  | .local _ .vmem, ⟨23, _⟩ => ⟨S256x256, .f32⟩
  | .local _ .vmem, ⟨24, _⟩ => ⟨S8x128x256, .f32⟩
  | .local _ .vmem, ⟨25, _⟩ => ⟨S8x128x256, .f32⟩
  | .local _ .vmem, ⟨26, _⟩ => ⟨S8x128x256, .f32⟩
  | .local _ .vmem, ⟨27, _⟩ => ⟨S8x128x256, .f32⟩
  | .local _ .vmem, ⟨28, _⟩ => ⟨S8x128x256, .f32⟩
  | .local _ .vmem, ⟨29, _⟩ => ⟨S8x128x256, .f32⟩
  | .local _ .vmem, ⟨30, _⟩ => ⟨S8x128x256, .f32⟩
  | .local _ .vmem, ⟨31, _⟩ => ⟨S8x128x256, .f32⟩
  | .local _ .vmem, ⟨32, _⟩ => ⟨S8x128x256, .f32⟩
  | .local _ .vmem, ⟨33, _⟩ => ⟨S8x128x256, .f32⟩
  | .local _ .vmem, ⟨34, _⟩ => ⟨S8x128x256, .f32⟩
  | .local _ .vmem, ⟨35, _⟩ => ⟨S8x128x256, .f32⟩
  | .local _ .vmem, ⟨36, _⟩ => ⟨S256x256, .f32⟩
  | .local _ .vmem, ⟨37, _⟩ => ⟨S256x256, .f32⟩
  | .local _ .vmem, ⟨38, _⟩ => ⟨S8x128x256, .f32⟩
  | .local _ .vmem, ⟨39, _⟩ => ⟨S8x128x256, .f32⟩
  | .local _ .vmem, ⟨40, _⟩ => ⟨S8x128x256, .f32⟩
  | .local _ .vmem, ⟨41, _⟩ => ⟨S8x128x256, .f32⟩
  | .local _ .vmem, ⟨42, _⟩ => ⟨S2048x256, .f32⟩
  | .local _ .vmem, ⟨43, _⟩ => ⟨S2048x256, .f32⟩
  | .local _ .vmem, ⟨44, _⟩ => ⟨S2048x256, .f32⟩
  | .local _ .vmem, ⟨45, _⟩ => ⟨S2048x256, .f32⟩
  | .local _ .vmem, ⟨46, _⟩ => ⟨S256x256, .f32⟩
  | .local _ .vmem, ⟨47, _⟩ => ⟨S1x256, .f32⟩
  | .local _ .vmem, ⟨48, _⟩ => ⟨S2048x256, .f32⟩
  | .local _ .vmem, ⟨49, _⟩ => ⟨S2048x256, .f32⟩
  | .local _ .vmem, ⟨50, _⟩ => ⟨S2048x256, .f32⟩
  | .local _ .vmem, ⟨51, _⟩ => ⟨S2048x256, .f32⟩
  | .local _ .vmem, ⟨52, _⟩ => ⟨S2048x256, .f32⟩
  | .local _ .vmem, ⟨53, _⟩ => ⟨S2048x256, .f32⟩
  | .local _ .vmem, ⟨54, _⟩ => ⟨S256x256, .f32⟩
  | .local _ .vmem, ⟨55, _⟩ => ⟨S1x256, .f32⟩
  | .local _ .vmem, ⟨56, _⟩ => ⟨S2048x256, .f32⟩
  | .local _ .vmem, ⟨57, _⟩ => ⟨S2048x256, .f32⟩
  | .local _ .vmem, ⟨58, _⟩ => ⟨S2048x133, .f32⟩
  | .local _ .vmem, ⟨59, _⟩ => ⟨S2048x133, .f32⟩
  | .local _ .vmem, ⟨60, _⟩ => ⟨S2048x256, .f32⟩
  | .local _ .vmem, ⟨61, _⟩ => ⟨S2048x256, .f32⟩
  | .local _ .vmem, ⟨62, _⟩ => ⟨S133x256, .f32⟩
  | .local _ .vmem, ⟨63, _⟩ => ⟨S256x256, .f32⟩
  | .local _ .vmem, ⟨64, _⟩ => ⟨S1x256, .f32⟩
  | .local _ .vmem, ⟨65, _⟩ => ⟨S32x256, .f32⟩
  | .local _ .vmem, ⟨66, _⟩ => ⟨S32x256, .f32⟩
  | _, _ => ⟨S32768x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2_0 : Ref sig .tc := ⟨.hbm, 16, rfl⟩
abbrev main_call0_v2_1 : Ref sig .tc := ⟨.hbm, 17, rfl⟩
abbrev main_call0_v3_0 : Ref sig .tc := ⟨.hbm, 18, rfl⟩
abbrev main_call0_v3_1 : Ref sig .tc := ⟨.hbm, 19, rfl⟩
abbrev main_call0_c : Ref sig .tc := ⟨.hbm, 20, rfl⟩
abbrev main_call0_v4 : Ref sig .tc := ⟨.hbm, 21, rfl⟩
abbrev main_call0_v5 : Ref sig .tc := ⟨.hbm, 22, rfl⟩
abbrev main_call0_c_0 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_cst : Ref sig .tc := ⟨.hbm, 29, rfl⟩
abbrev main_call0_v11 : Ref sig .tc := ⟨.hbm, 30, rfl⟩
abbrev main_call0_c_1 : Ref sig .tc := ⟨.hbm, 31, rfl⟩
abbrev main_call0_v12 : Ref sig .tc := ⟨.hbm, 32, rfl⟩
abbrev main_call0_v13 : Ref sig .tc := ⟨.hbm, 33, rfl⟩
abbrev main_call0_c_2 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_c_3 : Ref sig .tc := ⟨.hbm, 40, rfl⟩
abbrev main_call0_v19 : Ref sig .tc := ⟨.hbm, 41, rfl⟩
abbrev main_call0_v20 : Ref sig .tc := ⟨.hbm, 42, rfl⟩
abbrev main_call0_c_4 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_v25 : Ref sig .tc := ⟨.hbm, 48, rfl⟩
abbrev main_call0_v26 : Ref sig .tc := ⟨.hbm, 49, rfl⟩
abbrev main_call0_c_5 : Ref sig .tc := ⟨.hbm, 50, rfl⟩
abbrev main_call0_v27 : Ref sig .tc := ⟨.hbm, 51, rfl⟩
abbrev main_call0_v28 : Ref sig .tc := ⟨.hbm, 52, rfl⟩
abbrev main_call0_c_6 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_cst_7 : Ref sig .tc := ⟨.hbm, 59, rfl⟩
abbrev main_call0_v34 : Ref sig .tc := ⟨.hbm, 60, rfl⟩
abbrev main_call0_c_8 : Ref sig .tc := ⟨.hbm, 61, rfl⟩
abbrev main_call0_v35 : Ref sig .tc := ⟨.hbm, 62, rfl⟩
abbrev main_call0_v36 : Ref sig .tc := ⟨.hbm, 63, rfl⟩
abbrev main_call0_c_9 : Ref sig .tc := ⟨.hbm, 64, rfl⟩
abbrev main_call0_v37 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_v41 : Ref sig .tc := ⟨.hbm, 69, rfl⟩
abbrev main_call0_c_10 : Ref sig .tc := ⟨.hbm, 70, rfl⟩
abbrev main_call0_v42 : Ref sig .tc := ⟨.hbm, 71, rfl⟩
abbrev main_call0_v43 : Ref sig .tc := ⟨.hbm, 72, rfl⟩
abbrev main_call0_c_11 : Ref sig .tc := ⟨.hbm, 73, rfl⟩
abbrev main_call0_v44 : Ref sig .tc := ⟨.hbm, 74, rfl⟩
abbrev main_call0_v45 : Ref sig .tc := ⟨.hbm, 75, rfl⟩
abbrev main_call0_v46 : Ref sig .tc := ⟨.hbm, 76, rfl⟩
abbrev main_call0_v47 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_v54_0 : Ref sig .tc := ⟨.hbm, 84, rfl⟩
abbrev main_call0_v54_1 : Ref sig .tc := ⟨.hbm, 85, rfl⟩
abbrev main_call0_v55 : Ref sig .tc := ⟨.hbm, 86, rfl⟩
abbrev main_call0_v56 : Ref sig .tc := ⟨.hbm, 87, rfl⟩
abbrev main_call0_c_12 : Ref sig .tc := ⟨.hbm, 88, rfl⟩
abbrev main_call0_v57 : Ref sig .tc := ⟨.hbm, 89, rfl⟩
abbrev main_call0_v58 : Ref sig .tc := ⟨.hbm, 90, rfl⟩
abbrev main_call0_c_13 : Ref sig .tc := ⟨.hbm, 91, rfl⟩
abbrev main_call0_v59 : Ref sig .tc := ⟨.hbm, 92, rfl⟩
abbrev main_call0_v60 : Ref sig .tc := ⟨.hbm, 93, rfl⟩
abbrev main_call0_v61 : Ref sig .tc := ⟨.hbm, 94, rfl⟩
abbrev main_call0_v62 : Ref sig .tc := ⟨.hbm, 95, rfl⟩
abbrev main_call0_v63 : Ref sig .tc := ⟨.hbm, 96, rfl⟩
abbrev main_call0_cst_14 : Ref sig .tc := ⟨.hbm, 97, rfl⟩
abbrev main_call0_v64 : Ref sig .tc := ⟨.hbm, 98, rfl⟩
abbrev main_call0_c_15 : Ref sig .tc := ⟨.hbm, 99, rfl⟩
abbrev main_call0_v65 : Ref sig .tc := ⟨.hbm, 100, rfl⟩
abbrev main_call0_v66 : Ref sig .tc := ⟨.hbm, 101, rfl⟩
abbrev main_call0_c_16 : Ref sig .tc := ⟨.hbm, 102, rfl⟩
abbrev main_call0_v67 : Ref sig .tc := ⟨.hbm, 103, rfl⟩
abbrev main_call0_v68 : Ref sig .tc := ⟨.hbm, 104, rfl⟩
abbrev main_call0_v69 : Ref sig .tc := ⟨.hbm, 105, rfl⟩
abbrev main_call0_v70 : Ref sig .tc := ⟨.hbm, 106, rfl⟩
abbrev main_call0_v71 : Ref sig .tc := ⟨.hbm, 107, rfl⟩
abbrev main_call0_c_17 : Ref sig .tc := ⟨.hbm, 108, rfl⟩
abbrev main_call0_v72 : Ref sig .tc := ⟨.hbm, 109, rfl⟩
abbrev main_call0_v73 : Ref sig .tc := ⟨.hbm, 110, rfl⟩
abbrev main_call0_c_18 : Ref sig .tc := ⟨.hbm, 111, rfl⟩
abbrev main_call0_v74 : Ref sig .tc := ⟨.hbm, 112, rfl⟩
abbrev main_call0_v75 : Ref sig .tc := ⟨.hbm, 113, rfl⟩
abbrev main_call0_v76 : Ref sig .tc := ⟨.hbm, 114, rfl⟩
abbrev main_call0_v77 : Ref sig .tc := ⟨.hbm, 115, rfl⟩
abbrev main_call0_v78 : Ref sig .tc := ⟨.hbm, 116, rfl⟩
abbrev main_call0_v79 : Ref sig .tc := ⟨.hbm, 117, rfl⟩
abbrev main_call0_c_19 : Ref sig .tc := ⟨.hbm, 118, rfl⟩
abbrev main_call0_v80 : Ref sig .tc := ⟨.hbm, 119, rfl⟩
abbrev main_call0_v81 : Ref sig .tc := ⟨.hbm, 120, rfl⟩
abbrev main_call0_c_20 : Ref sig .tc := ⟨.hbm, 121, rfl⟩
abbrev main_call0_v82 : Ref sig .tc := ⟨.hbm, 122, rfl⟩
abbrev main_call0_v83 : Ref sig .tc := ⟨.hbm, 123, rfl⟩
abbrev main_call0_v84 : Ref sig .tc := ⟨.hbm, 124, rfl⟩
abbrev main_call0_v85 : Ref sig .tc := ⟨.hbm, 125, rfl⟩
abbrev main_call0_v86 : Ref sig .tc := ⟨.hbm, 126, rfl⟩
abbrev main_call0_cst_21 : Ref sig .tc := ⟨.hbm, 127, rfl⟩
abbrev main_call0_v87 : Ref sig .tc := ⟨.hbm, 128, rfl⟩
abbrev main_call0_c_22 : Ref sig .tc := ⟨.hbm, 129, rfl⟩
abbrev main_call0_v88 : Ref sig .tc := ⟨.hbm, 130, rfl⟩
abbrev main_call0_v89 : Ref sig .tc := ⟨.hbm, 131, rfl⟩
abbrev main_call0_c_23 : Ref sig .tc := ⟨.hbm, 132, rfl⟩
abbrev main_call0_v90 : Ref sig .tc := ⟨.hbm, 133, rfl⟩
abbrev main_call0_v91 : Ref sig .tc := ⟨.hbm, 134, rfl⟩
abbrev main_call0_v92 : Ref sig .tc := ⟨.hbm, 135, rfl⟩
abbrev main_call0_v93 : Ref sig .tc := ⟨.hbm, 136, rfl⟩
abbrev main_call0_v94 : Ref sig .tc := ⟨.hbm, 137, rfl⟩
abbrev main_call0_c_24 : Ref sig .tc := ⟨.hbm, 138, rfl⟩
abbrev main_call0_v95 : Ref sig .tc := ⟨.hbm, 139, rfl⟩
abbrev main_call0_v96 : Ref sig .tc := ⟨.hbm, 140, rfl⟩
abbrev main_call0_c_25 : Ref sig .tc := ⟨.hbm, 141, rfl⟩
abbrev main_call0_v97 : Ref sig .tc := ⟨.hbm, 142, rfl⟩
abbrev main_call0_v98 : Ref sig .tc := ⟨.hbm, 143, rfl⟩
abbrev main_call0_v99 : Ref sig .tc := ⟨.hbm, 144, rfl⟩
abbrev main_call0_v100 : Ref sig .tc := ⟨.hbm, 145, rfl⟩
abbrev main_call0_v101 : Ref sig .tc := ⟨.hbm, 146, rfl⟩
abbrev main_call0_v102 : Ref sig .tc := ⟨.hbm, 147, rfl⟩
abbrev main_call0_v103 : Ref sig .tc := ⟨.hbm, 148, rfl⟩
abbrev main_call0_v104 : Ref sig .tc := ⟨.hbm, 149, rfl⟩
abbrev main_call0_v105 : Ref sig .tc := ⟨.hbm, 150, rfl⟩
abbrev main_call0_v106 : Ref sig .tc := ⟨.hbm, 151, rfl⟩
abbrev main_call0_v107_0 : Ref sig .tc := ⟨.hbm, 152, rfl⟩
abbrev main_call0_v107_1 : Ref sig .tc := ⟨.hbm, 153, rfl⟩
abbrev main_call0_v108 : Ref sig .tc := ⟨.hbm, 154, rfl⟩
abbrev main_call0_v109 : Ref sig .tc := ⟨.hbm, 155, rfl⟩
abbrev main_call0_v110 : Ref sig .tc := ⟨.hbm, 156, rfl⟩
abbrev main_call0_v111 : Ref sig .tc := ⟨.hbm, 157, rfl⟩
abbrev main_call0_v112 : Ref sig .tc := ⟨.hbm, 158, rfl⟩
abbrev main_call0_v113 : Ref sig .tc := ⟨.hbm, 159, rfl⟩
abbrev main_call0_v114 : Ref sig .tc := ⟨.hbm, 160, rfl⟩
abbrev main_call0_v115 : Ref sig .tc := ⟨.hbm, 161, rfl⟩
abbrev main_call0_c_26 : Ref sig .tc := ⟨.hbm, 162, rfl⟩
abbrev main_call0_v116 : Ref sig .tc := ⟨.hbm, 163, rfl⟩
abbrev main_call0_v117 : Ref sig .tc := ⟨.hbm, 164, rfl⟩
abbrev main_call0_c_27 : Ref sig .tc := ⟨.hbm, 165, rfl⟩
abbrev main_call0_v118 : Ref sig .tc := ⟨.hbm, 166, rfl⟩
abbrev main_call0_v119 : Ref sig .tc := ⟨.hbm, 167, rfl⟩
abbrev main_call0_v120 : Ref sig .tc := ⟨.hbm, 168, rfl⟩
abbrev main_call0_v121 : Ref sig .tc := ⟨.hbm, 169, rfl⟩
abbrev main_call0_v122 : Ref sig .tc := ⟨.hbm, 170, rfl⟩
abbrev main_call0_cst_28 : Ref sig .tc := ⟨.hbm, 171, rfl⟩
abbrev main_call0_v123 : Ref sig .tc := ⟨.hbm, 172, rfl⟩
abbrev main_call0_c_29 : Ref sig .tc := ⟨.hbm, 173, rfl⟩
abbrev main_call0_v124 : Ref sig .tc := ⟨.hbm, 174, rfl⟩
abbrev main_call0_v125 : Ref sig .tc := ⟨.hbm, 175, rfl⟩
abbrev main_call0_c_30 : Ref sig .tc := ⟨.hbm, 176, rfl⟩
abbrev main_call0_v126 : Ref sig .tc := ⟨.hbm, 177, rfl⟩
abbrev main_call0_v127 : Ref sig .tc := ⟨.hbm, 178, rfl⟩
abbrev main_call0_v128 : Ref sig .tc := ⟨.hbm, 179, rfl⟩
abbrev main_call0_v129 : Ref sig .tc := ⟨.hbm, 180, rfl⟩
abbrev main_call0_v130 : Ref sig .tc := ⟨.hbm, 181, rfl⟩
abbrev main_call0_c_31 : Ref sig .tc := ⟨.hbm, 182, rfl⟩
abbrev main_call0_v131 : Ref sig .tc := ⟨.hbm, 183, rfl⟩
abbrev main_call0_v132 : Ref sig .tc := ⟨.hbm, 184, rfl⟩
abbrev main_call0_c_32 : Ref sig .tc := ⟨.hbm, 185, rfl⟩
abbrev main_call0_v133 : Ref sig .tc := ⟨.hbm, 186, rfl⟩
abbrev main_call0_v134 : Ref sig .tc := ⟨.hbm, 187, rfl⟩
abbrev main_call0_v135 : Ref sig .tc := ⟨.hbm, 188, rfl⟩
abbrev main_call0_v136 : Ref sig .tc := ⟨.hbm, 189, rfl⟩
abbrev main_call0_v137 : Ref sig .tc := ⟨.hbm, 190, rfl⟩
abbrev main_call0_v138 : Ref sig .tc := ⟨.hbm, 191, rfl⟩
abbrev main_call0_v139 : Ref sig .tc := ⟨.hbm, 192, rfl⟩
abbrev main_call0_c_33 : Ref sig .tc := ⟨.hbm, 193, rfl⟩
abbrev main_call0_v140 : Ref sig .tc := ⟨.hbm, 194, rfl⟩
abbrev main_call0_v141 : Ref sig .tc := ⟨.hbm, 195, rfl⟩
abbrev main_call0_c_34 : Ref sig .tc := ⟨.hbm, 196, rfl⟩
abbrev main_call0_v142 : Ref sig .tc := ⟨.hbm, 197, rfl⟩
abbrev main_call0_v143 : Ref sig .tc := ⟨.hbm, 198, rfl⟩
abbrev main_call0_v144 : Ref sig .tc := ⟨.hbm, 199, rfl⟩
abbrev main_call0_v145 : Ref sig .tc := ⟨.hbm, 200, rfl⟩
abbrev main_call0_v146 : Ref sig .tc := ⟨.hbm, 201, rfl⟩
abbrev main_call0_cst_35 : Ref sig .tc := ⟨.hbm, 202, rfl⟩
abbrev main_call0_v147 : Ref sig .tc := ⟨.hbm, 203, rfl⟩
abbrev main_call0_c_36 : Ref sig .tc := ⟨.hbm, 204, rfl⟩
abbrev main_call0_v148 : Ref sig .tc := ⟨.hbm, 205, rfl⟩
abbrev main_call0_v149 : Ref sig .tc := ⟨.hbm, 206, rfl⟩
abbrev main_call0_c_37 : Ref sig .tc := ⟨.hbm, 207, rfl⟩
abbrev main_call0_v150 : Ref sig .tc := ⟨.hbm, 208, rfl⟩
abbrev main_call0_v151 : Ref sig .tc := ⟨.hbm, 209, rfl⟩
abbrev main_call0_v152 : Ref sig .tc := ⟨.hbm, 210, rfl⟩
abbrev main_call0_v153 : Ref sig .tc := ⟨.hbm, 211, rfl⟩
abbrev main_call0_v154 : Ref sig .tc := ⟨.hbm, 212, rfl⟩
abbrev main_call0_c_38 : Ref sig .tc := ⟨.hbm, 213, rfl⟩
abbrev main_call0_v155 : Ref sig .tc := ⟨.hbm, 214, rfl⟩
abbrev main_call0_v156 : Ref sig .tc := ⟨.hbm, 215, rfl⟩
abbrev main_call0_c_39 : Ref sig .tc := ⟨.hbm, 216, rfl⟩
abbrev main_call0_v157 : Ref sig .tc := ⟨.hbm, 217, rfl⟩
abbrev main_call0_v158 : Ref sig .tc := ⟨.hbm, 218, rfl⟩
abbrev main_call0_v159 : Ref sig .tc := ⟨.hbm, 219, rfl⟩
abbrev main_call0_v160 : Ref sig .tc := ⟨.hbm, 220, rfl⟩
abbrev main_call0_v161 : Ref sig .tc := ⟨.hbm, 221, rfl⟩
abbrev main_call0_v162 : Ref sig .tc := ⟨.hbm, 222, rfl⟩
abbrev main_call0_v163 : Ref sig .tc := ⟨.hbm, 223, rfl⟩
abbrev main_call0_c_40 : Ref sig .tc := ⟨.hbm, 224, rfl⟩
abbrev main_call0_v164 : Ref sig .tc := ⟨.hbm, 225, rfl⟩
abbrev main_call0_v165 : Ref sig .tc := ⟨.hbm, 226, rfl⟩
abbrev main_call0_c_41 : Ref sig .tc := ⟨.hbm, 227, rfl⟩
abbrev main_call0_v166 : Ref sig .tc := ⟨.hbm, 228, rfl⟩
abbrev main_call0_v167 : Ref sig .tc := ⟨.hbm, 229, rfl⟩
abbrev main_call0_v168 : Ref sig .tc := ⟨.hbm, 230, rfl⟩
abbrev main_call0_v169 : Ref sig .tc := ⟨.hbm, 231, rfl⟩
abbrev main_call0_v170 : Ref sig .tc := ⟨.hbm, 232, rfl⟩
abbrev main_call0_cst_42 : Ref sig .tc := ⟨.hbm, 233, rfl⟩
abbrev main_call0_v171 : Ref sig .tc := ⟨.hbm, 234, rfl⟩
abbrev main_call0_v172 : Ref sig .tc := ⟨.hbm, 235, rfl⟩
abbrev main_call0_v173 : Ref sig .tc := ⟨.hbm, 236, rfl⟩
abbrev main_v0 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg5_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem4_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem5_1 : DmaSem sig := 66

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x147 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S147x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8x128x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8x128x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x128x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x128x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x128x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8x128x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S8x128x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x133 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S133x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S32x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  shapeCasts_S256_S1x256 : S256.ShapeCasts S1x256
  bcast_S_S32768x6 : S_.BroadcastsInDim S32768x6 (![] : Fin 0 → Fin S32768x6.rank)
  bcast_S32768x6_S32768x6x1_0_1 : S32768x6.BroadcastsInDim S32768x6x1 (![0, 1] : Fin 2 → Fin S32768x6x1.rank)
  reducesTo_S32768x6x256_S32768x256_d1 : S32768x6x256.ReducesTo [1] S32768x256
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x256_S512x128x256 : S65536x256.ShapeCasts S512x128x256
  shapeCasts_S512x128x256_S65536x256 : S512x128x256.ShapeCasts S65536x256
  slices_S389x256_S133x256_0_0 : S389x256.Slices ![0, 0] S133x256
  slices_S389x256_S256x256_133_0 : S389x256.Slices ![133, 0] S256x256
  inb_S2048x147_S2048x147_0_0 : ∀ a, (![0, 0] : Fin 2 → Nat) a + S2048x147.size a ≤ S2048x147.size a
  h_S2048x147 : 0 < S2048x147.numel
  bitsLt_bf16_f32 : FTy.bits .bf16 < FTy.bits .f32
  inb_S147x256_S147x256_0_0 : ∀ a, (![0, 0] : Fin 2 → Nat) a + S147x256.size a ≤ S147x256.size a
  h_S147x256 : 0 < S147x256.numel
  inb_S2048x256_S2048x256_0_0 : ∀ a, (![0, 0] : Fin 2 → Nat) a + S2048x256.size a ≤ S2048x256.size a
  h_S2048x256 : 0 < S2048x256.numel
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  inb_S256x256_S256x256_0_0 : ∀ a, (![0, 0] : Fin 2 → Nat) a + S256x256.size a ≤ S256x256.size a
  h_S256x256 : 0 < S256x256.numel
  shapeCasts_S8x128x256_S1024x256 : S8x128x256.ShapeCasts S1024x256
  shapeCasts_S1024x256_S8x128x256 : S1024x256.ShapeCasts S8x128x256
  reduces_S8x128x128_S8x128 : S8x128x128.Reduces [2] S8x128
  shapeCasts_S8x128_S8x128x1 : S8x128.ShapeCasts S8x128x1
  broadcasts_S8x128x1_S8x128x128 : S8x128x1.Broadcasts S8x128x128
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x133_S2048x133_0_0 : ∀ a, (![0, 0] : Fin 2 → Nat) a + S2048x133.size a ≤ S2048x133.size a
  h_S2048x133 : 0 < S2048x133.numel
  shapeCasts_S2048x133_S2048x133 : S2048x133.ShapeCasts S2048x133
  inb_S133x256_S133x256_0_0 : ∀ a, (![0, 0] : Fin 2 → Nat) a + S133x256.size a ≤ S133x256.size a
  h_S133x256 : 0 < S133x256.numel
  shapeCasts_S133x256_S133x256 : S133x256.ShapeCasts S133x256
  shapeCasts_S256x256_S256x256 : S256x256.ShapeCasts S256x256
  shapeCasts_S2048x256_S32x64x256 : S2048x256.ShapeCasts S32x64x256
  reduces_S32x64x256_S32x256 : S32x64x256.Reduces [1] S32x256
  inb_S32x256_S32x256_0_0 : ∀ a, (![0, 0] : Fin 2 → Nat) a + S32x256.size a ≤ S32x256.size a
  h_S32x256 : 0 < S32x256.numel
  gather_S65536x256_S32768x6x1_S32768x6x256_2_0_n_n_0_2_1256_wf : GatherDims.WF S65536x256 S32768x6x1 S32768x6x256 [2] [0] [] [0] [] 2 ![1, 256]
  gather_S32768x256_S65536x1_S65536x256_1_0_n_n_0_1_1256_wf : GatherDims.WF S32768x256 S65536x1 S65536x256 [1] [0] [] [0] [] 1 ![1, 256]
  gather_S65536x256_S65536x1_S65536x256_1_0_n_n_0_1_1256_wf : GatherDims.WF S65536x256 S65536x1 S65536x256 [1] [0] [] [0] [] 1 ![1, 256]
  dot_S2048x147_S147x256_S2048x256_1_0_0_1_n_n_wf : DotDims.WF S2048x147 S147x256 S2048x256 [1] [0] [0] [1] [] []
  dot_S1024x256_S256x256_S1024x256_1_0_0_1_n_n_wf : DotDims.WF S1024x256 S256x256 S1024x256 [1] [0] [0] [1] [] []
  dot_S8x128x256_S8x128x256_S8x128x128_2_2_1_1_0_0_wf : DotDims.WF S8x128x256 S8x128x256 S8x128x128 [2] [2] [1] [1] [0] [0]
  dot_S8x128x128_S8x128x256_S8x128x256_2_1_1_2_0_0_wf : DotDims.WF S8x128x128 S8x128x256 S8x128x256 [2] [1] [1] [2] [0] [0]
  dot_S2048x256_S256x256_S2048x256_1_0_0_1_n_n_wf : DotDims.WF S2048x256 S256x256 S2048x256 [1] [0] [0] [1] [] []
  dot_S2048x133_S133x256_S2048x256_1_0_0_1_n_n_wf : DotDims.WF S2048x133 S133x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x147.size a ≤ S65536x147.size a
  hwx0_0 : ∀ i : grid0.Coords, EltTy.bits .f32 = 32 ∨ (Rect.block (s := S65536x147) S2048x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x256.size a ≤ S147x256.size a
  hwx0_1 : ∀ i : grid0.Coords, EltTy.bits .f32 = 32 ∨ (Rect.block (s := S147x256) S147x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x147.size a ≤ S65536x147.size a
  hwx1_0 : ∀ i : grid1.Coords, EltTy.bits .f32 = 32 ∨ (Rect.block (s := S65536x147) S2048x147.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S147x256.size a ≤ S147x256.size a
  hwx1_1 : ∀ i : grid1.Coords, EltTy.bits .f32 = 32 ∨ (Rect.block (s := S147x256) S147x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S65536x256.size a
  hwx1_2 : ∀ i : grid1.Coords, EltTy.bits .f32 = 32 ∨ (Rect.block (s := S65536x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S65536x256.size a
  hwx1_3 : ∀ i : grid1.Coords, EltTy.bits .f32 = 32 ∨ (Rect.block (s := S65536x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x256.size a ≤ S512x128x256.size a
  hwx2_0 : ∀ i : grid2.Coords, EltTy.bits .f32 = 32 ∨ (Rect.block (s := S512x128x256) S8x128x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128x256.size a ≤ S512x128x256.size a
  hwx2_1 : ∀ i : grid2.Coords, EltTy.bits .f32 = 32 ∨ (Rect.block (s := S512x128x256) S8x128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128x256.size a ≤ S512x128x256.size a
  hwx2_2 : ∀ i : grid2.Coords, EltTy.bits .f32 = 32 ∨ (Rect.block (s := S512x128x256) S8x128x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x128x256.size a ≤ S512x128x256.size a
  hwx2_3 : ∀ i : grid2.Coords, EltTy.bits .f32 = 32 ∨ (Rect.block (s := S512x128x256) S8x128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128x256.size a ≤ S512x128x256.size a
  hwx2_6 : ∀ i : grid2.Coords, EltTy.bits .f32 = 32 ∨ (Rect.block (s := S512x128x256) S8x128x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128x256.size a ≤ S512x128x256.size a
  hwx2_7 : ∀ i : grid2.Coords, EltTy.bits .f32 = 32 ∨ (Rect.block (s := S512x128x256) S8x128x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x128x256.size a ≤ S512x128x256.size a
  hwx3_0 : ∀ i : grid3.Coords, EltTy.bits .f32 = 32 ∨ (Rect.block (s := S512x128x256) S8x128x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x128x256.size a ≤ S512x128x256.size a
  hwx3_1 : ∀ i : grid3.Coords, EltTy.bits .f32 = 32 ∨ (Rect.block (s := S512x128x256) S8x128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x128x256.size a ≤ S512x128x256.size a
  hwx3_2 : ∀ i : grid3.Coords, EltTy.bits .f32 = 32 ∨ (Rect.block (s := S512x128x256) S8x128x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x128x256.size a ≤ S512x128x256.size a
  hwx3_3 : ∀ i : grid3.Coords, EltTy.bits .f32 = 32 ∨ (Rect.block (s := S512x128x256) S8x128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x128x256.size a ≤ S512x128x256.size a
  hwx3_6 : ∀ i : grid3.Coords, EltTy.bits .f32 = 32 ∨ (Rect.block (s := S512x128x256) S8x128x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8x128x256.size a ≤ S512x128x256.size a
  hwx3_7 : ∀ i : grid3.Coords, EltTy.bits .f32 = 32 ∨ (Rect.block (s := S512x128x256) S8x128x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S65536x256.size a
  hwx4_0 : ∀ i : grid4.Coords, EltTy.bits .f32 = 32 ∨ (Rect.block (s := S65536x256) S2048x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S65536x256.size a
  hwx4_1 : ∀ i : grid4.Coords, EltTy.bits .f32 = 32 ∨ (Rect.block (s := S65536x256) S2048x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x256.size a ≤ S65536x256.size a
  hwx4_4 : ∀ i : grid4.Coords, EltTy.bits .f32 = 32 ∨ (Rect.block (s := S65536x256) S2048x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S65536x256.size a
  hwx5_0 : ∀ i : grid5.Coords, EltTy.bits .f32 = 32 ∨ (Rect.block (s := S65536x256) S2048x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S65536x256.size a
  hwx5_1 : ∀ i : grid5.Coords, EltTy.bits .f32 = 32 ∨ (Rect.block (s := S65536x256) S2048x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x256.size a ≤ S65536x256.size a
  hwx5_4 : ∀ i : grid5.Coords, EltTy.bits .f32 = 32 ∨ (Rect.block (s := S65536x256) S2048x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x133.size a ≤ S32768x133.size a
  hwx6_0 : ∀ i : grid6.Coords, EltTy.bits .f32 = 32 ∨ (Rect.block (s := S32768x133) S2048x133.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x256.size a ≤ S32768x256.size a
  hwx6_1 : ∀ i : grid6.Coords, EltTy.bits .f32 = 32 ∨ (Rect.block (s := S32768x256) S2048x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S133x256.size a ≤ S133x256.size a
  hwx6_2 : ∀ i : grid6.Coords, EltTy.bits .f32 = 32 ∨ (Rect.block (s := S133x256) S133x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S32x256.size a ≤ S512x256.size a
  hwx6_5 : ∀ i : grid6.Coords, EltTy.bits .f32 = 32 ∨ (Rect.block (s := S512x256) S32x256.size (cc6_transform_5 i) (hinb6_5 i)).WholeWords (EltTy.packing .f32)

variable [Facts₀]

def gather_S65536x256_S32768x6x1_S32768x6x256_2_0_n_n_0_2_1256 : GatherDims S65536x256 S32768x6x1 S32768x6x256 where
  offsetDims := [2]
  collapsedSliceDims := [0]
  operandBatchingDims := []
  startIndicesBatchingDims := []
  startIndexMap := [0]
  indexVectorDim := 2
  sliceSizes := ![1, 256]
  wf := gather_S65536x256_S32768x6x1_S32768x6x256_2_0_n_n_0_2_1256_wf
def gather_S32768x256_S65536x1_S65536x256_1_0_n_n_0_1_1256 : GatherDims S32768x256 S65536x1 S65536x256 where
  offsetDims := [1]
  collapsedSliceDims := [0]
  operandBatchingDims := []
  startIndicesBatchingDims := []
  startIndexMap := [0]
  indexVectorDim := 1
  sliceSizes := ![1, 256]
  wf := gather_S32768x256_S65536x1_S65536x256_1_0_n_n_0_1_1256_wf
def gather_S65536x256_S65536x1_S65536x256_1_0_n_n_0_1_1256 : GatherDims S65536x256 S65536x1 S65536x256 where
  offsetDims := [1]
  collapsedSliceDims := [0]
  operandBatchingDims := []
  startIndicesBatchingDims := []
  startIndexMap := [0]
  indexVectorDim := 1
  sliceSizes := ![1, 256]
  wf := gather_S65536x256_S65536x1_S65536x256_1_0_n_n_0_1_1256_wf
def dot_S2048x147_S147x256_S2048x256_1_0_0_1_n_n : DotDims S2048x147 S147x256 S2048x256 where
  lhsContracting := [1]
  rhsContracting := [0]
  lhsNonContracting := [0]
  rhsNonContracting := [1]
  lhsBatch := []
  rhsBatch := []
  wf := dot_S2048x147_S147x256_S2048x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S8x128x256_S8x128x256_S8x128x128_2_2_1_1_0_0 : DotDims S8x128x256 S8x128x256 S8x128x128 where
  lhsContracting := [2]
  rhsContracting := [2]
  lhsNonContracting := [1]
  rhsNonContracting := [1]
  lhsBatch := [0]
  rhsBatch := [0]
  wf := dot_S8x128x256_S8x128x256_S8x128x128_2_2_1_1_0_0_wf
def dot_S8x128x128_S8x128x256_S8x128x256_2_1_1_2_0_0 : DotDims S8x128x128 S8x128x256 S8x128x256 where
  lhsContracting := [2]
  rhsContracting := [1]
  lhsNonContracting := [1]
  rhsNonContracting := [2]
  lhsBatch := [0]
  rhsBatch := [0]
  wf := dot_S8x128x128_S8x128x256_S8x128x256_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x133_S133x256_S2048x256_1_0_0_1_n_n : DotDims S2048x133 S133x256 S2048x256 where
  lhsContracting := [1]
  rhsContracting := [0]
  lhsNonContracting := [0]
  rhsNonContracting := [1]
  lhsBatch := []
  rhsBatch := []
  wf := dot_S2048x133_S133x256_S2048x256_1_0_0_1_n_n_wf

abbrev win0_0 : Pipeline.Window sig grid0 :=
  Pipeline.Window.ofSpec (Memref.whole main_arg2) S2048x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S147x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S2048x147.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S147x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v3_0) S2048x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3_1) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v50) S8x128x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v51) S8x128x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v52) S8x128x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v53) S8x128x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v54_0) S8x128x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_call0_v54_1) S8x128x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v103) S8x128x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v104) S8x128x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v105) S8x128x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v106) S8x128x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v107_0) S8x128x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_call0_v107_1) S8x128x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_call0_v113) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v138) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v0) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v139) S2048x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_call0_v113) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v162) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v0) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v163) S2048x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_call0_v115) S2048x133.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v171) S2048x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v172) S133x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v173) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v1) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v0) S32x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S32768x133 : Shape := ⟨2, ![32768, 133]⟩
abbrev S65536x147 : Shape := ⟨2, ![65536, 147]⟩
abbrev S32768x6 : Shape := ⟨2, ![32768, 6]⟩
abbrev S65536 : Shape := ⟨1, ![65536]⟩
abbrev S147x256 : Shape := ⟨2, ![147, 256]⟩
abbrev S256x256 : Shape := ⟨2, ![256, 256]⟩
abbrev S256 : Shape := ⟨1, ![256]⟩
abbrev S389x256 : Shape := ⟨2, ![389, 256]⟩
abbrev S_ : Shape := ⟨0, ![]⟩
abbrev S65536x256 : Shape := ⟨2, ![65536, 256]⟩
abbrev S32768x6x1 : Shape := ⟨3, ![32768, 6, 1]⟩
abbrev S32768x6x256 : Shape := ⟨3, ![32768, 6, 256]⟩
abbrev S32768x256 : Shape := ⟨2, ![32768, 256]⟩
abbrev S65536x1 : Shape := ⟨2, ![65536, 1]⟩
abbrev S512x128x256 : Shape := ⟨3, ![512, 128, 256]⟩
abbrev S512x128x128 : Shape := ⟨3, ![512, 128, 128]⟩
abbrev S512x128 : Shape := ⟨2, ![512, 128]⟩
abbrev S512x128x1 : Shape := ⟨3, ![512, 128, 1]⟩
abbrev S1x256 : Shape := ⟨2, ![1, 256]⟩
abbrev S32768x389 : Shape := ⟨2, ![32768, 389]⟩
abbrev S512x64x256 : Shape := ⟨3, ![512, 64, 256]⟩
abbrev S512x256 : Shape := ⟨2, ![512, 256]⟩

abbrev nBuf : Space → Nat
  | .hbm => 377
  | .vmem => 0
  | .smem => 0
  | _ => 0

abbrev hbmTy0_0 (i : Nat) : BufTy := match i % 128 with
  | 0 => ⟨S32768x133, .f32⟩
  | 1 => ⟨S32768x133, .f32⟩
  | 2 => ⟨S65536x147, .f32⟩
  | 3 => ⟨S65536x147, .f32⟩
  | 4 => ⟨S32768x6, .i32⟩
  | 5 => ⟨S65536, .i32⟩
  | 6 => ⟨S65536, .i32⟩
  | 7 => ⟨S147x256, .f32⟩
  | 8 => ⟨S256x256, .f32⟩
  | 9 => ⟨S256x256, .f32⟩
  | 10 => ⟨S256x256, .f32⟩
  | 11 => ⟨S256, .f32⟩
  | 12 => ⟨S389x256, .f32⟩
  | 13 => ⟨S256, .f32⟩
  | 14 => ⟨S_, .f32⟩
  | 15 => ⟨S_, .f32⟩
  | 16 => ⟨S_, .f32⟩
  | 17 => ⟨S_, .f32⟩
  | 18 => ⟨S65536x256, .f32⟩
  | 19 => ⟨S65536x256, .f32⟩
  | 20 => ⟨S_, .f32⟩
  | 21 => ⟨S65536x256, .f32⟩
  | 22 => ⟨S65536x256, .f32⟩
  | 23 => ⟨S_, .f32⟩
  | 24 => ⟨S65536x256, .f32⟩
  | 25 => ⟨S65536x256, .f32⟩
  | 26 => ⟨S_, .i32⟩
  | 27 => ⟨S32768x6, .i32⟩
  | 28 => ⟨S32768x6, .i1⟩
  | 29 => ⟨S_, .i32⟩
  | 30 => ⟨S32768x6, .i32⟩
  | 31 => ⟨S32768x6, .i32⟩
  | 32 => ⟨S32768x6, .i32⟩
  | 33 => ⟨S32768x6x1, .i32⟩
  | 34 => ⟨S32768x6x256, .f32⟩
  | 35 => ⟨S_, .f32⟩
  | 36 => ⟨S32768x256, .f32⟩
  | 37 => ⟨S_, .i32⟩
  | 38 => ⟨S65536, .i32⟩
  | 39 => ⟨S65536, .i1⟩
  | 40 => ⟨S_, .i32⟩
  | 41 => ⟨S65536, .i32⟩
  | 42 => ⟨S65536, .i32⟩
  | 43 => ⟨S65536, .i32⟩
  | 44 => ⟨S65536x1, .i32⟩
  | 45 => ⟨S65536x256, .f32⟩
  | 46 => ⟨S_, .i32⟩
  | 47 => ⟨S65536, .i32⟩
  | 48 => ⟨S65536, .i1⟩
  | 49 => ⟨S_, .i32⟩
  | 50 => ⟨S65536, .i32⟩
  | 51 => ⟨S65536, .i32⟩
  | 52 => ⟨S65536, .i32⟩
  | 53 => ⟨S65536x1, .i32⟩
  | 54 => ⟨S65536x256, .f32⟩
  | 55 => ⟨S65536x256, .f32⟩
  | 56 => ⟨S65536x256, .f32⟩
  | 57 => ⟨S65536x256, .f32⟩
  | 58 => ⟨S_, .f32⟩
  | 59 => ⟨S65536x256, .f32⟩
  | 60 => ⟨S65536x256, .f32⟩
  | 61 => ⟨S_, .i32⟩
  | 62 => ⟨S32768x6, .i32⟩
  | 63 => ⟨S32768x6, .i1⟩
  | 64 => ⟨S_, .i32⟩
  | 65 => ⟨S32768x6, .i32⟩
  | 66 => ⟨S32768x6, .i32⟩
  | 67 => ⟨S32768x6, .i32⟩
  | 68 => ⟨S32768x6x1, .i32⟩
  | 69 => ⟨S32768x6x256, .f32⟩
  | 70 => ⟨S_, .f32⟩
  | 71 => ⟨S32768x256, .f32⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S65536x256, .f32⟩
  | 81 => ⟨S_, .i32⟩
  | 82 => ⟨S65536, .i32⟩
  | 83 => ⟨S65536, .i1⟩
  | 84 => ⟨S_, .i32⟩
  | 85 => ⟨S65536, .i32⟩
  | 86 => ⟨S65536, .i32⟩
  | 87 => ⟨S65536, .i32⟩
  | 88 => ⟨S65536x1, .i32⟩
  | 89 => ⟨S65536x256, .f32⟩
  | 90 => ⟨S65536x256, .f32⟩
  | 91 => ⟨S65536x256, .f32⟩
  | 92 => ⟨S65536x256, .f32⟩
  | 93 => ⟨S_, .f32⟩
  | 94 => ⟨S65536x256, .f32⟩
  | 95 => ⟨S65536x256, .f32⟩
  | 96 => ⟨S512x128x256, .f32⟩
  | 97 => ⟨S512x128x256, .f32⟩
  | 98 => ⟨S512x128x128, .f32⟩
  | 99 => ⟨S512x128x128, .f32⟩
  | 100 => ⟨S512x128x128, .f32⟩
  | 101 => ⟨S_, .f32⟩
  | 102 => ⟨S512x128, .f32⟩
  | 103 => ⟨S_, .f32⟩
  | 104 => ⟨S512x128, .f32⟩
  | 105 => ⟨S512x128, .f32⟩
  | 106 => ⟨S512x128x1, .f32⟩
  | 107 => ⟨S512x128x128, .f32⟩
  | 108 => ⟨S512x128x128, .f32⟩
  | 109 => ⟨S512x128x128, .f32⟩
  | 110 => ⟨S_, .f32⟩
  | 111 => ⟨S512x128, .f32⟩
  | 112 => ⟨S512x128x1, .f32⟩
  | 113 => ⟨S512x128x128, .f32⟩
  | 114 => ⟨S512x128x128, .f32⟩
  | 115 => ⟨S512x128x256, .f32⟩
  | 116 => ⟨S65536x256, .f32⟩
  | 117 => ⟨S65536x256, .f32⟩
  | 118 => ⟨S_, .f32⟩
  | 119 => ⟨S65536x256, .f32⟩
  | 120 => ⟨S65536x256, .f32⟩
  | 121 => ⟨S65536x256, .f32⟩
  | 122 => ⟨S512x128x256, .f32⟩
  | 123 => ⟨S512x128x256, .f32⟩
  | 124 => ⟨S512x128x128, .f32⟩
  | 125 => ⟨S512x128x128, .f32⟩
  | 126 => ⟨S512x128x128, .f32⟩
  | 127 => ⟨S_, .f32⟩
  | _ => ⟨S32768x133, .f32⟩

abbrev hbmTy0_1 (i : Nat) : BufTy := match i % 128 with
  | 0 => ⟨S512x128, .f32⟩
  | 1 => ⟨S_, .f32⟩
  | 2 => ⟨S512x128, .f32⟩
  | 3 => ⟨S512x128, .f32⟩
  | 4 => ⟨S512x128x1, .f32⟩
  | 5 => ⟨S512x128x128, .f32⟩
  | 6 => ⟨S512x128x128, .f32⟩
  | 7 => ⟨S512x128x128, .f32⟩
  | 8 => ⟨S_, .f32⟩
  | 9 => ⟨S512x128, .f32⟩
  | 10 => ⟨S512x128x1, .f32⟩
  | 11 => ⟨S512x128x128, .f32⟩
  | 12 => ⟨S512x128x128, .f32⟩
  | 13 => ⟨S512x128x256, .f32⟩
  | 14 => ⟨S65536x256, .f32⟩
  | 15 => ⟨S65536x256, .f32⟩
  | 16 => ⟨S_, .f32⟩
  | 17 => ⟨S65536x256, .f32⟩
  | 18 => ⟨S65536x256, .f32⟩
  | 19 => ⟨S65536x256, .f32⟩
  | 20 => ⟨S_, .i32⟩
  | 21 => ⟨S32768x6, .i32⟩
  | 22 => ⟨S32768x6, .i1⟩
  | 23 => ⟨S_, .i32⟩
  | 24 => ⟨S32768x6, .i32⟩
  | 25 => ⟨S32768x6, .i32⟩
  | 26 => ⟨S32768x6, .i32⟩
  | 27 => ⟨S32768x6x1, .i32⟩
  | 28 => ⟨S32768x6x256, .f32⟩
  | 29 => ⟨S_, .f32⟩
  | 30 => ⟨S32768x256, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x256, .f32⟩
  | 40 => ⟨S_, .i32⟩
  | 41 => ⟨S65536, .i32⟩
  | 42 => ⟨S65536, .i1⟩
  | 43 => ⟨S_, .i32⟩
  | 44 => ⟨S65536, .i32⟩
  | 45 => ⟨S65536, .i32⟩
  | 46 => ⟨S65536, .i32⟩
  | 47 => ⟨S65536x1, .i32⟩
  | 48 => ⟨S65536x256, .f32⟩
  | 49 => ⟨S65536x256, .f32⟩
  | 50 => ⟨S65536x256, .f32⟩
  | 51 => ⟨S65536x256, .f32⟩
  | 52 => ⟨S_, .f32⟩
  | 53 => ⟨S65536x256, .f32⟩
  | 54 => ⟨S65536x256, .f32⟩
  | 55 => ⟨S_, .i32⟩
  | 56 => ⟨S32768x6, .i32⟩
  | 57 => ⟨S32768x6, .i1⟩
  | 58 => ⟨S_, .i32⟩
  | 59 => ⟨S32768x6, .i32⟩
  | 60 => ⟨S32768x6, .i32⟩
  | 61 => ⟨S32768x6, .i32⟩
  | 62 => ⟨S32768x6x1, .i32⟩
  | 63 => ⟨S32768x6x256, .f32⟩
  | 64 => ⟨S_, .f32⟩
  | 65 => ⟨S32768x256, .f32⟩
  | 66 => ⟨S_, .i32⟩
  | 67 => ⟨S65536, .i32⟩
  | 68 => ⟨S65536, .i1⟩
  | 69 => ⟨S_, .i32⟩
  | 70 => ⟨S65536, .i32⟩
  | 71 => ⟨S65536, .i32⟩
  | 72 => ⟨S65536, .i32⟩
  | 73 => ⟨S65536x1, .i32⟩
  | 74 => ⟨S65536x256, .f32⟩
  | 75 => ⟨S_, .i32⟩
  | 76 => ⟨S65536, .i32⟩
  | 77 => ⟨S65536, .i1⟩
  | 78 => ⟨S_, .i32⟩
  | 79 => ⟨S65536, .i32⟩
  | 80 => ⟨S65536, .i32⟩
  | 81 => ⟨S65536, .i32⟩
  | 82 => ⟨S65536x1, .i32⟩
  | 83 => ⟨S65536x256, .f32⟩
  | 84 => ⟨S65536x256, .f32⟩
  | 85 => ⟨S65536x256, .f32⟩
  | 86 => ⟨S65536x256, .f32⟩
  | 87 => ⟨S_, .f32⟩
  | 88 => ⟨S65536x256, .f32⟩
  | 89 => ⟨S65536x256, .f32⟩
  | 90 => ⟨S512x128x256, .f32⟩
  | 91 => ⟨S512x128x256, .f32⟩
  | 92 => ⟨S512x128x128, .f32⟩
  | 93 => ⟨S512x128x128, .f32⟩
  | 94 => ⟨S512x128x128, .f32⟩
  | 95 => ⟨S_, .f32⟩
  | 96 => ⟨S512x128, .f32⟩
  | 97 => ⟨S_, .f32⟩
  | 98 => ⟨S512x128, .f32⟩
  | 99 => ⟨S512x128, .f32⟩
  | 100 => ⟨S512x128x1, .f32⟩
  | 101 => ⟨S512x128x128, .f32⟩
  | 102 => ⟨S512x128x128, .f32⟩
  | 103 => ⟨S512x128x128, .f32⟩
  | 104 => ⟨S_, .f32⟩
  | 105 => ⟨S512x128, .f32⟩
  | 106 => ⟨S512x128x1, .f32⟩
  | 107 => ⟨S512x128x128, .f32⟩
  | 108 => ⟨S512x128x128, .f32⟩
  | 109 => ⟨S512x128x256, .f32⟩
  | 110 => ⟨S65536x256, .f32⟩
  | 111 => ⟨S65536x256, .f32⟩
  | 112 => ⟨S_, .f32⟩
  | 113 => ⟨S65536x256, .f32⟩
  | 114 => ⟨S65536x256, .f32⟩
  | 115 => ⟨S65536x256, .f32⟩
  | 116 => ⟨S512x128x256, .f32⟩
  | 117 => ⟨S512x128x256, .f32⟩
  | 118 => ⟨S512x128x128, .f32⟩
  | 119 => ⟨S512x128x128, .f32⟩
  | 120 => ⟨S512x128x128, .f32⟩
  | 121 => ⟨S_, .f32⟩
  | 122 => ⟨S512x128, .f32⟩
  | 123 => ⟨S_, .f32⟩
  | 124 => ⟨S512x128, .f32⟩
  | 125 => ⟨S512x128, .f32⟩
  | 126 => ⟨S512x128x1, .f32⟩
  | 127 => ⟨S512x128x128, .f32⟩
  | _ => ⟨S32768x133, .f32⟩

abbrev hbmTy0_2 (i : Nat) : BufTy := match i % 128 with
  | 0 => ⟨S512x128x128, .f32⟩
  | 1 => ⟨S512x128x128, .f32⟩
  | 2 => ⟨S_, .f32⟩
  | 3 => ⟨S512x128, .f32⟩
  | 4 => ⟨S512x128x1, .f32⟩
  | 5 => ⟨S512x128x128, .f32⟩
  | 6 => ⟨S512x128x128, .f32⟩
  | 7 => ⟨S512x128x256, .f32⟩
  | 8 => ⟨S65536x256, .f32⟩
  | 9 => ⟨S65536x256, .f32⟩
  | 10 => ⟨S_, .f32⟩
  | 11 => ⟨S65536x256, .f32⟩
  | 12 => ⟨S65536x256, .f32⟩
  | 13 => ⟨S65536x256, .f32⟩
  | 14 => ⟨S65536x256, .f32⟩
  | 15 => ⟨S65536x256, .f32⟩
  | 16 => ⟨S65536x256, .f32⟩
  | 17 => ⟨S65536x256, .f32⟩
  | 18 => ⟨S32768x133, .f32⟩
  | 19 => ⟨S32768x133, .f32⟩
  | 20 => ⟨S_, .i32⟩
  | 21 => ⟨S32768x6, .i32⟩
  | 22 => ⟨S32768x6, .i1⟩
  | 23 => ⟨S_, .i32⟩
  | 24 => ⟨S32768x6, .i32⟩
  | 25 => ⟨S32768x6, .i32⟩
  | 26 => ⟨S32768x6, .i32⟩
  | 27 => ⟨S32768x6x1, .i32⟩
  | 28 => ⟨S32768x6x256, .f32⟩
  | 29 => ⟨S_, .f32⟩
  | 30 => ⟨S32768x256, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x256, .f32⟩
  | 40 => ⟨S_, .i32⟩
  | 41 => ⟨S65536, .i32⟩
  | 42 => ⟨S65536, .i1⟩
  | 43 => ⟨S_, .i32⟩
  | 44 => ⟨S65536, .i32⟩
  | 45 => ⟨S65536, .i32⟩
  | 46 => ⟨S65536, .i32⟩
  | 47 => ⟨S65536x1, .i32⟩
  | 48 => ⟨S65536x256, .f32⟩
  | 49 => ⟨S65536x256, .f32⟩
  | 50 => ⟨S65536x256, .f32⟩
  | 51 => ⟨S65536x256, .f32⟩
  | 52 => ⟨S1x256, .f32⟩
  | 53 => ⟨S65536x256, .f32⟩
  | 54 => ⟨S65536x256, .f32⟩
  | 55 => ⟨S_, .f32⟩
  | 56 => ⟨S65536x256, .f32⟩
  | 57 => ⟨S65536x256, .f32⟩
  | 58 => ⟨S_, .i32⟩
  | 59 => ⟨S32768x6, .i32⟩
  | 60 => ⟨S32768x6, .i1⟩
  | 61 => ⟨S_, .i32⟩
  | 62 => ⟨S32768x6, .i32⟩
  | 63 => ⟨S32768x6, .i32⟩
  | 64 => ⟨S32768x6, .i32⟩
  | 65 => ⟨S32768x6x1, .i32⟩
  | 66 => ⟨S32768x6x256, .f32⟩
  | 67 => ⟨S_, .f32⟩
  | 68 => ⟨S32768x256, .f32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536x256, .f32⟩
  | 78 => ⟨S_, .i32⟩
  | 79 => ⟨S65536, .i32⟩
  | 80 => ⟨S65536, .i1⟩
  | 81 => ⟨S_, .i32⟩
  | 82 => ⟨S65536, .i32⟩
  | 83 => ⟨S65536, .i32⟩
  | 84 => ⟨S65536, .i32⟩
  | 85 => ⟨S65536x1, .i32⟩
  | 86 => ⟨S65536x256, .f32⟩
  | 87 => ⟨S65536x256, .f32⟩
  | 88 => ⟨S65536x256, .f32⟩
  | 89 => ⟨S65536x256, .f32⟩
  | 90 => ⟨S1x256, .f32⟩
  | 91 => ⟨S65536x256, .f32⟩
  | 92 => ⟨S65536x256, .f32⟩
  | 93 => ⟨S_, .f32⟩
  | 94 => ⟨S65536x256, .f32⟩
  | 95 => ⟨S65536x256, .f32⟩
  | 96 => ⟨S_, .i32⟩
  | 97 => ⟨S32768x6, .i32⟩
  | 98 => ⟨S32768x6, .i1⟩
  | 99 => ⟨S_, .i32⟩
  | 100 => ⟨S32768x6, .i32⟩
  | 101 => ⟨S32768x6, .i32⟩
  | 102 => ⟨S32768x6, .i32⟩
  | 103 => ⟨S32768x6x1, .i32⟩
  | 104 => ⟨S32768x6x256, .f32⟩
  | 105 => ⟨S_, .f32⟩
  | 106 => ⟨S32768x256, .f32⟩
  | 107 => ⟨S32768x389, .f32⟩
  | 108 => ⟨S32768x256, .f32⟩
  | 109 => ⟨S1x256, .f32⟩
  | 110 => ⟨S32768x256, .f32⟩
  | 111 => ⟨S32768x256, .f32⟩
  | 112 => ⟨S_, .f32⟩
  | 113 => ⟨S32768x256, .f32⟩
  | 114 => ⟨S32768x256, .f32⟩
  | 115 => ⟨S512x64x256, .f32⟩
  | 116 => ⟨S_, .f32⟩
  | 117 => ⟨S512x256, .f32⟩
  | 118 => ⟨S_, .f32⟩
  | 119 => ⟨S512x256, .f32⟩
  | 120 => ⟨S512x256, .f32⟩
  | _ => ⟨S32768x133, .f32⟩

abbrev hbmTy (i : Nat) : BufTy := match i / 128 with
  | 0 => hbmTy0_0 i
  | 1 => hbmTy0_1 i
  | 2 => hbmTy0_2 i
  | _ => ⟨S32768x133, .f32⟩

abbrev bufTy : (tb : Table) → Fin (tcTables nBuf tb) → BufTy
  | .hbm, ⟨i, _⟩ => hbmTy i
  | _, _ => ⟨S32768x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_call1_cst : Ref sig .tc := ⟨.hbm, 23, rfl⟩
abbrev main_call1_v0 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call2_cst : Ref sig .tc := ⟨.hbm, 58, rfl⟩
abbrev main_call2_v0 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_c_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_c_13 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call3_cst : Ref sig .tc := ⟨.hbm, 93, rfl⟩
abbrev main_call3_v0 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_16 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call4_cst : Ref sig .tc := ⟨.hbm, 118, rfl⟩
abbrev main_call4_v0 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_17 : Ref sig .tc := ⟨.hbm, 127, rfl⟩
abbrev main_v84 : Ref sig .tc := ⟨.hbm, 128, rfl⟩
abbrev main_cst_18 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_19 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call5_cst : Ref sig .tc := ⟨.hbm, 144, rfl⟩
abbrev main_call5_v0 : Ref sig .tc := ⟨.hbm, 145, rfl⟩
abbrev main_v98 : Ref sig .tc := ⟨.hbm, 146, rfl⟩
abbrev main_v99 : Ref sig .tc := ⟨.hbm, 147, rfl⟩
abbrev main_c_20 : Ref sig .tc := ⟨.hbm, 148, rfl⟩
abbrev main_v100 : Ref sig .tc := ⟨.hbm, 149, rfl⟩
abbrev main_v101 : Ref sig .tc := ⟨.hbm, 150, rfl⟩
abbrev main_c_21 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_22 : Ref sig .tc := ⟨.hbm, 157, rfl⟩
abbrev main_v107 : Ref sig .tc := ⟨.hbm, 158, rfl⟩
abbrev main_c_23 : Ref sig .tc := ⟨.hbm, 159, rfl⟩
abbrev main_v108 : Ref sig .tc := ⟨.hbm, 160, rfl⟩
abbrev main_v109 : Ref sig .tc := ⟨.hbm, 161, rfl⟩
abbrev main_c_24 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_c_25 : Ref sig .tc := ⟨.hbm, 168, rfl⟩
abbrev main_v115 : Ref sig .tc := ⟨.hbm, 169, rfl⟩
abbrev main_v116 : Ref sig .tc := ⟨.hbm, 170, rfl⟩
abbrev main_c_26 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_call6_cst : Ref sig .tc := ⟨.hbm, 180, rfl⟩
abbrev main_call6_v0 : Ref sig .tc := ⟨.hbm, 181, rfl⟩
abbrev main_v125 : Ref sig .tc := ⟨.hbm, 182, rfl⟩
abbrev main_c_27 : Ref sig .tc := ⟨.hbm, 183, rfl⟩
abbrev main_v126 : Ref sig .tc := ⟨.hbm, 184, rfl⟩
abbrev main_v127 : Ref sig .tc := ⟨.hbm, 185, rfl⟩
abbrev main_c_28 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_cst_29 : Ref sig .tc := ⟨.hbm, 192, rfl⟩
abbrev main_v133 : Ref sig .tc := ⟨.hbm, 193, rfl⟩
abbrev main_c_30 : Ref sig .tc := ⟨.hbm, 194, rfl⟩
abbrev main_v134 : Ref sig .tc := ⟨.hbm, 195, rfl⟩
abbrev main_v135 : Ref sig .tc := ⟨.hbm, 196, rfl⟩
abbrev main_c_31 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_c_32 : Ref sig .tc := ⟨.hbm, 203, rfl⟩
abbrev main_v141 : Ref sig .tc := ⟨.hbm, 204, rfl⟩
abbrev main_v142 : Ref sig .tc := ⟨.hbm, 205, rfl⟩
abbrev main_c_33 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_call7_cst : Ref sig .tc := ⟨.hbm, 215, rfl⟩
abbrev main_call7_v0 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_34 : Ref sig .tc := ⟨.hbm, 223, rfl⟩
abbrev main_v157 : Ref sig .tc := ⟨.hbm, 224, rfl⟩
abbrev main_cst_35 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_cst_36 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_call8_cst : Ref sig .tc := ⟨.hbm, 240, rfl⟩
abbrev main_call8_v0 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_cst_37 : Ref sig .tc := ⟨.hbm, 249, rfl⟩
abbrev main_v178 : Ref sig .tc := ⟨.hbm, 250, rfl⟩
abbrev main_cst_38 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_cst_39 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_call9_cst : Ref sig .tc := ⟨.hbm, 266, rfl⟩
abbrev main_call9_v0 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_c_40 : Ref sig .tc := ⟨.hbm, 276, rfl⟩
abbrev main_v200 : Ref sig .tc := ⟨.hbm, 277, rfl⟩
abbrev main_v201 : Ref sig .tc := ⟨.hbm, 278, rfl⟩
abbrev main_c_41 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_cst_42 : Ref sig .tc := ⟨.hbm, 285, rfl⟩
abbrev main_v207 : Ref sig .tc := ⟨.hbm, 286, rfl⟩
abbrev main_c_43 : Ref sig .tc := ⟨.hbm, 287, rfl⟩
abbrev main_v208 : Ref sig .tc := ⟨.hbm, 288, rfl⟩
abbrev main_v209 : Ref sig .tc := ⟨.hbm, 289, rfl⟩
abbrev main_c_44 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_c_45 : Ref sig .tc := ⟨.hbm, 296, rfl⟩
abbrev main_v215 : Ref sig .tc := ⟨.hbm, 297, rfl⟩
abbrev main_v216 : Ref sig .tc := ⟨.hbm, 298, rfl⟩
abbrev main_c_46 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_call10_cst : Ref sig .tc := ⟨.hbm, 311, rfl⟩
abbrev main_call10_v0 : Ref sig .tc := ⟨.hbm, 312, rfl⟩
abbrev main_v228 : Ref sig .tc := ⟨.hbm, 313, rfl⟩
abbrev main_c_47 : Ref sig .tc := ⟨.hbm, 314, rfl⟩
abbrev main_v229 : Ref sig .tc := ⟨.hbm, 315, rfl⟩
abbrev main_v230 : Ref sig .tc := ⟨.hbm, 316, rfl⟩
abbrev main_c_48 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_cst_49 : Ref sig .tc := ⟨.hbm, 323, rfl⟩
abbrev main_v236 : Ref sig .tc := ⟨.hbm, 324, rfl⟩
abbrev main_c_50 : Ref sig .tc := ⟨.hbm, 325, rfl⟩
abbrev main_v237 : Ref sig .tc := ⟨.hbm, 326, rfl⟩
abbrev main_v238 : Ref sig .tc := ⟨.hbm, 327, rfl⟩
abbrev main_c_51 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_c_52 : Ref sig .tc := ⟨.hbm, 334, rfl⟩
abbrev main_v244 : Ref sig .tc := ⟨.hbm, 335, rfl⟩
abbrev main_v245 : Ref sig .tc := ⟨.hbm, 336, rfl⟩
abbrev main_c_53 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_call11_cst : Ref sig .tc := ⟨.hbm, 349, rfl⟩
abbrev main_call11_v0 : Ref sig .tc := ⟨.hbm, 350, rfl⟩
abbrev main_v257 : Ref sig .tc := ⟨.hbm, 351, rfl⟩
abbrev main_c_54 : Ref sig .tc := ⟨.hbm, 352, rfl⟩
abbrev main_v258 : Ref sig .tc := ⟨.hbm, 353, rfl⟩
abbrev main_v259 : Ref sig .tc := ⟨.hbm, 354, rfl⟩
abbrev main_c_55 : Ref sig .tc := ⟨.hbm, 355, rfl⟩
abbrev main_v260 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_cst_56 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_call12_cst : Ref sig .tc := ⟨.hbm, 368, rfl⟩
abbrev main_call12_v0 : Ref sig .tc := ⟨.hbm, 369, rfl⟩
abbrev main_v271 : Ref sig .tc := ⟨.hbm, 370, rfl⟩
abbrev main_v272 : Ref sig .tc := ⟨.hbm, 371, rfl⟩
abbrev main_cst_57 : Ref sig .tc := ⟨.hbm, 372, rfl⟩
abbrev main_v273 : Ref sig .tc := ⟨.hbm, 373, rfl⟩
abbrev main_cst_58 : Ref sig .tc := ⟨.hbm, 374, rfl⟩
abbrev main_v274 : Ref sig .tc := ⟨.hbm, 375, rfl⟩
abbrev main_v275 : Ref sig .tc := ⟨.hbm, 376, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  bcast_S_S32768x6 : S_.BroadcastsInDim S32768x6 (![] : Fin 0 → Fin S32768x6.rank)
  bcast_S32768x6_S32768x6x1_0_1 : S32768x6.BroadcastsInDim S32768x6x1 (![0, 1] : Fin 2 → Fin S32768x6x1.rank)
  reducesTo_S32768x6x256_S32768x256_d1 : S32768x6x256.ReducesTo [1] S32768x256
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x256_S512x128x256 : S65536x256.ShapeCasts S512x128x256
  bcast_S_S512x128x128 : S_.BroadcastsInDim S512x128x128 (![] : Fin 0 → Fin S512x128x128.rank)
  reducesTo_S512x128x128_S512x128_d2 : S512x128x128.ReducesTo [2] S512x128
  bcast_S_S512x128 : S_.BroadcastsInDim S512x128 (![] : Fin 0 → Fin S512x128.rank)
  bcast_S512x128_S512x128x1_0_1 : S512x128.BroadcastsInDim S512x128x1 (![0, 1] : Fin 2 → Fin S512x128x1.rank)
  bcast_S512x128x1_S512x128x128_0_1_2 : S512x128x1.BroadcastsInDim S512x128x128 (![0, 1, 2] : Fin 3 → Fin S512x128x128.rank)
  shapeCasts_S512x128x256_S65536x256 : S512x128x256.ShapeCasts S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  concatenates_S32768x133_S32768x256_S32768x389_d1 : Shape.Concatenates [S32768x133, S32768x256] S32768x389 1
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  shapeCasts_S32768x256_S512x64x256 : S32768x256.ShapeCasts S512x64x256
  reducesTo_S512x64x256_S512x256_d1 : S512x64x256.ReducesTo [1] S512x256
  bcast_S_S512x256 : S_.BroadcastsInDim S512x256 (![] : Fin 0 → Fin S512x256.rank)
  dot_S65536x147_S147x256_S65536x256_1_0_0_1_n_n_wf : DotDims.WF S65536x147 S147x256 S65536x256 [1] [0] [0] [1] [] []
  gather_S65536x256_S32768x6x1_S32768x6x256_2_0_n_n_0_2_1256_wf : GatherDims.WF S65536x256 S32768x6x1 S32768x6x256 [2] [0] [] [0] [] 2 ![1, 256]
  gather_S32768x256_S65536x1_S65536x256_1_0_n_n_0_1_1256_wf : GatherDims.WF S32768x256 S65536x1 S65536x256 [1] [0] [] [0] [] 1 ![1, 256]
  gather_S65536x256_S65536x1_S65536x256_1_0_n_n_0_1_1256_wf : GatherDims.WF S65536x256 S65536x1 S65536x256 [1] [0] [] [0] [] 1 ![1, 256]
  dot_S65536x256_S256x256_S65536x256_1_0_0_1_n_n_wf : DotDims.WF S65536x256 S256x256 S65536x256 [1] [0] [0] [1] [] []
  dot_S512x128x256_S512x128x256_S512x128x128_2_2_1_1_0_0_wf : DotDims.WF S512x128x256 S512x128x256 S512x128x128 [2] [2] [1] [1] [0] [0]
  dot_S512x128x128_S512x128x256_S512x128x256_2_1_1_2_0_0_wf : DotDims.WF S512x128x128 S512x128x256 S512x128x256 [2] [1] [1] [2] [0] [0]
  dot_S32768x389_S389x256_S32768x256_1_0_0_1_n_n_wf : DotDims.WF S32768x389 S389x256 S32768x256 [1] [0] [0] [1] [] []

variable [Facts₀]

def dot_S65536x147_S147x256_S65536x256_1_0_0_1_n_n : DotDims S65536x147 S147x256 S65536x256 where
  lhsContracting := [1]
  rhsContracting := [0]
  lhsNonContracting := [0]
  rhsNonContracting := [1]
  lhsBatch := []
  rhsBatch := []
  wf := dot_S65536x147_S147x256_S65536x256_1_0_0_1_n_n_wf
def gather_S65536x256_S32768x6x1_S32768x6x256_2_0_n_n_0_2_1256 : GatherDims S65536x256 S32768x6x1 S32768x6x256 where
  offsetDims := [2]
  collapsedSliceDims := [0]
  operandBatchingDims := []
  startIndicesBatchingDims := []
  startIndexMap := [0]
  indexVectorDim := 2
  sliceSizes := ![1, 256]
  wf := gather_S65536x256_S32768x6x1_S32768x6x256_2_0_n_n_0_2_1256_wf
def gather_S32768x256_S65536x1_S65536x256_1_0_n_n_0_1_1256 : GatherDims S32768x256 S65536x1 S65536x256 where
  offsetDims := [1]
  collapsedSliceDims := [0]
  operandBatchingDims := []
  startIndicesBatchingDims := []
  startIndexMap := [0]
  indexVectorDim := 1
  sliceSizes := ![1, 256]
  wf := gather_S32768x256_S65536x1_S65536x256_1_0_n_n_0_1_1256_wf
def gather_S65536x256_S65536x1_S65536x256_1_0_n_n_0_1_1256 : GatherDims S65536x256 S65536x1 S65536x256 where
  offsetDims := [1]
  collapsedSliceDims := [0]
  operandBatchingDims := []
  startIndicesBatchingDims := []
  startIndexMap := [0]
  indexVectorDim := 1
  sliceSizes := ![1, 256]
  wf := gather_S65536x256_S65536x1_S65536x256_1_0_n_n_0_1_1256_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S512x128x256_S512x128x256_S512x128x128_2_2_1_1_0_0 : DotDims S512x128x256 S512x128x256 S512x128x128 where
  lhsContracting := [2]
  rhsContracting := [2]
  lhsNonContracting := [1]
  rhsNonContracting := [1]
  lhsBatch := [0]
  rhsBatch := [0]
  wf := dot_S512x128x256_S512x128x256_S512x128x128_2_2_1_1_0_0_wf
def dot_S512x128x128_S512x128x256_S512x128x256_2_1_1_2_0_0 : DotDims S512x128x128 S512x128x256 S512x128x256 where
  lhsContracting := [2]
  rhsContracting := [1]
  lhsNonContracting := [1]
  rhsNonContracting := [2]
  lhsBatch := [0]
  rhsBatch := [0]
  wf := dot_S512x128x128_S512x128x256_S512x128x256_2_1_1_2_0_0_wf
def dot_S32768x389_S389x256_S32768x256_1_0_0_1_n_n : DotDims S32768x389 S389x256 S32768x256 where
  lhsContracting := [1]
  rhsContracting := [0]
  lhsNonContracting := [0]
  rhsNonContracting := [1]
  lhsBatch := []
  rhsBatch := []
  wf := dot_S32768x389_S389x256_S32768x256_1_0_0_1_n_n_wf

class Facts : Prop extends Facts₀ where

variable [Facts]
-- ==== Proof.KRun.lean ====
import proofs.«135133_j46703474376853_2_alg».proof.Proof.Gen.KernelIdeal.Frame

/-!
# The idealized kernel's run, with its result named

Every weakly fair execution of the program terminates without a fault; at the end each argument array is as
launched and the result array holds what the last pipeline's write-backs leave: the last boundary's contents
at the result buffer. The run is the launch over the program's thirteen segments (host stretches and
pipelines), read at the end against the final memory.
-/

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result buffer at the last boundary's contents, the arguments
    unchanged. -/
theorem run_result : θ_run defs (onTc (τ := τ) (main (F := F))) ⟨m, fun _ => 0, ρ⟩ (fun r => ∀ c : Dev nD,
      r.2.mem ((c.tc : Thread nD τ).loc main_v0) = W13 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v0 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KRun

end
-- ==== Proof.Spec.lean ====
import Idealize.ShloMosaic.PureOps.Ideal
import Idealize.ShloMosaic.PureOps.Ideal.Laws
import Idealize.ShloMosaic.Lib.ValueIdx

/-!
# The network's layers as functions of coordinates

Every stage of the message-passing network, written once over the extended reals with explicit
coordinates. Each stage is LOCAL: a projection or an update produces a row of its result from the same
row of its operands; the attention block produces a molecule's bonds from that molecule's bonds only; the
read-out produces a molecule's row from that molecule's atoms. A matrix product is a sum over the contracted
coordinate, the rectifier is the maximum with zero, the attention weights of a row of logits are the
exponentials of the logits shifted by the row's supremum, divided by their sum. Both programs are shown to
compute these functions; nothing here mentions either program.
-/

noncomputable section

namespace Cert.Spec

open Idealize.ShloMosaic Idealize.ShloMosaic.ValueIdx

/-- Arrays of rank one, two and three over the extended reals. -/
abbrev A1 (n : Nat) := (⟨1, ![n]⟩ : Shape).Idx → EReal
abbrev A2 (n m : Nat) := (⟨2, ![n, m]⟩ : Shape).Idx → EReal
abbrev A3 (a b c : Nat) := (⟨3, ![a, b, c]⟩ : Shape).Idx → EReal

/-- An array read at coordinates. -/
def to1 {n : Nat} (X : A1 n) : Fin n → EReal := fun a => X (ix1 a)
def to2 {n m : Nat} (X : A2 n m) : Fin n → Fin m → EReal := fun a b => X (ix2 a b)
def to3 {a b c : Nat} (X : A3 a b c) : Fin a → Fin b → Fin c → EReal := fun i j k => X (ix3 i j k)

/-- Two arrays that agree at all coordinates are equal. -/
theorem ext2 {n m : Nat} {X Y : A2 n m} (h : ∀ a b, X (ix2 a b) = Y (ix2 a b)) : X = Y := by
  funext j; rw [eq_ix2 j]; exact h _ _
theorem ext3 {a b c : Nat} {X Y : A3 a b c} (h : ∀ i j k, X (ix3 i j k) = Y (ix3 i j k)) : X = Y := by
  funext j; rw [eq_ix3 j]; exact h _ _ _

/-- Row `m * 128 + q` of the flat bond table is bond `q` of molecule `m`; row `m * 64 + a` of the flat atom
    table is atom `a` of molecule `m`. -/
def brow (m : Fin 512) (q : Fin 128) : Fin 65536 := ⟨m.val * 128 + q.val, by have := m.isLt; have := q.isLt; omega⟩
def arow (m : Fin 512) (a : Fin 64) : Fin 32768 := ⟨m.val * 64 + a.val, by have := m.isLt; have := a.isLt; omega⟩

/-- Every row of the flat bond table is some molecule's bond. -/
theorem exists_brow (r : Fin 65536) : ∃ m q, r = brow m q :=
  ⟨⟨r.val / 128, by have := r.isLt; omega⟩, ⟨r.val % 128, Nat.mod_lt _ (by decide)⟩,
    Fin.ext (by show r.val = r.val / 128 * 128 + r.val % 128; omega)⟩

/-- Molecule `m` of the flat bond table, and of the flat atom table (133 or 256 features wide). -/
def bmol (X : A2 65536 256) (m : Fin 512) : Fin 128 → Fin 256 → EReal := fun q h => X (ix2 (brow m q) h)
def amol {w : Nat} (X : A2 32768 w) (m : Fin 512) : Fin 64 → Fin w → EReal := fun a k => X (ix2 (arow m a) k)

/-- The rectifier. -/
def relu (x : EReal) : EReal := max x 0

/-- One entry of a row times a matrix. -/
def dotRow {K m : Nat} (x : Fin K → EReal) (w : Fin K → Fin m → EReal) (c : Fin m) : EReal := ∑ k : Fin K, x k * w k c

/-- A hidden update with a bias, one row: the rectifier of the carried input plus the projected neighbourhood sum plus
    the bias. -/
def updRow {K m : Nat} (base : Fin m → EReal) (agg : Fin K → EReal) (w : Fin K → Fin m → EReal) (b : Fin m → EReal)
    (c : Fin m) : EReal :=
  relu ((base c + dotRow agg w c) + b c)

/-- A hidden update without bias, one molecule. -/
def hid (base agg : Fin 128 → Fin 256 → EReal) (wh : Fin 256 → Fin 256 → EReal) (q : Fin 128) (h : Fin 256) : EReal :=
  relu (base q h + dotRow (agg q) wh h)

/-- The scaled dot product of a query bond with a source bond of one molecule. -/
def logit (qy src : Fin 128 → Fin 256 → EReal) (s : EReal) (q k : Fin 128) : EReal := (∑ h : Fin 256, qy q h * src k h) * s

/-- The supremum of a row of logits, as the fold of `max` from the bottom element. -/
def rowmax (l : Fin 128 → EReal) : EReal := (Finset.univ : Finset (Fin 128)).fold max ⊥ l

/-- The shifted exponentials of a row and the attention weights they normalise to. -/
def expo (l : Fin 128 → EReal) (k : Fin 128) : EReal := Ideal.exp (l k - rowmax l)
def attn (l : Fin 128 → EReal) (k : Fin 128) : EReal := Ideal.div (expo l k) (∑ j : Fin 128, expo l j)

/-- The attention context of a query bond: the source bonds of its molecule weighted by attention. -/
def ctx (qy src : Fin 128 → Fin 256 → EReal) (s : EReal) (q : Fin 128) (h : Fin 256) : EReal :=
  ∑ k : Fin 128, attn (logit qy src s q) k * src k h

/-- One cross-attention block with its residual: the rectified projection of the context plus the query. -/
def cross (qy src : Fin 128 → Fin 256 → EReal) (s : EReal) (watt : Fin 256 → Fin 256 → EReal) (q : Fin 128) (h : Fin 256) : EReal :=
  relu (dotRow (ctx qy src s q) watt h) + qy q h

/-- One molecule through the fused step: both branches are updated first, then each attends to the other. `fusedR` is
    the first branch's new message, `fusedP` the second's. -/
def fusedR (br bp ar ap : Fin 128 → Fin 256 → EReal) (wh watt : Fin 256 → Fin 256 → EReal) (s : EReal) (q : Fin 128) (h : Fin 256) : EReal :=
  cross (hid br ar wh) (hid bp ap wh) s watt q h
def fusedP (br bp ar ap : Fin 128 → Fin 256 → EReal) (wh watt : Fin 256 → Fin 256 → EReal) (s : EReal) (q : Fin 128) (h : Fin 256) : EReal :=
  cross (hid bp ap wh) (hid br ar wh) s watt q h

/-- The read-out of one molecule: the mean over its 64 atoms of the rectified projection of the atom's own features
    (through the first 133 rows of the weight) and its incoming messages (through the other 256 rows) plus the bias. The
    divisor is the f32 pattern of 64, kept as a pattern. -/
def outMol (atoms : Fin 64 → Fin 133 → EReal) (amsg : Fin 64 → Fin 256 → EReal) (wa : Fin 133 → Fin 256 → EReal)
    (wb : Fin 256 → Fin 256 → EReal) (b : Fin 256 → EReal) (c : Fin 256) : EReal :=
  Ideal.div (∑ a : Fin 64, relu ((dotRow (atoms a) wa c + dotRow (amsg a) wb c) + b c)) (Ideal.ofBits .f32 0x42800000#32)

end Cert.Spec

end
-- ==== Proof.Bridge.lean ====
import Idealize.ShloMosaic.PureOps.Ideal
import Idealize.ShloMosaic.Lib.Pipeline.Value
import Idealize.ShloMosaic.Lib.ValueIdx
import Idealize.ShloMosaic.Lib.ValueLayout
import proofs.«135133_j46703474376853_2_alg».proof.Proof.Spec

/-!
# Re-laid tables read at coordinates, and the attention scale

The flat bond table of 65536 rows re-laid as 512 molecules of 128 bonds reads, at molecule `m`, bond `q`, the flat
table's row `m * 128 + q`; a bias vector re-laid as one row reads the vector; the two row ranges sliced out of
the read-out weight read the weight's rows `k` and `133 + k`. The attention scale the one program spells
`0.0625` and the other computes as `1 / sqrt 256` is the same real number, one sixteenth: the square root of 256
is exactly 16.
-/

noncomputable section

namespace Cert.Bridge

open Idealize.ShloMosaic Idealize.ShloMosaic.ValueIdx Cert.Spec

/-- The per-molecule form of the flat bond table, read at a molecule's bond. -/
theorem cast3_apply (X : A2 65536 256) (h : (⟨2, ![65536, 256]⟩ : Shape).ShapeCasts ⟨3, ![512, 128, 256]⟩)
    (m : Fin 512) (q : Fin 128) (k : Fin 256) :
    shapeCast ⟨3, ![512, 128, 256]⟩ X h (ix3 m q k) = X (ix2 (brow m q) k) :=
  shapeCast_apply X h _ _ (by
    rw [Shape.rowMajor_val_two, Shape.rowMajor_val_three]
    show (m.val * 128 + q.val) * 256 + k.val = (m.val * 128 + q.val) * 256 + k.val
    rfl)

/-- So molecule `m` of the re-laid table is molecule `m` of the flat one. -/
theorem to3_cast (X : A2 65536 256) (h : (⟨2, ![65536, 256]⟩ : Shape).ShapeCasts ⟨3, ![512, 128, 256]⟩) (m : Fin 512) :
    to3 (shapeCast ⟨3, ![512, 128, 256]⟩ X h) m = bmol X m :=
  funext fun q => funext fun k => cast3_apply X h m q k

/-- A vector re-laid as one row, read in that row. -/
theorem to2_cast_row (b : A1 256) (h : (⟨1, ![256]⟩ : Shape).ShapeCasts ⟨2, ![1, 256]⟩) :
    to2 (shapeCast ⟨2, ![1, 256]⟩ b h) 0 = to1 b :=
  funext fun k => shapeCast_apply b h _ _ (by
    rw [Shape.rowMajor_val_one, Shape.rowMajor_val_two]
    show k.val = 0 * 256 + k.val
    omega)

/-- The first 133 rows of the read-out weight, and its other 256 rows. -/
theorem to2_slice_top (w : A2 389 256) (h : (⟨2, ![389, 256]⟩ : Shape).Slices ![0, 0] ⟨2, ![133, 256]⟩) :
    to2 (extractStridedSlice ⟨2, ![133, 256]⟩ ![0, 0] w h) = fun k c => w (ix2 (⟨k.val, by have := k.isLt; omega⟩ : Fin 389) c) :=
  funext fun k => funext fun c => extractStridedSlice_apply _ w h _ _ (fun a => by
    match a with
    | ⟨0, _⟩ => show k.val = 0 + k.val; omega
    | ⟨1, _⟩ => show c.val = 0 + c.val; omega)
theorem to2_slice_bot (w : A2 389 256) (h : (⟨2, ![389, 256]⟩ : Shape).Slices ![133, 0] ⟨2, ![256, 256]⟩) :
    to2 (extractStridedSlice ⟨2, ![256, 256]⟩ ![133, 0] w h) = fun k c => w (ix2 (⟨133 + k.val, by have := k.isLt; omega⟩ : Fin 389) c) :=
  funext fun k => funext fun c => extractStridedSlice_apply _ w h _ _ (fun a => by
    match a with
    | ⟨0, _⟩ => show 133 + k.val = 133 + k.val; rfl
    | ⟨1, _⟩ => show c.val = 0 + c.val; omega)

/-- The patterns of 1, 256 and 1/16. -/
theorem ofBits_one : Ideal.ofBits .f32 0x3F800000#32 = ((1 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num

/-- The square root of 256 is 16, so one over it is one sixteenth: the computed scale is the spelled one. -/
theorem scale_eq : Ideal.div (Ideal.ofBits .f32 0x3F800000#32) (Ideal.sqrt (Ideal.ofBits .f32 0x43800000#32))
    = Ideal.ofBits .f32 0x3D800000#32 := by
  rw [ofBits_one, ofBits_256, ofBits_sixteenth, Ideal.sqrt_coe, if_neg (by norm_num)]
  have h16 : Real.sqrt 256 = 16 := by
    rw [show (256 : ℝ) = 16 ^ 2 by norm_num]; exact Real.sqrt_sq (by norm_num)
  rw [h16, Ideal.div_coe (by norm_num : (16 : ℝ) ≠ 0)]
  norm_num

end Cert.Bridge

end
-- ==== Proof.KGlue0.lean ====
import proofs.«135133_j46703474376853_2_alg».proof.Proof.Gen.KernelIdeal.Launch
import proofs.«135133_j46703474376853_2_alg».proof.Proof.ReadP
import Idealize.ShloMosaic.Lib.Pipeline.Value

/-!
# The host operations between the pipelines

Between two pipelines the program gathers each atom's incoming bond messages, sums them, scatters the sums
back to the bonds and subtracts the reverse bond's message, and re-lays tables between their flat and their
per-molecule forms. The other program applies the same operations to its own intermediate values. Each lemma
here reads one stretch of these operations: if the tables the stretch starts from hold the other program's
named values, then each table it produces holds the other program's next named value. Nothing is computed:
the two sides are the same operations applied to the same tables.
-/

noncomputable section

namespace Cert.KGlue0

open Cert.KernelIdeal Cert.KernelIdeal.Gen Idealize.ShloMosaic Idealize.ShloMosaic.TcCoe Idealize.SL.Sem Idealize.ShloMosaic.StableHlo

/-- A table re-laid to another shape and back is itself. -/
theorem cast_cast {s t : Shape} {α : Type} (v : s.Idx → α) (h : s.ShapeCasts t) (h' : t.ShapeCasts s) :
    shapeCast s (shapeCast t v h) h' = v := shapeCast_shapeCast v h h'

theorem s0_v0 (x11 : (⟨S256, .f32⟩ : BufTy).Contents (Elt Ideal)) (W : Valuation τ sig (Elt Ideal)) (h11 : W (Proc.devRef .tc main_arg11) = x11) :
    StableHlo.after (hostOps0 (F := Ideal)) W (Proc.devRef .tc main_call0_v0) = shapeCast S1x256 x11 shapeCasts_S256_S1x256 := by
  after_results
  rw [h11]
  rfl

theorem s0_v1 (x13 : (⟨S256, .f32⟩ : BufTy).Contents (Elt Ideal)) (W : Valuation τ sig (Elt Ideal)) (h13 : W (Proc.devRef .tc main_arg13) = x13) :
    StableHlo.after (hostOps0 (F := Ideal)) W (Proc.devRef .tc main_call0_v1) = shapeCast S1x256 x13 shapeCasts_S256_S1x256 := by
  after_results
  rw [h13]
  rfl

theorem s6_v171 (x2 : (⟨S65536x147, .f32⟩ : BufTy).Contents (Elt Ideal)) (x3 : (⟨S65536x147, .f32⟩ : BufTy).Contents (Elt Ideal)) (x4 : (⟨S32768x6, .i32⟩ : BufTy).Contents (Elt Ideal)) (x5 : (⟨S65536, .i32⟩ : BufTy).Contents (Elt Ideal)) (x6 : (⟨S65536, .i32⟩ : BufTy).Contents (Elt Ideal)) (x7 : (⟨S147x256, .f32⟩ : BufTy).Contents (Elt Ideal)) (x8 : (⟨S256x256, .f32⟩ : BufTy).Contents (Elt Ideal)) (x9 : (⟨S256x256, .f32⟩ : BufTy).Contents (Elt Ideal)) (x10 : (⟨S256x256, .f32⟩ : BufTy).Contents (Elt Ideal)) (x11 : (⟨S256, .f32⟩ : BufTy).Contents (Elt Ideal)) (W : Valuation τ sig (Elt Ideal)) (h163 : W (Proc.devRef .tc main_call0_v163) = Cert.ReferenceIdeal.ReadP.val_main_v257 (F := Ideal) x2 x3 x4 x5 x6 x7 x8 x9 x10 x11) (h4 : W (Proc.devRef .tc main_arg4) = x4) :
    StableHlo.after (hostOps6 (F := Ideal)) W (Proc.devRef .tc main_call0_v171) = Cert.ReferenceIdeal.ReadP.val_main_v265 (F := Ideal) x2 x3 x4 x5 x6 x7 x8 x9 x10 x11 := by
  after_results
  rw [h163, h4]
  rfl

theorem s6_v172 (x12 : (⟨S389x256, .f32⟩ : BufTy).Contents (Elt Ideal)) (W : Valuation τ sig (Elt Ideal)) (h12 : W (Proc.devRef .tc main_arg12) = x12) :
    StableHlo.after (hostOps6 (F := Ideal)) W (Proc.devRef .tc main_call0_v172) = extractStridedSlice S133x256 ![0, 0] x12 slices_S389x256_S133x256_0_0 := by
  after_results
  rw [h12]
  rfl

theorem s6_v173 (x12 : (⟨S389x256, .f32⟩ : BufTy).Contents (Elt Ideal)) (W : Valuation τ sig (Elt Ideal)) (h12 : W (Proc.devRef .tc main_arg12) = x12) :
    StableHlo.after (hostOps6 (F := Ideal)) W (Proc.devRef .tc main_call0_v173) = extractStridedSlice S256x256 ![133, 0] x12 slices_S389x256_S256x256_133_0 := by
  after_results
  rw [h12]
  rfl

end Cert.KGlue0

end
-- ==== Proof.KGlue2.lean ====
import proofs.«135133_j46703474376853_2_alg».proof.Proof.Gen.KernelIdeal.Launch
import proofs.«135133_j46703474376853_2_alg».proof.Proof.ReadP
import Idealize.ShloMosaic.Lib.Pipeline.Value

/-!
# The host operations between the pipelines

Between two pipelines the program gathers each atom's incoming bond messages, sums them, scatters the sums
back to the bonds and subtracts the reverse bond's message, and re-lays tables between their flat and their
per-molecule forms. The other program applies the same operations to its own intermediate values. Each lemma
here reads one stretch of these operations: if the tables the stretch starts from hold the other program's
named values, then each table it produces holds the other program's next named value. Nothing is computed:
the two sides are the same operations applied to the same tables.
-/

noncomputable section

namespace Cert.KGlue2

open Cert.KernelIdeal Cert.KernelIdeal.Gen Idealize.ShloMosaic Idealize.ShloMosaic.TcCoe Idealize.SL.Sem Idealize.ShloMosaic.StableHlo

/-- A table re-laid to another shape and back is itself. -/
theorem cast_cast {s t : Shape} {α : Type} (v : s.Idx → α) (h : s.ShapeCasts t) (h' : t.ShapeCasts s) :
    shapeCast s (shapeCast t v h) h' = v := shapeCast_shapeCast v h h'

set_option maxHeartbeats 8000000 in
theorem s2_v50 (x2 : (⟨S65536x147, .f32⟩ : BufTy).Contents (Elt Ideal)) (x7 : (⟨S147x256, .f32⟩ : BufTy).Contents (Elt Ideal)) (W : Valuation τ sig (Elt Ideal)) (h20 : W (Proc.devRef .tc main_call0_v2_0) = Cert.ReferenceIdeal.ReadP.val_main_v2 (F := Ideal) x2 x7) :
    StableHlo.after (hostOps2 (F := Ideal)) W (Proc.devRef .tc main_call0_v50) = shapeCast S512x128x256 (Cert.ReferenceIdeal.ReadP.val_main_v2 (F := Ideal) x2 x7) shapeCasts_S65536x256_S512x128x256 := by
  after_results_simp
  rw [h20]
  rfl

set_option maxHeartbeats 8000000 in
theorem s2_v51 (x3 : (⟨S65536x147, .f32⟩ : BufTy).Contents (Elt Ideal)) (x7 : (⟨S147x256, .f32⟩ : BufTy).Contents (Elt Ideal)) (W : Valuation τ sig (Elt Ideal)) (h30 : W (Proc.devRef .tc main_call0_v3_0) = Cert.ReferenceIdeal.ReadP.val_main_v3 (F := Ideal) x3 x7) :
    StableHlo.after (hostOps2 (F := Ideal)) W (Proc.devRef .tc main_call0_v51) = shapeCast S512x128x256 (Cert.ReferenceIdeal.ReadP.val_main_v3 (F := Ideal) x3 x7) shapeCasts_S65536x256_S512x128x256 := by
  after_results_simp
  rw [h30]
  rfl

set_option maxHeartbeats 8000000 in
theorem s2_v52 (x2 : (⟨S65536x147, .f32⟩ : BufTy).Contents (Elt Ideal)) (x4 : (⟨S32768x6, .i32⟩ : BufTy).Contents (Elt Ideal)) (x5 : (⟨S65536, .i32⟩ : BufTy).Contents (Elt Ideal)) (x6 : (⟨S65536, .i32⟩ : BufTy).Contents (Elt Ideal)) (x7 : (⟨S147x256, .f32⟩ : BufTy).Contents (Elt Ideal)) (W : Valuation τ sig (Elt Ideal)) (h21 : W (Proc.devRef .tc main_call0_v2_1) = Cert.ReferenceIdeal.ReadP.val_main_v4 (F := Ideal) x2 x7) (h4 : W (Proc.devRef .tc main_arg4) = x4) (h5 : W (Proc.devRef .tc main_arg5) = x5) (h6 : W (Proc.devRef .tc main_arg6) = x6) :
    StableHlo.after (hostOps2 (F := Ideal)) W (Proc.devRef .tc main_call0_v52) = shapeCast S512x128x256 (Cert.ReferenceIdeal.ReadP.val_main_v28 (F := Ideal) x2 x4 x5 x6 x7) shapeCasts_S65536x256_S512x128x256 := by
  after_results_simp
  rw [h21, h4, h5, h6]
  rfl

set_option maxHeartbeats 8000000 in
theorem s2_v53 (x3 : (⟨S65536x147, .f32⟩ : BufTy).Contents (Elt Ideal)) (x4 : (⟨S32768x6, .i32⟩ : BufTy).Contents (Elt Ideal)) (x5 : (⟨S65536, .i32⟩ : BufTy).Contents (Elt Ideal)) (x6 : (⟨S65536, .i32⟩ : BufTy).Contents (Elt Ideal)) (x7 : (⟨S147x256, .f32⟩ : BufTy).Contents (Elt Ideal)) (W : Valuation τ sig (Elt Ideal)) (h31 : W (Proc.devRef .tc main_call0_v3_1) = Cert.ReferenceIdeal.ReadP.val_main_v5 (F := Ideal) x3 x7) (h4 : W (Proc.devRef .tc main_arg4) = x4) (h5 : W (Proc.devRef .tc main_arg5) = x5) (h6 : W (Proc.devRef .tc main_arg6) = x6) :
    StableHlo.after (hostOps2 (F := Ideal)) W (Proc.devRef .tc main_call0_v53) = shapeCast S512x128x256 (Cert.ReferenceIdeal.ReadP.val_main_v54 (F := Ideal) x3 x4 x5 x6 x7) shapeCasts_S65536x256_S512x128x256 := by
  after_results_simp
  rw [h31, h4, h5, h6]
  rfl

end Cert.KGlue2

end
-- ==== Proof.LibFoldSteps.lean ====
/-
  Two general steps for reading the fold of a line of host operations over the buffers' contents.
  `after_append`: the fold of a line cut in two is the second part's fold over the first part's fold.
  `results_by_rw`: reads a fold one operation at a time — each operation's result at its own buffer is its function of
  the operands' contents, and at any other buffer what was there before — also at places inside a list of operands (the
  pieces of a concatenation), where contents appear as members of a list of shaped arrays.
-/
import Idealize.ShloMosaic.Lib.StableHlo.Run

noncomputable section

namespace Cert.Lib

open Idealize.ShloMosaic Idealize.ShloMosaic.StableHlo

/-- Folding a line cut in two is folding the second part over the first part's fold. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The fold's steps, one rewrite at a time: each operation's result at its own buffer is its function of the operands'
    contents, at any other buffer what was there. -/
macro "results_by_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.Lib

end
-- ==== Proof.KGlue3.lean ====
import proofs.«135133_j46703474376853_2_alg».proof.Proof.Gen.KernelIdeal.Launch
import proofs.«135133_j46703474376853_2_alg».proof.Proof.ReadP
import proofs.«135133_j46703474376853_2_alg».proof.Proof.LibFoldSteps
import Idealize.ShloMosaic.Lib.Pipeline.Value

/-!
# The host operations between the pipelines

Between two pipelines the program gathers each atom's incoming bond messages, sums them, scatters the sums
back to the bonds and subtracts the reverse bond's message, and re-lays tables between their flat and their
per-molecule forms. The other program applies the same operations to its own intermediate values. Each lemma
here reads one stretch of these operations: if the tables the stretch starts from hold the other program's
named values, then each table it produces holds the other program's next named value. Nothing is computed:
the two sides are the same operations applied to the same tables.
-/

noncomputable section

namespace Cert.KGlue3

open Cert.KernelIdeal Cert.KernelIdeal.Gen Idealize.ShloMosaic Idealize.ShloMosaic.TcCoe Idealize.SL.Sem Idealize.ShloMosaic.StableHlo

/-- A table re-laid to another shape and back is itself. -/
theorem cast_cast {s t : Shape} {α : Type} (v : s.Idx → α) (h : s.ShapeCasts t) (h' : t.ShapeCasts s) :
    shapeCast s (shapeCast t v h) h' = v := shapeCast_shapeCast v h h'

set_option maxHeartbeats 8000000 in
theorem s3_v103 (x2 : (⟨S65536x147, .f32⟩ : BufTy).Contents (Elt Ideal)) (x7 : (⟨S147x256, .f32⟩ : BufTy).Contents (Elt Ideal)) (W : Valuation τ sig (Elt Ideal)) (h20 : W (Proc.devRef .tc main_call0_v2_0) = Cert.ReferenceIdeal.ReadP.val_main_v2 (F := Ideal) x2 x7) :
    StableHlo.after (hostOps3 (F := Ideal)) W (Proc.devRef .tc main_call0_v103) = shapeCast S512x128x256 (Cert.ReferenceIdeal.ReadP.val_main_v2 (F := Ideal) x2 x7) shapeCasts_S65536x256_S512x128x256 := by
  after_results_simp
  rw [h20]
  rfl

set_option maxHeartbeats 8000000 in
theorem s3_v104 (x3 : (⟨S65536x147, .f32⟩ : BufTy).Contents (Elt Ideal)) (x7 : (⟨S147x256, .f32⟩ : BufTy).Contents (Elt Ideal)) (W : Valuation τ sig (Elt Ideal)) (h30 : W (Proc.devRef .tc main_call0_v3_0) = Cert.ReferenceIdeal.ReadP.val_main_v3 (F := Ideal) x3 x7) :
    StableHlo.after (hostOps3 (F := Ideal)) W (Proc.devRef .tc main_call0_v104) = shapeCast S512x128x256 (Cert.ReferenceIdeal.ReadP.val_main_v3 (F := Ideal) x3 x7) shapeCasts_S65536x256_S512x128x256 := by
  after_results_simp
  rw [h30]
  rfl

set_option maxHeartbeats 8000000 in
theorem s3_v105 (x2 : (⟨S65536x147, .f32⟩ : BufTy).Contents (Elt Ideal)) (x3 : (⟨S65536x147, .f32⟩ : BufTy).Contents (Elt Ideal)) (x4 : (⟨S32768x6, .i32⟩ : BufTy).Contents (Elt Ideal)) (x5 : (⟨S65536, .i32⟩ : BufTy).Contents (Elt Ideal)) (x6 : (⟨S65536, .i32⟩ : BufTy).Contents (Elt Ideal)) (x7 : (⟨S147x256, .f32⟩ : BufTy).Contents (Elt Ideal)) (x8 : (⟨S256x256, .f32⟩ : BufTy).Contents (Elt Ideal)) (x9 : (⟨S256x256, .f32⟩ : BufTy).Contents (Elt Ideal)) (W : Valuation τ sig (Elt Ideal)) (h540 : W (Proc.devRef .tc main_call0_v54_0) = shapeCast S512x128x256 (Cert.ReferenceIdeal.ReadP.val_main_v78 (F := Ideal) x2 x3 x4 x5 x6 x7 x8 x9) shapeCasts_S65536x256_S512x128x256) (h4 : W (Proc.devRef .tc main_arg4) = x4) (h5 : W (Proc.devRef .tc main_arg5) = x5) (h6 : W (Proc.devRef .tc main_arg6) = x6) :
    StableHlo.after (hostOps3 (F := Ideal)) W (Proc.devRef .tc main_call0_v105) = shapeCast S512x128x256 (Cert.ReferenceIdeal.ReadP.val_main_v122 (F := Ideal) x2 x3 x4 x5 x6 x7 x8 x9) shapeCasts_S65536x256_S512x128x256 := by
  have e : StableHlo.after (hostOps3 (F := Ideal)) W
      = StableHlo.after (List.drop 2 (hostOps3 (F := Ideal))) (StableHlo.after (List.take 2 (hostOps3 (F := Ideal))) W) := by
    rw [← Cert.Lib.after_append, List.take_append_drop]
  rw [e]
  have k_h540 : StableHlo.after (List.take 2 (hostOps3 (F := Ideal))) W (Proc.devRef .tc main_call0_v55) = Cert.ReferenceIdeal.ReadP.val_main_v78 (F := Ideal) x2 x3 x4 x5 x6 x7 x8 x9 := by
    simp only [hostOps3, List.take_succ_cons, List.take_zero]
    after_results
    rw [h540]
    exact cast_cast _ _ _
  have k4 : StableHlo.after (List.take 2 (hostOps3 (F := Ideal))) W (Proc.devRef .tc main_arg4) = x4 := by
    simp only [hostOps3, List.take_succ_cons, List.take_zero]
    after_results
    exact h4
  have k5 : StableHlo.after (List.take 2 (hostOps3 (F := Ideal))) W (Proc.devRef .tc main_arg5) = x5 := by
    simp only [hostOps3, List.take_succ_cons, List.take_zero]
    after_results
    exact h5
  have k6 : StableHlo.after (List.take 2 (hostOps3 (F := Ideal))) W (Proc.devRef .tc main_arg6) = x6 := by
    simp only [hostOps3, List.take_succ_cons, List.take_zero]
    after_results
    exact h6
  generalize StableHlo.after (List.take 2 (hostOps3 (F := Ideal))) W = W' at k_h540 k4 k5 k6 ⊢
  simp only [hostOps3, List.drop_succ_cons, List.drop_zero]
  after_results_simp
  rw [k_h540, k4, k5, k6]
  rfl

set_option maxHeartbeats 8000000 in
theorem s3_v106 (x2 : (⟨S65536x147, .f32⟩ : BufTy).Contents (Elt Ideal)) (x3 : (⟨S65536x147, .f32⟩ : BufTy).Contents (Elt Ideal)) (x4 : (⟨S32768x6, .i32⟩ : BufTy).Contents (Elt Ideal)) (x5 : (⟨S65536, .i32⟩ : BufTy).Contents (Elt Ideal)) (x6 : (⟨S65536, .i32⟩ : BufTy).Contents (Elt Ideal)) (x7 : (⟨S147x256, .f32⟩ : BufTy).Contents (Elt Ideal)) (x8 : (⟨S256x256, .f32⟩ : BufTy).Contents (Elt Ideal)) (x9 : (⟨S256x256, .f32⟩ : BufTy).Contents (Elt Ideal)) (W : Valuation τ sig (Elt Ideal)) (h541 : W (Proc.devRef .tc main_call0_v54_1) = shapeCast S512x128x256 (Cert.ReferenceIdeal.ReadP.val_main_v99 (F := Ideal) x2 x3 x4 x5 x6 x7 x8 x9) shapeCasts_S65536x256_S512x128x256) (h4 : W (Proc.devRef .tc main_arg4) = x4) (h5 : W (Proc.devRef .tc main_arg5) = x5) (h6 : W (Proc.devRef .tc main_arg6) = x6) :
    StableHlo.after (hostOps3 (F := Ideal)) W (Proc.devRef .tc main_call0_v106) = shapeCast S512x128x256 (Cert.ReferenceIdeal.ReadP.val_main_v148 (F := Ideal) x2 x3 x4 x5 x6 x7 x8 x9) shapeCasts_S65536x256_S512x128x256 := by
  have e : StableHlo.after (hostOps3 (F := Ideal)) W
      = StableHlo.after (List.drop 2 (hostOps3 (F := Ideal))) (StableHlo.after (List.take 2 (hostOps3 (F := Ideal))) W) := by
    rw [← Cert.Lib.after_append, List.take_append_drop]
  rw [e]
  have k_h541 : StableHlo.after (List.take 2 (hostOps3 (F := Ideal))) W (Proc.devRef .tc main_call0_v56) = Cert.ReferenceIdeal.ReadP.val_main_v99 (F := Ideal) x2 x3 x4 x5 x6 x7 x8 x9 := by
    simp only [hostOps3, List.take_succ_cons, List.take_zero]
    after_results
    rw [h541]
    exact cast_cast _ _ _
  have k4 : StableHlo.after (List.take 2 (hostOps3 (F := Ideal))) W (Proc.devRef .tc main_arg4) = x4 := by
    simp only [hostOps3, List.take_succ_cons, List.take_zero]
    after_results
    exact h4
  have k5 : StableHlo.after (List.take 2 (hostOps3 (F := Ideal))) W (Proc.devRef .tc main_arg5) = x5 := by
    simp only [hostOps3, List.take_succ_cons, List.take_zero]
    after_results
    exact h5
  have k6 : StableHlo.after (List.take 2 (hostOps3 (F := Ideal))) W (Proc.devRef .tc main_arg6) = x6 := by
    simp only [hostOps3, List.take_succ_cons, List.take_zero]
    after_results
    exact h6
  generalize StableHlo.after (List.take 2 (hostOps3 (F := Ideal))) W = W' at k_h541 k4 k5 k6 ⊢
  simp only [hostOps3, List.drop_succ_cons, List.drop_zero]
  after_results_simp
  rw [k_h541, k4, k5, k6]
  rfl

end Cert.KGlue3

end
-- ==== Proof.KGlue4.lean ====
import proofs.«135133_j46703474376853_2_alg».proof.Proof.Gen.KernelIdeal.Launch
import proofs.«135133_j46703474376853_2_alg».proof.Proof.ReadP
import proofs.«135133_j46703474376853_2_alg».proof.Proof.LibFoldSteps
import Idealize.ShloMosaic.Lib.Pipeline.Value

/-!
# The host operations between the pipelines

Between two pipelines the program gathers each atom's incoming bond messages, sums them, scatters the sums
back to the bonds and subtracts the reverse bond's message, and re-lays tables between their flat and their
per-molecule forms. The other program applies the same operations to its own intermediate values. Each lemma
here reads one stretch of these operations: if the tables the stretch starts from hold the other program's
named values, then each table it produces holds the other program's next named value. Nothing is computed:
the two sides are the same operations applied to the same tables.
-/

noncomputable section

namespace Cert.KGlue4

open Cert.KernelIdeal Cert.KernelIdeal.Gen Idealize.ShloMosaic Idealize.ShloMosaic.TcCoe Idealize.SL.Sem Idealize.ShloMosaic.StableHlo

/-- A table re-laid to another shape and back is itself. -/
theorem cast_cast {s t : Shape} {α : Type} (v : s.Idx → α) (h : s.ShapeCasts t) (h' : t.ShapeCasts s) :
    shapeCast s (shapeCast t v h) h' = v := shapeCast_shapeCast v h h'

set_option maxHeartbeats 8000000 in
theorem s4_v113 (x2 : (⟨S65536x147, .f32⟩ : BufTy).Contents (Elt Ideal)) (x3 : (⟨S65536x147, .f32⟩ : BufTy).Contents (Elt Ideal)) (x7 : (⟨S147x256, .f32⟩ : BufTy).Contents (Elt Ideal)) (W : Valuation τ sig (Elt Ideal)) (h20 : W (Proc.devRef .tc main_call0_v2_0) = Cert.ReferenceIdeal.ReadP.val_main_v2 (F := Ideal) x2 x7) (h30 : W (Proc.devRef .tc main_call0_v3_0) = Cert.ReferenceIdeal.ReadP.val_main_v3 (F := Ideal) x3 x7) :
    StableHlo.after (hostOps4 (F := Ideal)) W (Proc.devRef .tc main_call0_v113) = Cert.ReferenceIdeal.ReadP.val_main_v197 (F := Ideal) x2 x3 x7 := by
  after_results_simp
  rw [h20, h30]
  rfl

set_option maxHeartbeats 8000000 in
theorem s4_v115 (x0 : (⟨S32768x133, .f32⟩ : BufTy).Contents (Elt Ideal)) (x1 : (⟨S32768x133, .f32⟩ : BufTy).Contents (Elt Ideal)) (W : Valuation τ sig (Elt Ideal)) (h0 : W (Proc.devRef .tc main_arg0) = x0) (h1 : W (Proc.devRef .tc main_arg1) = x1) :
    StableHlo.after (hostOps4 (F := Ideal)) W (Proc.devRef .tc main_call0_v115) = Cert.ReferenceIdeal.ReadP.val_main_v199 (F := Ideal) x0 x1 := by
  after_results_simp
  rw [h0, h1]
  rfl

set_option maxHeartbeats 8000000 in
theorem s4_v138 (x2 : (⟨S65536x147, .f32⟩ : BufTy).Contents (Elt Ideal)) (x3 : (⟨S65536x147, .f32⟩ : BufTy).Contents (Elt Ideal)) (x4 : (⟨S32768x6, .i32⟩ : BufTy).Contents (Elt Ideal)) (x5 : (⟨S65536, .i32⟩ : BufTy).Contents (Elt Ideal)) (x6 : (⟨S65536, .i32⟩ : BufTy).Contents (Elt Ideal)) (x7 : (⟨S147x256, .f32⟩ : BufTy).Contents (Elt Ideal)) (x8 : (⟨S256x256, .f32⟩ : BufTy).Contents (Elt Ideal)) (x9 : (⟨S256x256, .f32⟩ : BufTy).Contents (Elt Ideal)) (W : Valuation τ sig (Elt Ideal)) (h1070 : W (Proc.devRef .tc main_call0_v107_0) = shapeCast S512x128x256 (Cert.ReferenceIdeal.ReadP.val_main_v172 (F := Ideal) x2 x3 x4 x5 x6 x7 x8 x9) shapeCasts_S65536x256_S512x128x256) (h1071 : W (Proc.devRef .tc main_call0_v107_1) = shapeCast S512x128x256 (Cert.ReferenceIdeal.ReadP.val_main_v193 (F := Ideal) x2 x3 x4 x5 x6 x7 x8 x9) shapeCasts_S65536x256_S512x128x256) (h4 : W (Proc.devRef .tc main_arg4) = x4) (h5 : W (Proc.devRef .tc main_arg5) = x5) (h6 : W (Proc.devRef .tc main_arg6) = x6) :
    StableHlo.after (hostOps4 (F := Ideal)) W (Proc.devRef .tc main_call0_v138) = Cert.ReferenceIdeal.ReadP.val_main_v222 (F := Ideal) x2 x3 x4 x5 x6 x7 x8 x9 := by
  have e : StableHlo.after (hostOps4 (F := Ideal)) W
      = StableHlo.after (List.drop 2 (hostOps4 (F := Ideal))) (StableHlo.after (List.take 2 (hostOps4 (F := Ideal))) W) := by
    rw [← Cert.Lib.after_append, List.take_append_drop]
  rw [e]
  have k_h1070 : StableHlo.after (List.take 2 (hostOps4 (F := Ideal))) W (Proc.devRef .tc main_call0_v108) = Cert.ReferenceIdeal.ReadP.val_main_v172 (F := Ideal) x2 x3 x4 x5 x6 x7 x8 x9 := by
    simp only [hostOps4, List.take_succ_cons, List.take_zero]
    after_results
    rw [h1070]
    exact cast_cast _ _ _
  have k_h1071 : StableHlo.after (List.take 2 (hostOps4 (F := Ideal))) W (Proc.devRef .tc main_call0_v109) = Cert.ReferenceIdeal.ReadP.val_main_v193 (F := Ideal) x2 x3 x4 x5 x6 x7 x8 x9 := by
    simp only [hostOps4, List.take_succ_cons, List.take_zero]
    after_results
    rw [h1071]
    exact cast_cast _ _ _
  have k4 : StableHlo.after (List.take 2 (hostOps4 (F := Ideal))) W (Proc.devRef .tc main_arg4) = x4 := by
    simp only [hostOps4, List.take_succ_cons, List.take_zero]
    after_results
    exact h4
  have k5 : StableHlo.after (List.take 2 (hostOps4 (F := Ideal))) W (Proc.devRef .tc main_arg5) = x5 := by
    simp only [hostOps4, List.take_succ_cons, List.take_zero]
    after_results
    exact h5
  have k6 : StableHlo.after (List.take 2 (hostOps4 (F := Ideal))) W (Proc.devRef .tc main_arg6) = x6 := by
    simp only [hostOps4, List.take_succ_cons, List.take_zero]
    after_results
    exact h6
  generalize StableHlo.after (List.take 2 (hostOps4 (F := Ideal))) W = W' at k_h1070 k_h1071 k4 k5 k6 ⊢
  simp only [hostOps4, List.drop_succ_cons, List.drop_zero]
  after_results_simp
  rw [k_h1070, k_h1071, k4, k5, k6]
  rfl

set_option maxHeartbeats 8000000 in
theorem s5_v162 (x2 : (⟨S65536x147, .f32⟩ : BufTy).Contents (Elt Ideal)) (x3 : (⟨S65536x147, .f32⟩ : BufTy).Contents (Elt Ideal)) (x4 : (⟨S32768x6, .i32⟩ : BufTy).Contents (Elt Ideal)) (x5 : (⟨S65536, .i32⟩ : BufTy).Contents (Elt Ideal)) (x6 : (⟨S65536, .i32⟩ : BufTy).Contents (Elt Ideal)) (x7 : (⟨S147x256, .f32⟩ : BufTy).Contents (Elt Ideal)) (x8 : (⟨S256x256, .f32⟩ : BufTy).Contents (Elt Ideal)) (x9 : (⟨S256x256, .f32⟩ : BufTy).Contents (Elt Ideal)) (x10 : (⟨S256x256, .f32⟩ : BufTy).Contents (Elt Ideal)) (x11 : (⟨S256, .f32⟩ : BufTy).Contents (Elt Ideal)) (W : Valuation τ sig (Elt Ideal)) (h139 : W (Proc.devRef .tc main_call0_v139) = Cert.ReferenceIdeal.ReadP.val_main_v228 (F := Ideal) x2 x3 x4 x5 x6 x7 x8 x9 x10 x11) (h4 : W (Proc.devRef .tc main_arg4) = x4) (h5 : W (Proc.devRef .tc main_arg5) = x5) (h6 : W (Proc.devRef .tc main_arg6) = x6) :
    StableHlo.after (hostOps5 (F := Ideal)) W (Proc.devRef .tc main_call0_v162) = Cert.ReferenceIdeal.ReadP.val_main_v251 (F := Ideal) x2 x3 x4 x5 x6 x7 x8 x9 x10 x11 := by
  after_results_simp
  rw [h139, h4, h5, h6]
  rfl

end Cert.KGlue4

end
-- ==== Proof.KPres.lean ====
import proofs.«135133_j46703474376853_2_alg».proof.Proof.Gen.KernelIdeal.Frame
import Idealize.ShloMosaic.PureOps.Ideal

/-!
# What each boundary keeps

The program's run is a fold of buffer contents through its thirteen segments. A buffer that a segment does not
write holds at the segment's end what it held at its start: an argument array holds its launch contents at every
boundary, and an intermediate table holds, at every later boundary before it is next written, what the segment
that produced it left there.
-/

set_option maxRecDepth 16384

noncomputable section

namespace Cert.KPres

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem arg4_at_3 : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_at_3 : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_at_3 : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg4_at_5 : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_at_5 : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_at_5 : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg0_at_7 : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg1_at_7 : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem arg4_at_7 : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_at_7 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_at_7 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg4_at_9 : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_at_9 : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_at_9 : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg4_at_11 : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg4) := W9_of_ne m ρ c main_arg4 (by decide)
    _ = W7 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg12_at_11 : W11 m ρ c (Proc.devRef .tc main_arg12) = m ((c : Thread nD τ).loc main_arg12) :=
  calc W11 m ρ c (Proc.devRef .tc main_arg12)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem arg2_at_1 : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg7_at_1 : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg3_at_2 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg7_at_2 : W2 m ρ c (Proc.devRef .tc main_arg7) = m ((c : Thread nD τ).loc main_arg7) :=
  calc W2 m ρ c (Proc.devRef .tc main_arg7)
    _ = W1 m ρ c (Proc.devRef .tc main_arg7) := (W2_arr m ρ c 1).trans (((dat0 (V1 m ρ) c).arrAt_in 1 rfl _).trans (A_eq0 (V1 m ρ) c 1))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg8_at_4 : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg9_at_4 : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg8_at_6 : W6 m ρ c (Proc.devRef .tc main_arg8) = m ((c : Thread nD τ).loc main_arg8) :=
  calc W6 m ρ c (Proc.devRef .tc main_arg8)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := (W5_arr m ρ c 4).trans (((dat2 (V4 m ρ) c).arrAt_in 4 rfl _).trans (A_eq2 (V4 m ρ) c 4))
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg9_at_6 : W6 m ρ c (Proc.devRef .tc main_arg9) = m ((c : Thread nD τ).loc main_arg9) :=
  calc W6 m ρ c (Proc.devRef .tc main_arg9)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := (W5_arr m ρ c 5).trans (((dat2 (V4 m ρ) c).arrAt_in 5 rfl _).trans (A_eq2 (V4 m ρ) c 5))
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg10_at_8 : W8 m ρ c (Proc.devRef .tc main_arg10) = m ((c : Thread nD τ).loc main_arg10) :=
  calc W8 m ρ c (Proc.devRef .tc main_arg10)
    _ = W7 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg10_at_10 : W10 m ρ c (Proc.devRef .tc main_arg10) = m ((c : Thread nD τ).loc main_arg10) :=
  calc W10 m ρ c (Proc.devRef .tc main_arg10)
    _ = W9 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := (W9_arr m ρ c 2).trans (((dat4 (V8 m ρ) c).arrAt_in 2 rfl _).trans (A_eq4 (V8 m ρ) c 2))
    _ = W7 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg11_at_0 : W0 m ρ c (Proc.devRef .tc main_arg11) = m ((c : Thread nD τ).loc main_arg11) := rfl

theorem arg13_at_0 : W0 m ρ c (Proc.devRef .tc main_arg13) = m ((c : Thread nD τ).loc main_arg13) := rfl

theorem keep_v2_0_2_3 : W3 m ρ c (Proc.devRef .tc main_call0_v2_0) = W2 m ρ c (Proc.devRef .tc main_call0_v2_0) :=
  calc W3 m ρ c (Proc.devRef .tc main_call0_v2_0)
    _ = W2 m ρ c (Proc.devRef .tc main_call0_v2_0) := W3_of_ne m ρ c main_call0_v2_0 (by decide)

theorem keep_v2_0_2_5 : W5 m ρ c (Proc.devRef .tc main_call0_v2_0) = W2 m ρ c (Proc.devRef .tc main_call0_v2_0) :=
  calc W5 m ρ c (Proc.devRef .tc main_call0_v2_0)
    _ = W4 m ρ c (Proc.devRef .tc main_call0_v2_0) := W5_of_ne m ρ c main_call0_v2_0 (by decide)
    _ = W3 m ρ c (Proc.devRef .tc main_call0_v2_0) := StableHlo.after_of_forall_not_mem (b := Proc.devRef .tc main_call0_v2_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v2_0) := W3_of_ne m ρ c main_call0_v2_0 (by decide)

theorem keep_v2_0_2_7 : W7 m ρ c (Proc.devRef .tc main_call0_v2_0) = W2 m ρ c (Proc.devRef .tc main_call0_v2_0) :=
  calc W7 m ρ c (Proc.devRef .tc main_call0_v2_0)
    _ = W6 m ρ c (Proc.devRef .tc main_call0_v2_0) := W7_of_ne m ρ c main_call0_v2_0 (by decide)
    _ = W5 m ρ c (Proc.devRef .tc main_call0_v2_0) := StableHlo.after_of_forall_not_mem (b := Proc.devRef .tc main_call0_v2_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_call0_v2_0) := W5_of_ne m ρ c main_call0_v2_0 (by decide)
    _ = W3 m ρ c (Proc.devRef .tc main_call0_v2_0) := StableHlo.after_of_forall_not_mem (b := Proc.devRef .tc main_call0_v2_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v2_0) := W3_of_ne m ρ c main_call0_v2_0 (by decide)

theorem keep_v3_0_3_5 : W5 m ρ c (Proc.devRef .tc main_call0_v3_0) = W3 m ρ c (Proc.devRef .tc main_call0_v3_0) :=
  calc W5 m ρ c (Proc.devRef .tc main_call0_v3_0)
    _ = W4 m ρ c (Proc.devRef .tc main_call0_v3_0) := W5_of_ne m ρ c main_call0_v3_0 (by decide)
    _ = W3 m ρ c (Proc.devRef .tc main_call0_v3_0) := StableHlo.after_of_forall_not_mem (b := Proc.devRef .tc main_call0_v3_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_0_3_7 : W7 m ρ c (Proc.devRef .tc main_call0_v3_0) = W3 m ρ c (Proc.devRef .tc main_call0_v3_0) :=
  calc W7 m ρ c (Proc.devRef .tc main_call0_v3_0)
    _ = W6 m ρ c (Proc.devRef .tc main_call0_v3_0) := W7_of_ne m ρ c main_call0_v3_0 (by decide)
    _ = W5 m ρ c (Proc.devRef .tc main_call0_v3_0) := StableHlo.after_of_forall_not_mem (b := Proc.devRef .tc main_call0_v3_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_call0_v3_0) := W5_of_ne m ρ c main_call0_v3_0 (by decide)
    _ = W3 m ρ c (Proc.devRef .tc main_call0_v3_0) := StableHlo.after_of_forall_not_mem (b := Proc.devRef .tc main_call0_v3_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v2_1_2_3 : W3 m ρ c (Proc.devRef .tc main_call0_v2_1) = W2 m ρ c (Proc.devRef .tc main_call0_v2_1) :=
  calc W3 m ρ c (Proc.devRef .tc main_call0_v2_1)
    _ = W2 m ρ c (Proc.devRef .tc main_call0_v2_1) := W3_of_ne m ρ c main_call0_v2_1 (by decide)

theorem keep_v0_1_8 : W8 m ρ c (Proc.devRef .tc main_call0_v0) = W1 m ρ c (Proc.devRef .tc main_call0_v0) :=
  calc W8 m ρ c (Proc.devRef .tc main_call0_v0)
    _ = W7 m ρ c (Proc.devRef .tc main_call0_v0) := StableHlo.after_of_forall_not_mem (b := Proc.devRef .tc main_call0_v0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_call0_v0) := W7_of_ne m ρ c main_call0_v0 (by decide)
    _ = W5 m ρ c (Proc.devRef .tc main_call0_v0) := StableHlo.after_of_forall_not_mem (b := Proc.devRef .tc main_call0_v0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_call0_v0) := W5_of_ne m ρ c main_call0_v0 (by decide)
    _ = W3 m ρ c (Proc.devRef .tc main_call0_v0) := StableHlo.after_of_forall_not_mem (b := Proc.devRef .tc main_call0_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v0) := W3_of_ne m ρ c main_call0_v0 (by decide)
    _ = W1 m ρ c (Proc.devRef .tc main_call0_v0) := W2_of_ne m ρ c main_call0_v0 (by decide)

theorem keep_v0_1_10 : W10 m ρ c (Proc.devRef .tc main_call0_v0) = W1 m ρ c (Proc.devRef .tc main_call0_v0) :=
  calc W10 m ρ c (Proc.devRef .tc main_call0_v0)
    _ = W9 m ρ c (Proc.devRef .tc main_call0_v0) := StableHlo.after_of_forall_not_mem (b := Proc.devRef .tc main_call0_v0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_call0_v0) := (W9_arr m ρ c 3).trans (((dat4 (V8 m ρ) c).arrAt_in 3 rfl _).trans (A_eq4 (V8 m ρ) c 3))
    _ = W7 m ρ c (Proc.devRef .tc main_call0_v0) := StableHlo.after_of_forall_not_mem (b := Proc.devRef .tc main_call0_v0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_call0_v0) := W7_of_ne m ρ c main_call0_v0 (by decide)
    _ = W5 m ρ c (Proc.devRef .tc main_call0_v0) := StableHlo.after_of_forall_not_mem (b := Proc.devRef .tc main_call0_v0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_call0_v0) := W5_of_ne m ρ c main_call0_v0 (by decide)
    _ = W3 m ρ c (Proc.devRef .tc main_call0_v0) := StableHlo.after_of_forall_not_mem (b := Proc.devRef .tc main_call0_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v0) := W3_of_ne m ρ c main_call0_v0 (by decide)
    _ = W1 m ρ c (Proc.devRef .tc main_call0_v0) := W2_of_ne m ρ c main_call0_v0 (by decide)

theorem keep_v1_1_12 : W12 m ρ c (Proc.devRef .tc main_call0_v1) = W1 m ρ c (Proc.devRef .tc main_call0_v1) :=
  calc W12 m ρ c (Proc.devRef .tc main_call0_v1)
    _ = W11 m ρ c (Proc.devRef .tc main_call0_v1) := StableHlo.after_of_forall_not_mem (b := Proc.devRef .tc main_call0_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_call0_v1) := W11_of_ne m ρ c main_call0_v1 (by decide)
    _ = W9 m ρ c (Proc.devRef .tc main_call0_v1) := StableHlo.after_of_forall_not_mem (b := Proc.devRef .tc main_call0_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_call0_v1) := W9_of_ne m ρ c main_call0_v1 (by decide)
    _ = W7 m ρ c (Proc.devRef .tc main_call0_v1) := StableHlo.after_of_forall_not_mem (b := Proc.devRef .tc main_call0_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_call0_v1) := W7_of_ne m ρ c main_call0_v1 (by decide)
    _ = W5 m ρ c (Proc.devRef .tc main_call0_v1) := StableHlo.after_of_forall_not_mem (b := Proc.devRef .tc main_call0_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_call0_v1) := W5_of_ne m ρ c main_call0_v1 (by decide)
    _ = W3 m ρ c (Proc.devRef .tc main_call0_v1) := StableHlo.after_of_forall_not_mem (b := Proc.devRef .tc main_call0_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_call0_v1) := W3_of_ne m ρ c main_call0_v1 (by decide)
    _ = W1 m ρ c (Proc.devRef .tc main_call0_v1) := W2_of_ne m ρ c main_call0_v1 (by decide)

theorem keep_v113_8_10 : W10 m ρ c (Proc.devRef .tc main_call0_v113) = W8 m ρ c (Proc.devRef .tc main_call0_v113) :=
  calc W10 m ρ c (Proc.devRef .tc main_call0_v113)
    _ = W9 m ρ c (Proc.devRef .tc main_call0_v113) := StableHlo.after_of_forall_not_mem (b := Proc.devRef .tc main_call0_v113) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_call0_v113) := (W9_arr m ρ c 0).trans (((dat4 (V8 m ρ) c).arrAt_in 0 rfl _).trans (A_eq4 (V8 m ρ) c 0))

theorem keep_v115_8_12 : W12 m ρ c (Proc.devRef .tc main_call0_v115) = W8 m ρ c (Proc.devRef .tc main_call0_v115) :=
  calc W12 m ρ c (Proc.devRef .tc main_call0_v115)
    _ = W11 m ρ c (Proc.devRef .tc main_call0_v115) := StableHlo.after_of_forall_not_mem (b := Proc.devRef .tc main_call0_v115) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_call0_v115) := W11_of_ne m ρ c main_call0_v115 (by decide)
    _ = W9 m ρ c (Proc.devRef .tc main_call0_v115) := StableHlo.after_of_forall_not_mem (b := Proc.devRef .tc main_call0_v115) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_call0_v115) := W9_of_ne m ρ c main_call0_v115 (by decide)

end Cert.KPres

end
-- ==== Proof.KSmall.lean ====
import proofs.«135133_j46703474376853_2_alg».proof.Proof.Gen.KernelIdeal.Skeleton
import proofs.«135133_j46703474376853_2_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The three small kernel bodies over the extended reals

The input projection is a matrix product and its rectifier; the hidden update with bias is the rectifier of the
carried row plus the projected aggregate plus the bias row; the read-out is the mean over a molecule's 64 atoms
of the rectified sum of two matrix products and the bias. Each payload, read at a pair of coordinates, is the
corresponding function of coordinates of the specification: a matrix product read at an index is the sum over
the contracted coordinate, narrowing to a shorter float format is the identity, the zero pattern is the real
zero, a reshape of rows `[2048] → [32, 64]` sends `(m, a)` to row `m * 64 + a`, and the sum over the middle axis
is a sum over `Fin 64`.
-/

noncomputable section

namespace Cert.KSmall

open Cert.KernelIdeal Cert.KernelIdeal.Gen Cert.Spec Idealize.ShloMosaic Idealize.ShloMosaic.ValueIdx

/-- The operand indices of the product `[2048,147] × [147,256]` at an output index and a contraction index, by coordinate. -/
theorem dot_147_lhs0 (i : S2048x256.Idx) (q : dot_S2048x147_S147x256_S2048x256_1_0_0_1_n_n.contr.Idx) : (dot_S2048x147_S147x256_S2048x256_1_0_0_1_n_n.lhsIdx i q 0).val = (i 0).val := by
  unfold DotDims.lhsIdx
  rw [dif_neg (show ¬(0 : Fin S2048x147.rank) ∈ dot_S2048x147_S147x256_S2048x256_1_0_0_1_n_n.lhsBatch by decide), dif_pos (show (0 : Fin S2048x147.rank) ∈ dot_S2048x147_S147x256_S2048x256_1_0_0_1_n_n.lhsNonContracting by decide)]
  rfl
theorem dot_147_lhs1 (i : S2048x256.Idx) (q : dot_S2048x147_S147x256_S2048x256_1_0_0_1_n_n.contr.Idx) : (dot_S2048x147_S147x256_S2048x256_1_0_0_1_n_n.lhsIdx i q 1).val = (q ⟨0, by decide⟩).val :=
  dot_S2048x147_S147x256_S2048x256_1_0_0_1_n_n.lhsIdx_val_of_single rfl i q
theorem dot_147_rhs0 (i : S2048x256.Idx) (q : dot_S2048x147_S147x256_S2048x256_1_0_0_1_n_n.contr.Idx) : (dot_S2048x147_S147x256_S2048x256_1_0_0_1_n_n.rhsIdx i q 0).val = (q ⟨0, by decide⟩).val :=
  dot_S2048x147_S147x256_S2048x256_1_0_0_1_n_n.rhsIdx_val_of_single rfl i q
theorem dot_147_rhs1 (i : S2048x256.Idx) (q : dot_S2048x147_S147x256_S2048x256_1_0_0_1_n_n.contr.Idx) : (dot_S2048x147_S147x256_S2048x256_1_0_0_1_n_n.rhsIdx i q 1).val = (i 1).val := by
  unfold DotDims.rhsIdx
  rw [dif_neg (show ¬(1 : Fin S147x256.rank) ∈ dot_S2048x147_S147x256_S2048x256_1_0_0_1_n_n.rhsBatch by decide), dif_pos (show (1 : Fin S147x256.rank) ∈ dot_S2048x147_S147x256_S2048x256_1_0_0_1_n_n.rhsNonContracting by decide)]
  rfl

/-- The matrix product `[2048,147] × [147,256]` into the zero accumulator, read at `(r, c)`: the sum over `k`. -/
theorem dot_147 (a : FVec Ideal S2048x147 .bf16) (b : FVec Ideal S147x256 .bf16) (r : Fin 2048) (c : Fin 256) :
    matmul dot_S2048x147_S147x256_S2048x256_1_0_0_1_n_n none a b (constant (F := Ideal) S2048x256 .f32 0x00000000#32) (ix2 r c)
      = ∑ k : Fin 147, a (ix2 r k) * b (ix2 k c) := by
  refine (Ideal.matmul_constant_zero_apply dot_S2048x147_S147x256_S2048x256_1_0_0_1_n_n none a b (ix2 r c)).trans ?_
  rw [← Equiv.sum_comp (contrEquiv1 dot_S2048x147_S147x256_S2048x256_1_0_0_1_n_n 147 rfl rfl).symm]
  refine Finset.sum_congr rfl fun k _ => ?_
  have hk := contrEquiv1_symm_val dot_S2048x147_S147x256_S2048x256_1_0_0_1_n_n 147 rfl rfl k
  have el : dot_S2048x147_S147x256_S2048x256_1_0_0_1_n_n.lhsIdx (ix2 r c) ((contrEquiv1 dot_S2048x147_S147x256_S2048x256_1_0_0_1_n_n 147 rfl rfl).symm k) = ix2 r k := funext fun x => Fin.ext (by
    match x with
    | ⟨0, _⟩ => exact dot_147_lhs0 _ _
    | ⟨1, _⟩ => exact (dot_147_lhs1 _ _).trans hk)
  have er : dot_S2048x147_S147x256_S2048x256_1_0_0_1_n_n.rhsIdx (ix2 r c) ((contrEquiv1 dot_S2048x147_S147x256_S2048x256_1_0_0_1_n_n 147 rfl rfl).symm k) = ix2 k c := funext fun x => Fin.ext (by
    match x with
    | ⟨0, _⟩ => exact (dot_147_rhs0 _ _).trans hk
    | ⟨1, _⟩ => exact dot_147_rhs1 _ _)
  rw [el, er]

/-- The operand indices of the product `[2048,256] × [256,256]` at an output index and a contraction index, by coordinate. -/
theorem dot_256_lhs0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem dot_256_lhs1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem dot_256_rhs0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem dot_256_rhs1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The matrix product `[2048,256] × [256,256]` into the zero accumulator, read at `(r, c)`: the sum over `k`. -/
theorem dot_256 (a : FVec Ideal S2048x256 .bf16) (b : FVec Ideal S256x256 .bf16) (r : Fin 2048) (c : Fin 256) :
    matmul dot_S2048x256_S256x256_S2048x256_1_0_0_1_n_n none a b (constant (F := Ideal) S2048x256 .f32 0x00000000#32) (ix2 r c)
      = ∑ k : Fin 256, a (ix2 r k) * b (ix2 k c) := by
  refine (Ideal.matmul_constant_zero_apply dot_S2048x256_S256x256_S2048x256_1_0_0_1_n_n none a b (ix2 r c)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r c) ((contrEquiv1 dot_S2048x256_S256x256_S2048x256_1_0_0_1_n_n 256 rfl rfl).symm k) = ix2 r k := funext fun x => Fin.ext (by
    match x with
    | ⟨0, _⟩ => exact dot_256_lhs0 _ _
    | ⟨1, _⟩ => exact (dot_256_lhs1 _ _).trans hk)
  have er : dot_S2048x256_S256x256_S2048x256_1_0_0_1_n_n.rhsIdx (ix2 r c) ((contrEquiv1 dot_S2048x256_S256x256_S2048x256_1_0_0_1_n_n 256 rfl rfl).symm k) = ix2 k c := funext fun x => Fin.ext (by
    match x with
    | ⟨0, _⟩ => exact (dot_256_rhs0 _ _).trans hk
    | ⟨1, _⟩ => exact dot_256_rhs1 _ _)
  rw [el, er]

/-- The operand indices of the product `[2048,133] × [133,256]` at an output index and a contraction index, by coordinate. -/
theorem dot_133_lhs0 (i : S2048x256.Idx) (q : dot_S2048x133_S133x256_S2048x256_1_0_0_1_n_n.contr.Idx) : (dot_S2048x133_S133x256_S2048x256_1_0_0_1_n_n.lhsIdx i q 0).val = (i 0).val := by
  unfold DotDims.lhsIdx
  rw [dif_neg (show ¬(0 : Fin S2048x133.rank) ∈ dot_S2048x133_S133x256_S2048x256_1_0_0_1_n_n.lhsBatch by decide), dif_pos (show (0 : Fin S2048x133.rank) ∈ dot_S2048x133_S133x256_S2048x256_1_0_0_1_n_n.lhsNonContracting by decide)]
  rfl
theorem dot_133_lhs1 (i : S2048x256.Idx) (q : dot_S2048x133_S133x256_S2048x256_1_0_0_1_n_n.contr.Idx) : (dot_S2048x133_S133x256_S2048x256_1_0_0_1_n_n.lhsIdx i q 1).val = (q ⟨0, by decide⟩).val :=
  dot_S2048x133_S133x256_S2048x256_1_0_0_1_n_n.lhsIdx_val_of_single rfl i q
theorem dot_133_rhs0 (i : S2048x256.Idx) (q : dot_S2048x133_S133x256_S2048x256_1_0_0_1_n_n.contr.Idx) : (dot_S2048x133_S133x256_S2048x256_1_0_0_1_n_n.rhsIdx i q 0).val = (q ⟨0, by decide⟩).val :=
  dot_S2048x133_S133x256_S2048x256_1_0_0_1_n_n.rhsIdx_val_of_single rfl i q
theorem dot_133_rhs1 (i : S2048x256.Idx) (q : dot_S2048x133_S133x256_S2048x256_1_0_0_1_n_n.contr.Idx) : (dot_S2048x133_S133x256_S2048x256_1_0_0_1_n_n.rhsIdx i q 1).val = (i 1).val := by
  unfold DotDims.rhsIdx
  rw [dif_neg (show ¬(1 : Fin S133x256.rank) ∈ dot_S2048x133_S133x256_S2048x256_1_0_0_1_n_n.rhsBatch by decide), dif_pos (show (1 : Fin S133x256.rank) ∈ dot_S2048x133_S133x256_S2048x256_1_0_0_1_n_n.rhsNonContracting by decide)]
  rfl

/-- The matrix product `[2048,133] × [133,256]` into the zero accumulator, read at `(r, c)`: the sum over `k`. -/
theorem dot_133 (a : FVec Ideal S2048x133 .bf16) (b : FVec Ideal S133x256 .bf16) (r : Fin 2048) (c : Fin 256) :
    matmul dot_S2048x133_S133x256_S2048x256_1_0_0_1_n_n none a b (constant (F := Ideal) S2048x256 .f32 0x00000000#32) (ix2 r c)
      = ∑ k : Fin 133, a (ix2 r k) * b (ix2 k c) := by
  refine (Ideal.matmul_constant_zero_apply dot_S2048x133_S133x256_S2048x256_1_0_0_1_n_n none a b (ix2 r c)).trans ?_
  rw [← Equiv.sum_comp (contrEquiv1 dot_S2048x133_S133x256_S2048x256_1_0_0_1_n_n 133 rfl rfl).symm]
  refine Finset.sum_congr rfl fun k _ => ?_
  have hk := contrEquiv1_symm_val dot_S2048x133_S133x256_S2048x256_1_0_0_1_n_n 133 rfl rfl k
  have el : dot_S2048x133_S133x256_S2048x256_1_0_0_1_n_n.lhsIdx (ix2 r c) ((contrEquiv1 dot_S2048x133_S133x256_S2048x256_1_0_0_1_n_n 133 rfl rfl).symm k) = ix2 r k := funext fun x => Fin.ext (by
    match x with
    | ⟨0, _⟩ => exact dot_133_lhs0 _ _
    | ⟨1, _⟩ => exact (dot_133_lhs1 _ _).trans hk)
  have er : dot_S2048x133_S133x256_S2048x256_1_0_0_1_n_n.rhsIdx (ix2 r c) ((contrEquiv1 dot_S2048x133_S133x256_S2048x256_1_0_0_1_n_n 133 rfl rfl).symm k) = ix2 k c := funext fun x => Fin.ext (by
    match x with
    | ⟨0, _⟩ => exact (dot_133_rhs0 _ _).trans hk
    | ⟨1, _⟩ => exact dot_133_rhs1 _ _)
  rw [el, er]

theorem proj_lin0 (x0 : Vec Ideal S2048x147 .f32) (x1 : Vec Ideal S147x256 .f32) (r : Fin 2048) (c : Fin 256) :
    k0_pay1 x0 x1 (ix2 r c) = dotRow (to2 x0 r) (to2 x1) c := by
  unfold k0_pay1
  refine (dot_147 _ _ r c).trans ?_
  rfl

theorem proj_act0 (x0 : Vec Ideal S2048x147 .f32) (x1 : Vec Ideal S147x256 .f32) (r : Fin 2048) (c : Fin 256) :
    k0_pay2 x0 x1 (ix2 r c) = relu (dotRow (to2 x0 r) (to2 x1) c) := by
  unfold k0_pay2
  rw [maximumf_apply, broadcast_apply, proj_lin0]
  show max _ (Ideal.ofBits .f32 0x00000000#32) = _
  rw [Ideal.ofBits_zero_f32]
  rfl

theorem proj_lin1 (x0 : Vec Ideal S2048x147 .f32) (x1 : Vec Ideal S147x256 .f32) (r : Fin 2048) (c : Fin 256) :
    k1_pay1 x0 x1 (ix2 r c) = dotRow (to2 x0 r) (to2 x1) c := by
  unfold k1_pay1
  refine (dot_147 _ _ r c).trans ?_
  rfl

theorem proj_act1 (x0 : Vec Ideal S2048x147 .f32) (x1 : Vec Ideal S147x256 .f32) (r : Fin 2048) (c : Fin 256) :
    k1_pay2 x0 x1 (ix2 r c) = relu (dotRow (to2 x0 r) (to2 x1) c) := by
  unfold k1_pay2
  rw [maximumf_apply, broadcast_apply, proj_lin1]
  show max _ (Ideal.ofBits .f32 0x00000000#32) = _
  rw [Ideal.ofBits_zero_f32]
  rfl

theorem upd4 (x0 x1 : Vec Ideal S2048x256 .f32) (x2 : Vec Ideal S256x256 .f32) (x3 : Vec Ideal S1x256 .f32) (r : Fin 2048) (c : Fin 256) :
    k4_pay1 x0 x1 x2 x3 (ix2 r c) = updRow (to2 x0 r) (to2 x1 r) (to2 x2) (to2 x3 0) c := by
  unfold k4_pay1
  rw [maximumf_apply, broadcast_apply, addf_apply, addf_apply, dot_256, broadcastTo_1b_ab_apply]
  simp only [shapeCast_self, truncf_apply]
  show max _ (Ideal.ofBits .f32 0x00000000#32) = _
  rw [Ideal.ofBits_zero_f32]
  rfl

theorem upd5 (x0 x1 : Vec Ideal S2048x256 .f32) (x2 : Vec Ideal S256x256 .f32) (x3 : Vec Ideal S1x256 .f32) (r : Fin 2048) (c : Fin 256) :
    k5_pay1 x0 x1 x2 x3 (ix2 r c) = updRow (to2 x0 r) (to2 x1 r) (to2 x2) (to2 x3 0) c := by
  unfold k5_pay1
  rw [maximumf_apply, broadcast_apply, addf_apply, addf_apply, dot_256, broadcastTo_1b_ab_apply]
  simp only [shapeCast_self, truncf_apply]
  show max _ (Ideal.ofBits .f32 0x00000000#32) = _
  rw [Ideal.ofBits_zero_f32]
  rfl

/-- Row `m * 64 + a` of the flat atom block is atom `a` of molecule `m`. -/
def lrow (m : Fin 32) (a : Fin 64) : Fin 2048 := ⟨m.val * 64 + a.val, by have := m.isLt; have := a.isLt; omega⟩

theorem out6 (x0 : Vec Ideal S2048x133 .f32) (x1 : Vec Ideal S2048x256 .f32) (x2 : Vec Ideal S133x256 .f32) (x3 : Vec Ideal S256x256 .f32) (x4 : Vec Ideal S1x256 .f32) (m : Fin 32) (c : Fin 256) :
    k6_pay1 x0 x1 x2 x3 x4 (ix2 m c) = outMol (fun a k => x0 (ix2 (lrow m a) k)) (fun a k => x1 (ix2 (lrow m a) k)) (to2 x2) (to2 x3) (to2 x4 0) c := by
  unfold k6_pay1
  refine (divf_apply _ _ (ix2 m c)).trans ?_
  unfold outMol
  refine congrArg₂ Ideal.div ?_ rfl
  refine (Ideal.multiReduction_add_single _ 0x00000000#32 reduces_S32x64x256_S32x256 (.inl rfl) rfl (ix2 m c)).trans ?_
  show ∑ a : Fin 64, _ = _
  refine Finset.sum_congr rfl fun a _ => ?_
  have hl : reduces_S32x64x256_S32x256.lift (ix2 m c) a = ix3 m a c := funext fun x => Fin.ext (by
    match x with
    | ⟨0, _⟩ => rfl
    | ⟨1, _⟩ => rfl
    | ⟨2, _⟩ => rfl)
  rw [hl, shapeCast_apply _ shapeCasts_S2048x256_S32x64x256 (ix3 m a c) (ix2 (lrow m a) c) (by
    rw [Shape.rowMajor_val_two, Shape.rowMajor_val_three]; rfl)]
  rw [maximumf_apply, broadcast_apply, addf_apply, addf_apply, dot_133, dot_256, broadcastTo_1b_ab_apply]
  simp only [shapeCast_self, truncf_apply]
  show max _ (Ideal.ofBits .f32 0x00000000#32) = _
  rw [Ideal.ofBits_zero_f32]
  rfl

end Cert.KSmall

end
-- ==== Proof.KArr0.lean ====
import proofs.«135133_j46703474376853_2_alg».proof.Proof.Gen.KernelIdeal.Frame
import proofs.«135133_j46703474376853_2_alg».proof.Proof.KSmall
import proofs.«135133_j46703474376853_2_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The input projections' result arrays

The first two regions tile the 65536 rows of the bond features into 32 blocks of 2048 rows; at each block the
body multiplies the block's rows by the whole weight and stores the product and its rectifier. A row of a matrix
product depends on the same row of the left operand only, so block `t` of the product of the whole arrays is
the product of block `t` of the left operand with the weight: every point writes back block `t` of one
function of the arrays, the blocks cover all rows, and the arrays end holding that function.
-/

set_option maxRecDepth 16384

noncomputable section

namespace Cert.KArr0

open Cert.KernelIdeal Cert.KernelIdeal.Gen Cert.Spec Cert.KSmall Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The product of the whole arrays, and its rectifier, as functions of an index. -/
def lin (X0 : A2 65536 147) (X1 : A2 147 256) : A2 65536 256 := fun j => dotRow (to2 X0 (j 0)) (to2 X1) (j 1)
def act (X0 : A2 65536 147) (X1 : A2 147 256) : A2 65536 256 := fun j => relu (dotRow (to2 X0 (j 0)) (to2 X1) (j 1))

/-- The index maps over the 32 points: the row blocks move with the point, the weight stays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One block: the payloads at block coordinates, from a block of rows `R + p` of the left array and the whole weight. -/
theorem block_lin (X0 : A2 65536 147) (X1 : A2 147 256) (x0 : Vec Ideal S2048x147 .f32) (x1 : Vec Ideal S147x256 .f32)
    (R : Nat) (h0 : ∀ (p : Fin 2048) (k : Fin 147) (r : Fin 65536), r.val = R + p.val → x0 (ix2 p k) = X0 (ix2 r k))
    (h1 : ∀ (k : Fin 147) (q : Fin 256), x1 (ix2 k q) = X1 (ix2 k q))
    (p : Fin 2048) (q : Fin 256) (r : Fin 65536) (hr : r.val = R + p.val) :
    k0_pay1 x0 x1 (ix2 p q) = dotRow (to2 X0 r) (to2 X1) q := by
  rw [proj_lin0]
  unfold dotRow to2
  exact Finset.sum_congr rfl fun k _ => by rw [h0 p k r hr, h1 k q]

theorem block_act (X0 : A2 65536 147) (X1 : A2 147 256) (x0 : Vec Ideal S2048x147 .f32) (x1 : Vec Ideal S147x256 .f32)
    (R : Nat) (h0 : ∀ (p : Fin 2048) (k : Fin 147) (r : Fin 65536), r.val = R + p.val → x0 (ix2 p k) = X0 (ix2 r k))
    (h1 : ∀ (k : Fin 147) (q : Fin 256), x1 (ix2 k q) = X1 (ix2 k q))
    (p : Fin 2048) (q : Fin 256) (r : Fin 65536) (hr : r.val = R + p.val) :
    k0_pay2 x0 x1 (ix2 p q) = relu (dotRow (to2 X0 r) (to2 X1) q) := by
  rw [proj_act0]
  unfold dotRow to2
  exact congrArg relu (Finset.sum_congr rfl fun k _ => by rw [h0 p k r hr, h1 k q])

/-- The input blocks at point `t`, read at block coordinates. -/
theorem iblk_left (c : Dev nD) (t : Fin cfg0.N) (p : Fin 2048) (k : Fin 147) (r : Fin 65536) (hr : r.val = 2048 * t.val + p.val) :
    (iblk0 V c 0 t : Vec Ideal S2048x147 .f32) (ix2 p k) = (V c (Pipeline.arrRef spec0 0) : A2 65536 147) (ix2 r k) := by
  obtain ⟨e0, e1, -⟩ := index_facts t
  unfold iblk0
  rw [View.read_apply]
  refine congrArg (V c (Pipeline.arrRef spec0 0) : A2 65536 147) (funext fun a => Fin.ext ?_)
  match a with
  | ⟨0, _⟩ => show win0_0.index t (0 : Fin 2) * 2048 + 1 * p.val = r.val; omega
  | ⟨1, _⟩ => show win0_0.index t (1 : Fin 2) * 147 + 1 * k.val = k.val; omega

theorem iblk_weight (c : Dev nD) (t : Fin cfg0.N) (k : Fin 147) (q : Fin 256) :
    (iblk0 V c 1 t : Vec Ideal S147x256 .f32) (ix2 k q) = (V c (Pipeline.arrRef spec0 1) : A2 147 256) (ix2 k q) := by
  obtain ⟨-, -, e2, e3, -⟩ := index_facts t
  unfold iblk0
  rw [View.read_apply]
  refine congrArg (V c (Pipeline.arrRef spec0 1) : A2 147 256) (funext fun a => Fin.ext ?_)
  match a with
  | ⟨0, _⟩ => show win0_1.index t (0 : Fin 2) * 147 + 1 * k.val = k.val; omega
  | ⟨1, _⟩ => show win0_1.index t (1 : Fin 2) * 256 + 1 * q.val = q.val; omega

/-- What point `t` writes back is block `t` of the product of the arrays as the region finds them. -/
theorem flushed_lin (c : Dev nD) (t : Fin cfg0.N) :
    (dat0 V c).flushed 2 t = ((cfg0.win 2).blk t).view.read (Elt Ideal) (lin (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S2048x147) zero_offsets, View.ld_unit_zero (S := S147x256) zero_offsets]
  obtain ⟨-, -, -, -, e4, e5, -⟩ := index_facts t
  funext j
  obtain ⟨p, q, rfl⟩ : ∃ (p : Fin 2048) (q : Fin 256), j = ix2 p q := ⟨j 0, j 1, eq_ix2 j⟩
  have hp := p.isLt
  have ht : t.val < 32 := lt_of_lt_of_eq t.isLt (show cfg0.N = 32 from N_0)
  refine (block_lin (V c (Pipeline.arrRef spec0 0)) (V c (Pipeline.arrRef spec0 1)) (iblk0 V c 0 t) (iblk0 V c 1 t) (2048 * t.val)
    (fun p k r hr => iblk_left V c t p k r hr) (fun k q => iblk_weight V c t k q) p q ⟨2048 * t.val + p.val, by omega⟩ rfl).trans ?_
  have hr : (⟨2048 * t.val + p.val, by omega⟩ : Fin 65536) = ((cfg0.win 2).blk t).view.emb (ix2 p q) 0 :=
    Fin.ext (by show 2048 * t.val + p.val = win0_2.index t (0 : Fin 2) * 2048 + 1 * p.val; omega)
  have hq : q = ((cfg0.win 2).blk t).view.emb (ix2 p q) 1 :=
    Fin.ext (by show q.val = win0_2.index t (1 : Fin 2) * 256 + 1 * q.val; omega)
  exact congrArg₂ (fun (r : Fin 65536) (q' : Fin 256) => dotRow (to2 (V c (Pipeline.arrRef spec0 0) : A2 65536 147) r) (to2 (V c (Pipeline.arrRef spec0 1) : A2 147 256)) q') hr hq

/-- … and, for the second output, of its rectifier. -/
theorem flushed_act (c : Dev nD) (t : Fin cfg0.N) :
    (dat0 V c).flushed 3 t = ((cfg0.win 3).blk t).view.read (Elt Ideal) (act (V c (Pipeline.arrRef spec0 0)) (V c (Pipeline.arrRef spec0 1))) := by
  show (cfg0.win 3).cut (grid0.coords t) ((dat0 V c).after 3 t) = _
  rw [after0_3]
  unfold out0_3
  rw [View.canon_unit_zero zero_offsets]
  simp only [View.ld_unit_zero (S := S2048x147) zero_offsets, View.ld_unit_zero (S := S147x256) zero_offsets]
  obtain ⟨-, -, -, -, -, -, e6, e7⟩ := index_facts t
  funext j
  obtain ⟨p, q, rfl⟩ : ∃ (p : Fin 2048) (q : Fin 256), j = ix2 p q := ⟨j 0, j 1, eq_ix2 j⟩
  have hp := p.isLt
  have ht : t.val < 32 := lt_of_lt_of_eq t.isLt (show cfg0.N = 32 from N_0)
  refine (block_act (V c (Pipeline.arrRef spec0 0)) (V c (Pipeline.arrRef spec0 1)) (iblk0 V c 0 t) (iblk0 V c 1 t) (2048 * t.val)
    (fun p k r hr => iblk_left V c t p k r hr) (fun k q => iblk_weight V c t k q) p q ⟨2048 * t.val + p.val, by omega⟩ rfl).trans ?_
  have hr : (⟨2048 * t.val + p.val, by omega⟩ : Fin 65536) = ((cfg0.win 3).blk t).view.emb (ix2 p q) 0 :=
    Fin.ext (by show 2048 * t.val + p.val = win0_3.index t (0 : Fin 2) * 2048 + 1 * p.val; omega)
  have hq : q = ((cfg0.win 3).blk t).view.emb (ix2 p q) 1 :=
    Fin.ext (by show q.val = win0_3.index t (1 : Fin 2) * 256 + 1 * q.val; omega)
  exact congrArg₂ (fun (r : Fin 65536) (q' : Fin 256) => relu (dotRow (to2 (V c (Pipeline.arrRef spec0 0) : A2 65536 147) r) (to2 (V c (Pipeline.arrRef spec0 1) : A2 147 256)) q')) hr hq

/-- An index of the array is in point `t`'s block of output 2 iff each coordinate is in the block's range. -/
theorem mem_blk_2 (t : Fin cfg0.N) (i : S65536x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_call0_v2_0).slice (win0_2.rect t)).set ↔ _
  rw [View.set_slice_whole, Rect.mem_set_unit]
  exact Iff.rfl

/-- Row `r` is in the block of point `r / 2048`. -/
theorem cover_2 (i : S65536x256.Idx) : ∃ t : Fin cfg0.N, (cfg0.win 2).flush t = true ∧ i ∈ ((cfg0.win 2).blk t).view.set := by
  have hi0 : (i 0).val < 65536 := (i 0).isLt
  have hi1 : (i 1).val < 256 := (i 1).isLt
  refine ⟨⟨(i 0).val / 2048, lt_of_lt_of_eq (by omega : (i 0).val / 2048 < 32) (show cfg0.N = 32 from N_0).symm⟩, flush0_2 _, ?_⟩
  rw [mem_blk_2]
  obtain ⟨-, -, -, -, e4, e5, e6, e7⟩ := index_facts (⟨(i 0).val / 2048, lt_of_lt_of_eq (by omega : (i 0).val / 2048 < 32) (show cfg0.N = 32 from N_0).symm⟩ : Fin cfg0.N)
  intro a
  match a with
  | ⟨0, _⟩ =>
    show win0_2.index _ (0 : Fin 2) * 2048 ≤ (i 0).val ∧ (i 0).val < win0_2.index _ (0 : Fin 2) * 2048 + 2048
    rw [e4]; show (i 0).val / 2048 * 2048 ≤ (i 0).val ∧ (i 0).val < (i 0).val / 2048 * 2048 + 2048; omega
  | ⟨1, _⟩ =>
    show win0_2.index _ (1 : Fin 2) * 256 ≤ (i 1).val ∧ (i 1).val < win0_2.index _ (1 : Fin 2) * 256 + 256
    rw [e5]; omega

/-- An index of the array is in point `t`'s block of output 3 iff each coordinate is in the block's range. -/
theorem mem_blk_3 (t : Fin cfg0.N) (i : S65536x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_call0_v2_1).slice (win0_3.rect t)).set ↔ _
  rw [View.set_slice_whole, Rect.mem_set_unit]
  exact Iff.rfl

/-- Row `r` is in the block of point `r / 2048`. -/
theorem cover_3 (i : S65536x256.Idx) : ∃ t : Fin cfg0.N, (cfg0.win 3).flush t = true ∧ i ∈ ((cfg0.win 3).blk t).view.set := by
  have hi0 : (i 0).val < 65536 := (i 0).isLt
  have hi1 : (i 1).val < 256 := (i 1).isLt
  refine ⟨⟨(i 0).val / 2048, lt_of_lt_of_eq (by omega : (i 0).val / 2048 < 32) (show cfg0.N = 32 from N_0).symm⟩, flush0_3 _, ?_⟩
  rw [mem_blk_3]
  obtain ⟨-, -, -, -, e4, e5, e6, e7⟩ := index_facts (⟨(i 0).val / 2048, lt_of_lt_of_eq (by omega : (i 0).val / 2048 < 32) (show cfg0.N = 32 from N_0).symm⟩ : Fin cfg0.N)
  intro a
  match a with
  | ⟨0, _⟩ =>
    show win0_3.index _ (0 : Fin 2) * 2048 ≤ (i 0).val ∧ (i 0).val < win0_3.index _ (0 : Fin 2) * 2048 + 2048
    rw [e6]; show (i 0).val / 2048 * 2048 ≤ (i 0).val ∧ (i 0).val < (i 0).val / 2048 * 2048 + 2048; omega
  | ⟨1, _⟩ =>
    show win0_3.index _ (1 : Fin 2) * 256 ≤ (i 1).val ∧ (i 1).val < win0_3.index _ (1 : Fin 2) * 256 + 256
    rw [e7]; omega

/-- The first output array after the region: the product of the bond features and the weight. -/
theorem arr0_2_eq (c : Dev nD) :
    (dat0 V c).arrAt 2 cfg0.N = lin (V c (Pipeline.arrRef spec0 0)) (V c (Pipeline.arrRef spec0 1)) :=
  (dat0 V c).arrAt_eq_of_cover 2 (lin (V c (Pipeline.arrRef spec0 0)) (V c (Pipeline.arrRef spec0 1))) (fun t _ => flushed_lin V c t) cover_2

/-- The second: its rectifier. -/
theorem arr0_3_eq (c : Dev nD) :
    (dat0 V c).arrAt 3 cfg0.N = act (V c (Pipeline.arrRef spec0 0)) (V c (Pipeline.arrRef spec0 1)) :=
  (dat0 V c).arrAt_eq_of_cover 3 (act (V c (Pipeline.arrRef spec0 0)) (V c (Pipeline.arrRef spec0 1))) (fun t _ => flushed_act V c t) cover_3

theorem arr0_2 (c : Dev nD) (r : Fin 65536) (k : Fin 256) :
    (dat0 V c).arrAt 2 cfg0.N (ix2 r k) = dotRow (to2 (V c (Pipeline.arrRef spec0 0)) r) (to2 (V c (Pipeline.arrRef spec0 1))) k := by
  rw [arr0_2_eq]; rfl

theorem arr0_3 (c : Dev nD) (r : Fin 65536) (k : Fin 256) :
    (dat0 V c).arrAt 3 cfg0.N (ix2 r k) = relu (dotRow (to2 (V c (Pipeline.arrRef spec0 0)) r) (to2 (V c (Pipeline.arrRef spec0 1))) k) := by
  rw [arr0_3_eq]; rfl

end Cert.KArr0

namespace Cert.KArr1

open Cert.KernelIdeal Cert.KernelIdeal.Gen Cert.Spec Cert.KSmall Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The product of the whole arrays, and its rectifier, as functions of an index. -/
def lin (X0 : A2 65536 147) (X1 : A2 147 256) : A2 65536 256 := fun j => dotRow (to2 X0 (j 0)) (to2 X1) (j 1)
def act (X0 : A2 65536 147) (X1 : A2 147 256) : A2 65536 256 := fun j => relu (dotRow (to2 X0 (j 0)) (to2 X1) (j 1))

/-- The index maps over the 32 points: the row blocks move with the point, the weight stays. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- One block: the payloads at block coordinates, from a block of rows `R + p` of the left array and the whole weight. -/
theorem block_lin (X0 : A2 65536 147) (X1 : A2 147 256) (x0 : Vec Ideal S2048x147 .f32) (x1 : Vec Ideal S147x256 .f32)
    (R : Nat) (h0 : ∀ (p : Fin 2048) (k : Fin 147) (r : Fin 65536), r.val = R + p.val → x0 (ix2 p k) = X0 (ix2 r k))
    (h1 : ∀ (k : Fin 147) (q : Fin 256), x1 (ix2 k q) = X1 (ix2 k q))
    (p : Fin 2048) (q : Fin 256) (r : Fin 65536) (hr : r.val = R + p.val) :
    k1_pay1 x0 x1 (ix2 p q) = dotRow (to2 X0 r) (to2 X1) q := by
  rw [proj_lin1]
  unfold dotRow to2
  exact Finset.sum_congr rfl fun k _ => by rw [h0 p k r hr, h1 k q]

theorem block_act (X0 : A2 65536 147) (X1 : A2 147 256) (x0 : Vec Ideal S2048x147 .f32) (x1 : Vec Ideal S147x256 .f32)
    (R : Nat) (h0 : ∀ (p : Fin 2048) (k : Fin 147) (r : Fin 65536), r.val = R + p.val → x0 (ix2 p k) = X0 (ix2 r k))
    (h1 : ∀ (k : Fin 147) (q : Fin 256), x1 (ix2 k q) = X1 (ix2 k q))
    (p : Fin 2048) (q : Fin 256) (r : Fin 65536) (hr : r.val = R + p.val) :
    k1_pay2 x0 x1 (ix2 p q) = relu (dotRow (to2 X0 r) (to2 X1) q) := by
  rw [proj_act1]
  unfold dotRow to2
  exact congrArg relu (Finset.sum_congr rfl fun k _ => by rw [h0 p k r hr, h1 k q])

/-- The input blocks at point `t`, read at block coordinates. -/
theorem iblk_left (c : Dev nD) (t : Fin cfg1.N) (p : Fin 2048) (k : Fin 147) (r : Fin 65536) (hr : r.val = 2048 * t.val + p.val) :
    (iblk1 V c 0 t : Vec Ideal S2048x147 .f32) (ix2 p k) = (V c (Pipeline.arrRef spec1 0) : A2 65536 147) (ix2 r k) := by
  obtain ⟨e0, e1, -⟩ := index_facts t
  unfold iblk1
  rw [View.read_apply]
  refine congrArg (V c (Pipeline.arrRef spec1 0) : A2 65536 147) (funext fun a => Fin.ext ?_)
  match a with
  | ⟨0, _⟩ => show win1_0.index t (0 : Fin 2) * 2048 + 1 * p.val = r.val; omega
  | ⟨1, _⟩ => show win1_0.index t (1 : Fin 2) * 147 + 1 * k.val = k.val; omega

theorem iblk_weight (c : Dev nD) (t : Fin cfg1.N) (k : Fin 147) (q : Fin 256) :
    (iblk1 V c 1 t : Vec Ideal S147x256 .f32) (ix2 k q) = (V c (Pipeline.arrRef spec1 1) : A2 147 256) (ix2 k q) := by
  obtain ⟨-, -, e2, e3, -⟩ := index_facts t
  unfold iblk1
  rw [View.read_apply]
  refine congrArg (V c (Pipeline.arrRef spec1 1) : A2 147 256) (funext fun a => Fin.ext ?_)
  match a with
  | ⟨0, _⟩ => show win1_1.index t (0 : Fin 2) * 147 + 1 * k.val = k.val; omega
  | ⟨1, _⟩ => show win1_1.index t (1 : Fin 2) * 256 + 1 * q.val = q.val; omega

/-- What point `t` writes back is block `t` of the product of the arrays as the region finds them. -/
theorem flushed_lin (c : Dev nD) (t : Fin cfg1.N) :
    (dat1 V c).flushed 2 t = ((cfg1.win 2).blk t).view.read (Elt Ideal) (lin (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S2048x147) zero_offsets, View.ld_unit_zero (S := S147x256) zero_offsets]
  obtain ⟨-, -, -, -, e4, e5, -⟩ := index_facts t
  funext j
  obtain ⟨p, q, rfl⟩ : ∃ (p : Fin 2048) (q : Fin 256), j = ix2 p q := ⟨j 0, j 1, eq_ix2 j⟩
  have hp := p.isLt
  have ht : t.val < 32 := lt_of_lt_of_eq t.isLt (show cfg1.N = 32 from N_1)
  refine (block_lin (V c (Pipeline.arrRef spec1 0)) (V c (Pipeline.arrRef spec1 1)) (iblk1 V c 0 t) (iblk1 V c 1 t) (2048 * t.val)
    (fun p k r hr => iblk_left V c t p k r hr) (fun k q => iblk_weight V c t k q) p q ⟨2048 * t.val + p.val, by omega⟩ rfl).trans ?_
  have hr : (⟨2048 * t.val + p.val, by omega⟩ : Fin 65536) = ((cfg1.win 2).blk t).view.emb (ix2 p q) 0 :=
    Fin.ext (by show 2048 * t.val + p.val = win1_2.index t (0 : Fin 2) * 2048 + 1 * p.val; omega)
  have hq : q = ((cfg1.win 2).blk t).view.emb (ix2 p q) 1 :=
    Fin.ext (by show q.val = win1_2.index t (1 : Fin 2) * 256 + 1 * q.val; omega)
  exact congrArg₂ (fun (r : Fin 65536) (q' : Fin 256) => dotRow (to2 (V c (Pipeline.arrRef spec1 0) : A2 65536 147) r) (to2 (V c (Pipeline.arrRef spec1 1) : A2 147 256)) q') hr hq

/-- … and, for the second output, of its rectifier. -/
theorem flushed_act (c : Dev nD) (t : Fin cfg1.N) :
    (dat1 V c).flushed 3 t = ((cfg1.win 3).blk t).view.read (Elt Ideal) (act (V c (Pipeline.arrRef spec1 0)) (V c (Pipeline.arrRef spec1 1))) := by
  show (cfg1.win 3).cut (grid1.coords t) ((dat1 V c).after 3 t) = _
  rw [after1_3]
  unfold out1_3
  rw [View.canon_unit_zero zero_offsets]
  simp only [View.ld_unit_zero (S := S2048x147) zero_offsets, View.ld_unit_zero (S := S147x256) zero_offsets]
  obtain ⟨-, -, -, -, -, -, e6, e7⟩ := index_facts t
  funext j
  obtain ⟨p, q, rfl⟩ : ∃ (p : Fin 2048) (q : Fin 256), j = ix2 p q := ⟨j 0, j 1, eq_ix2 j⟩
  have hp := p.isLt
  have ht : t.val < 32 := lt_of_lt_of_eq t.isLt (show cfg1.N = 32 from N_1)
  refine (block_act (V c (Pipeline.arrRef spec1 0)) (V c (Pipeline.arrRef spec1 1)) (iblk1 V c 0 t) (iblk1 V c 1 t) (2048 * t.val)
    (fun p k r hr => iblk_left V c t p k r hr) (fun k q => iblk_weight V c t k q) p q ⟨2048 * t.val + p.val, by omega⟩ rfl).trans ?_
  have hr : (⟨2048 * t.val + p.val, by omega⟩ : Fin 65536) = ((cfg1.win 3).blk t).view.emb (ix2 p q) 0 :=
    Fin.ext (by show 2048 * t.val + p.val = win1_3.index t (0 : Fin 2) * 2048 + 1 * p.val; omega)
  have hq : q = ((cfg1.win 3).blk t).view.emb (ix2 p q) 1 :=
    Fin.ext (by show q.val = win1_3.index t (1 : Fin 2) * 256 + 1 * q.val; omega)
  exact congrArg₂ (fun (r : Fin 65536) (q' : Fin 256) => relu (dotRow (to2 (V c (Pipeline.arrRef spec1 0) : A2 65536 147) r) (to2 (V c (Pipeline.arrRef spec1 1) : A2 147 256)) q')) hr hq

/-- An index of the array is in point `t`'s block of output 2 iff each coordinate is in the block's range. -/
theorem mem_blk_2 (t : Fin cfg1.N) (i : S65536x256.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_call0_v3_0).slice (win1_2.rect t)).set ↔ _
  rw [View.set_slice_whole, Rect.mem_set_unit]
  exact Iff.rfl

/-- Row `r` is in the block of point `r / 2048`. -/
theorem cover_2 (i : S65536x256.Idx) : ∃ t : Fin cfg1.N, (cfg1.win 2).flush t = true ∧ i ∈ ((cfg1.win 2).blk t).view.set := by
  have hi0 : (i 0).val < 65536 := (i 0).isLt
  have hi1 : (i 1).val < 256 := (i 1).isLt
  refine ⟨⟨(i 0).val / 2048, lt_of_lt_of_eq (by omega : (i 0).val / 2048 < 32) (show cfg1.N = 32 from N_1).symm⟩, flush1_2 _, ?_⟩
  rw [mem_blk_2]
  obtain ⟨-, -, -, -, e4, e5, e6, e7⟩ := index_facts (⟨(i 0).val / 2048, lt_of_lt_of_eq (by omega : (i 0).val / 2048 < 32) (show cfg1.N = 32 from N_1).symm⟩ : Fin cfg1.N)
  intro a
  match a with
  | ⟨0, _⟩ =>
    show win1_2.index _ (0 : Fin 2) * 2048 ≤ (i 0).val ∧ (i 0).val < win1_2.index _ (0 : Fin 2) * 2048 + 2048
    rw [e4]; show (i 0).val / 2048 * 2048 ≤ (i 0).val ∧ (i 0).val < (i 0).val / 2048 * 2048 + 2048; omega
  | ⟨1, _⟩ =>
    show win1_2.index _ (1 : Fin 2) * 256 ≤ (i 1).val ∧ (i 1).val < win1_2.index _ (1 : Fin 2) * 256 + 256
    rw [e5]; omega

/-- An index of the array is in point `t`'s block of output 3 iff each coordinate is in the block's range. -/
theorem mem_blk_3 (t : Fin cfg1.N) (i : S65536x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_call0_v3_1).slice (win1_3.rect t)).set ↔ _
  rw [View.set_slice_whole, Rect.mem_set_unit]
  exact Iff.rfl

/-- Row `r` is in the block of point `r / 2048`. -/
theorem cover_3 (i : S65536x256.Idx) : ∃ t : Fin cfg1.N, (cfg1.win 3).flush t = true ∧ i ∈ ((cfg1.win 3).blk t).view.set := by
  have hi0 : (i 0).val < 65536 := (i 0).isLt
  have hi1 : (i 1).val < 256 := (i 1).isLt
  refine ⟨⟨(i 0).val / 2048, lt_of_lt_of_eq (by omega : (i 0).val / 2048 < 32) (show cfg1.N = 32 from N_1).symm⟩, flush1_3 _, ?_⟩
  rw [mem_blk_3]
  obtain ⟨-, -, -, -, e4, e5, e6, e7⟩ := index_facts (⟨(i 0).val / 2048, lt_of_lt_of_eq (by omega : (i 0).val / 2048 < 32) (show cfg1.N = 32 from N_1).symm⟩ : Fin cfg1.N)
  intro a
  match a with
  | ⟨0, _⟩ =>
    show win1_3.index _ (0 : Fin 2) * 2048 ≤ (i 0).val ∧ (i 0).val < win1_3.index _ (0 : Fin 2) * 2048 + 2048
    rw [e6]; show (i 0).val / 2048 * 2048 ≤ (i 0).val ∧ (i 0).val < (i 0).val / 2048 * 2048 + 2048; omega
  | ⟨1, _⟩ =>
    show win1_3.index _ (1 : Fin 2) * 256 ≤ (i 1).val ∧ (i 1).val < win1_3.index _ (1 : Fin 2) * 256 + 256
    rw [e7]; omega

/-- The first output array after the region: the product of the bond features and the weight. -/
theorem arr1_2_eq (c : Dev nD) :
    (dat1 V c).arrAt 2 cfg1.N = lin (V c (Pipeline.arrRef spec1 0)) (V c (Pipeline.arrRef spec1 1)) :=
  (dat1 V c).arrAt_eq_of_cover 2 (lin (V c (Pipeline.arrRef spec1 0)) (V c (Pipeline.arrRef spec1 1))) (fun t _ => flushed_lin V c t) cover_2

/-- The second: its rectifier. -/
theorem arr1_3_eq (c : Dev nD) :
    (dat1 V c).arrAt 3 cfg1.N = act (V c (Pipeline.arrRef spec1 0)) (V c (Pipeline.arrRef spec1 1)) :=
  (dat1 V c).arrAt_eq_of_cover 3 (act (V c (Pipeline.arrRef spec1 0)) (V c (Pipeline.arrRef spec1 1))) (fun t _ => flushed_act V c t) cover_3

theorem arr1_2 (c : Dev nD) (r : Fin 65536) (k : Fin 256) :
    (dat1 V c).arrAt 2 cfg1.N (ix2 r k) = dotRow (to2 (V c (Pipeline.arrRef spec1 0)) r) (to2 (V c (Pipeline.arrRef spec1 1))) k := by
  rw [arr1_2_eq]; rfl

theorem arr1_3 (c : Dev nD) (r : Fin 65536) (k : Fin 256) :
    (dat1 V c).arrAt 3 cfg1.N (ix2 r k) = relu (dotRow (to2 (V c (Pipeline.arrRef spec1 0)) r) (to2 (V c (Pipeline.arrRef spec1 1))) k) := by
  rw [arr1_3_eq]; rfl

end Cert.KArr1

end
-- ==== Proof.LibMaxFold.lean ====
import Idealize.ShloMosaic.PureOps.Ideal.Laws

/-!
# A maximum taken as a fold from `-∞`

Over the extended reals a reduction by `max` that starts from `-∞` is the supremum of what it
reduces: `-∞` is the bottom element, and the fold of `max` from the bottom is the lattice supremum.
-/

namespace Cert.Lib.MaxFold

open Idealize.ShloMosaic

/-- The f32 pattern of `-∞` denotes the bottom element of the extended reals. -/
theorem ofBits_neg_inf_f32 : Ideal.ofBits .f32 0xFF800000#32 = ⊥ := by simp [Ideal.ofBits, Ideal.ieee]

/-- A fold of `max` from `⊥` over any finite set is the supremum over it. -/
theorem fold_max_bot_eq_sup {ι : Type} (s : Finset ι) (g : ι → EReal) :
    s.fold (FloatOps.maximumf (F := Ideal) (φ := .f32)) ⊥ g = s.sup g := rfl

/-- A fold of `max` from `⊥` over a finite nonempty index type is the supremum over it. -/
theorem fold_max_bot_eq_sup' {ι : Type} [Fintype ι] [Nonempty ι] (g : ι → EReal) :
    (Finset.univ : Finset ι).fold (FloatOps.maximumf (F := Ideal) (φ := .f32)) ⊥ g
      = Finset.univ.sup' Finset.univ_nonempty g := by
  rw [Finset.sup'_eq_sup]
  rfl

end Cert.Lib.MaxFold
-- ==== Proof.KFused.lean ====
import proofs.«135133_j46703474376853_2_alg».proof.Proof.Gen.KernelIdeal.Skeleton
import proofs.«135133_j46703474376853_2_alg».proof.Proof.Spec
import proofs.«135133_j46703474376853_2_alg».proof.Proof.LibMaxFold
import Idealize.ShloMosaic.PureOps.Ideal.Laws
import Idealize.ShloMosaic.Lib.ValueIdx
import Idealize.ShloMosaic.Lib.Pipeline.Value
import Idealize.ShloMosaic.Lib.ValueLayout

/-!
# The fused update-and-attention block, one entry at a time

The block's two results, read at molecule `m`, bond `q`, feature `h`, are the fused step of the
specification applied to molecule `m` of the six operands. The steps: a matrix product read at an entry is
the sum over the contracted coordinate; a regrouping of rows `(m, q) ↦ m * 128 + q` moves no entry; the
row maximum is the fold of `max` from the bottom element; the weights are the shifted exponentials divided
by their sum.
-/

noncomputable section

namespace Cert.KFused

open Cert.KernelIdeal Cert.KernelIdeal.Gen Cert.Spec Idealize.ShloMosaic Idealize.ShloMosaic.ValueIdx

/-! ## Matrix products read at an entry -/

theorem plain_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem plain_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem plain_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem plain_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- Rows times a square matrix: entry `(r, c)` is the sum over the contracted coordinate. -/
theorem mm_plain {φ₁ φ₂ : FTy} (A : FVec Ideal S1024x256 φ₁) (B : FVec Ideal S256x256 φ₂) (r : Fin 1024) (c : Fin 256) :
    matmul dot_S1024x256_S256x256_S1024x256_1_0_0_1_n_n none A B (constant (F := Ideal) S1024x256 .f32 0x00000000#32) (ix2 r c)
      = ∑ k : Fin 256, A (ix2 r k) * B (ix2 k c) := by
  refine (Ideal.matmul_constant_zero_apply dot_S1024x256_S256x256_S1024x256_1_0_0_1_n_n none A B (ix2 r c)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r c) ((contrEquiv1 dot_S1024x256_S256x256_S1024x256_1_0_0_1_n_n 256 rfl rfl).symm k) = ix2 r k := funext fun a => Fin.ext (by
    match a with
    | ⟨0, _⟩ => exact plain_lhs_0 _ _
    | ⟨1, _⟩ => exact (plain_lhs_1 _ _).trans hk)
  have er : dot_S1024x256_S256x256_S1024x256_1_0_0_1_n_n.rhsIdx (ix2 r c) ((contrEquiv1 dot_S1024x256_S256x256_S1024x256_1_0_0_1_n_n 256 rfl rfl).symm k) = ix2 k c := funext fun a => Fin.ext (by
    match a with
    | ⟨0, _⟩ => exact (plain_rhs_0 _ _).trans hk
    | ⟨1, _⟩ => exact plain_rhs_1 _ _)
  rw [el, er]

theorem qk_lhs_0 (i : S8x128x128.Idx) (q : dot_S8x128x256_S8x128x256_S8x128x128_2_2_1_1_0_0.contr.Idx) :
    (dot_S8x128x256_S8x128x256_S8x128x128_2_2_1_1_0_0.lhsIdx i q 0).val = (i 0).val := by
  unfold DotDims.lhsIdx
  rw [dif_pos (show (0 : Fin S8x128x256.rank) ∈ dot_S8x128x256_S8x128x256_S8x128x128_2_2_1_1_0_0.lhsBatch by decide)]
  rfl
theorem qk_lhs_1 (i : S8x128x128.Idx) (q : dot_S8x128x256_S8x128x256_S8x128x128_2_2_1_1_0_0.contr.Idx) :
    (dot_S8x128x256_S8x128x256_S8x128x128_2_2_1_1_0_0.lhsIdx i q 1).val = (i 1).val := by
  unfold DotDims.lhsIdx
  rw [dif_neg (show ¬(1 : Fin S8x128x256.rank) ∈ dot_S8x128x256_S8x128x256_S8x128x128_2_2_1_1_0_0.lhsBatch by decide), dif_pos (show (1 : Fin S8x128x256.rank) ∈ dot_S8x128x256_S8x128x256_S8x128x128_2_2_1_1_0_0.lhsNonContracting by decide)]
  rfl
theorem qk_lhs_2 (i : S8x128x128.Idx) (q : dot_S8x128x256_S8x128x256_S8x128x128_2_2_1_1_0_0.contr.Idx) :
    (dot_S8x128x256_S8x128x256_S8x128x128_2_2_1_1_0_0.lhsIdx i q 2).val = (q ⟨0, by decide⟩).val :=
  dot_S8x128x256_S8x128x256_S8x128x128_2_2_1_1_0_0.lhsIdx_val_of_single rfl i q
theorem qk_rhs_0 (i : S8x128x128.Idx) (q : dot_S8x128x256_S8x128x256_S8x128x128_2_2_1_1_0_0.contr.Idx) :
    (dot_S8x128x256_S8x128x256_S8x128x128_2_2_1_1_0_0.rhsIdx i q 0).val = (i 0).val := by
  unfold DotDims.rhsIdx
  rw [dif_pos (show (0 : Fin S8x128x256.rank) ∈ dot_S8x128x256_S8x128x256_S8x128x128_2_2_1_1_0_0.rhsBatch by decide)]
  rfl
theorem qk_rhs_1 (i : S8x128x128.Idx) (q : dot_S8x128x256_S8x128x256_S8x128x128_2_2_1_1_0_0.contr.Idx) :
    (dot_S8x128x256_S8x128x256_S8x128x128_2_2_1_1_0_0.rhsIdx i q 1).val = (i 2).val := by
  unfold DotDims.rhsIdx
  rw [dif_neg (show ¬(1 : Fin S8x128x256.rank) ∈ dot_S8x128x256_S8x128x256_S8x128x128_2_2_1_1_0_0.rhsBatch by decide), dif_pos (show (1 : Fin S8x128x256.rank) ∈ dot_S8x128x256_S8x128x256_S8x128x128_2_2_1_1_0_0.rhsNonContracting by decide)]
  rfl
theorem qk_rhs_2 (i : S8x128x128.Idx) (q : dot_S8x128x256_S8x128x256_S8x128x128_2_2_1_1_0_0.contr.Idx) :
    (dot_S8x128x256_S8x128x256_S8x128x128_2_2_1_1_0_0.rhsIdx i q 2).val = (q ⟨0, by decide⟩).val :=
  dot_S8x128x256_S8x128x256_S8x128x128_2_2_1_1_0_0.rhsIdx_val_of_single rfl i q
/-- Per molecule, queries against sources over the features: entry `(m, q, k)`. -/
theorem mm_qk {φ₁ φ₂ : FTy} (A : FVec Ideal S8x128x256 φ₁) (B : FVec Ideal S8x128x256 φ₂) (m : Fin 8) (q k : Fin 128) :
    matmul dot_S8x128x256_S8x128x256_S8x128x128_2_2_1_1_0_0 none A B (constant (F := Ideal) S8x128x128 .f32 0x00000000#32) (ix3 m q k)
      = ∑ h : Fin 256, A (ix3 m q h) * B (ix3 m k h) := by
  refine (Ideal.matmul_constant_zero_apply dot_S8x128x256_S8x128x256_S8x128x128_2_2_1_1_0_0 none A B (ix3 m q k)).trans ?_
  rw [← Equiv.sum_comp (contrEquiv1 dot_S8x128x256_S8x128x256_S8x128x128_2_2_1_1_0_0 256 rfl rfl).symm]
  refine Finset.sum_congr rfl fun h _ => ?_
  have hk := contrEquiv1_symm_val dot_S8x128x256_S8x128x256_S8x128x128_2_2_1_1_0_0 256 rfl rfl h
  have el : dot_S8x128x256_S8x128x256_S8x128x128_2_2_1_1_0_0.lhsIdx (ix3 m q k) ((contrEquiv1 dot_S8x128x256_S8x128x256_S8x128x128_2_2_1_1_0_0 256 rfl rfl).symm h) = ix3 m q h := funext fun a => Fin.ext (by
    match a with
    | ⟨0, _⟩ => exact qk_lhs_0 _ _
    | ⟨1, _⟩ => exact qk_lhs_1 _ _
    | ⟨2, _⟩ => exact (qk_lhs_2 _ _).trans hk)
  have er : dot_S8x128x256_S8x128x256_S8x128x128_2_2_1_1_0_0.rhsIdx (ix3 m q k) ((contrEquiv1 dot_S8x128x256_S8x128x256_S8x128x128_2_2_1_1_0_0 256 rfl rfl).symm h) = ix3 m k h := funext fun a => Fin.ext (by
    match a with
    | ⟨0, _⟩ => exact qk_rhs_0 _ _
    | ⟨1, _⟩ => exact qk_rhs_1 _ _
    | ⟨2, _⟩ => exact (qk_rhs_2 _ _).trans hk)
  rw [el, er]

theorem pv_lhs_0 (i : S8x128x256.Idx) (q : dot_S8x128x128_S8x128x256_S8x128x256_2_1_1_2_0_0.contr.Idx) :
    (dot_S8x128x128_S8x128x256_S8x128x256_2_1_1_2_0_0.lhsIdx i q 0).val = (i 0).val := by
  unfold DotDims.lhsIdx
  rw [dif_pos (show (0 : Fin S8x128x128.rank) ∈ dot_S8x128x128_S8x128x256_S8x128x256_2_1_1_2_0_0.lhsBatch by decide)]
  rfl
theorem pv_lhs_1 (i : S8x128x256.Idx) (q : dot_S8x128x128_S8x128x256_S8x128x256_2_1_1_2_0_0.contr.Idx) :
    (dot_S8x128x128_S8x128x256_S8x128x256_2_1_1_2_0_0.lhsIdx i q 1).val = (i 1).val := by
  unfold DotDims.lhsIdx
  rw [dif_neg (show ¬(1 : Fin S8x128x128.rank) ∈ dot_S8x128x128_S8x128x256_S8x128x256_2_1_1_2_0_0.lhsBatch by decide), dif_pos (show (1 : Fin S8x128x128.rank) ∈ dot_S8x128x128_S8x128x256_S8x128x256_2_1_1_2_0_0.lhsNonContracting by decide)]
  rfl
theorem pv_lhs_2 (i : S8x128x256.Idx) (q : dot_S8x128x128_S8x128x256_S8x128x256_2_1_1_2_0_0.contr.Idx) :
    (dot_S8x128x128_S8x128x256_S8x128x256_2_1_1_2_0_0.lhsIdx i q 2).val = (q ⟨0, by decide⟩).val :=
  dot_S8x128x128_S8x128x256_S8x128x256_2_1_1_2_0_0.lhsIdx_val_of_single rfl i q
theorem pv_rhs_0 (i : S8x128x256.Idx) (q : dot_S8x128x128_S8x128x256_S8x128x256_2_1_1_2_0_0.contr.Idx) :
    (dot_S8x128x128_S8x128x256_S8x128x256_2_1_1_2_0_0.rhsIdx i q 0).val = (i 0).val := by
  unfold DotDims.rhsIdx
  rw [dif_pos (show (0 : Fin S8x128x256.rank) ∈ dot_S8x128x128_S8x128x256_S8x128x256_2_1_1_2_0_0.rhsBatch by decide)]
  rfl
theorem pv_rhs_1 (i : S8x128x256.Idx) (q : dot_S8x128x128_S8x128x256_S8x128x256_2_1_1_2_0_0.contr.Idx) :
    (dot_S8x128x128_S8x128x256_S8x128x256_2_1_1_2_0_0.rhsIdx i q 1).val = (q ⟨0, by decide⟩).val :=
  dot_S8x128x128_S8x128x256_S8x128x256_2_1_1_2_0_0.rhsIdx_val_of_single rfl i q
theorem pv_rhs_2 (i : S8x128x256.Idx) (q : dot_S8x128x128_S8x128x256_S8x128x256_2_1_1_2_0_0.contr.Idx) :
    (dot_S8x128x128_S8x128x256_S8x128x256_2_1_1_2_0_0.rhsIdx i q 2).val = (i 2).val := by
  unfold DotDims.rhsIdx
  rw [dif_neg (show ¬(2 : Fin S8x128x256.rank) ∈ dot_S8x128x128_S8x128x256_S8x128x256_2_1_1_2_0_0.rhsBatch by decide), dif_pos (show (2 : Fin S8x128x256.rank) ∈ dot_S8x128x128_S8x128x256_S8x128x256_2_1_1_2_0_0.rhsNonContracting by decide)]
  rfl
/-- Per molecule, weights against sources over the source bonds: entry `(m, q, h)`. -/
theorem mm_pv {φ₁ φ₂ : FTy} (P : FVec Ideal S8x128x128 φ₁) (V : FVec Ideal S8x128x256 φ₂) (m : Fin 8) (q : Fin 128) (h : Fin 256) :
    matmul dot_S8x128x128_S8x128x256_S8x128x256_2_1_1_2_0_0 none P V (constant (F := Ideal) S8x128x256 .f32 0x00000000#32) (ix3 m q h)
      = ∑ k : Fin 128, P (ix3 m q k) * V (ix3 m k h) := by
  refine (Ideal.matmul_constant_zero_apply dot_S8x128x128_S8x128x256_S8x128x256_2_1_1_2_0_0 none P V (ix3 m q h)).trans ?_
  rw [← Equiv.sum_comp (contrEquiv1 dot_S8x128x128_S8x128x256_S8x128x256_2_1_1_2_0_0 128 rfl rfl).symm]
  refine Finset.sum_congr rfl fun k _ => ?_
  have hk := contrEquiv1_symm_val dot_S8x128x128_S8x128x256_S8x128x256_2_1_1_2_0_0 128 rfl rfl k
  have el : dot_S8x128x128_S8x128x256_S8x128x256_2_1_1_2_0_0.lhsIdx (ix3 m q h) ((contrEquiv1 dot_S8x128x128_S8x128x256_S8x128x256_2_1_1_2_0_0 128 rfl rfl).symm k) = ix3 m q k := funext fun a => Fin.ext (by
    match a with
    | ⟨0, _⟩ => exact pv_lhs_0 _ _
    | ⟨1, _⟩ => exact pv_lhs_1 _ _
    | ⟨2, _⟩ => exact (pv_lhs_2 _ _).trans hk)
  have er : dot_S8x128x128_S8x128x256_S8x128x256_2_1_1_2_0_0.rhsIdx (ix3 m q h) ((contrEquiv1 dot_S8x128x128_S8x128x256_S8x128x256_2_1_1_2_0_0 128 rfl rfl).symm k) = ix3 m k h := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## Regroupings, keepdims forms and lane reductions read at an entry -/

/-- Row `m * 128 + q` of the flat block. -/
def row (m : Fin 8) (q : Fin 128) : Fin 1024 := ⟨m.val * 128 + q.val, by have := m.isLt; have := q.isLt; omega⟩

/-- Flattening the first two axes moves no entry. -/
theorem cast_flat {α : Type} (v : S8x128x256.Idx → α) (h : S8x128x256.ShapeCasts S1024x256) (m : Fin 8) (q : Fin 128) (c : Fin 256) :
    shapeCast S1024x256 v h (ix2 (row m q) c) = v (ix3 m q c) :=
  shapeCast_apply v h _ _ (by
    rw [Shape.rowMajor_val_three, Shape.rowMajor_val_two]
    rfl)

/-- Splitting the rows back moves no entry. -/
theorem cast_unflat {α : Type} (w : S1024x256.Idx → α) (h : S1024x256.ShapeCasts S8x128x256) (m : Fin 8) (q : Fin 128) (c : Fin 256) :
    shapeCast S8x128x256 w h (ix3 m q c) = w (ix2 (row m q) c) :=
  shapeCast_apply w h _ _ (by
    rw [Shape.rowMajor_val_three, Shape.rowMajor_val_two]
    rfl)

/-- A trailing unit axis added. -/
theorem cast_keep {α : Type} (v : S8x128.Idx → α) (h : S8x128.ShapeCasts S8x128x1) (m : Fin 8) (q : Fin 128) (u : Fin 1) :
    shapeCast S8x128x1 v h (ix3 m q u) = v (ix2 m q) :=
  shapeCast_apply v h _ _ (by
    have hu : u.val = 0 := by omega
    rw [Shape.rowMajor_val_three, Shape.rowMajor_val_two]
    show m.val * 128 + q.val = (m.val * 128 + q.val) * 1 + u.val
    rw [hu, Nat.mul_one, Nat.add_zero])

/-- A column repeated along the last axis. -/
theorem bcast_keep {α : Type} (v : S8x128x1.Idx → α) (h : S8x128x1.Broadcasts S8x128x128) (m : Fin 8) (q k : Fin 128) :
    broadcastTo S8x128x128 v h (ix3 m q k) = v (ix3 m q (0 : Fin 1)) := by
  refine broadcastTo_apply v h (ix3 m q k) (ix3 m q (0 : Fin 1)) fun ax => ?_
  match ax with
  | ⟨0, _⟩ => rfl
  | ⟨1, _⟩ => rfl
  | ⟨2, _⟩ => rfl

/-- The exponential is taken entry by entry. -/
theorem exp_at {s : Shape} {φ : FTy} (a : FVec Ideal s φ) (i : s.Idx) : exp a i = Ideal.exp (a i) := rfl

/-- The maximum along the last axis, from the bottom element. -/
theorem red_max (src : FVec Ideal S8x128x128 .f32) (h : S8x128x128.Reduces [2] S8x128) (hφ : FKind.Formats .f32)
    (hacc : (0xFF800000#32 : BitVec FTy.f32.bits) = FKind.maximumf.neutral .f32 hφ) (m : Fin 8) (q : Fin 128) :
    multiReduction .maximumf [2] S8x128 src 0xFF800000#32 h hφ hacc (ix2 m q)
      = (Finset.univ : Finset (Fin 128)).fold max ⊥ (fun k => src (ix3 m q k)) := by
  refine (Ideal.multiReduction_maximumf_single src _ h hφ hacc (ix2 m q)).trans ?_
  have e : (src ∘ h.lift (ix2 m q)) = fun k : Fin 128 => src (ix3 m q k) :=
    funext fun k => congrArg src (funext fun a => Fin.ext (by
      match a with
      | ⟨0, _⟩ => rfl
      | ⟨1, _⟩ => rfl
      | ⟨2, _⟩ => rfl))
  rw [e]
  show Finset.fold max (Ideal.ofBits .f32 0xFF800000#32) _ _ = _
  rw [Cert.Lib.MaxFold.ofBits_neg_inf_f32]
  rfl

/-- The sum along the last axis. -/
theorem red_add (src : FVec Ideal S8x128x128 .f32) (h : S8x128x128.Reduces [2] S8x128) (hφ : FKind.Formats .f32)
    (hacc : (0x00000000#32 : BitVec FTy.f32.bits) = FKind.add.neutral .f32 hφ) (m : Fin 8) (q : Fin 128) :
    multiReduction .add [2] S8x128 src 0x00000000#32 h hφ hacc (ix2 m q) = ∑ k : Fin 128, src (ix3 m q k) := by
  refine (Ideal.multiReduction_add_single src _ h hφ hacc (ix2 m q)).trans ?_
  refine Finset.sum_congr rfl fun k _ => congrArg src (funext fun a => Fin.ext (by
      match a with
      | ⟨0, _⟩ => rfl
      | ⟨1, _⟩ => rfl
      | ⟨2, _⟩ => rfl))

/-! ## The hidden updates and the logits -/

/-- A splat scalar constant is the extended real its word encodes. -/
theorem scalar_ofBits (b : BitVec FTy.f32.bits) : Scalar.ofBits (F := Ideal) .f32 b = Ideal.ofBits .f32 b := rfl

/-- The attention scale, kept as its word. -/
abbrev sK : EReal := Ideal.ofBits .f32 0x3D800000#32

/-- The first branch's update at an entry. -/
theorem pay3_at (x0 x2 : Vec Ideal S8x128x256 .f32) (x4 : Vec Ideal S256x256 .f32) (m : Fin 8) (q : Fin 128) (h : Fin 256) :
    k2_pay3 x0 x2 x4 (ix3 m q h) = hid (to3 x0 m) (to3 x2 m) (to2 x4) q h := by
  unfold k2_pay3 k2_pay1
  simp only [maximumf_apply, addf_apply, broadcast_apply, shapeCast_self]
  rw [cast_unflat, mm_plain]
  simp only [truncf_apply, cast_flat, scalar_ofBits, Ideal.ofBits_zero_f32]
  rfl

/-- The second branch's update at an entry. -/
theorem pay4_at (x1 x3 : Vec Ideal S8x128x256 .f32) (x4 : Vec Ideal S256x256 .f32) (m : Fin 8) (q : Fin 128) (h : Fin 256) :
    k2_pay4 x1 x3 x4 (ix3 m q h) = hid (to3 x1 m) (to3 x3 m) (to2 x4) q h := by
  unfold k2_pay4 k2_pay1
  simp only [maximumf_apply, addf_apply, broadcast_apply, shapeCast_self]
  rw [cast_unflat, mm_plain]
  simp only [truncf_apply, cast_flat, scalar_ofBits, Ideal.ofBits_zero_f32]
  rfl

/-- The narrowed copies are the same numbers. -/
theorem pay5_at (x0 x2 : Vec Ideal S8x128x256 .f32) (x4 : Vec Ideal S256x256 .f32) (m : Fin 8) (q : Fin 128) (h : Fin 256) :
    k2_pay5 x0 x2 x4 (ix3 m q h) = hid (to3 x0 m) (to3 x2 m) (to2 x4) q h := pay3_at x0 x2 x4 m q h
theorem pay6_at (x1 x3 : Vec Ideal S8x128x256 .f32) (x4 : Vec Ideal S256x256 .f32) (m : Fin 8) (q : Fin 128) (h : Fin 256) :
    k2_pay6 x1 x3 x4 (ix3 m q h) = hid (to3 x1 m) (to3 x3 m) (to2 x4) q h := pay4_at x1 x3 x4 m q h

/-- The scaled products of the first branch's bonds with the second's. -/
theorem pay7_at (x0 x1 x2 x3 : Vec Ideal S8x128x256 .f32) (x4 : Vec Ideal S256x256 .f32) (m : Fin 8) (q k : Fin 128) :
    k2_pay7 x0 x1 x2 x3 x4 (ix3 m q k)
      = logit (hid (to3 x0 m) (to3 x2 m) (to2 x4)) (hid (to3 x1 m) (to3 x3 m) (to2 x4)) sK q k := by
  unfold k2_pay7
  simp only [mulf_apply, broadcast_apply]
  rw [mm_qk]
  simp only [pay5_at, pay6_at, scalar_ofBits]
  rfl

/-! ## The row maximum, the weights, the context and the residual -/

/-- The lane reductions as the block spells them. -/
theorem red_max_at (E : FVec Ideal S8x128x128 .f32) (hφ : FTy.f32 = FTy.f32 ∨ FTy.f32 = FTy.bf16)
    (hacc : (0xFF800000#32 : BitVec 32) = 0xFF800000#32) (m : Fin 8) (q : Fin 128) :
    multiReduction .maximumf [2] S8x128 E 0xFF800000#32 reduces_S8x128x128_S8x128 hφ hacc (ix2 m q)
      = (Finset.univ : Finset (Fin 128)).fold max ⊥ (fun k => E (ix3 m q k)) :=
  red_max E _ hφ hacc m q
theorem red_add_at (E : FVec Ideal S8x128x128 .f32) (hφ : FTy.f32 = FTy.f32 ∨ FTy.f32 = FTy.bf16)
    (hacc : (0x00000000#32 : BitVec 32) = 0x00000000#32) (m : Fin 8) (q : Fin 128) :
    multiReduction .add [2] S8x128 E 0x00000000#32 reduces_S8x128x128_S8x128 hφ hacc (ix2 m q)
      = ∑ k : Fin 128, E (ix3 m q k) :=
  red_add E _ hφ hacc m q

/-- The kept-dimension row maximum of the logits. -/
theorem pay8_at (x0 x1 x2 x3 : Vec Ideal S8x128x256 .f32) (x4 : Vec Ideal S256x256 .f32) (m : Fin 8) (q : Fin 128) (u : Fin 1) :
    k2_pay8 x0 x1 x2 x3 x4 (ix3 m q u)
      = rowmax (logit (hid (to3 x0 m) (to3 x2 m) (to2 x4)) (hid (to3 x1 m) (to3 x3 m) (to2 x4)) sK q) := by
  unfold k2_pay8
  simp only [cast_keep, maximumf_apply, broadcast_apply]
  rw [red_max_at]
  simp only [pay7_at, scalar_ofBits, Ideal.ofBits_def, Cert.Lib.MaxFold.ofBits_neg_inf_f32]
  exact max_bot_left _

/-- From logits `L` and their row maxima `Mx`: weights, context over the sources `S`, projection by `W`, rectifier,
    and the carried state `H` added. -/
theorem pay9_at (W : FVec Ideal S256x256 .bf16) (H : FVec Ideal S8x128x256 .f32) (S : FVec Ideal S8x128x256 .bf16)
    (L : FVec Ideal S8x128x128 .f32) (Mx : FVec Ideal S8x128x1 .f32) (m : Fin 8) (q : Fin 128) (h : Fin 256) :
    k2_pay9 W H S L Mx (ix3 m q h)
      = max (∑ c : Fin 256, (∑ k : Fin 128,
            Ideal.div (Ideal.exp (L (ix3 m q k) - Mx (ix3 m q (0 : Fin 1))))
              (∑ j : Fin 128, Ideal.exp (L (ix3 m q j) - Mx (ix3 m q (0 : Fin 1)))) * S (ix3 m k c)) * W (ix2 c h)) 0
        + H (ix3 m q h) := by
  unfold k2_pay9
  simp only [addf_apply, maximumf_apply, broadcast_apply]
  rw [cast_unflat, mm_plain]
  simp only [truncf_apply, cast_flat, mm_pv, divf_apply, exp_at, subf_apply, bcast_keep, cast_keep]
  rw [red_add_at]
  simp only [exp_at, subf_apply, bcast_keep, scalar_ofBits, Ideal.ofBits_def, Ideal.ofBits_zero_f32]

/-- The scaled products of a query block with a source block. -/
def lg (Q S : FVec Ideal S8x128x256 .bf16) (m : Fin 8) (q k : Fin 128) : EReal :=
  (∑ g : Fin 256, Q (ix3 m q g) * S (ix3 m k g)) * sK

/-- The second result recomputes its logits from the query block `Q` and the source block `S`. -/
theorem pay10_at (W : FVec Ideal S256x256 .bf16) (H : FVec Ideal S8x128x256 .f32) (S Q : FVec Ideal S8x128x256 .bf16)
    (m : Fin 8) (q : Fin 128) (h : Fin 256) :
    k2_pay10 W H S Q (ix3 m q h)
      = max (∑ c : Fin 256, (∑ k : Fin 128,
            Ideal.div (Ideal.exp (lg Q S m q k - rowmax (lg Q S m q)))
              (∑ j : Fin 128, Ideal.exp (lg Q S m q j - rowmax (lg Q S m q))) * S (ix3 m k c)) * W (ix2 c h)) 0
        + H (ix3 m q h) := by
  unfold k2_pay10
  simp only [addf_apply, maximumf_apply, broadcast_apply]
  rw [cast_unflat, mm_plain]
  simp only [truncf_apply, cast_flat, mm_pv, divf_apply, exp_at, subf_apply, bcast_keep, cast_keep]
  rw [red_add_at]
  simp only [exp_at, subf_apply, bcast_keep, cast_keep, maximumf_apply, broadcast_apply]
  rw [red_max_at]
  simp only [mulf_apply, broadcast_apply, mm_qk, scalar_ofBits, Ideal.ofBits_def, Ideal.ofBits_zero_f32,
    Cert.Lib.MaxFold.ofBits_neg_inf_f32, max_bot_left]
  rfl

/-! ## The two results -/

/-- The first branch's new message: the first branch attends to the second. -/
theorem payR2 (x0 x1 x2 x3 : Vec Ideal S8x128x256 .f32) (x4 x5 : Vec Ideal S256x256 .f32) (m : Fin 8) (q : Fin 128) (h : Fin 256) :
    k2_pay9 (k2_pay2 x5) (k2_pay3 x0 x2 x4) (k2_pay6 x1 x3 x4) (k2_pay7 x0 x1 x2 x3 x4) (k2_pay8 x0 x1 x2 x3 x4) (ix3 m q h)
      = fusedR (to3 x0 m) (to3 x1 m) (to3 x2 m) (to3 x3 m) (to2 x4) (to2 x5) sK q h := by
  rw [pay9_at]
  simp only [pay3_at, pay6_at, pay7_at, pay8_at]
  rfl

/-- The second branch's new message: the second branch attends to the first. -/
theorem payP2 (x0 x1 x2 x3 : Vec Ideal S8x128x256 .f32) (x4 x5 : Vec Ideal S256x256 .f32) (m : Fin 8) (q : Fin 128) (h : Fin 256) :
    k2_pay10 (k2_pay2 x5) (k2_pay4 x1 x3 x4) (k2_pay5 x0 x2 x4) (k2_pay6 x1 x3 x4) (ix3 m q h)
      = fusedP (to3 x0 m) (to3 x1 m) (to3 x2 m) (to3 x3 m) (to2 x4) (to2 x5) sK q h := by
  rw [pay10_at]
  have hl : lg (k2_pay6 x1 x3 x4) (k2_pay5 x0 x2 x4) m q
      = logit (hid (to3 x1 m) (to3 x3 m) (to2 x4)) (hid (to3 x0 m) (to3 x2 m) (to2 x4)) sK q := by
    funext k
    unfold lg
    simp only [pay5_at, pay6_at]
    rfl
  rw [hl]
  simp only [pay4_at, pay5_at]
  rfl

/-- The second fused region is the same text. -/
theorem payR3 (x0 x1 x2 x3 : Vec Ideal S8x128x256 .f32) (x4 x5 : Vec Ideal S256x256 .f32) (m : Fin 8) (q : Fin 128) (h : Fin 256) :
    k3_pay9 (k3_pay2 x5) (k3_pay3 x0 x2 x4) (k3_pay6 x1 x3 x4) (k3_pay7 x0 x1 x2 x3 x4) (k3_pay8 x0 x1 x2 x3 x4) (ix3 m q h)
      = fusedR (to3 x0 m) (to3 x1 m) (to3 x2 m) (to3 x3 m) (to2 x4) (to2 x5) sK q h :=
  payR2 x0 x1 x2 x3 x4 x5 m q h
theorem payP3 (x0 x1 x2 x3 : Vec Ideal S8x128x256 .f32) (x4 x5 : Vec Ideal S256x256 .f32) (m : Fin 8) (q : Fin 128) (h : Fin 256) :
    k3_pay10 (k3_pay2 x5) (k3_pay4 x1 x3 x4) (k3_pay5 x0 x2 x4) (k3_pay6 x1 x3 x4) (ix3 m q h)
      = fusedP (to3 x0 m) (to3 x1 m) (to3 x2 m) (to3 x3 m) (to2 x4) (to2 x5) sK q h :=
  payP2 x0 x1 x2 x3 x4 x5 m q h

end Cert.KFused

end
-- ==== Proof.KArr2.lean ====
import proofs.«135133_j46703474376853_2_alg».proof.Proof.Gen.KernelIdeal.Frame
import proofs.«135133_j46703474376853_2_alg».proof.Proof.KFused
import proofs.«135133_j46703474376853_2_alg».proof.Proof.Spec
import Idealize.ShloMosaic.Lib.ValueIdx
import Idealize.ShloMosaic.Lib.Pipeline.Value

/-!
# The fused regions' result arrays

Each of the two fused regions walks the 512 molecules in 64 blocks of eight. At a block the body reads the same eight
molecules of its four bond arrays and the two whole weight matrices, and stores for each of the eight molecules the
two new messages, which depend on that molecule's bonds only. So what a point writes back is block `t` of ONE function
of the whole arrays (molecule `m` of the result is the fused step of molecule `m` of the inputs), the 64 blocks cover
the 512 molecules, and the result arrays end holding that function.
-/

set_option maxRecDepth 16384

noncomputable section

namespace Cert.KArr2

open Cert.KernelIdeal Cert.KernelIdeal.Gen Cert.Spec Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The result arrays as functions of the whole input arrays: molecule by molecule, the fused step. -/
def GR (X0 X1 X2 X3 : A3 512 128 256) (X4 X5 : A2 256 256) : A3 512 128 256 := fun j =>
  fusedR (to3 X0 (j 0)) (to3 X1 (j 0)) (to3 X2 (j 0)) (to3 X3 (j 0)) (to2 X4) (to2 X5) Cert.KFused.sK (j 1) (j 2)
def GP (X0 X1 X2 X3 : A3 512 128 256) (X4 X5 : A2 256 256) : A3 512 128 256 := fun j =>
  fusedP (to3 X0 (j 0)) (to3 X1 (j 0)) (to3 X2 (j 0)) (to3 X3 (j 0)) (to2 X4) (to2 X5) Cert.KFused.sK (j 1) (j 2)

/-- A function of four molecules and two matrices at equal arguments. -/
theorem fused_congr (f : (Fin 128 → Fin 256 → EReal) → (Fin 128 → Fin 256 → EReal) → (Fin 128 → Fin 256 → EReal) → (Fin 128 → Fin 256 → EReal)
      → (Fin 256 → Fin 256 → EReal) → (Fin 256 → Fin 256 → EReal) → EReal → Fin 128 → Fin 256 → EReal) (s : EReal) (q : Fin 128) (h : Fin 256)
    {a0 a1 a2 a3 b0 b1 b2 b3 : Fin 128 → Fin 256 → EReal} {u4 u5 v4 v5 : Fin 256 → Fin 256 → EReal}
    (h0 : a0 = b0) (h1 : a1 = b1) (h2 : a2 = b2) (h3 : a3 = b3) (h4 : u4 = v4) (h5 : u5 = v5) :
    f a0 a1 a2 a3 u4 u5 s q h = f b0 b1 b2 b3 v4 v5 s q h := by
  subst h0 h1 h2 h3 h4 h5; rfl

/-! ## The index maps and the input blocks -/

/-- The index maps over the 64 points: the six molecule windows move with the point, eight molecules a block; the two
    weights stay. -/
theorem index_facts2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0)
    ∧ (win2_6.index t (0 : Fin 3) = t.val ∧ win2_6.index t (1 : Fin 3) = 0 ∧ win2_6.index t (2 : Fin 3) = 0)
    ∧ (win2_7.index t (0 : Fin 3) = t.val ∧ win2_7.index t (1 : Fin 3) = 0 ∧ win2_7.index t (2 : Fin 3) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

/-- Molecule `p` of input window 0's block at point `t` is molecule `8 t + p` of its array. -/
theorem mol2_0 (c : Dev nD) (t : Fin cfg2.N) (p : Fin 8) (r : Fin 512) (hr : r.val = 8 * t.val + p.val) :
    to3 (iblk2 V c 0 t : Vec Ideal S8x128x256 .f32) p = to3 (V c (Pipeline.arrRef spec2 0) : A3 512 128 256) r := by
  obtain ⟨⟨e0, e1, e2⟩, -, -, -, -, -, -, -⟩ := index_facts2 t
  funext q h
  show (iblk2 V c 0 t : Vec Ideal S8x128x256 .f32) (ix3 p q h) = (V c (Pipeline.arrRef spec2 0) : A3 512 128 256) (ix3 r q h)
  unfold iblk2
  rw [View.read_apply]
  refine congrArg (V c (Pipeline.arrRef spec2 0) : A3 512 128 256) (funext fun a => Fin.ext ?_)
  match a with
  | ⟨0, _⟩ => show win2_0.index t (0 : Fin 3) * 8 + 1 * p.val = r.val; omega
  | ⟨1, _⟩ => show win2_0.index t (1 : Fin 3) * 128 + 1 * q.val = q.val; omega
  | ⟨2, _⟩ => show win2_0.index t (2 : Fin 3) * 256 + 1 * h.val = h.val; omega

/-- Molecule `p` of input window 1's block at point `t` is molecule `8 t + p` of its array. -/
theorem mol2_1 (c : Dev nD) (t : Fin cfg2.N) (p : Fin 8) (r : Fin 512) (hr : r.val = 8 * t.val + p.val) :
    to3 (iblk2 V c 1 t : Vec Ideal S8x128x256 .f32) p = to3 (V c (Pipeline.arrRef spec2 1) : A3 512 128 256) r := by
  obtain ⟨-, ⟨e0, e1, e2⟩, -, -, -, -, -, -⟩ := index_facts2 t
  funext q h
  show (iblk2 V c 1 t : Vec Ideal S8x128x256 .f32) (ix3 p q h) = (V c (Pipeline.arrRef spec2 1) : A3 512 128 256) (ix3 r q h)
  unfold iblk2
  rw [View.read_apply]
  refine congrArg (V c (Pipeline.arrRef spec2 1) : A3 512 128 256) (funext fun a => Fin.ext ?_)
  match a with
  | ⟨0, _⟩ => show win2_1.index t (0 : Fin 3) * 8 + 1 * p.val = r.val; omega
  | ⟨1, _⟩ => show win2_1.index t (1 : Fin 3) * 128 + 1 * q.val = q.val; omega
  | ⟨2, _⟩ => show win2_1.index t (2 : Fin 3) * 256 + 1 * h.val = h.val; omega

/-- Molecule `p` of input window 2's block at point `t` is molecule `8 t + p` of its array. -/
theorem mol2_2 (c : Dev nD) (t : Fin cfg2.N) (p : Fin 8) (r : Fin 512) (hr : r.val = 8 * t.val + p.val) :
    to3 (iblk2 V c 2 t : Vec Ideal S8x128x256 .f32) p = to3 (V c (Pipeline.arrRef spec2 2) : A3 512 128 256) r := by
  obtain ⟨-, -, ⟨e0, e1, e2⟩, -, -, -, -, -⟩ := index_facts2 t
  funext q h
  show (iblk2 V c 2 t : Vec Ideal S8x128x256 .f32) (ix3 p q h) = (V c (Pipeline.arrRef spec2 2) : A3 512 128 256) (ix3 r q h)
  unfold iblk2
  rw [View.read_apply]
  refine congrArg (V c (Pipeline.arrRef spec2 2) : A3 512 128 256) (funext fun a => Fin.ext ?_)
  match a with
  | ⟨0, _⟩ => show win2_2.index t (0 : Fin 3) * 8 + 1 * p.val = r.val; omega
  | ⟨1, _⟩ => show win2_2.index t (1 : Fin 3) * 128 + 1 * q.val = q.val; omega
  | ⟨2, _⟩ => show win2_2.index t (2 : Fin 3) * 256 + 1 * h.val = h.val; omega

/-- Molecule `p` of input window 3's block at point `t` is molecule `8 t + p` of its array. -/
theorem mol2_3 (c : Dev nD) (t : Fin cfg2.N) (p : Fin 8) (r : Fin 512) (hr : r.val = 8 * t.val + p.val) :
    to3 (iblk2 V c 3 t : Vec Ideal S8x128x256 .f32) p = to3 (V c (Pipeline.arrRef spec2 3) : A3 512 128 256) r := by
  obtain ⟨-, -, -, ⟨e0, e1, e2⟩, -, -, -, -⟩ := index_facts2 t
  funext q h
  show (iblk2 V c 3 t : Vec Ideal S8x128x256 .f32) (ix3 p q h) = (V c (Pipeline.arrRef spec2 3) : A3 512 128 256) (ix3 r q h)
  unfold iblk2
  rw [View.read_apply]
  refine congrArg (V c (Pipeline.arrRef spec2 3) : A3 512 128 256) (funext fun a => Fin.ext ?_)
  match a with
  | ⟨0, _⟩ => show win2_3.index t (0 : Fin 3) * 8 + 1 * p.val = r.val; omega
  | ⟨1, _⟩ => show win2_3.index t (1 : Fin 3) * 128 + 1 * q.val = q.val; omega
  | ⟨2, _⟩ => show win2_3.index t (2 : Fin 3) * 256 + 1 * h.val = h.val; omega

/-- Input window 4's block at every point is its whole array. -/
theorem wt2_4 (c : Dev nD) (t : Fin cfg2.N) :
    to2 (iblk2 V c 4 t : Vec Ideal S256x256 .f32) = to2 (V c (Pipeline.arrRef spec2 4) : A2 256 256) := by
  obtain ⟨-, -, -, -, -, -, ⟨e0, e1⟩, -⟩ := index_facts2 t
  funext k j
  show (iblk2 V c 4 t : Vec Ideal S256x256 .f32) (ix2 k j) = (V c (Pipeline.arrRef spec2 4) : A2 256 256) (ix2 k j)
  unfold iblk2
  rw [View.read_apply]
  refine congrArg (V c (Pipeline.arrRef spec2 4) : A2 256 256) (funext fun a => Fin.ext ?_)
  match a with
  | ⟨0, _⟩ => show win2_4.index t (0 : Fin 2) * 256 + 1 * k.val = k.val; omega
  | ⟨1, _⟩ => show win2_4.index t (1 : Fin 2) * 256 + 1 * j.val = j.val; omega

/-- Input window 5's block at every point is its whole array. -/
theorem wt2_5 (c : Dev nD) (t : Fin cfg2.N) :
    to2 (iblk2 V c 5 t : Vec Ideal S256x256 .f32) = to2 (V c (Pipeline.arrRef spec2 5) : A2 256 256) := by
  obtain ⟨-, -, -, -, -, -, -, ⟨e0, e1⟩⟩ := index_facts2 t
  funext k j
  show (iblk2 V c 5 t : Vec Ideal S256x256 .f32) (ix2 k j) = (V c (Pipeline.arrRef spec2 5) : A2 256 256) (ix2 k j)
  unfold iblk2
  rw [View.read_apply]
  refine congrArg (V c (Pipeline.arrRef spec2 5) : A2 256 256) (funext fun a => Fin.ext ?_)
  match a with
  | ⟨0, _⟩ => show win2_5.index t (0 : Fin 2) * 256 + 1 * k.val = k.val; omega
  | ⟨1, _⟩ => show win2_5.index t (1 : Fin 2) * 256 + 1 * j.val = j.val; omega

/-! ## Output window 6 -/

set_option maxHeartbeats 2000000 in
/-- What point `t` writes back through window 6 is block `t` of `GR` of the arrays as the region finds them. -/
theorem flushed2_6_eq (c : Dev nD) (t : Fin cfg2.N) :
    (dat2 V c).flushed 6 t = ((cfg2.win 6).blk t).view.read (Elt Ideal)
      (GR (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz3]
  simp only [View.ld_unit_zero (S := S8x128x256) hz3, View.ld_unit_zero (S := S256x256) hz2]
  funext j
  obtain ⟨p, q, h, rfl⟩ : ∃ (p : Fin 8) (q : Fin 128) (h : Fin 256), j = ix3 p q h := ⟨j 0, j 1, j 2, eq_ix3 j⟩
  obtain ⟨r, hr⟩ : ∃ r : Fin 512, r.val = 8 * t.val + p.val := by
    have ht : t.val < 64 := lt_of_lt_of_eq t.isLt (show cfg2.N = 64 from N_2)
    have hp := p.isLt
    exact ⟨⟨8 * t.val + p.val, by omega⟩, rfl⟩
  refine (Cert.KFused.payR2 (iblk2 V c 0 t) (iblk2 V c 1 t) (iblk2 V c 2 t) (iblk2 V c 3 t) (iblk2 V c 4 t) (iblk2 V c 5 t) p q h).trans ?_
  rw [View.read_apply]
  have hemb : ((cfg2.win 6).blk t).view.emb (ix3 p q h) = ix3 r q h := by
    obtain ⟨-, -, -, -, ⟨e0, e1, e2⟩, -, -, -⟩ := index_facts2 t
    exact funext fun a => Fin.ext (by
      match a with
      | ⟨0, _⟩ => show win2_6.index t (0 : Fin 3) * 8 + 1 * p.val = r.val; omega
      | ⟨1, _⟩ => show win2_6.index t (1 : Fin 3) * 128 + 1 * q.val = q.val; omega
      | ⟨2, _⟩ => show win2_6.index t (2 : Fin 3) * 256 + 1 * h.val = h.val; omega)
  have hG : GR (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix3 r q h)
      = fusedR (to3 (V c (Pipeline.arrRef spec2 0) : A3 512 128 256) r) (to3 (V c (Pipeline.arrRef spec2 1) : A3 512 128 256) r)
          (to3 (V c (Pipeline.arrRef spec2 2) : A3 512 128 256) r) (to3 (V c (Pipeline.arrRef spec2 3) : A3 512 128 256) r)
          (to2 (V c (Pipeline.arrRef spec2 4) : A2 256 256)) (to2 (V c (Pipeline.arrRef spec2 5) : A2 256 256)) Cert.KFused.sK q h := rfl
  refine Eq.trans ?_ ((congrArg _ hemb).trans hG).symm
  exact fused_congr fusedR Cert.KFused.sK q h (mol2_0 V c t p r hr) (mol2_1 V c t p r hr) (mol2_2 V c t p r hr) (mol2_3 V c t p r hr) (wt2_4 V c t) (wt2_5 V c t)

/-- An index of the array is in point `t`'s block of window 6 iff each coordinate is in the block's range on its axis. -/
theorem mem_blk2_6 (t : Fin cfg2.N) (i : S512x128x256.Idx) :
    i ∈ ((cfg2.win 6).blk t).view.set ↔ ∀ a : Fin 3, win2_6.index t a * S8x128x256.size a ≤ (i a).val ∧ (i a).val < win2_6.index t a * S8x128x256.size a + S8x128x256.size a := by
  show i ∈ ((View.whole main_call0_v54_0).slice (win2_6.rect t)).set ↔ _
  rw [View.set_slice_whole, Rect.mem_set_unit]
  exact Iff.rfl

/-- Molecule `m` is in the block of point `m / 8`: the blocks of window 6 cover the array. -/
theorem tiles2_6 (i : S512x128x256.Idx) :
    ∃ t : Fin cfg2.N, (cfg2.win 6).flush t = true ∧ i ∈ ((cfg2.win 6).blk t).view.set := by
  have hi0 : (i 0).val < 512 := (i 0).isLt
  have hi1 : (i 1).val < 128 := (i 1).isLt
  have hi2 : (i 2).val < 256 := (i 2).isLt
  have hN : cfg2.N = 64 := N_2
  obtain ⟨t, htv⟩ : ∃ t : Fin cfg2.N, t.val = (i 0).val / 8 := ⟨⟨(i 0).val / 8, by rw [hN]; omega⟩, rfl⟩
  obtain ⟨-, -, -, -, ⟨e0, e1, e2⟩, -, -, -⟩ := index_facts2 t
  refine ⟨t, flush2_6 t, ?_⟩
  rw [mem_blk2_6]
  intro a
  match a with
  | ⟨0, _⟩ => show win2_6.index t (0 : Fin 3) * 8 ≤ (i 0).val ∧ (i 0).val < win2_6.index t (0 : Fin 3) * 8 + 8; omega
  | ⟨1, _⟩ => show win2_6.index t (1 : Fin 3) * 128 ≤ (i 1).val ∧ (i 1).val < win2_6.index t (1 : Fin 3) * 128 + 128; omega
  | ⟨2, _⟩ => show win2_6.index t (2 : Fin 3) * 256 ≤ (i 2).val ∧ (i 2).val < win2_6.index t (2 : Fin 3) * 256 + 256; omega

/-- The array of window 6 after the region: molecule `m` is `fusedR` of molecule `m` of the region's input arrays. -/
theorem arr2_6 (c : Dev nD) (m : Fin 512) (q : Fin 128) (h : Fin 256) :
    (dat2 V c).arrAt 6 cfg2.N (ix3 m q h)
      = fusedR (to3 (V c (Pipeline.arrRef spec2 0)) m) (to3 (V c (Pipeline.arrRef spec2 1)) m) (to3 (V c (Pipeline.arrRef spec2 2)) m) (to3 (V c (Pipeline.arrRef spec2 3)) m) (to2 (V c (Pipeline.arrRef spec2 4))) (to2 (V c (Pipeline.arrRef spec2 5))) Cert.KFused.sK q h := by
  have e := (dat2 V c).arrAt_eq_of_cover 6 (GR (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (fun t _ => flushed2_6_eq V c t) tiles2_6
  exact congrFun e (ix3 m q h)

/-! ## Output window 7 -/

set_option maxHeartbeats 2000000 in
/-- What point `t` writes back through window 7 is block `t` of `GP` of the arrays as the region finds them. -/
theorem flushed2_7_eq (c : Dev nD) (t : Fin cfg2.N) :
    (dat2 V c).flushed 7 t = ((cfg2.win 7).blk t).view.read (Elt Ideal)
      (GP (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 7).cut (grid2.coords t) ((dat2 V c).after 7 t) = _
  rw [after2_7]
  unfold out2_7
  rw [View.canon_unit_zero hz3]
  simp only [View.ld_unit_zero (S := S8x128x256) hz3, View.ld_unit_zero (S := S256x256) hz2]
  funext j
  obtain ⟨p, q, h, rfl⟩ : ∃ (p : Fin 8) (q : Fin 128) (h : Fin 256), j = ix3 p q h := ⟨j 0, j 1, j 2, eq_ix3 j⟩
  obtain ⟨r, hr⟩ : ∃ r : Fin 512, r.val = 8 * t.val + p.val := by
    have ht : t.val < 64 := lt_of_lt_of_eq t.isLt (show cfg2.N = 64 from N_2)
    have hp := p.isLt
    exact ⟨⟨8 * t.val + p.val, by omega⟩, rfl⟩
  refine (Cert.KFused.payP2 (iblk2 V c 0 t) (iblk2 V c 1 t) (iblk2 V c 2 t) (iblk2 V c 3 t) (iblk2 V c 4 t) (iblk2 V c 5 t) p q h).trans ?_
  rw [View.read_apply]
  have hemb : ((cfg2.win 7).blk t).view.emb (ix3 p q h) = ix3 r q h := by
    obtain ⟨-, -, -, -, -, ⟨e0, e1, e2⟩, -, -⟩ := index_facts2 t
    exact funext fun a => Fin.ext (by
      match a with
      | ⟨0, _⟩ => show win2_7.index t (0 : Fin 3) * 8 + 1 * p.val = r.val; omega
      | ⟨1, _⟩ => show win2_7.index t (1 : Fin 3) * 128 + 1 * q.val = q.val; omega
      | ⟨2, _⟩ => show win2_7.index t (2 : Fin 3) * 256 + 1 * h.val = h.val; omega)
  have hG : GP (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix3 r q h)
      = fusedP (to3 (V c (Pipeline.arrRef spec2 0) : A3 512 128 256) r) (to3 (V c (Pipeline.arrRef spec2 1) : A3 512 128 256) r)
          (to3 (V c (Pipeline.arrRef spec2 2) : A3 512 128 256) r) (to3 (V c (Pipeline.arrRef spec2 3) : A3 512 128 256) r)
          (to2 (V c (Pipeline.arrRef spec2 4) : A2 256 256)) (to2 (V c (Pipeline.arrRef spec2 5) : A2 256 256)) Cert.KFused.sK q h := rfl
  refine Eq.trans ?_ ((congrArg _ hemb).trans hG).symm
  exact fused_congr fusedP Cert.KFused.sK q h (mol2_0 V c t p r hr) (mol2_1 V c t p r hr) (mol2_2 V c t p r hr) (mol2_3 V c t p r hr) (wt2_4 V c t) (wt2_5 V c t)

/-- An index of the array is in point `t`'s block of window 7 iff each coordinate is in the block's range on its axis. -/
theorem mem_blk2_7 (t : Fin cfg2.N) (i : S512x128x256.Idx) :
    i ∈ ((cfg2.win 7).blk t).view.set ↔ ∀ a : Fin 3, win2_7.index t a * S8x128x256.size a ≤ (i a).val ∧ (i a).val < win2_7.index t a * S8x128x256.size a + S8x128x256.size a := by
  show i ∈ ((View.whole main_call0_v54_1).slice (win2_7.rect t)).set ↔ _
  rw [View.set_slice_whole, Rect.mem_set_unit]
  exact Iff.rfl

/-- Molecule `m` is in the block of point `m / 8`: the blocks of window 7 cover the array. -/
theorem tiles2_7 (i : S512x128x256.Idx) :
    ∃ t : Fin cfg2.N, (cfg2.win 7).flush t = true ∧ i ∈ ((cfg2.win 7).blk t).view.set := by
  have hi0 : (i 0).val < 512 := (i 0).isLt
  have hi1 : (i 1).val < 128 := (i 1).isLt
  have hi2 : (i 2).val < 256 := (i 2).isLt
  have hN : cfg2.N = 64 := N_2
  obtain ⟨t, htv⟩ : ∃ t : Fin cfg2.N, t.val = (i 0).val / 8 := ⟨⟨(i 0).val / 8, by rw [hN]; omega⟩, rfl⟩
  obtain ⟨-, -, -, -, -, ⟨e0, e1, e2⟩, -, -⟩ := index_facts2 t
  refine ⟨t, flush2_7 t, ?_⟩
  rw [mem_blk2_7]
  intro a
  match a with
  | ⟨0, _⟩ => show win2_7.index t (0 : Fin 3) * 8 ≤ (i 0).val ∧ (i 0).val < win2_7.index t (0 : Fin 3) * 8 + 8; omega
  | ⟨1, _⟩ => show win2_7.index t (1 : Fin 3) * 128 ≤ (i 1).val ∧ (i 1).val < win2_7.index t (1 : Fin 3) * 128 + 128; omega
  | ⟨2, _⟩ => show win2_7.index t (2 : Fin 3) * 256 ≤ (i 2).val ∧ (i 2).val < win2_7.index t (2 : Fin 3) * 256 + 256; omega

/-- The array of window 7 after the region: molecule `m` is `fusedP` of molecule `m` of the region's input arrays. -/
theorem arr2_7 (c : Dev nD) (m : Fin 512) (q : Fin 128) (h : Fin 256) :
    (dat2 V c).arrAt 7 cfg2.N (ix3 m q h)
      = fusedP (to3 (V c (Pipeline.arrRef spec2 0)) m) (to3 (V c (Pipeline.arrRef spec2 1)) m) (to3 (V c (Pipeline.arrRef spec2 2)) m) (to3 (V c (Pipeline.arrRef spec2 3)) m) (to2 (V c (Pipeline.arrRef spec2 4))) (to2 (V c (Pipeline.arrRef spec2 5))) Cert.KFused.sK q h := by
  have e := (dat2 V c).arrAt_eq_of_cover 7 (GP (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (fun t _ => flushed2_7_eq V c t) tiles2_7
  exact congrFun e (ix3 m q h)

end Cert.KArr2

/-! # The second fused region: the same, over its own arrays -/

namespace Cert.KArr3

open Cert.KernelIdeal Cert.KernelIdeal.Gen Cert.Spec Cert.KArr2 Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The index maps and the input blocks -/

/-- The index maps over the 64 points: the six molecule windows move with the point, eight molecules a block; the two
    weights stay. -/
theorem index_facts3 : ∀ t : Fin cfg3.N,
    (win3_0.index t (0 : Fin 3) = t.val ∧ win3_0.index t (1 : Fin 3) = 0 ∧ win3_0.index t (2 : Fin 3) = 0)
    ∧ (win3_1.index t (0 : Fin 3) = t.val ∧ win3_1.index t (1 : Fin 3) = 0 ∧ win3_1.index t (2 : Fin 3) = 0)
    ∧ (win3_2.index t (0 : Fin 3) = t.val ∧ win3_2.index t (1 : Fin 3) = 0 ∧ win3_2.index t (2 : Fin 3) = 0)
    ∧ (win3_3.index t (0 : Fin 3) = t.val ∧ win3_3.index t (1 : Fin 3) = 0 ∧ win3_3.index t (2 : Fin 3) = 0)
    ∧ (win3_6.index t (0 : Fin 3) = t.val ∧ win3_6.index t (1 : Fin 3) = 0 ∧ win3_6.index t (2 : Fin 3) = 0)
    ∧ (win3_7.index t (0 : Fin 3) = t.val ∧ win3_7.index t (1 : Fin 3) = 0 ∧ win3_7.index t (2 : Fin 3) = 0)
    ∧ (win3_4.index t (0 : Fin 2) = 0 ∧ win3_4.index t (1 : Fin 2) = 0)
    ∧ (win3_5.index t (0 : Fin 2) = 0 ∧ win3_5.index t (1 : Fin 2) = 0) :=
  (by decide +kernel : ∀ t : Fin grid3.N, _)

/-- Molecule `p` of input window 0's block at point `t` is molecule `8 t + p` of its array. -/
theorem mol3_0 (c : Dev nD) (t : Fin cfg3.N) (p : Fin 8) (r : Fin 512) (hr : r.val = 8 * t.val + p.val) :
    to3 (iblk3 V c 0 t : Vec Ideal S8x128x256 .f32) p = to3 (V c (Pipeline.arrRef spec3 0) : A3 512 128 256) r := by
  obtain ⟨⟨e0, e1, e2⟩, -, -, -, -, -, -, -⟩ := index_facts3 t
  funext q h
  show (iblk3 V c 0 t : Vec Ideal S8x128x256 .f32) (ix3 p q h) = (V c (Pipeline.arrRef spec3 0) : A3 512 128 256) (ix3 r q h)
  unfold iblk3
  rw [View.read_apply]
  refine congrArg (V c (Pipeline.arrRef spec3 0) : A3 512 128 256) (funext fun a => Fin.ext ?_)
  match a with
  | ⟨0, _⟩ => show win3_0.index t (0 : Fin 3) * 8 + 1 * p.val = r.val; omega
  | ⟨1, _⟩ => show win3_0.index t (1 : Fin 3) * 128 + 1 * q.val = q.val; omega
  | ⟨2, _⟩ => show win3_0.index t (2 : Fin 3) * 256 + 1 * h.val = h.val; omega

/-- Molecule `p` of input window 1's block at point `t` is molecule `8 t + p` of its array. -/
theorem mol3_1 (c : Dev nD) (t : Fin cfg3.N) (p : Fin 8) (r : Fin 512) (hr : r.val = 8 * t.val + p.val) :
    to3 (iblk3 V c 1 t : Vec Ideal S8x128x256 .f32) p = to3 (V c (Pipeline.arrRef spec3 1) : A3 512 128 256) r := by
  obtain ⟨-, ⟨e0, e1, e2⟩, -, -, -, -, -, -⟩ := index_facts3 t
  funext q h
  show (iblk3 V c 1 t : Vec Ideal S8x128x256 .f32) (ix3 p q h) = (V c (Pipeline.arrRef spec3 1) : A3 512 128 256) (ix3 r q h)
  unfold iblk3
  rw [View.read_apply]
  refine congrArg (V c (Pipeline.arrRef spec3 1) : A3 512 128 256) (funext fun a => Fin.ext ?_)
  match a with
  | ⟨0, _⟩ => show win3_1.index t (0 : Fin 3) * 8 + 1 * p.val = r.val; omega
  | ⟨1, _⟩ => show win3_1.index t (1 : Fin 3) * 128 + 1 * q.val = q.val; omega
  | ⟨2, _⟩ => show win3_1.index t (2 : Fin 3) * 256 + 1 * h.val = h.val; omega

/-- Molecule `p` of input window 2's block at point `t` is molecule `8 t + p` of its array. -/
theorem mol3_2 (c : Dev nD) (t : Fin cfg3.N) (p : Fin 8) (r : Fin 512) (hr : r.val = 8 * t.val + p.val) :
    to3 (iblk3 V c 2 t : Vec Ideal S8x128x256 .f32) p = to3 (V c (Pipeline.arrRef spec3 2) : A3 512 128 256) r := by
  obtain ⟨-, -, ⟨e0, e1, e2⟩, -, -, -, -, -⟩ := index_facts3 t
  funext q h
  show (iblk3 V c 2 t : Vec Ideal S8x128x256 .f32) (ix3 p q h) = (V c (Pipeline.arrRef spec3 2) : A3 512 128 256) (ix3 r q h)
  unfold iblk3
  rw [View.read_apply]
  refine congrArg (V c (Pipeline.arrRef spec3 2) : A3 512 128 256) (funext fun a => Fin.ext ?_)
  match a with
  | ⟨0, _⟩ => show win3_2.index t (0 : Fin 3) * 8 + 1 * p.val = r.val; omega
  | ⟨1, _⟩ => show win3_2.index t (1 : Fin 3) * 128 + 1 * q.val = q.val; omega
  | ⟨2, _⟩ => show win3_2.index t (2 : Fin 3) * 256 + 1 * h.val = h.val; omega

/-- Molecule `p` of input window 3's block at point `t` is molecule `8 t + p` of its array. -/
theorem mol3_3 (c : Dev nD) (t : Fin cfg3.N) (p : Fin 8) (r : Fin 512) (hr : r.val = 8 * t.val + p.val) :
    to3 (iblk3 V c 3 t : Vec Ideal S8x128x256 .f32) p = to3 (V c (Pipeline.arrRef spec3 3) : A3 512 128 256) r := by
  obtain ⟨-, -, -, ⟨e0, e1, e2⟩, -, -, -, -⟩ := index_facts3 t
  funext q h
  show (iblk3 V c 3 t : Vec Ideal S8x128x256 .f32) (ix3 p q h) = (V c (Pipeline.arrRef spec3 3) : A3 512 128 256) (ix3 r q h)
  unfold iblk3
  rw [View.read_apply]
  refine congrArg (V c (Pipeline.arrRef spec3 3) : A3 512 128 256) (funext fun a => Fin.ext ?_)
  match a with
  | ⟨0, _⟩ => show win3_3.index t (0 : Fin 3) * 8 + 1 * p.val = r.val; omega
  | ⟨1, _⟩ => show win3_3.index t (1 : Fin 3) * 128 + 1 * q.val = q.val; omega
  | ⟨2, _⟩ => show win3_3.index t (2 : Fin 3) * 256 + 1 * h.val = h.val; omega

/-- Input window 4's block at every point is its whole array. -/
theorem wt3_4 (c : Dev nD) (t : Fin cfg3.N) :
    to2 (iblk3 V c 4 t : Vec Ideal S256x256 .f32) = to2 (V c (Pipeline.arrRef spec3 4) : A2 256 256) := by
  obtain ⟨-, -, -, -, -, -, ⟨e0, e1⟩, -⟩ := index_facts3 t
  funext k j
  show (iblk3 V c 4 t : Vec Ideal S256x256 .f32) (ix2 k j) = (V c (Pipeline.arrRef spec3 4) : A2 256 256) (ix2 k j)
  unfold iblk3
  rw [View.read_apply]
  refine congrArg (V c (Pipeline.arrRef spec3 4) : A2 256 256) (funext fun a => Fin.ext ?_)
  match a with
  | ⟨0, _⟩ => show win3_4.index t (0 : Fin 2) * 256 + 1 * k.val = k.val; omega
  | ⟨1, _⟩ => show win3_4.index t (1 : Fin 2) * 256 + 1 * j.val = j.val; omega

/-- Input window 5's block at every point is its whole array. -/
theorem wt3_5 (c : Dev nD) (t : Fin cfg3.N) :
    to2 (iblk3 V c 5 t : Vec Ideal S256x256 .f32) = to2 (V c (Pipeline.arrRef spec3 5) : A2 256 256) := by
  obtain ⟨-, -, -, -, -, -, -, ⟨e0, e1⟩⟩ := index_facts3 t
  funext k j
  show (iblk3 V c 5 t : Vec Ideal S256x256 .f32) (ix2 k j) = (V c (Pipeline.arrRef spec3 5) : A2 256 256) (ix2 k j)
  unfold iblk3
  rw [View.read_apply]
  refine congrArg (V c (Pipeline.arrRef spec3 5) : A2 256 256) (funext fun a => Fin.ext ?_)
  match a with
  | ⟨0, _⟩ => show win3_5.index t (0 : Fin 2) * 256 + 1 * k.val = k.val; omega
  | ⟨1, _⟩ => show win3_5.index t (1 : Fin 2) * 256 + 1 * j.val = j.val; omega

/-! ## Output window 6 -/

set_option maxHeartbeats 2000000 in
/-- What point `t` writes back through window 6 is block `t` of `GR` of the arrays as the region finds them. -/
theorem flushed3_6_eq (c : Dev nD) (t : Fin cfg3.N) :
    (dat3 V c).flushed 6 t = ((cfg3.win 6).blk t).view.read (Elt Ideal)
      (GR (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz3]
  simp only [View.ld_unit_zero (S := S8x128x256) hz3, View.ld_unit_zero (S := S256x256) hz2]
  funext j
  obtain ⟨p, q, h, rfl⟩ : ∃ (p : Fin 8) (q : Fin 128) (h : Fin 256), j = ix3 p q h := ⟨j 0, j 1, j 2, eq_ix3 j⟩
  obtain ⟨r, hr⟩ : ∃ r : Fin 512, r.val = 8 * t.val + p.val := by
    have ht : t.val < 64 := lt_of_lt_of_eq t.isLt (show cfg3.N = 64 from N_3)
    have hp := p.isLt
    exact ⟨⟨8 * t.val + p.val, by omega⟩, rfl⟩
  refine (Cert.KFused.payR3 (iblk3 V c 0 t) (iblk3 V c 1 t) (iblk3 V c 2 t) (iblk3 V c 3 t) (iblk3 V c 4 t) (iblk3 V c 5 t) p q h).trans ?_
  rw [View.read_apply]
  have hemb : ((cfg3.win 6).blk t).view.emb (ix3 p q h) = ix3 r q h := by
    obtain ⟨-, -, -, -, ⟨e0, e1, e2⟩, -, -, -⟩ := index_facts3 t
    exact funext fun a => Fin.ext (by
      match a with
      | ⟨0, _⟩ => show win3_6.index t (0 : Fin 3) * 8 + 1 * p.val = r.val; omega
      | ⟨1, _⟩ => show win3_6.index t (1 : Fin 3) * 128 + 1 * q.val = q.val; omega
      | ⟨2, _⟩ => show win3_6.index t (2 : Fin 3) * 256 + 1 * h.val = h.val; omega)
  have hG : GR (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (ix3 r q h)
      = fusedR (to3 (V c (Pipeline.arrRef spec3 0) : A3 512 128 256) r) (to3 (V c (Pipeline.arrRef spec3 1) : A3 512 128 256) r)
          (to3 (V c (Pipeline.arrRef spec3 2) : A3 512 128 256) r) (to3 (V c (Pipeline.arrRef spec3 3) : A3 512 128 256) r)
          (to2 (V c (Pipeline.arrRef spec3 4) : A2 256 256)) (to2 (V c (Pipeline.arrRef spec3 5) : A2 256 256)) Cert.KFused.sK q h := rfl
  refine Eq.trans ?_ ((congrArg _ hemb).trans hG).symm
  exact fused_congr fusedR Cert.KFused.sK q h (mol3_0 V c t p r hr) (mol3_1 V c t p r hr) (mol3_2 V c t p r hr) (mol3_3 V c t p r hr) (wt3_4 V c t) (wt3_5 V c t)

/-- An index of the array is in point `t`'s block of window 6 iff each coordinate is in the block's range on its axis. -/
theorem mem_blk3_6 (t : Fin cfg3.N) (i : S512x128x256.Idx) :
    i ∈ ((cfg3.win 6).blk t).view.set ↔ ∀ a : Fin 3, win3_6.index t a * S8x128x256.size a ≤ (i a).val ∧ (i a).val < win3_6.index t a * S8x128x256.size a + S8x128x256.size a := by
  show i ∈ ((View.whole main_call0_v107_0).slice (win3_6.rect t)).set ↔ _
  rw [View.set_slice_whole, Rect.mem_set_unit]
  exact Iff.rfl

/-- Molecule `m` is in the block of point `m / 8`: the blocks of window 6 cover the array. -/
theorem tiles3_6 (i : S512x128x256.Idx) :
    ∃ t : Fin cfg3.N, (cfg3.win 6).flush t = true ∧ i ∈ ((cfg3.win 6).blk t).view.set := by
  have hi0 : (i 0).val < 512 := (i 0).isLt
  have hi1 : (i 1).val < 128 := (i 1).isLt
  have hi2 : (i 2).val < 256 := (i 2).isLt
  have hN : cfg3.N = 64 := N_3
  obtain ⟨t, htv⟩ : ∃ t : Fin cfg3.N, t.val = (i 0).val / 8 := ⟨⟨(i 0).val / 8, by rw [hN]; omega⟩, rfl⟩
  obtain ⟨-, -, -, -, ⟨e0, e1, e2⟩, -, -, -⟩ := index_facts3 t
  refine ⟨t, flush3_6 t, ?_⟩
  rw [mem_blk3_6]
  intro a
  match a with
  | ⟨0, _⟩ => show win3_6.index t (0 : Fin 3) * 8 ≤ (i 0).val ∧ (i 0).val < win3_6.index t (0 : Fin 3) * 8 + 8; omega
  | ⟨1, _⟩ => show win3_6.index t (1 : Fin 3) * 128 ≤ (i 1).val ∧ (i 1).val < win3_6.index t (1 : Fin 3) * 128 + 128; omega
  | ⟨2, _⟩ => show win3_6.index t (2 : Fin 3) * 256 ≤ (i 2).val ∧ (i 2).val < win3_6.index t (2 : Fin 3) * 256 + 256; omega

/-- The array of window 6 after the region: molecule `m` is `fusedR` of molecule `m` of the region's input arrays. -/
theorem arr3_6 (c : Dev nD) (m : Fin 512) (q : Fin 128) (h : Fin 256) :
    (dat3 V c).arrAt 6 cfg3.N (ix3 m q h)
      = fusedR (to3 (V c (Pipeline.arrRef spec3 0)) m) (to3 (V c (Pipeline.arrRef spec3 1)) m) (to3 (V c (Pipeline.arrRef spec3 2)) m) (to3 (V c (Pipeline.arrRef spec3 3)) m) (to2 (V c (Pipeline.arrRef spec3 4))) (to2 (V c (Pipeline.arrRef spec3 5))) Cert.KFused.sK q h := by
  have e := (dat3 V c).arrAt_eq_of_cover 6 (GR (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (fun t _ => flushed3_6_eq V c t) tiles3_6
  exact congrFun e (ix3 m q h)

/-! ## Output window 7 -/

set_option maxHeartbeats 2000000 in
/-- What point `t` writes back through window 7 is block `t` of `GP` of the arrays as the region finds them. -/
theorem flushed3_7_eq (c : Dev nD) (t : Fin cfg3.N) :
    (dat3 V c).flushed 7 t = ((cfg3.win 7).blk t).view.read (Elt Ideal)
      (GP (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 7).cut (grid3.coords t) ((dat3 V c).after 7 t) = _
  rw [after3_7]
  unfold out3_7
  rw [View.canon_unit_zero hz3]
  simp only [View.ld_unit_zero (S := S8x128x256) hz3, View.ld_unit_zero (S := S256x256) hz2]
  funext j
  obtain ⟨p, q, h, rfl⟩ : ∃ (p : Fin 8) (q : Fin 128) (h : Fin 256), j = ix3 p q h := ⟨j 0, j 1, j 2, eq_ix3 j⟩
  obtain ⟨r, hr⟩ : ∃ r : Fin 512, r.val = 8 * t.val + p.val := by
    have ht : t.val < 64 := lt_of_lt_of_eq t.isLt (show cfg3.N = 64 from N_3)
    have hp := p.isLt
    exact ⟨⟨8 * t.val + p.val, by omega⟩, rfl⟩
  refine (Cert.KFused.payP3 (iblk3 V c 0 t) (iblk3 V c 1 t) (iblk3 V c 2 t) (iblk3 V c 3 t) (iblk3 V c 4 t) (iblk3 V c 5 t) p q h).trans ?_
  rw [View.read_apply]
  have hemb : ((cfg3.win 7).blk t).view.emb (ix3 p q h) = ix3 r q h := by
    obtain ⟨-, -, -, -, -, ⟨e0, e1, e2⟩, -, -⟩ := index_facts3 t
    exact funext fun a => Fin.ext (by
      match a with
      | ⟨0, _⟩ => show win3_7.index t (0 : Fin 3) * 8 + 1 * p.val = r.val; omega
      | ⟨1, _⟩ => show win3_7.index t (1 : Fin 3) * 128 + 1 * q.val = q.val; omega
      | ⟨2, _⟩ => show win3_7.index t (2 : Fin 3) * 256 + 1 * h.val = h.val; omega)
  have hG : GP (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (ix3 r q h)
      = fusedP (to3 (V c (Pipeline.arrRef spec3 0) : A3 512 128 256) r) (to3 (V c (Pipeline.arrRef spec3 1) : A3 512 128 256) r)
          (to3 (V c (Pipeline.arrRef spec3 2) : A3 512 128 256) r) (to3 (V c (Pipeline.arrRef spec3 3) : A3 512 128 256) r)
          (to2 (V c (Pipeline.arrRef spec3 4) : A2 256 256)) (to2 (V c (Pipeline.arrRef spec3 5) : A2 256 256)) Cert.KFused.sK q h := rfl
  refine Eq.trans ?_ ((congrArg _ hemb).trans hG).symm
  exact fused_congr fusedP Cert.KFused.sK q h (mol3_0 V c t p r hr) (mol3_1 V c t p r hr) (mol3_2 V c t p r hr) (mol3_3 V c t p r hr) (wt3_4 V c t) (wt3_5 V c t)

/-- An index of the array is in point `t`'s block of window 7 iff each coordinate is in the block's range on its axis. -/
theorem mem_blk3_7 (t : Fin cfg3.N) (i : S512x128x256.Idx) :
    i ∈ ((cfg3.win 7).blk t).view.set ↔ ∀ a : Fin 3, win3_7.index t a * S8x128x256.size a ≤ (i a).val ∧ (i a).val < win3_7.index t a * S8x128x256.size a + S8x128x256.size a := by
  show i ∈ ((View.whole main_call0_v107_1).slice (win3_7.rect t)).set ↔ _
  rw [View.set_slice_whole, Rect.mem_set_unit]
  exact Iff.rfl

/-- Molecule `m` is in the block of point `m / 8`: the blocks of window 7 cover the array. -/
theorem tiles3_7 (i : S512x128x256.Idx) :
    ∃ t : Fin cfg3.N, (cfg3.win 7).flush t = true ∧ i ∈ ((cfg3.win 7).blk t).view.set := by
  have hi0 : (i 0).val < 512 := (i 0).isLt
  have hi1 : (i 1).val < 128 := (i 1).isLt
  have hi2 : (i 2).val < 256 := (i 2).isLt
  have hN : cfg3.N = 64 := N_3
  obtain ⟨t, htv⟩ : ∃ t : Fin cfg3.N, t.val = (i 0).val / 8 := ⟨⟨(i 0).val / 8, by rw [hN]; omega⟩, rfl⟩
  obtain ⟨-, -, -, -, -, ⟨e0, e1, e2⟩, -, -⟩ := index_facts3 t
  refine ⟨t, flush3_7 t, ?_⟩
  rw [mem_blk3_7]
  intro a
  match a with
  | ⟨0, _⟩ => show win3_7.index t (0 : Fin 3) * 8 ≤ (i 0).val ∧ (i 0).val < win3_7.index t (0 : Fin 3) * 8 + 8; omega
  | ⟨1, _⟩ => show win3_7.index t (1 : Fin 3) * 128 ≤ (i 1).val ∧ (i 1).val < win3_7.index t (1 : Fin 3) * 128 + 128; omega
  | ⟨2, _⟩ => show win3_7.index t (2 : Fin 3) * 256 ≤ (i 2).val ∧ (i 2).val < win3_7.index t (2 : Fin 3) * 256 + 256; omega

/-- The array of window 7 after the region: molecule `m` is `fusedP` of molecule `m` of the region's input arrays. -/
theorem arr3_7 (c : Dev nD) (m : Fin 512) (q : Fin 128) (h : Fin 256) :
    (dat3 V c).arrAt 7 cfg3.N (ix3 m q h)
      = fusedP (to3 (V c (Pipeline.arrRef spec3 0)) m) (to3 (V c (Pipeline.arrRef spec3 1)) m) (to3 (V c (Pipeline.arrRef spec3 2)) m) (to3 (V c (Pipeline.arrRef spec3 3)) m) (to2 (V c (Pipeline.arrRef spec3 4))) (to2 (V c (Pipeline.arrRef spec3 5))) Cert.KFused.sK q h := by
  have e := (dat3 V c).arrAt_eq_of_cover 7 (GP (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (fun t _ => flushed3_7_eq V c t) tiles3_7
  exact congrFun e (ix3 m q h)

end Cert.KArr3

end
-- ==== Proof.KArr4.lean ====
import proofs.«135133_j46703474376853_2_alg».proof.Proof.Gen.KernelIdeal.Frame
import proofs.«135133_j46703474376853_2_alg».proof.Proof.KSmall
import proofs.«135133_j46703474376853_2_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The biased hidden updates' result arrays

The two biased updates tile the 65536 bond rows into 32 blocks of 2048 rows; at each block the body adds, to the
block's rows of the carried input, the block's rows of the aggregate times the whole weight and the bias row, and
rectifies. A row of the result depends on the same row of the two row operands only, so every point writes back
block `t` of one function of the arrays, the blocks cover all rows, and the array ends holding that function.
-/

set_option maxRecDepth 16384

noncomputable section

namespace Cert.KArr4

open Cert.KernelIdeal Cert.KernelIdeal.Gen Cert.Spec Cert.KSmall Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The update of the whole arrays as a function of an index. -/
def upd (B A : A2 65536 256) (W : A2 256 256) (b : A2 1 256) : A2 65536 256 :=
  fun j => updRow (to2 B (j 0)) (to2 A (j 0)) (to2 W) (to2 b 0) (j 1)

/-- The index maps over the 32 points: the row blocks move with the point, the weight and the bias stay. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- One block: the payload at block coordinates, from blocks of rows `R + p` of the two row arrays, the whole
    weight and the bias row. -/
theorem block_upd (B A : A2 65536 256) (W : A2 256 256) (b : A2 1 256)
    (x0 x1 : Vec Ideal S2048x256 .f32) (x2 : Vec Ideal S256x256 .f32) (x3 : Vec Ideal S1x256 .f32) (R : Nat)
    (h0 : ∀ (p : Fin 2048) (k : Fin 256) (r : Fin 65536), r.val = R + p.val → x0 (ix2 p k) = B (ix2 r k))
    (h1 : ∀ (p : Fin 2048) (k : Fin 256) (r : Fin 65536), r.val = R + p.val → x1 (ix2 p k) = A (ix2 r k))
    (h2 : ∀ (k : Fin 256) (q : Fin 256), x2 (ix2 k q) = W (ix2 k q))
    (h3 : ∀ (q : Fin 256), x3 (ix2 (0 : Fin 1) q) = b (ix2 (0 : Fin 1) q))
    (p : Fin 2048) (q : Fin 256) (r : Fin 65536) (hr : r.val = R + p.val) :
    k4_pay1 x0 x1 x2 x3 (ix2 p q) = updRow (to2 B r) (to2 A r) (to2 W) (to2 b 0) q := by
  rw [upd4]
  unfold updRow dotRow to2
  rw [h0 p q r hr, h3 q]
  exact congrArg (fun z => relu (B (ix2 r q) + z + b (ix2 (0 : Fin 1) q))) (Finset.sum_congr rfl fun k _ => by rw [h1 p k r hr, h2 k q])

/-- The input blocks at point `t`, read at block coordinates. -/
theorem iblk_base (c : Dev nD) (t : Fin cfg4.N) (p : Fin 2048) (k : Fin 256) (r : Fin 65536) (hr : r.val = 2048 * t.val + p.val) :
    (iblk4 V c 0 t : Vec Ideal S2048x256 .f32) (ix2 p k) = (V c (Pipeline.arrRef spec4 0) : A2 65536 256) (ix2 r k) := by
  obtain ⟨e0, e1, -⟩ := index_facts t
  unfold iblk4
  rw [View.read_apply]
  refine congrArg (V c (Pipeline.arrRef spec4 0) : A2 65536 256) (funext fun a => Fin.ext ?_)
  match a with
  | ⟨0, _⟩ => show win4_0.index t (0 : Fin 2) * 2048 + 1 * p.val = r.val; omega
  | ⟨1, _⟩ => show win4_0.index t (1 : Fin 2) * 256 + 1 * k.val = k.val; omega

theorem iblk_agg (c : Dev nD) (t : Fin cfg4.N) (p : Fin 2048) (k : Fin 256) (r : Fin 65536) (hr : r.val = 2048 * t.val + p.val) :
    (iblk4 V c 1 t : Vec Ideal S2048x256 .f32) (ix2 p k) = (V c (Pipeline.arrRef spec4 1) : A2 65536 256) (ix2 r k) := by
  obtain ⟨-, -, e2, e3, -⟩ := index_facts t
  unfold iblk4
  rw [View.read_apply]
  refine congrArg (V c (Pipeline.arrRef spec4 1) : A2 65536 256) (funext fun a => Fin.ext ?_)
  match a with
  | ⟨0, _⟩ => show win4_1.index t (0 : Fin 2) * 2048 + 1 * p.val = r.val; omega
  | ⟨1, _⟩ => show win4_1.index t (1 : Fin 2) * 256 + 1 * k.val = k.val; omega

theorem iblk_weight (c : Dev nD) (t : Fin cfg4.N) (k : Fin 256) (q : Fin 256) :
    (iblk4 V c 2 t : Vec Ideal S256x256 .f32) (ix2 k q) = (V c (Pipeline.arrRef spec4 2) : A2 256 256) (ix2 k q) := by
  obtain ⟨-, -, -, -, e4, e5, -⟩ := index_facts t
  unfold iblk4
  rw [View.read_apply]
  refine congrArg (V c (Pipeline.arrRef spec4 2) : A2 256 256) (funext fun a => Fin.ext ?_)
  match a with
  | ⟨0, _⟩ => show win4_2.index t (0 : Fin 2) * 256 + 1 * k.val = k.val; omega
  | ⟨1, _⟩ => show win4_2.index t (1 : Fin 2) * 256 + 1 * q.val = q.val; omega

theorem iblk_bias (c : Dev nD) (t : Fin cfg4.N) (q : Fin 256) :
    (iblk4 V c 3 t : Vec Ideal S1x256 .f32) (ix2 (0 : Fin 1) q) = (V c (Pipeline.arrRef spec4 3) : A2 1 256) (ix2 (0 : Fin 1) q) := by
  obtain ⟨-, -, -, -, -, -, e6, e7, -⟩ := index_facts t
  unfold iblk4
  rw [View.read_apply]
  refine congrArg (V c (Pipeline.arrRef spec4 3) : A2 1 256) (funext fun a => Fin.ext ?_)
  match a with
  | ⟨0, _⟩ => show win4_3.index t (0 : Fin 2) * 1 + 1 * (0 : Fin 1).val = (0 : Fin 1).val; omega
  | ⟨1, _⟩ => show win4_3.index t (1 : Fin 2) * 256 + 1 * q.val = q.val; omega

/-- What point `t` writes back is block `t` of the update of the arrays as the region finds them. -/
theorem flushed_upd (c : Dev nD) (t : Fin cfg4.N) :
    (dat4 V c).flushed 4 t = ((cfg4.win 4).blk t).view.read (Elt Ideal)
      (upd (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  unfold out4_4
  rw [View.canon_unit_zero zero_offsets]
  simp only [View.ld_unit_zero (S := S2048x256) zero_offsets, View.ld_unit_zero (S := S256x256) zero_offsets, View.ld_unit_zero (S := S1x256) zero_offsets]
  obtain ⟨-, -, -, -, -, -, -, -, e8, e9⟩ := index_facts t
  funext j
  obtain ⟨p, q, rfl⟩ : ∃ (p : Fin 2048) (q : Fin 256), j = ix2 p q := ⟨j 0, j 1, eq_ix2 j⟩
  have hp := p.isLt
  have ht : t.val < 32 := lt_of_lt_of_eq t.isLt (show cfg4.N = 32 from N_4)
  refine (block_upd (V c (Pipeline.arrRef spec4 0)) (V c (Pipeline.arrRef spec4 1)) (V c (Pipeline.arrRef spec4 2)) (V c (Pipeline.arrRef spec4 3))
    (iblk4 V c 0 t) (iblk4 V c 1 t) (iblk4 V c 2 t) (iblk4 V c 3 t) (2048 * t.val)
    (fun p k r hr => iblk_base V c t p k r hr) (fun p k r hr => iblk_agg V c t p k r hr) (fun k q => iblk_weight V c t k q) (fun q => iblk_bias V c t q)
    p q ⟨2048 * t.val + p.val, by omega⟩ rfl).trans ?_
  have hr : (⟨2048 * t.val + p.val, by omega⟩ : Fin 65536) = ((cfg4.win 4).blk t).view.emb (ix2 p q) 0 :=
    Fin.ext (by show 2048 * t.val + p.val = win4_4.index t (0 : Fin 2) * 2048 + 1 * p.val; omega)
  have hq : q = ((cfg4.win 4).blk t).view.emb (ix2 p q) 1 :=
    Fin.ext (by show q.val = win4_4.index t (1 : Fin 2) * 256 + 1 * q.val; omega)
  exact congrArg₂ (fun (r : Fin 65536) (q' : Fin 256) =>
    updRow (to2 (V c (Pipeline.arrRef spec4 0) : A2 65536 256) r) (to2 (V c (Pipeline.arrRef spec4 1) : A2 65536 256) r)
      (to2 (V c (Pipeline.arrRef spec4 2) : A2 256 256)) (to2 (V c (Pipeline.arrRef spec4 3) : A2 1 256) 0) q') hr hq

/-- An index of the array is in point `t`'s block iff each coordinate is in the block's range. -/
theorem mem_blk (t : Fin cfg4.N) (i : S65536x256.Idx) :
    i ∈ ((cfg4.win 4).blk t).view.set ↔ ∀ a : Fin 2, win4_4.index t a * S2048x256.size a ≤ (i a).val ∧ (i a).val < win4_4.index t a * S2048x256.size a + S2048x256.size a := by
  show i ∈ ((View.whole main_call0_v139).slice (win4_4.rect t)).set ↔ _
  rw [View.set_slice_whole, Rect.mem_set_unit]
  exact Iff.rfl

/-- Row `r` is in the block of point `r / 2048`. -/
theorem cover (i : S65536x256.Idx) : ∃ t : Fin cfg4.N, (cfg4.win 4).flush t = true ∧ i ∈ ((cfg4.win 4).blk t).view.set := by
  have hi0 : (i 0).val < 65536 := (i 0).isLt
  have hi1 : (i 1).val < 256 := (i 1).isLt
  refine ⟨⟨(i 0).val / 2048, lt_of_lt_of_eq (by omega : (i 0).val / 2048 < 32) (show cfg4.N = 32 from N_4).symm⟩, flush4_4 _, ?_⟩
  rw [mem_blk]
  obtain ⟨-, -, -, -, -, -, -, -, e8, e9⟩ := index_facts (⟨(i 0).val / 2048, lt_of_lt_of_eq (by omega : (i 0).val / 2048 < 32) (show cfg4.N = 32 from N_4).symm⟩ : Fin cfg4.N)
  intro a
  match a with
  | ⟨0, _⟩ =>
    show win4_4.index _ (0 : Fin 2) * 2048 ≤ (i 0).val ∧ (i 0).val < win4_4.index _ (0 : Fin 2) * 2048 + 2048
    rw [e8]; show (i 0).val / 2048 * 2048 ≤ (i 0).val ∧ (i 0).val < (i 0).val / 2048 * 2048 + 2048; omega
  | ⟨1, _⟩ =>
    show win4_4.index _ (1 : Fin 2) * 256 ≤ (i 1).val ∧ (i 1).val < win4_4.index _ (1 : Fin 2) * 256 + 256
    rw [e9]; omega

/-- The output array after the region: the update of the arrays as the region finds them. -/
theorem arr4_4_eq (c : Dev nD) :
    (dat4 V c).arrAt 4 cfg4.N = upd (V c (Pipeline.arrRef spec4 0)) (V c (Pipeline.arrRef spec4 1)) (V c (Pipeline.arrRef spec4 2)) (V c (Pipeline.arrRef spec4 3)) :=
  (dat4 V c).arrAt_eq_of_cover 4 (upd (V c (Pipeline.arrRef spec4 0)) (V c (Pipeline.arrRef spec4 1)) (V c (Pipeline.arrRef spec4 2)) (V c (Pipeline.arrRef spec4 3)))
    (fun t _ => flushed_upd V c t) cover

theorem arr4_4 (c : Dev nD) (r : Fin 65536) (k : Fin 256) :
    (dat4 V c).arrAt 4 cfg4.N (ix2 r k)
      = updRow (to2 (V c (Pipeline.arrRef spec4 0)) r) (to2 (V c (Pipeline.arrRef spec4 1)) r) (to2 (V c (Pipeline.arrRef spec4 2))) (to2 (V c (Pipeline.arrRef spec4 3)) 0) k := by
  rw [arr4_4_eq]; rfl

end Cert.KArr4

namespace Cert.KArr5

open Cert.KernelIdeal Cert.KernelIdeal.Gen Cert.Spec Cert.KSmall Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The update of the whole arrays as a function of an index. -/
def upd (B A : A2 65536 256) (W : A2 256 256) (b : A2 1 256) : A2 65536 256 :=
  fun j => updRow (to2 B (j 0)) (to2 A (j 0)) (to2 W) (to2 b 0) (j 1)

/-- The index maps over the 32 points: the row blocks move with the point, the weight and the bias stay. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- One block: the payload at block coordinates, from blocks of rows `R + p` of the two row arrays, the whole
    weight and the bias row. -/
theorem block_upd (B A : A2 65536 256) (W : A2 256 256) (b : A2 1 256)
    (x0 x1 : Vec Ideal S2048x256 .f32) (x2 : Vec Ideal S256x256 .f32) (x3 : Vec Ideal S1x256 .f32) (R : Nat)
    (h0 : ∀ (p : Fin 2048) (k : Fin 256) (r : Fin 65536), r.val = R + p.val → x0 (ix2 p k) = B (ix2 r k))
    (h1 : ∀ (p : Fin 2048) (k : Fin 256) (r : Fin 65536), r.val = R + p.val → x1 (ix2 p k) = A (ix2 r k))
    (h2 : ∀ (k : Fin 256) (q : Fin 256), x2 (ix2 k q) = W (ix2 k q))
    (h3 : ∀ (q : Fin 256), x3 (ix2 (0 : Fin 1) q) = b (ix2 (0 : Fin 1) q))
    (p : Fin 2048) (q : Fin 256) (r : Fin 65536) (hr : r.val = R + p.val) :
    k5_pay1 x0 x1 x2 x3 (ix2 p q) = updRow (to2 B r) (to2 A r) (to2 W) (to2 b 0) q := by
  rw [upd5]
  unfold updRow dotRow to2
  rw [h0 p q r hr, h3 q]
  exact congrArg (fun z => relu (B (ix2 r q) + z + b (ix2 (0 : Fin 1) q))) (Finset.sum_congr rfl fun k _ => by rw [h1 p k r hr, h2 k q])

/-- The input blocks at point `t`, read at block coordinates. -/
theorem iblk_base (c : Dev nD) (t : Fin cfg5.N) (p : Fin 2048) (k : Fin 256) (r : Fin 65536) (hr : r.val = 2048 * t.val + p.val) :
    (iblk5 V c 0 t : Vec Ideal S2048x256 .f32) (ix2 p k) = (V c (Pipeline.arrRef spec5 0) : A2 65536 256) (ix2 r k) := by
  obtain ⟨e0, e1, -⟩ := index_facts t
  unfold iblk5
  rw [View.read_apply]
  refine congrArg (V c (Pipeline.arrRef spec5 0) : A2 65536 256) (funext fun a => Fin.ext ?_)
  match a with
  | ⟨0, _⟩ => show win5_0.index t (0 : Fin 2) * 2048 + 1 * p.val = r.val; omega
  | ⟨1, _⟩ => show win5_0.index t (1 : Fin 2) * 256 + 1 * k.val = k.val; omega

theorem iblk_agg (c : Dev nD) (t : Fin cfg5.N) (p : Fin 2048) (k : Fin 256) (r : Fin 65536) (hr : r.val = 2048 * t.val + p.val) :
    (iblk5 V c 1 t : Vec Ideal S2048x256 .f32) (ix2 p k) = (V c (Pipeline.arrRef spec5 1) : A2 65536 256) (ix2 r k) := by
  obtain ⟨-, -, e2, e3, -⟩ := index_facts t
  unfold iblk5
  rw [View.read_apply]
  refine congrArg (V c (Pipeline.arrRef spec5 1) : A2 65536 256) (funext fun a => Fin.ext ?_)
  match a with
  | ⟨0, _⟩ => show win5_1.index t (0 : Fin 2) * 2048 + 1 * p.val = r.val; omega
  | ⟨1, _⟩ => show win5_1.index t (1 : Fin 2) * 256 + 1 * k.val = k.val; omega

theorem iblk_weight (c : Dev nD) (t : Fin cfg5.N) (k : Fin 256) (q : Fin 256) :
    (iblk5 V c 2 t : Vec Ideal S256x256 .f32) (ix2 k q) = (V c (Pipeline.arrRef spec5 2) : A2 256 256) (ix2 k q) := by
  obtain ⟨-, -, -, -, e4, e5, -⟩ := index_facts t
  unfold iblk5
  rw [View.read_apply]
  refine congrArg (V c (Pipeline.arrRef spec5 2) : A2 256 256) (funext fun a => Fin.ext ?_)
  match a with
  | ⟨0, _⟩ => show win5_2.index t (0 : Fin 2) * 256 + 1 * k.val = k.val; omega
  | ⟨1, _⟩ => show win5_2.index t (1 : Fin 2) * 256 + 1 * q.val = q.val; omega

theorem iblk_bias (c : Dev nD) (t : Fin cfg5.N) (q : Fin 256) :
    (iblk5 V c 3 t : Vec Ideal S1x256 .f32) (ix2 (0 : Fin 1) q) = (V c (Pipeline.arrRef spec5 3) : A2 1 256) (ix2 (0 : Fin 1) q) := by
  obtain ⟨-, -, -, -, -, -, e6, e7, -⟩ := index_facts t
  unfold iblk5
  rw [View.read_apply]
  refine congrArg (V c (Pipeline.arrRef spec5 3) : A2 1 256) (funext fun a => Fin.ext ?_)
  match a with
  | ⟨0, _⟩ => show win5_3.index t (0 : Fin 2) * 1 + 1 * (0 : Fin 1).val = (0 : Fin 1).val; omega
  | ⟨1, _⟩ => show win5_3.index t (1 : Fin 2) * 256 + 1 * q.val = q.val; omega

/-- What point `t` writes back is block `t` of the update of the arrays as the region finds them. -/
theorem flushed_upd (c : Dev nD) (t : Fin cfg5.N) :
    (dat5 V c).flushed 4 t = ((cfg5.win 4).blk t).view.read (Elt Ideal)
      (upd (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero zero_offsets]
  simp only [View.ld_unit_zero (S := S2048x256) zero_offsets, View.ld_unit_zero (S := S256x256) zero_offsets, View.ld_unit_zero (S := S1x256) zero_offsets]
  obtain ⟨-, -, -, -, -, -, -, -, e8, e9⟩ := index_facts t
  funext j
  obtain ⟨p, q, rfl⟩ : ∃ (p : Fin 2048) (q : Fin 256), j = ix2 p q := ⟨j 0, j 1, eq_ix2 j⟩
  have hp := p.isLt
  have ht : t.val < 32 := lt_of_lt_of_eq t.isLt (show cfg5.N = 32 from N_5)
  refine (block_upd (V c (Pipeline.arrRef spec5 0)) (V c (Pipeline.arrRef spec5 1)) (V c (Pipeline.arrRef spec5 2)) (V c (Pipeline.arrRef spec5 3))
    (iblk5 V c 0 t) (iblk5 V c 1 t) (iblk5 V c 2 t) (iblk5 V c 3 t) (2048 * t.val)
    (fun p k r hr => iblk_base V c t p k r hr) (fun p k r hr => iblk_agg V c t p k r hr) (fun k q => iblk_weight V c t k q) (fun q => iblk_bias V c t q)
    p q ⟨2048 * t.val + p.val, by omega⟩ rfl).trans ?_
  have hr : (⟨2048 * t.val + p.val, by omega⟩ : Fin 65536) = ((cfg5.win 4).blk t).view.emb (ix2 p q) 0 :=
    Fin.ext (by show 2048 * t.val + p.val = win5_4.index t (0 : Fin 2) * 2048 + 1 * p.val; omega)
  have hq : q = ((cfg5.win 4).blk t).view.emb (ix2 p q) 1 :=
    Fin.ext (by show q.val = win5_4.index t (1 : Fin 2) * 256 + 1 * q.val; omega)
  exact congrArg₂ (fun (r : Fin 65536) (q' : Fin 256) =>
    updRow (to2 (V c (Pipeline.arrRef spec5 0) : A2 65536 256) r) (to2 (V c (Pipeline.arrRef spec5 1) : A2 65536 256) r)
      (to2 (V c (Pipeline.arrRef spec5 2) : A2 256 256)) (to2 (V c (Pipeline.arrRef spec5 3) : A2 1 256) 0) q') hr hq

/-- An index of the array is in point `t`'s block iff each coordinate is in the block's range. -/
theorem mem_blk (t : Fin cfg5.N) (i : S65536x256.Idx) :
    i ∈ ((cfg5.win 4).blk t).view.set ↔ ∀ a : Fin 2, win5_4.index t a * S2048x256.size a ≤ (i a).val ∧ (i a).val < win5_4.index t a * S2048x256.size a + S2048x256.size a := by
  show i ∈ ((View.whole main_call0_v163).slice (win5_4.rect t)).set ↔ _
  rw [View.set_slice_whole, Rect.mem_set_unit]
  exact Iff.rfl

/-- Row `r` is in the block of point `r / 2048`. -/
theorem cover (i : S65536x256.Idx) : ∃ t : Fin cfg5.N, (cfg5.win 4).flush t = true ∧ i ∈ ((cfg5.win 4).blk t).view.set := by
  have hi0 : (i 0).val < 65536 := (i 0).isLt
  have hi1 : (i 1).val < 256 := (i 1).isLt
  refine ⟨⟨(i 0).val / 2048, lt_of_lt_of_eq (by omega : (i 0).val / 2048 < 32) (show cfg5.N = 32 from N_5).symm⟩, flush5_4 _, ?_⟩
  rw [mem_blk]
  obtain ⟨-, -, -, -, -, -, -, -, e8, e9⟩ := index_facts (⟨(i 0).val / 2048, lt_of_lt_of_eq (by omega : (i 0).val / 2048 < 32) (show cfg5.N = 32 from N_5).symm⟩ : Fin cfg5.N)
  intro a
  match a with
  | ⟨0, _⟩ =>
    show win5_4.index _ (0 : Fin 2) * 2048 ≤ (i 0).val ∧ (i 0).val < win5_4.index _ (0 : Fin 2) * 2048 + 2048
    rw [e8]; show (i 0).val / 2048 * 2048 ≤ (i 0).val ∧ (i 0).val < (i 0).val / 2048 * 2048 + 2048; omega
  | ⟨1, _⟩ =>
    show win5_4.index _ (1 : Fin 2) * 256 ≤ (i 1).val ∧ (i 1).val < win5_4.index _ (1 : Fin 2) * 256 + 256
    rw [e9]; omega

/-- The output array after the region: the update of the arrays as the region finds them. -/
theorem arr5_4_eq (c : Dev nD) :
    (dat5 V c).arrAt 4 cfg5.N = upd (V c (Pipeline.arrRef spec5 0)) (V c (Pipeline.arrRef spec5 1)) (V c (Pipeline.arrRef spec5 2)) (V c (Pipeline.arrRef spec5 3)) :=
  (dat5 V c).arrAt_eq_of_cover 4 (upd (V c (Pipeline.arrRef spec5 0)) (V c (Pipeline.arrRef spec5 1)) (V c (Pipeline.arrRef spec5 2)) (V c (Pipeline.arrRef spec5 3)))
    (fun t _ => flushed_upd V c t) cover

theorem arr5_4 (c : Dev nD) (r : Fin 65536) (k : Fin 256) :
    (dat5 V c).arrAt 4 cfg5.N (ix2 r k)
      = updRow (to2 (V c (Pipeline.arrRef spec5 0)) r) (to2 (V c (Pipeline.arrRef spec5 1)) r) (to2 (V c (Pipeline.arrRef spec5 2))) (to2 (V c (Pipeline.arrRef spec5 3)) 0) k := by
  rw [arr5_4_eq]; rfl

end Cert.KArr5

end
-- ==== Proof.KArr6.lean ====
import proofs.«135133_j46703474376853_2_alg».proof.Proof.Gen.KernelIdeal.Frame
import proofs.«135133_j46703474376853_2_alg».proof.Proof.KSmall
import proofs.«135133_j46703474376853_2_alg».proof.Proof.Spec
import Idealize.ShloMosaic.PureOps.Ideal
import Idealize.ShloMosaic.Lib.ValueIdx
import Idealize.ShloMosaic.Lib.Pipeline.Value

/-!
# The read-out's result array

The read-out tiles the 512 molecules into 16 blocks of 32; at each block the body reads the block's 2048 atom
rows of the atom features and of the incoming messages, the whole weights and the bias row, and stores for each
of its 32 molecules the mean over the molecule's 64 atoms of the rectified projections. Molecule `32 t + p` of
the arrays is molecule `p` of block `t`: atom row `(32 t + p) * 64 + a` is row `2048 t + (p * 64 + a)`. So every
point writes back block `t` of one function of the arrays, the blocks cover all molecules, and the array ends
holding that function.
-/

set_option maxRecDepth 16384

noncomputable section

namespace Cert.KArr6

open Cert.KernelIdeal Cert.KernelIdeal.Gen Cert.Spec Cert.KSmall Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The read-out of the whole arrays as a function of an index. -/
def outArr (X0 : A2 32768 133) (X1 : A2 32768 256) (X2 : A2 133 256) (X3 : A2 256 256) (X4 : A2 1 256) : A2 512 256 :=
  fun j => outMol (amol X0 (j 0)) (amol X1 (j 0)) (to2 X2) (to2 X3) (to2 X4 0) (j 1)

/-- The index maps over the 16 points: the atom-row blocks and the molecule blocks move with the point, the weights
    and the bias stay. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- One block: the payload at block coordinates, from blocks of atom rows `R + r` of the two row arrays, the whole
    weights and the bias row; molecule `p` of the block is molecule `M` of the arrays when `M * 64 = R + p * 64`. -/
theorem block_out (X0 : A2 32768 133) (X1 : A2 32768 256) (X2 : A2 133 256) (X3 : A2 256 256) (X4 : A2 1 256)
    (x0 : Vec Ideal S2048x133 .f32) (x1 : Vec Ideal S2048x256 .f32) (x2 : Vec Ideal S133x256 .f32)
    (x3 : Vec Ideal S256x256 .f32) (x4 : Vec Ideal S1x256 .f32) (R : Nat)
    (h0 : ∀ (r' : Fin 2048) (k : Fin 133) (r : Fin 32768), r.val = R + r'.val → x0 (ix2 r' k) = X0 (ix2 r k))
    (h1 : ∀ (r' : Fin 2048) (k : Fin 256) (r : Fin 32768), r.val = R + r'.val → x1 (ix2 r' k) = X1 (ix2 r k))
    (h2 : ∀ (k : Fin 133) (q : Fin 256), x2 (ix2 k q) = X2 (ix2 k q))
    (h3 : ∀ (k : Fin 256) (q : Fin 256), x3 (ix2 k q) = X3 (ix2 k q))
    (h4 : ∀ (q : Fin 256), x4 (ix2 (0 : Fin 1) q) = X4 (ix2 (0 : Fin 1) q))
    (p : Fin 32) (q : Fin 256) (M : Fin 512) (hM : M.val * 64 = R + p.val * 64) :
    k6_pay1 x0 x1 x2 x3 x4 (ix2 p q) = outMol (amol X0 M) (amol X1 M) (to2 X2) (to2 X3) (to2 X4 0) q := by
  rw [out6]
  have e0 : (fun (a : Fin 64) (k : Fin 133) => x0 (ix2 (lrow p a) k)) = amol X0 M := by
    funext a k
    exact h0 (lrow p a) k (arow M a) (by show M.val * 64 + a.val = R + (p.val * 64 + a.val); omega)
  have e1 : (fun (a : Fin 64) (k : Fin 256) => x1 (ix2 (lrow p a) k)) = amol X1 M := by
    funext a k
    exact h1 (lrow p a) k (arow M a) (by show M.val * 64 + a.val = R + (p.val * 64 + a.val); omega)
  have e2 : to2 x2 = to2 X2 := by funext k q'; exact h2 k q'
  have e3 : to2 x3 = to2 X3 := by funext k q'; exact h3 k q'
  have e4 : to2 x4 0 = to2 X4 0 := by funext q'; exact h4 q'
  rw [e0, e1, e2, e3, e4]

/-- The input blocks at point `t`, read at block coordinates. -/
theorem iblk_atoms (c : Dev nD) (t : Fin cfg6.N) (p : Fin 2048) (k : Fin 133) (r : Fin 32768) (hr : r.val = 2048 * t.val + p.val) :
    (iblk6 V c 0 t : Vec Ideal S2048x133 .f32) (ix2 p k) = (V c (Pipeline.arrRef spec6 0) : A2 32768 133) (ix2 r k) := by
  obtain ⟨e0, e1, e2, e3, -⟩ := index_facts t
  unfold iblk6
  rw [View.read_apply]
  refine congrArg (V c (Pipeline.arrRef spec6 0) : A2 32768 133) (funext fun a => Fin.ext ?_)
  match a with
  | ⟨0, _⟩ => show win6_0.index t (0 : Fin 2) * 2048 + 1 * p.val = r.val; omega
  | ⟨1, _⟩ => show win6_0.index t (1 : Fin 2) * 133 + 1 * k.val = k.val; omega

theorem iblk_msgs (c : Dev nD) (t : Fin cfg6.N) (p : Fin 2048) (k : Fin 256) (r : Fin 32768) (hr : r.val = 2048 * t.val + p.val) :
    (iblk6 V c 1 t : Vec Ideal S2048x256 .f32) (ix2 p k) = (V c (Pipeline.arrRef spec6 1) : A2 32768 256) (ix2 r k) := by
  obtain ⟨e0, e1, e2, e3, -⟩ := index_facts t
  unfold iblk6
  rw [View.read_apply]
  refine congrArg (V c (Pipeline.arrRef spec6 1) : A2 32768 256) (funext fun a => Fin.ext ?_)
  match a with
  | ⟨0, _⟩ => show win6_1.index t (0 : Fin 2) * 2048 + 1 * p.val = r.val; omega
  | ⟨1, _⟩ => show win6_1.index t (1 : Fin 2) * 256 + 1 * k.val = k.val; omega

theorem iblk_wa (c : Dev nD) (t : Fin cfg6.N) (k : Fin 133) (q : Fin 256) :
    (iblk6 V c 2 t : Vec Ideal S133x256 .f32) (ix2 k q) = (V c (Pipeline.arrRef spec6 2) : A2 133 256) (ix2 k q) := by
  obtain ⟨-, -, -, -, e4, e5, e6, e7, e8, e9, -⟩ := index_facts t
  unfold iblk6
  rw [View.read_apply]
  refine congrArg (V c (Pipeline.arrRef spec6 2) : A2 133 256) (funext fun a => Fin.ext ?_)
  match a with
  | ⟨0, _⟩ => show win6_2.index t (0 : Fin 2) * 133 + 1 * k.val = k.val; omega
  | ⟨1, _⟩ => show win6_2.index t (1 : Fin 2) * 256 + 1 * q.val = q.val; omega

theorem iblk_wb (c : Dev nD) (t : Fin cfg6.N) (k : Fin 256) (q : Fin 256) :
    (iblk6 V c 3 t : Vec Ideal S256x256 .f32) (ix2 k q) = (V c (Pipeline.arrRef spec6 3) : A2 256 256) (ix2 k q) := by
  obtain ⟨-, -, -, -, e4, e5, e6, e7, e8, e9, -⟩ := index_facts t
  unfold iblk6
  rw [View.read_apply]
  refine congrArg (V c (Pipeline.arrRef spec6 3) : A2 256 256) (funext fun a => Fin.ext ?_)
  match a with
  | ⟨0, _⟩ => show win6_3.index t (0 : Fin 2) * 256 + 1 * k.val = k.val; omega
  | ⟨1, _⟩ => show win6_3.index t (1 : Fin 2) * 256 + 1 * q.val = q.val; omega

theorem iblk_bias (c : Dev nD) (t : Fin cfg6.N) (q : Fin 256) :
    (iblk6 V c 4 t : Vec Ideal S1x256 .f32) (ix2 (0 : Fin 1) q) = (V c (Pipeline.arrRef spec6 4) : A2 1 256) (ix2 (0 : Fin 1) q) := by
  obtain ⟨-, -, -, -, -, -, -, -, e8, e9, -⟩ := index_facts t
  unfold iblk6
  rw [View.read_apply]
  refine congrArg (V c (Pipeline.arrRef spec6 4) : A2 1 256) (funext fun a => Fin.ext ?_)
  match a with
  | ⟨0, _⟩ => show win6_4.index t (0 : Fin 2) * 1 + 1 * (0 : Fin 1).val = (0 : Fin 1).val; omega
  | ⟨1, _⟩ => show win6_4.index t (1 : Fin 2) * 256 + 1 * q.val = q.val; omega

set_option maxHeartbeats 1000000 in
/-- What point `t` writes back is block `t` of the read-out of the arrays as the region finds them. -/
theorem flushed_out (c : Dev nD) (t : Fin cfg6.N) :
    (dat6 V c).flushed 5 t = ((cfg6.win 5).blk t).view.read (Elt Ideal)
      (outArr (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero zero_offsets]
  simp only [View.ld_unit_zero (S := S2048x133) zero_offsets, View.ld_unit_zero (S := S2048x256) zero_offsets,
    View.ld_unit_zero (S := S133x256) zero_offsets, View.ld_unit_zero (S := S256x256) zero_offsets,
    View.ld_unit_zero (S := S1x256) zero_offsets]
  obtain ⟨-, -, -, -, -, -, -, -, -, -, e10, e11⟩ := index_facts t
  funext j
  obtain ⟨p, q, rfl⟩ : ∃ (p : Fin 32) (q : Fin 256), j = ix2 p q := ⟨j 0, j 1, eq_ix2 j⟩
  have hp := p.isLt
  have ht : t.val < 16 := lt_of_lt_of_eq t.isLt (show cfg6.N = 16 from N_6)
  refine (block_out (V c (Pipeline.arrRef spec6 0)) (V c (Pipeline.arrRef spec6 1)) (V c (Pipeline.arrRef spec6 2)) (V c (Pipeline.arrRef spec6 3)) (V c (Pipeline.arrRef spec6 4))
    (iblk6 V c 0 t) (iblk6 V c 1 t) (iblk6 V c 2 t) (iblk6 V c 3 t) (iblk6 V c 4 t) (2048 * t.val)
    (fun r' k r hr => iblk_atoms V c t r' k r hr) (fun r' k r hr => iblk_msgs V c t r' k r hr)
    (fun k q => iblk_wa V c t k q) (fun k q => iblk_wb V c t k q) (fun q => iblk_bias V c t q)
    p q ⟨32 * t.val + p.val, by omega⟩ (by show (32 * t.val + p.val) * 64 = 2048 * t.val + p.val * 64; omega)).trans ?_
  rw [View.read_apply]
  unfold outArr
  have hr : (⟨32 * t.val + p.val, by omega⟩ : Fin 512) = ((cfg6.win 5).blk t).view.emb (ix2 p q) 0 :=
    Fin.ext (by show 32 * t.val + p.val = win6_5.index t (0 : Fin 2) * 32 + 1 * p.val; omega)
  have hq : q = ((cfg6.win 5).blk t).view.emb (ix2 p q) 1 :=
    Fin.ext (by show q.val = win6_5.index t (1 : Fin 2) * 256 + 1 * q.val; omega)
  exact congrArg₂ (fun (M : Fin 512) (q' : Fin 256) =>
    outMol (amol (V c (Pipeline.arrRef spec6 0) : A2 32768 133) M) (amol (V c (Pipeline.arrRef spec6 1) : A2 32768 256) M)
      (to2 (V c (Pipeline.arrRef spec6 2) : A2 133 256)) (to2 (V c (Pipeline.arrRef spec6 3) : A2 256 256)) (to2 (V c (Pipeline.arrRef spec6 4) : A2 1 256) 0) q') hr hq

/-- An index of the array is in point `t`'s block iff each coordinate is in the block's range. -/
theorem mem_blk (t : Fin cfg6.N) (i : S512x256.Idx) :
    i ∈ ((cfg6.win 5).blk t).view.set ↔ ∀ a : Fin 2, win6_5.index t a * S32x256.size a ≤ (i a).val ∧ (i a).val < win6_5.index t a * S32x256.size a + S32x256.size a := by
  show i ∈ ((View.whole main_v0).slice (win6_5.rect t)).set ↔ _
  rw [View.set_slice_whole, Rect.mem_set_unit]
  exact Iff.rfl

/-- Molecule `m` is in the block of point `m / 32`. -/
theorem cover (i : S512x256.Idx) : ∃ t : Fin cfg6.N, (cfg6.win 5).flush t = true ∧ i ∈ ((cfg6.win 5).blk t).view.set := by
  have hi0 : (i 0).val < 512 := (i 0).isLt
  have hi1 : (i 1).val < 256 := (i 1).isLt
  refine ⟨⟨(i 0).val / 32, lt_of_lt_of_eq (by omega : (i 0).val / 32 < 16) (show cfg6.N = 16 from N_6).symm⟩, flush6_5 _, ?_⟩
  rw [mem_blk]
  obtain ⟨-, -, -, -, -, -, -, -, -, -, e10, e11⟩ := index_facts (⟨(i 0).val / 32, lt_of_lt_of_eq (by omega : (i 0).val / 32 < 16) (show cfg6.N = 16 from N_6).symm⟩ : Fin cfg6.N)
  intro a
  match a with
  | ⟨0, _⟩ =>
    show win6_5.index _ (0 : Fin 2) * 32 ≤ (i 0).val ∧ (i 0).val < win6_5.index _ (0 : Fin 2) * 32 + 32
    rw [e10]; show (i 0).val / 32 * 32 ≤ (i 0).val ∧ (i 0).val < (i 0).val / 32 * 32 + 32; omega
  | ⟨1, _⟩ =>
    show win6_5.index _ (1 : Fin 2) * 256 ≤ (i 1).val ∧ (i 1).val < win6_5.index _ (1 : Fin 2) * 256 + 256
    rw [e11]; omega

/-- The output array after the region: the read-out of the arrays as the region finds them. -/
theorem arr6_5_eq (c : Dev nD) :
    (dat6 V c).arrAt 5 cfg6.N = outArr (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 (outArr (V c (Pipeline.arrRef spec6 0)) (V c (Pipeline.arrRef spec6 1)) (V c (Pipeline.arrRef spec6 2)) (V c (Pipeline.arrRef spec6 3)) (V c (Pipeline.arrRef spec6 4))) (fun t _ => flushed_out V c t) cover

/-- Entry `(m, k)` of it: the read-out of molecule `m`. -/
theorem arr6_5 (c : Dev nD) (m : Fin 512) (k : Fin 256) :
    (dat6 V c).arrAt 5 cfg6.N (ix2 m k)
      = outMol (amol (V c (Pipeline.arrRef spec6 0)) m) (amol (V c (Pipeline.arrRef spec6 1)) m) (to2 (V c (Pipeline.arrRef spec6 2))) (to2 (V c (Pipeline.arrRef spec6 3))) (to2 (V c (Pipeline.arrRef spec6 4)) 0) k := by
  rw [arr6_5_eq]; rfl

end Cert.KArr6

end
-- ==== Proof.RSmall.lean ====
import proofs.«135133_j46703474376853_2_alg».proof.Proof.ReadP
import proofs.«135133_j46703474376853_2_alg».proof.Proof.Spec
import Idealize.ShloMosaic.PureOps.Ideal.Laws
import Idealize.ShloMosaic.Lib.ValueIdx
import Idealize.ShloMosaic.Lib.Pipeline.Value

/-!
# The reference's small stages read at coordinates

Each of the reference's row-local stages, read at a row and a column, is the corresponding function of
coordinates: an input projection is a row times a matrix, the rectifier is the maximum with zero, a hidden
update with bias is the rectified sum of the carried input, the projected neighbourhood sum and the bias, and
the read-out of a molecule is the mean over its atoms of the rectified projection of the joined atom features
and incoming messages plus a bias.
-/

noncomputable section

namespace Cert.RSmall

open Cert.ReferenceIdeal Cert.ReferenceIdeal.ReadP Cert.Spec Idealize.ShloMosaic Idealize.ShloMosaic.ValueIdx

/-- An input projection at a row and a column is the row times the weight matrix. -/
theorem ref2 (x2 : (⟨S65536x147, .f32⟩ : BufTy).Contents (Elt Ideal)) (x7 : (⟨S147x256, .f32⟩ : BufTy).Contents (Elt Ideal))
    (r : Fin 65536) (c : Fin 256) :
    val_main_v2 (F := Ideal) x2 x7 (ix2 r c) = dotRow (to2 x2 r) (to2 x7) c := by
  rw [val_main_v2_apply]
  unfold dotRow to2
  refine Finset.sum_congr rfl fun k _ => ?_
  have el : lidx_main_v2 (ix2 r c) k = ix2 r k := funext fun a => Fin.ext (by
    match a with
    | ⟨0, _⟩ => rfl
    | ⟨1, _⟩ => rfl)
  have er : ridx_main_v2 (ix2 r c) k = ix2 k c := funext fun a => Fin.ext (by
    match a with
    | ⟨0, _⟩ => rfl
    | ⟨1, _⟩ => rfl)
  rw [el, er]

theorem ref3 (x3 : (⟨S65536x147, .f32⟩ : BufTy).Contents (Elt Ideal)) (x7 : (⟨S147x256, .f32⟩ : BufTy).Contents (Elt Ideal))
    (r : Fin 65536) (c : Fin 256) :
    val_main_v3 (F := Ideal) x3 x7 (ix2 r c) = dotRow (to2 x3 r) (to2 x7) c := by
  rw [val_main_v3_apply]
  unfold dotRow to2
  refine Finset.sum_congr rfl fun k _ => ?_
  have el : lidx_main_v3 (ix2 r c) k = ix2 r k := funext fun a => Fin.ext (by
    match a with
    | ⟨0, _⟩ => rfl
    | ⟨1, _⟩ => rfl)
  have er : ridx_main_v3 (ix2 r c) k = ix2 k c := funext fun a => Fin.ext (by
    match a with
    | ⟨0, _⟩ => rfl
    | ⟨1, _⟩ => rfl)
  rw [el, er]

/-- The rectified input projection. -/
theorem ref4 (x2 : (⟨S65536x147, .f32⟩ : BufTy).Contents (Elt Ideal)) (x7 : (⟨S147x256, .f32⟩ : BufTy).Contents (Elt Ideal))
    (r : Fin 65536) (c : Fin 256) :
    val_main_v4 (F := Ideal) x2 x7 (ix2 r c) = relu (dotRow (to2 x2 r) (to2 x7) c) := by
  rw [val_main_v4_apply, val_main_call0_v0_apply, val_main_call0_cst_apply, ref2]
  show max _ (Ideal.ofBits .f32 0x00000000#32) = _
  rw [Ideal.ofBits_zero_f32]
  rfl

theorem ref5 (x3 : (⟨S65536x147, .f32⟩ : BufTy).Contents (Elt Ideal)) (x7 : (⟨S147x256, .f32⟩ : BufTy).Contents (Elt Ideal))
    (r : Fin 65536) (c : Fin 256) :
    val_main_v5 (F := Ideal) x3 x7 (ix2 r c) = relu (dotRow (to2 x3 r) (to2 x7) c) := by
  rw [val_main_v5_apply, val_main_call1_v0_apply, val_main_call1_cst_apply, ref3]
  show max _ (Ideal.ofBits .f32 0x00000000#32) = _
  rw [Ideal.ofBits_zero_f32]
  rfl

/-- A hidden update with bias, first branch: the rectified sum of the carried input, the projected neighbourhood sum and the bias. -/
theorem ref228 (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal))
    (x7 : (⟨S147x256, .f32⟩ : BufTy).Contents (Elt Ideal)) (x8 x9 x10 : (⟨S256x256, .f32⟩ : BufTy).Contents (Elt Ideal)) (x11 : (⟨S256, .f32⟩ : BufTy).Contents (Elt Ideal))
    (r : Fin 65536) (c : Fin 256) :
    val_main_v228 (F := Ideal) x2 x3 x4 x5 x6 x7 x8 x9 x10 x11 (ix2 r c)
      = updRow (to2 (val_main_v197 (F := Ideal) x2 x3 x7) r) (to2 (val_main_v222 (F := Ideal) x2 x3 x4 x5 x6 x7 x8 x9) r) (to2 x10) (to1 x11) c := by
  rw [val_main_v228_apply, val_main_v227_apply, val_main_v224_apply, val_main_v223_apply, val_main_v226_apply,
    val_main_v225_apply, val_main_call10_v0_apply, val_main_call10_cst_apply]
  generalize val_main_v197 (F := Ideal) x2 x3 x7 = B
  generalize val_main_v222 (F := Ideal) x2 x3 x4 x5 x6 x7 x8 x9 = A
  have e1 : ∀ k : Fin 256, lidx_main_v223 (ix2 r c) k = ix2 r k := fun k => funext fun a => Fin.ext (by
    match a with
    | ⟨0, _⟩ => rfl
    | ⟨1, _⟩ => rfl)
  have e2 : ∀ k : Fin 256, ridx_main_v223 (ix2 r c) k = ix2 k c := fun k => funext fun a => Fin.ext (by
    match a with
    | ⟨0, _⟩ => rfl
    | ⟨1, _⟩ => rfl)
  have e3 : idx_main_v225 (idx_main_v226 (ix2 r c)) = ix1 c := funext fun a => Fin.ext (by
    match a with
    | ⟨0, _⟩ => rfl)
  simp only [e1, e2, e3]
  show max ((B (ix2 r c) + ∑ k : Fin 256, A (ix2 r k) * x10 (ix2 k c)) + x11 (ix1 c)) (Ideal.ofBits .f32 0x00000000#32) = _
  rw [Ideal.ofBits_zero_f32]
  rfl

/-- A hidden update with bias, second branch. -/
theorem ref257 (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal))
    (x7 : (⟨S147x256, .f32⟩ : BufTy).Contents (Elt Ideal)) (x8 x9 x10 : (⟨S256x256, .f32⟩ : BufTy).Contents (Elt Ideal)) (x11 : (⟨S256, .f32⟩ : BufTy).Contents (Elt Ideal))
    (r : Fin 65536) (c : Fin 256) :
    val_main_v257 (F := Ideal) x2 x3 x4 x5 x6 x7 x8 x9 x10 x11 (ix2 r c)
      = updRow (to2 (val_main_v197 (F := Ideal) x2 x3 x7) r) (to2 (val_main_v251 (F := Ideal) x2 x3 x4 x5 x6 x7 x8 x9 x10 x11) r) (to2 x10) (to1 x11) c := by
  rw [val_main_v257_apply, val_main_v256_apply, val_main_v253_apply, val_main_v252_apply, val_main_v255_apply,
    val_main_v254_apply, val_main_call11_v0_apply, val_main_call11_cst_apply]
  generalize val_main_v197 (F := Ideal) x2 x3 x7 = B
  generalize val_main_v251 (F := Ideal) x2 x3 x4 x5 x6 x7 x8 x9 x10 x11 = A
  have e1 : ∀ k : Fin 256, lidx_main_v252 (ix2 r c) k = ix2 r k := fun k => funext fun a => Fin.ext (by
    match a with
    | ⟨0, _⟩ => rfl
    | ⟨1, _⟩ => rfl)
  have e2 : ∀ k : Fin 256, ridx_main_v252 (ix2 r c) k = ix2 k c := fun k => funext fun a => Fin.ext (by
    match a with
    | ⟨0, _⟩ => rfl
    | ⟨1, _⟩ => rfl)
  have e3 : idx_main_v254 (idx_main_v255 (ix2 r c)) = ix1 c := funext fun a => Fin.ext (by
    match a with
    | ⟨0, _⟩ => rfl)
  simp only [e1, e2, e3]
  show max ((B (ix2 r c) + ∑ k : Fin 256, A (ix2 r k) * x10 (ix2 k c)) + x11 (ix1 c)) (Ideal.ofBits .f32 0x00000000#32) = _
  rw [Ideal.ofBits_zero_f32]
  rfl

/-- A sum of 389 terms is the sum of its first 133 and of its last 256. -/
theorem sum_split {M : Type} [AddCommMonoid M] (f : Fin 389 → M) :
    ∑ k : Fin 389, f k = ∑ k : Fin 133, f (⟨k.val, by have := k.isLt; omega⟩ : Fin 389) + ∑ k : Fin 256, f (⟨133 + k.val, by have := k.isLt; omega⟩ : Fin 389) :=
  Fin.sum_univ_add (a := 133) (b := 256) (fun k : Fin (133 + 256) => f k)

/-- A row of two arrays joined along the columns, times a matrix, is the first array's row times the matrix's first 133
    rows plus the second's row times the other 256. -/
theorem cat_dot (P : (⟨S32768x133, .f32⟩ : BufTy).Contents (Elt Ideal)) (Q : (⟨S32768x256, .f32⟩ : BufTy).Contents (Elt Ideal))
    (h : Shape.Concatenates [S32768x133, S32768x256] S32768x389 1)
    (x12 : (⟨S389x256, .f32⟩ : BufTy).Contents (Elt Ideal)) (a : Fin 32768) (c : Fin 256) :
    ∑ k : Fin 389, concatenate S32768x389 1 [⟨S32768x133, P⟩, ⟨S32768x256, Q⟩] h (ix2 a k) * x12 (ix2 k c)
      = dotRow (fun k : Fin 133 => P (ix2 a k)) (fun k c => x12 (ix2 (⟨k.val, by have := k.isLt; omega⟩ : Fin 389) c)) c
        + dotRow (fun k : Fin 256 => Q (ix2 a k)) (fun k c => x12 (ix2 (⟨133 + k.val, by have := k.isLt; omega⟩ : Fin 389) c)) c := by
  refine (sum_split _).trans ?_
  unfold dotRow
  refine congrArg₂ (· + ·) (Finset.sum_congr rfl fun k _ => ?_) (Finset.sum_congr rfl fun k _ => ?_)
  · exact congrArg (· * x12 (ix2 (⟨k.val, by have := k.isLt; omega⟩ : Fin 389) c))
      (concatenate_pair_apply_left (1 : Fin 2) P Q h (ix2 a (⟨k.val, by have := k.isLt; omega⟩ : Fin 389)) rfl (ix2 a k) (fun b => by
        match b with
        | ⟨0, _⟩ => rfl
        | ⟨1, _⟩ => rfl))
  · exact congrArg (· * x12 (ix2 (⟨133 + k.val, by have := k.isLt; omega⟩ : Fin 389) c))
      (concatenate_pair_apply_right (1 : Fin 2) P Q h (ix2 a (⟨133 + k.val, by have := k.isLt; omega⟩ : Fin 389)) rfl rfl (ix2 a k)
        (fun b hb => by
          match b with
          | ⟨0, _⟩ => rfl
          | ⟨1, _⟩ => exact absurd rfl hb)
        (by show k.val + 133 = 133 + k.val; omega))

/-- One atom's row before the mean: the rectified projection of the joined atom features and incoming messages plus the
    bias. -/
theorem ref271 (x0 x1 : (⟨S32768x133, .f32⟩ : BufTy).Contents (Elt Ideal)) (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal))
    (x7 : (⟨S147x256, .f32⟩ : BufTy).Contents (Elt Ideal)) (x8 x9 x10 : (⟨S256x256, .f32⟩ : BufTy).Contents (Elt Ideal)) (x11 : (⟨S256, .f32⟩ : BufTy).Contents (Elt Ideal))
    (x12 : (⟨S389x256, .f32⟩ : BufTy).Contents (Elt Ideal)) (x13 : (⟨S256, .f32⟩ : BufTy).Contents (Elt Ideal)) (a : Fin 32768) (c : Fin 256) :
    val_main_v271 (F := Ideal) x0 x1 x2 x3 x4 x5 x6 x7 x8 x9 x10 x11 x12 x13 (ix2 a c)
      = relu ((dotRow (fun k : Fin 133 => val_main_v199 (F := Ideal) x0 x1 (ix2 a k)) (fun k c => x12 (ix2 (⟨k.val, by have := k.isLt; omega⟩ : Fin 389) c)) c
          + dotRow (fun k : Fin 256 => val_main_v265 (F := Ideal) x2 x3 x4 x5 x6 x7 x8 x9 x10 x11 (ix2 a k)) (fun k c => x12 (ix2 (⟨133 + k.val, by have := k.isLt; omega⟩ : Fin 389) c)) c)
        + x13 (ix1 c)) := by
  rw [val_main_v271_apply, val_main_v270_apply, val_main_v267_apply, val_main_v269_apply, val_main_v268_apply,
    val_main_call12_v0_apply, val_main_call12_cst_apply]
  unfold val_main_v266
  generalize val_main_v199 (F := Ideal) x0 x1 = P
  generalize val_main_v265 (F := Ideal) x2 x3 x4 x5 x6 x7 x8 x9 x10 x11 = Q
  have e1 : ∀ k : Fin 389, lidx_main_v267 (ix2 a c) k = ix2 a k := fun k => funext fun a => Fin.ext (by
    match a with
    | ⟨0, _⟩ => rfl
    | ⟨1, _⟩ => rfl)
  have e2 : ∀ k : Fin 389, ridx_main_v267 (ix2 a c) k = ix2 k c := fun k => funext fun a => Fin.ext (by
    match a with
    | ⟨0, _⟩ => rfl
    | ⟨1, _⟩ => rfl)
  have e3 : idx_main_v268 (idx_main_v269 (ix2 a c)) = ix1 c := funext fun a => Fin.ext (by
    match a with
    | ⟨0, _⟩ => rfl)
  simp only [e1, e2, e3]
  rw [cat_dot]
  show max (_ + x13 (ix1 c)) (Ideal.ofBits .f32 0x00000000#32) = _
  rw [Ideal.ofBits_zero_f32]
  rfl

/-- The read-out of a molecule: the mean over its 64 atoms of the rectified projection. -/
theorem ref275 (x0 x1 : (⟨S32768x133, .f32⟩ : BufTy).Contents (Elt Ideal)) (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal))
    (x7 : (⟨S147x256, .f32⟩ : BufTy).Contents (Elt Ideal)) (x8 x9 x10 : (⟨S256x256, .f32⟩ : BufTy).Contents (Elt Ideal)) (x11 : (⟨S256, .f32⟩ : BufTy).Contents (Elt Ideal))
    (x12 : (⟨S389x256, .f32⟩ : BufTy).Contents (Elt Ideal)) (x13 : (⟨S256, .f32⟩ : BufTy).Contents (Elt Ideal)) (m : Fin 512) (c : Fin 256) :
    val_main_v275 (F := Ideal) x0 x1 x2 x3 x4 x5 x6 x7 x8 x9 x10 x11 x12 x13 (ix2 m c)
      = outMol (amol (val_main_v199 (F := Ideal) x0 x1) m) (amol (val_main_v265 (F := Ideal) x2 x3 x4 x5 x6 x7 x8 x9 x10 x11) m)
          (fun k c => x12 (ix2 (⟨k.val, by have := k.isLt; omega⟩ : Fin 389) c)) (fun k c => x12 (ix2 (⟨133 + k.val, by have := k.isLt; omega⟩ : Fin 389) c)) (to1 x13) c := by
  rw [val_main_v275_apply, val_main_v274_apply, val_main_cst_58_apply, val_main_v273_apply, val_main_cst_57_apply]
  unfold outMol
  show Ideal.div (Ideal.ofBits .f32 0x00000000#32 + ∑ k : Fin 64, _) (Ideal.ofBits .f32 0x42800000#32) = _
  rw [Ideal.ofBits_zero_f32, zero_add]
  refine congrArg (Ideal.div · (Ideal.ofBits .f32 0x42800000#32)) (Finset.sum_congr rfl fun a _ => ?_)
  have e : idx_main_v272 (idx_main_v273 (ix2 m c) a) = ix2 (arow m a) c := funext fun d => Fin.ext (by
    have hm := m.isLt; have ha := a.isLt; have hc := c.isLt
    match d with
    | ⟨0, _⟩ => show ((m.val * 64 + a.val) * 256 + c.val) / 256 = m.val * 64 + a.val; omega
    | ⟨1, _⟩ => show ((m.val * 64 + a.val) * 256 + c.val) % 256 = c.val; omega)
  rw [val_main_v272_apply, e, ref271]
  generalize val_main_v199 (F := Ideal) x0 x1 = P
  generalize val_main_v265 (F := Ideal) x2 x3 x4 x5 x6 x7 x8 x9 x10 x11 = Q
  rfl

end Cert.RSmall

end
-- ==== Proof.RFused.lean ====
import proofs.«135133_j46703474376853_2_alg».proof.Proof.ReadP
import proofs.«135133_j46703474376853_2_alg».proof.Proof.Spec
import proofs.«135133_j46703474376853_2_alg».proof.Proof.LibMaxFold
import Idealize.ShloMosaic.PureOps.Ideal.Laws
import Idealize.ShloMosaic.PureOps.Reduce
import Idealize.ShloMosaic.Lib.ValueIdx
import Idealize.ShloMosaic.Lib.Pipeline.Value

/-!
# The reference's cross-attention block, one molecule at a time

The reference cuts the two flat bond tables (65536 rows of 256 features) into 512 molecules of 128 bonds, forms
for every molecule the scaled dot products of its query bonds with its source bonds, takes the softmax of each
row of logits (shifted by the row's supremum, which is a fold of the maximum from the bottom element), weights the source
bonds by it, projects the result, rectifies it and adds the query. This module states that block once, over two
arbitrary bond tables and a projection matrix, reads it at row `m * 128 + q` and feature `h`, and finds there the
function `Cert.Spec.cross` of molecule `m` of the two tables. The hidden updates that feed the block are read the
same way (`Cert.Spec.hid`), and the four places where the reference runs the block are instances.
-/

noncomputable section

namespace Cert.RFused

open Cert.ReferenceIdeal Cert.ReferenceIdeal.Gen Cert.ReferenceIdeal.ReadP Cert.Spec
open Idealize.ShloMosaic Idealize.ShloMosaic.TcCoe Idealize.SL.Sem Idealize.ShloMosaic.StableHlo Idealize.ShloMosaic.ValueIdx

/-- The arrays of the block: a flat bond table, a projection matrix, a table cut into molecules, a table of logits, a
    table of one number per query bond. -/
abbrev B2 := FVec Ideal S65536x256 .f32
abbrev W2 := FVec Ideal S256x256 .f32
abbrev B3 := FVec Ideal S512x128x256 .f32
abbrev L3 := FVec Ideal S512x128x128 .f32
abbrev M2 := FVec Ideal S512x128 .f32

/-- The scale of the logits, one over the square root of the feature count, kept as the reference computes it. -/
abbrev sR : EReal := val_main_v1 (F := Ideal) ValueIdx.ix0

/-! ## The tables cut into molecules -/

/-- The flat bond table cut into molecules. -/
def mol3 (X : B2) : B3 := shapeCast _ X shapeCasts_S65536x256_S512x128x256

/-- Bond `q` of molecule `m` is row `m * 128 + q` of the flat table. -/
theorem mol3_apply (X : B2) (m : Fin 512) (q : Fin 128) (h : Fin 256) :
    mol3 X (ix3 m q h) = X (ix2 (brow m q) h) := by
  unfold mol3
  exact shapeCast_apply X shapeCasts_S65536x256_S512x128x256 (ix3 m q h) (ix2 (brow m q) h)
    (by rewrite [Shape.rowMajor_val_two, Shape.rowMajor_val_three]; rfl)

/-! ## The logits -/

/-- The batched product of queries with sources contracts the features. -/
theorem dotQK_apply (y0 y1 : B3) (i : S512x128x128.Idx) :
    Host.dotGeneral (F := Ideal) dot_S512x128x256_S512x128x256_S512x128x128_2_2_1_1_0_0 none y0 y1 i
      = ∑ k : Fin 256, y0 (lidx_main_v60 i k) * y1 (ridx_main_v60 i k) := by
  simp only [Host.dotGeneral]
  rw [Ideal.dotGeneral_apply, ← Equiv.sum_comp (ValueIdx.contrEquiv1 dot_S512x128x256_S512x128x256_S512x128x128_2_2_1_1_0_0 256 rfl rfl).symm]
  refine Finset.sum_congr rfl fun k _ => ?_
  have hk := ValueIdx.contrEquiv1_symm_val dot_S512x128x256_S512x128x256_S512x128x128_2_2_1_1_0_0 256 rfl rfl k
  have el : dot_S512x128x256_S512x128x256_S512x128x128_2_2_1_1_0_0.lhsIdx i ((ValueIdx.contrEquiv1 dot_S512x128x256_S512x128x256_S512x128x128_2_2_1_1_0_0 256 rfl rfl).symm k) = lidx_main_v60 i k := funext fun a => Fin.ext (by
    match a with
    | ⟨0, _⟩ => exact lhs_main_v60_0 _ _
    | ⟨1, _⟩ => exact lhs_main_v60_1 _ _
    | ⟨2, _⟩ => exact (lhs_main_v60_2 _ _).trans hk)
  have er : dot_S512x128x256_S512x128x256_S512x128x128_2_2_1_1_0_0.rhsIdx i ((ValueIdx.contrEquiv1 dot_S512x128x256_S512x128x256_S512x128x128_2_2_1_1_0_0 256 rfl rfl).symm k) = ridx_main_v60 i k := funext fun a => Fin.ext (by
    match a with
    | ⟨0, _⟩ => exact rhs_main_v60_0 _ _
    | ⟨1, _⟩ => exact rhs_main_v60_1 _ _
    | ⟨2, _⟩ => exact (rhs_main_v60_2 _ _).trans hk)
  rw [el, er]

/-- The scaled logits of every molecule. -/
def lgt (Q S : B2) : L3 :=
  mulf (Host.dotGeneral dot_S512x128x256_S512x128x256_S512x128x128_2_2_1_1_0_0 none (mol3 Q) (mol3 S))
    (broadcastInDim S512x128x128 ![] bcast_S_S512x128x128 (val_main_v1 (F := Ideal)))

/-- The logit of query bond `q` against source bond `k` in molecule `m`. -/
theorem lgt_apply (Q S : B2) (m : Fin 512) (q k : Fin 128) :
    lgt Q S (ix3 m q k) = logit (bmol Q m) (bmol S m) sR q k := by
  unfold lgt
  rw [mulf_apply, dotQK_apply]
  have e1 : broadcastInDim S512x128x128 ![] bcast_S_S512x128x128 (val_main_v1 (F := Ideal)) (ix3 m q k) = sR :=
    broadcastInDim_apply _ bcast_S_S512x128x128 (val_main_v1 (F := Ideal)) (ix3 m q k) ValueIdx.ix0 (fun a => a.elim0)
  rw [e1]
  unfold logit
  refine congrArg (· * sR) (Finset.sum_congr rfl fun j _ => ?_)
  have hl : lidx_main_v60 (ix3 m q k) j = ix3 m q j := funext fun a => Fin.ext (by
    match a with | ⟨0, _⟩ => rfl | ⟨1, _⟩ => rfl | ⟨2, _⟩ => rfl)
  have hr : ridx_main_v60 (ix3 m q k) j = ix3 m k j := funext fun a => Fin.ext (by
    match a with | ⟨0, _⟩ => rfl | ⟨1, _⟩ => rfl | ⟨2, _⟩ => rfl)
  rw [hl, hr, mol3_apply, mol3_apply]
  rfl

/-! ## The supremum of a row of logits -/

/-- Dropping the source axis of the table of logits leaves one number per query bond. -/
theorem red2 : S512x128x128.Reduces [2] S512x128 := by decide

/-- The index (m, q) with source bond `k` put back is (m, q, k). -/
theorem lift_ix3 (m : Fin 512) (q : Fin 128) (k : Fin (S512x128x128.size 2)) :
    red2.lift (ix2 m q) k = ix3 m q (⟨k.val, k.isLt⟩ : Fin 128) := by
  funext c; apply Fin.ext
  fin_cases c <;> rfl

/-- The supremum of every row of logits: the fold of the maximum from the bottom element, once more against the bottom
    element. -/
def rmx (Q S : B2) : M2 :=
  maximumf (broadcastInDim S512x128 ![] bcast_S_S512x128 (constant (F := Ideal) S_ .f32 0xFF800000#32))
    (Host.reduce FloatOps.maximumf (lgt Q S) (constant (F := Ideal) S_ .f32 0xFF800000#32) reducesTo_S512x128x128_S512x128_d2 h_S_)

theorem rmx_apply (Q S : B2) (m : Fin 512) (q : Fin 128) :
    rmx Q S (ix2 m q) = rowmax (logit (bmol Q m) (bmol S m) sR q) := by
  unfold rmx
  rw [maximumf_apply]
  have e1 : broadcastInDim S512x128 ![] bcast_S_S512x128 (constant (F := Ideal) S_ .f32 0xFF800000#32) (ix2 m q) = (⊥ : EReal) :=
    (broadcastInDim_apply _ bcast_S_S512x128 (constant (F := Ideal) S_ .f32 0xFF800000#32) (ix2 m q) ValueIdx.ix0 (fun a => a.elim0)).trans
      Cert.Lib.MaxFold.ofBits_neg_inf_f32
  rw [e1, max_bot_left, Host.reduce_eq_fold_single FloatOps.maximumf (lgt Q S) _ reducesTo_S512x128x128_S512x128_d2 red2 h_S_]
  have e0 : (constant (F := Ideal) S_ .f32 0xFF800000#32) (Shape.Idx.first h_S_) = (⊥ : EReal) := Cert.Lib.MaxFold.ofBits_neg_inf_f32
  rw [e0]
  have hf : (lgt Q S ∘ red2.lift (ix2 m q)) = fun k : Fin 128 => logit (bmol Q m) (bmol S m) sR q k :=
    funext fun k => (congrArg (lgt Q S) (lift_ix3 m q k)).trans (lgt_apply Q S m q ⟨k.val, k.isLt⟩)
  unfold rowmax
  exact congrArg (fun f => Finset.fold max (⊥ : EReal) f (Finset.univ : Finset (Fin 128))) hf

/-! ## The attention weights -/

/-- One number per query bond, spread over the source axis. -/
def spread (v : M2) : L3 :=
  broadcastInDim S512x128x128 ![0, 1, 2] bcast_S512x128x1_S512x128x128_0_1_2
    (broadcastInDim S512x128x1 ![0, 1] bcast_S512x128_S512x128x1_0_1 v)

theorem spread_apply (v : M2) (m : Fin 512) (q k : Fin 128) : spread v (ix3 m q k) = v (ix2 m q) := by
  unfold spread
  refine (broadcastInDim_apply _ bcast_S512x128x1_S512x128x128_0_1_2 _ (ix3 m q k) (ix3 m q (0 : Fin 1)) (fun a => match a with
    | ⟨0, _⟩ => by show m.val = if (512 : Nat) = 1 then 0 else m.val; rw [if_neg (by decide)]
    | ⟨1, _⟩ => by show q.val = if (128 : Nat) = 1 then 0 else q.val; rw [if_neg (by decide)]
    | ⟨2, _⟩ => by show 0 = if (1 : Nat) = 1 then 0 else k.val; rw [if_pos rfl])).trans ?_
  exact broadcastInDim_apply _ bcast_S512x128_S512x128x1_0_1 v (ix3 m q (0 : Fin 1)) (ix2 m q) (fun a => match a with
    | ⟨0, _⟩ => by show m.val = if (512 : Nat) = 1 then 0 else m.val; rw [if_neg (by decide)]
    | ⟨1, _⟩ => by show q.val = if (128 : Nat) = 1 then 0 else q.val; rw [if_neg (by decide)])

/-- The exponentials of the logits shifted by their row's supremum. -/
def exq (Q S : B2) : L3 := Host.exp (subf (lgt Q S) (spread (rmx Q S)))

theorem exq_apply (Q S : B2) (m : Fin 512) (q k : Fin 128) :
    exq Q S (ix3 m q k) = expo (logit (bmol Q m) (bmol S m) sR q) k := by
  show Ideal.exp (lgt Q S (ix3 m q k) - spread (rmx Q S) (ix3 m q k)) = _
  rw [lgt_apply, spread_apply, rmx_apply]
  rfl

/-- The sum over the source axis from the zero pattern is the sum over the source bonds. -/
theorem sumK_apply (y0 : L3) (m : Fin 512) (q : Fin 128) :
    Host.reduceAdd (F := Ideal) y0 (constant (F := Ideal) S_ .f32 0x00000000#32) reducesTo_S512x128x128_S512x128_d2 h_S_ (ix2 m q)
      = ∑ k : Fin 128, y0 (ix3 m q k) := by
  have h1 : Host.reduceAdd (F := Ideal) y0 (constant (F := Ideal) S_ .f32 0x00000000#32) reducesTo_S512x128x128_S512x128_d2 h_S_ (ix2 m q)
      = (constant (F := Ideal) S_ .f32 0x00000000#32) (Shape.Idx.first h_S_) + ∑ k : Fin 128, y0 (ix3 m q k) := by
    simp only [Host.reduceAdd, Ideal.hostReduceAdd_def]
    rw [Ideal.hostReduceAdd_single reducesTo_S512x128x128_S512x128_d2 (by decide)]
    refine congrArg (_ + ·) (Finset.sum_congr rfl fun k _ => ?_)
    exact congrArg y0 (funext fun a => Fin.ext (by match a with | ⟨0, _⟩ => rfl | ⟨1, _⟩ => rfl | ⟨2, _⟩ => rfl))
  rw [h1]
  exact (congrArg (· + _) Ideal.ofBits_zero_f32).trans (zero_add _)

/-- The attention weights: the shifted exponentials over their row's sum. -/
def wts (Q S : B2) : L3 :=
  Host.divf (exq Q S)
    (spread (Host.reduceAdd (exq Q S) (constant (F := Ideal) S_ .f32 0x00000000#32) reducesTo_S512x128x128_S512x128_d2 h_S_))

theorem wts_apply (Q S : B2) (m : Fin 512) (q k : Fin 128) :
    wts Q S (ix3 m q k) = attn (logit (bmol Q m) (bmol S m) sR q) k := by
  show Ideal.div (exq Q S (ix3 m q k)) (spread (Host.reduceAdd (exq Q S) (constant (F := Ideal) S_ .f32 0x00000000#32) reducesTo_S512x128x128_S512x128_d2 h_S_) (ix3 m q k)) = _
  rw [spread_apply, sumK_apply, exq_apply]
  unfold attn
  exact congrArg (Ideal.div _) (Finset.sum_congr rfl fun j _ => exq_apply Q S m q j)

/-! ## The attention context -/

/-- The batched product of weights with sources contracts the source bonds. -/
theorem dotAV_apply (y0 : L3) (y1 : B3) (i : S512x128x256.Idx) :
    Host.dotGeneral (F := Ideal) dot_S512x128x128_S512x128x256_S512x128x256_2_1_1_2_0_0 none y0 y1 i
      = ∑ k : Fin 128, y0 (lidx_main_v74 i k) * y1 (ridx_main_v74 i k) := by
  simp only [Host.dotGeneral]
  rw [Ideal.dotGeneral_apply, ← Equiv.sum_comp (ValueIdx.contrEquiv1 dot_S512x128x128_S512x128x256_S512x128x256_2_1_1_2_0_0 128 rfl rfl).symm]
  refine Finset.sum_congr rfl fun k _ => ?_
  have hk := ValueIdx.contrEquiv1_symm_val dot_S512x128x128_S512x128x256_S512x128x256_2_1_1_2_0_0 128 rfl rfl k
  have el : dot_S512x128x128_S512x128x256_S512x128x256_2_1_1_2_0_0.lhsIdx i ((ValueIdx.contrEquiv1 dot_S512x128x128_S512x128x256_S512x128x256_2_1_1_2_0_0 128 rfl rfl).symm k) = lidx_main_v74 i k := funext fun a => Fin.ext (by
    match a with
    | ⟨0, _⟩ => exact lhs_main_v74_0 _ _
    | ⟨1, _⟩ => exact lhs_main_v74_1 _ _
    | ⟨2, _⟩ => exact (lhs_main_v74_2 _ _).trans hk)
  have er : dot_S512x128x128_S512x128x256_S512x128x256_2_1_1_2_0_0.rhsIdx i ((ValueIdx.contrEquiv1 dot_S512x128x128_S512x128x256_S512x128x256_2_1_1_2_0_0 128 rfl rfl).symm k) = ridx_main_v74 i k := funext fun a => Fin.ext (by
    match a with
    | ⟨0, _⟩ => exact rhs_main_v74_0 _ _
    | ⟨1, _⟩ => exact (rhs_main_v74_1 _ _).trans hk
    | ⟨2, _⟩ => exact rhs_main_v74_2 _ _)
  rw [el, er]

/-- The source bonds weighted by attention, as a flat table again. -/
def cxt (Q S : B2) : B2 :=
  shapeCast _ (Host.dotGeneral dot_S512x128x128_S512x128x256_S512x128x256_2_1_1_2_0_0 none (wts Q S) (mol3 S)) shapeCasts_S512x128x256_S65536x256

theorem cxt_apply (Q S : B2) (m : Fin 512) (q : Fin 128) (h : Fin 256) :
    cxt Q S (ix2 (brow m q) h) = ctx (bmol Q m) (bmol S m) sR q h := by
  unfold cxt
  refine (shapeCast_apply _ shapeCasts_S512x128x256_S65536x256 (ix2 (brow m q) h) (ix3 m q h)
    (by rewrite [Shape.rowMajor_val_three, Shape.rowMajor_val_two]; rfl)).trans ?_
  rw [dotAV_apply]
  unfold ctx
  refine Finset.sum_congr rfl fun k _ => ?_
  have hl : lidx_main_v74 (ix3 m q h) k = ix3 m q k := funext fun a => Fin.ext (by
    match a with | ⟨0, _⟩ => rfl | ⟨1, _⟩ => rfl | ⟨2, _⟩ => rfl)
  have hr : ridx_main_v74 (ix3 m q h) k = ix3 m k h := funext fun a => Fin.ext (by
    match a with | ⟨0, _⟩ => rfl | ⟨1, _⟩ => rfl | ⟨2, _⟩ => rfl)
  rw [hl, hr, wts_apply, mol3_apply]
  rfl

/-! ## The projection, the rectifier and the residual -/

/-- A flat table times a square matrix contracts the features. -/
theorem dotW_apply (y0 : B2) (w : W2) (i : S65536x256.Idx) :
    Host.dotGeneral (F := Ideal) dot_S65536x256_S256x256_S65536x256_1_0_0_1_n_n none y0 w i
      = ∑ k : Fin 256, y0 (lidx_main_v76 i k) * w (ridx_main_v76 i k) := by
  simp only [Host.dotGeneral]
  rw [Ideal.dotGeneral_apply, ← Equiv.sum_comp (ValueIdx.contrEquiv1 dot_S65536x256_S256x256_S65536x256_1_0_0_1_n_n 256 rfl rfl).symm]
  refine Finset.sum_congr rfl fun k _ => ?_
  have hk := ValueIdx.contrEquiv1_symm_val dot_S65536x256_S256x256_S65536x256_1_0_0_1_n_n 256 rfl rfl k
  have el : dot_S65536x256_S256x256_S65536x256_1_0_0_1_n_n.lhsIdx i ((ValueIdx.contrEquiv1 dot_S65536x256_S256x256_S65536x256_1_0_0_1_n_n 256 rfl rfl).symm k) = lidx_main_v76 i k := funext fun a => Fin.ext (by
    match a with
    | ⟨0, _⟩ => exact lhs_main_v76_0 _ _
    | ⟨1, _⟩ => exact (lhs_main_v76_1 _ _).trans hk)
  have er : dot_S65536x256_S256x256_S65536x256_1_0_0_1_n_n.rhsIdx i ((ValueIdx.contrEquiv1 dot_S65536x256_S256x256_S65536x256_1_0_0_1_n_n 256 rfl rfl).symm k) = ridx_main_v76 i k := funext fun a => Fin.ext (by
    match a with
    | ⟨0, _⟩ => exact (rhs_main_v76_0 _ _).trans hk
    | ⟨1, _⟩ => exact rhs_main_v76_1 _ _)
  rw [el, er]

/-- Row `r` of a flat table times a matrix, at column `h`. -/
theorem dotW_row (y0 : B2) (w : W2) (r : Fin 65536) (h : Fin 256) :
    Host.dotGeneral (F := Ideal) dot_S65536x256_S256x256_S65536x256_1_0_0_1_n_n none y0 w (ix2 r h) = ∑ k : Fin 256, y0 (ix2 r k) * w (ix2 k h) := by
  rw [dotW_apply]
  refine Finset.sum_congr rfl fun k _ => ?_
  have hl : lidx_main_v76 (ix2 r h) k = ix2 r k := funext fun a => Fin.ext (by
    match a with | ⟨0, _⟩ => rfl | ⟨1, _⟩ => rfl)
  have hr : ridx_main_v76 (ix2 r h) k = ix2 k h := funext fun a => Fin.ext (by
    match a with | ⟨0, _⟩ => rfl | ⟨1, _⟩ => rfl)
  rw [hl, hr]

/-- The table of zeros the rectifier compares with. -/
def zero2 : B2 := broadcastInDim S65536x256 ![] bcast_S_S65536x256 (constant (F := Ideal) S_ .f32 0x00000000#32)

theorem zero2_apply (i : S65536x256.Idx) : zero2 i = (0 : EReal) :=
  (broadcastInDim_apply _ bcast_S_S65536x256 (constant (F := Ideal) S_ .f32 0x00000000#32) i ValueIdx.ix0 (fun a => a.elim0)).trans
    Ideal.ofBits_zero_f32

/-- The cross-attention block with its residual, over two flat bond tables and a projection. -/
def blk (Q S : B2) (W : W2) : B2 :=
  addf (maximumf (Host.dotGeneral dot_S65536x256_S256x256_S65536x256_1_0_0_1_n_n none (cxt Q S) W) zero2) Q

theorem blk_apply (Q S : B2) (W : W2) (m : Fin 512) (q : Fin 128) (h : Fin 256) :
    blk Q S W (ix2 (brow m q) h) = cross (bmol Q m) (bmol S m) sR (to2 W) q h := by
  unfold blk
  rw [addf_apply, maximumf_apply, zero2_apply, dotW_row]
  unfold cross relu dotRow
  refine congrArg (fun z => max z 0 + Q (ix2 (brow m q) h)) (Finset.sum_congr rfl fun k _ => ?_)
  rw [cxt_apply]
  rfl

/-- A hidden update without bias, over flat tables. -/
def hdn (B A : B2) (W : W2) : B2 :=
  maximumf (addf B (Host.dotGeneral dot_S65536x256_S256x256_S65536x256_1_0_0_1_n_n none A W)) zero2

theorem hdn_apply (B A : B2) (W : W2) (m : Fin 512) (q : Fin 128) (h : Fin 256) :
    hdn B A W (ix2 (brow m q) h) = hid (bmol B m) (bmol A m) (to2 W) q h := by
  unfold hdn
  rw [maximumf_apply, zero2_apply, addf_apply, dotW_row]
  rfl

theorem bmol_hdn (B A : B2) (W : W2) (m : Fin 512) :
    bmol (hdn B A W) m = hid (bmol B m) (bmol A m) (to2 W) :=
  funext fun q => funext fun h => hdn_apply B A W m q h

/-- Both branches updated, then the first attends to the second: one molecule of the result is `fusedR` of that molecule. -/
theorem blk_hdn_R (B1 B2' A1 A2 : B2) (Wh Wa : W2) (m : Fin 512) (q : Fin 128) (h : Fin 256) :
    blk (hdn B1 A1 Wh) (hdn B2' A2 Wh) Wa (ix2 (brow m q) h)
      = fusedR (bmol B1 m) (bmol B2' m) (bmol A1 m) (bmol A2 m) (to2 Wh) (to2 Wa) sR q h := by
  rw [blk_apply, bmol_hdn, bmol_hdn]
  rfl

/-- Both branches updated, then the second attends to the first: `fusedP`. -/
theorem blk_hdn_P (B1 B2' A1 A2 : B2) (Wh Wa : W2) (m : Fin 512) (q : Fin 128) (h : Fin 256) :
    blk (hdn B2' A2 Wh) (hdn B1 A1 Wh) Wa (ix2 (brow m q) h)
      = fusedP (bmol B1 m) (bmol B2' m) (bmol A1 m) (bmol A2 m) (to2 Wh) (to2 Wa) sR q h := by
  rw [blk_apply, bmol_hdn, bmol_hdn]
  rfl

/-! ## The four places where the reference runs the block -/

/-- The first step's new message of the first branch. -/
theorem ref78 (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal)) (x7 : (⟨S147x256, .f32⟩ : BufTy).Contents (Elt Ideal)) (x8 x9 : (⟨S256x256, .f32⟩ : BufTy).Contents (Elt Ideal))
    (m : Fin 512) (q : Fin 128) (h : Fin 256) :
    val_main_v78 (F := Ideal) x2 x3 x4 x5 x6 x7 x8 x9 (ix2 (brow m q) h)
      = fusedR (bmol (val_main_v2 (F := Ideal) x2 x7) m) (bmol (val_main_v3 (F := Ideal) x3 x7) m) (bmol (val_main_v28 (F := Ideal) x2 x4 x5 x6 x7) m) (bmol (val_main_v54 (F := Ideal) x3 x4 x5 x6 x7) m) (to2 x8) (to2 x9) sR q h := by
  have e : val_main_v78 (F := Ideal) x2 x3 x4 x5 x6 x7 x8 x9
      = blk (hdn (val_main_v2 (F := Ideal) x2 x7) (val_main_v28 (F := Ideal) x2 x4 x5 x6 x7) x8) (hdn (val_main_v3 (F := Ideal) x3 x7) (val_main_v54 (F := Ideal) x3 x4 x5 x6 x7) x8) x9 := rfl
  exact (congrFun e _).trans (blk_hdn_R _ _ _ _ _ _ m q h)

/-- The first step's new message of the second branch. -/
theorem ref99 (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal)) (x7 : (⟨S147x256, .f32⟩ : BufTy).Contents (Elt Ideal)) (x8 x9 : (⟨S256x256, .f32⟩ : BufTy).Contents (Elt Ideal))
    (m : Fin 512) (q : Fin 128) (h : Fin 256) :
    val_main_v99 (F := Ideal) x2 x3 x4 x5 x6 x7 x8 x9 (ix2 (brow m q) h)
      = fusedP (bmol (val_main_v2 (F := Ideal) x2 x7) m) (bmol (val_main_v3 (F := Ideal) x3 x7) m) (bmol (val_main_v28 (F := Ideal) x2 x4 x5 x6 x7) m) (bmol (val_main_v54 (F := Ideal) x3 x4 x5 x6 x7) m) (to2 x8) (to2 x9) sR q h := by
  have e : val_main_v99 (F := Ideal) x2 x3 x4 x5 x6 x7 x8 x9
      = blk (hdn (val_main_v3 (F := Ideal) x3 x7) (val_main_v54 (F := Ideal) x3 x4 x5 x6 x7) x8) (hdn (val_main_v2 (F := Ideal) x2 x7) (val_main_v28 (F := Ideal) x2 x4 x5 x6 x7) x8) x9 := rfl
  exact (congrFun e _).trans (blk_hdn_P _ _ _ _ _ _ m q h)

/-- The second step's new message of the first branch. -/
theorem ref172 (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal)) (x7 : (⟨S147x256, .f32⟩ : BufTy).Contents (Elt Ideal)) (x8 x9 : (⟨S256x256, .f32⟩ : BufTy).Contents (Elt Ideal))
    (m : Fin 512) (q : Fin 128) (h : Fin 256) :
    val_main_v172 (F := Ideal) x2 x3 x4 x5 x6 x7 x8 x9 (ix2 (brow m q) h)
      = fusedR (bmol (val_main_v2 (F := Ideal) x2 x7) m) (bmol (val_main_v3 (F := Ideal) x3 x7) m) (bmol (val_main_v122 (F := Ideal) x2 x3 x4 x5 x6 x7 x8 x9) m) (bmol (val_main_v148 (F := Ideal) x2 x3 x4 x5 x6 x7 x8 x9) m) (to2 x8) (to2 x9) sR q h := by
  have e : val_main_v172 (F := Ideal) x2 x3 x4 x5 x6 x7 x8 x9
      = blk (hdn (val_main_v2 (F := Ideal) x2 x7) (val_main_v122 (F := Ideal) x2 x3 x4 x5 x6 x7 x8 x9) x8) (hdn (val_main_v3 (F := Ideal) x3 x7) (val_main_v148 (F := Ideal) x2 x3 x4 x5 x6 x7 x8 x9) x8) x9 := rfl
  exact (congrFun e _).trans (blk_hdn_R _ _ _ _ _ _ m q h)

/-- The second step's new message of the second branch. -/
theorem ref193 (x2 x3 : (⟨S65536x147, .f32⟩ : BufTy).Contents (Elt Ideal)) (x4 : (⟨S32768x6, .i32⟩ : BufTy).Contents (Elt Ideal)) (x5 x6 : (⟨S65536, .i32⟩ : BufTy).Contents (Elt Ideal)) (x7 : (⟨S147x256, .f32⟩ : BufTy).Contents (Elt Ideal)) (x8 x9 : (⟨S256x256, .f32⟩ : BufTy).Contents (Elt Ideal))
    (m : Fin 512) (q : Fin 128) (h : Fin 256) :
    val_main_v193 (F := Ideal) x2 x3 x4 x5 x6 x7 x8 x9 (ix2 (brow m q) h)
      = fusedP (bmol (val_main_v2 (F := Ideal) x2 x7) m) (bmol (val_main_v3 (F := Ideal) x3 x7) m) (bmol (val_main_v122 (F := Ideal) x2 x3 x4 x5 x6 x7 x8 x9) m) (bmol (val_main_v148 (F := Ideal) x2 x3 x4 x5 x6 x7 x8 x9) m) (to2 x8) (to2 x9) sR q h := by
  have e : val_main_v193 (F := Ideal) x2 x3 x4 x5 x6 x7 x8 x9
      = blk (hdn (val_main_v3 (F := Ideal) x3 x7) (val_main_v148 (F := Ideal) x2 x3 x4 x5 x6 x7 x8 x9) x8) (hdn (val_main_v2 (F := Ideal) x2 x7) (val_main_v122 (F := Ideal) x2 x3 x4 x5 x6 x7 x8 x9) x8) x9 := rfl
  exact (congrFun e _).trans (blk_hdn_P _ _ _ _ _ _ m q h)

end Cert.RFused

end
-- ==== Proof.KChain.lean ====
import proofs.«135133_j46703474376853_2_alg».proof.Proof.Gen.KernelIdeal.Frame
import proofs.«135133_j46703474376853_2_alg».proof.Proof.ReadP
import proofs.«135133_j46703474376853_2_alg».proof.Proof.Spec
import proofs.«135133_j46703474376853_2_alg».proof.Proof.Bridge
import proofs.«135133_j46703474376853_2_alg».proof.Proof.KGlue0
import proofs.«135133_j46703474376853_2_alg».proof.Proof.KGlue2
import proofs.«135133_j46703474376853_2_alg».proof.Proof.KGlue3
import proofs.«135133_j46703474376853_2_alg».proof.Proof.KGlue4
import proofs.«135133_j46703474376853_2_alg».proof.Proof.KPres
import proofs.«135133_j46703474376853_2_alg».proof.Proof.KArr0
import proofs.«135133_j46703474376853_2_alg».proof.Proof.KArr2
import proofs.«135133_j46703474376853_2_alg».proof.Proof.KArr4
import proofs.«135133_j46703474376853_2_alg».proof.Proof.KArr6
import proofs.«135133_j46703474376853_2_alg».proof.Proof.RSmall
import proofs.«135133_j46703474376853_2_alg».proof.Proof.RFused

/-!
# The program's tables, boundary by boundary

Walking the program's thirteen segments in order: after each segment, every table a later segment reads holds the
value the reference program gives the same stage, as a function of the argument arrays. A pipeline's output holds its
stage's function of the tables it staged (blocks to arrays), which is the reference's value of that stage (both are the
same function of coordinates); a host stretch applies to these the same gathers, sums and re-layings as the reference.
The last boundary's contents at the result buffer are therefore the reference's result.
-/

set_option maxRecDepth 16384

noncomputable section

namespace Cert.KChain

open Cert.KernelIdeal Cert.KernelIdeal.Gen Idealize.ShloMosaic Idealize.ShloMosaic.TcCoe Idealize.SL.Sem Idealize.ShloMosaic.ValueIdx Cert.Spec

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)

/-- The scale spelled by the one program is the scale computed by the other. -/
theorem sK_eq_sR : Cert.KFused.sK = Cert.RFused.sR := Bridge.scale_eq.symm

/-! ## The bias rows -/
theorem f1_v0 : W1 m ρ c (Proc.devRef .tc main_call0_v0) = shapeCast S1x256 x11 shapeCasts_S256_S1x256 :=
  KGlue0.s0_v0 x11 (W0 m ρ c) (KPres.arg11_at_0 m ρ c)
theorem f1_v1 : W1 m ρ c (Proc.devRef .tc main_call0_v1) = shapeCast S1x256 x13 shapeCasts_S256_S1x256 :=
  KGlue0.s0_v1 x13 (W0 m ρ c) (KPres.arg13_at_0 m ρ c)

/-! ## The two input projections -/
theorem f2_v2_0 : W2 m ρ c (Proc.devRef .tc main_call0_v2_0) = (Cert.ReferenceIdeal.ReadP.val_main_v2 (F := Ideal) x2 x7) := by
  refine (W2_arr m ρ c 2).trans (Spec.ext2 (fun r k => ?_))
  rw [KArr0.arr0_2, RSmall.ref2]
  rw [show V1 m ρ c (Pipeline.arrRef spec0 0) = x2 from (KPres.arg2_at_1 m ρ c), show V1 m ρ c (Pipeline.arrRef spec0 1) = x7 from (KPres.arg7_at_1 m ρ c)]
theorem f2_v2_1 : W2 m ρ c (Proc.devRef .tc main_call0_v2_1) = (Cert.ReferenceIdeal.ReadP.val_main_v4 (F := Ideal) x2 x7) := by
  refine (W2_arr m ρ c 3).trans (Spec.ext2 (fun r k => ?_))
  rw [KArr0.arr0_3, RSmall.ref4]
  rw [show V1 m ρ c (Pipeline.arrRef spec0 0) = x2 from (KPres.arg2_at_1 m ρ c), show V1 m ρ c (Pipeline.arrRef spec0 1) = x7 from (KPres.arg7_at_1 m ρ c)]
theorem f3_v3_0 : W3 m ρ c (Proc.devRef .tc main_call0_v3_0) = (Cert.ReferenceIdeal.ReadP.val_main_v3 (F := Ideal) x3 x7) := by
  refine (W3_arr m ρ c 2).trans (Spec.ext2 (fun r k => ?_))
  rw [KArr1.arr1_2, RSmall.ref3]
  rw [show V2 m ρ c (Pipeline.arrRef spec1 0) = x3 from (KPres.arg3_at_2 m ρ c), show V2 m ρ c (Pipeline.arrRef spec1 1) = x7 from (KPres.arg7_at_2 m ρ c)]
theorem f3_v3_1 : W3 m ρ c (Proc.devRef .tc main_call0_v3_1) = (Cert.ReferenceIdeal.ReadP.val_main_v5 (F := Ideal) x3 x7) := by
  refine (W3_arr m ρ c 3).trans (Spec.ext2 (fun r k => ?_))
  rw [KArr1.arr1_3, RSmall.ref5]
  rw [show V2 m ρ c (Pipeline.arrRef spec1 0) = x3 from (KPres.arg3_at_2 m ρ c), show V2 m ρ c (Pipeline.arrRef spec1 1) = x7 from (KPres.arg7_at_2 m ρ c)]
theorem f3_v2_0 : W3 m ρ c (Proc.devRef .tc main_call0_v2_0) = (Cert.ReferenceIdeal.ReadP.val_main_v2 (F := Ideal) x2 x7) := (KPres.keep_v2_0_2_3 m ρ c).trans (f2_v2_0 m ρ c)
theorem f3_v2_1 : W3 m ρ c (Proc.devRef .tc main_call0_v2_1) = (Cert.ReferenceIdeal.ReadP.val_main_v4 (F := Ideal) x2 x7) := (KPres.keep_v2_1_2_3 m ρ c).trans (f2_v2_1 m ρ c)

/-! ## The first neighbourhood sums and the per-molecule forms -/
theorem f4_v50 : W4 m ρ c (Proc.devRef .tc main_call0_v50) = shapeCast S512x128x256 (Cert.ReferenceIdeal.ReadP.val_main_v2 (F := Ideal) x2 x7) shapeCasts_S65536x256_S512x128x256 :=
  KGlue2.s2_v50 x2 x7 (W3 m ρ c) (f3_v2_0 m ρ c)
theorem f4_v51 : W4 m ρ c (Proc.devRef .tc main_call0_v51) = shapeCast S512x128x256 (Cert.ReferenceIdeal.ReadP.val_main_v3 (F := Ideal) x3 x7) shapeCasts_S65536x256_S512x128x256 :=
  KGlue2.s2_v51 x3 x7 (W3 m ρ c) (f3_v3_0 m ρ c)
theorem f4_v52 : W4 m ρ c (Proc.devRef .tc main_call0_v52) = shapeCast S512x128x256 (Cert.ReferenceIdeal.ReadP.val_main_v28 (F := Ideal) x2 x4 x5 x6 x7) shapeCasts_S65536x256_S512x128x256 :=
  KGlue2.s2_v52 x2 x4 x5 x6 x7 (W3 m ρ c) (f3_v2_1 m ρ c) (KPres.arg4_at_3 m ρ c) (KPres.arg5_at_3 m ρ c) (KPres.arg6_at_3 m ρ c)
theorem f4_v53 : W4 m ρ c (Proc.devRef .tc main_call0_v53) = shapeCast S512x128x256 (Cert.ReferenceIdeal.ReadP.val_main_v54 (F := Ideal) x3 x4 x5 x6 x7) shapeCasts_S65536x256_S512x128x256 :=
  KGlue2.s2_v53 x3 x4 x5 x6 x7 (W3 m ρ c) (f3_v3_1 m ρ c) (KPres.arg4_at_3 m ρ c) (KPres.arg5_at_3 m ρ c) (KPres.arg6_at_3 m ρ c)

/-! ## The first fused step -/
set_option maxHeartbeats 4000000 in
theorem f5_v54_0 : W5 m ρ c (Proc.devRef .tc main_call0_v54_0) = shapeCast S512x128x256 (Cert.ReferenceIdeal.ReadP.val_main_v78 (F := Ideal) x2 x3 x4 x5 x6 x7 x8 x9) shapeCasts_S65536x256_S512x128x256 := by
  refine (W5_arr m ρ c 6).trans (Spec.ext3 (fun mo q h => ?_))
  rw [KArr2.arr2_6, Bridge.cast3_apply, RFused.ref78, sK_eq_sR]
  rw [show V4 m ρ c (Pipeline.arrRef spec2 0) = _ from f4_v50 m ρ c, show V4 m ρ c (Pipeline.arrRef spec2 1) = _ from f4_v51 m ρ c,
    show V4 m ρ c (Pipeline.arrRef spec2 2) = _ from f4_v52 m ρ c, show V4 m ρ c (Pipeline.arrRef spec2 3) = _ from f4_v53 m ρ c,
    show V4 m ρ c (Pipeline.arrRef spec2 4) = x8 from (KPres.arg8_at_4 m ρ c), show V4 m ρ c (Pipeline.arrRef spec2 5) = x9 from (KPres.arg9_at_4 m ρ c)]
  simp only [Bridge.to3_cast]
set_option maxHeartbeats 4000000 in
theorem f5_v54_1 : W5 m ρ c (Proc.devRef .tc main_call0_v54_1) = shapeCast S512x128x256 (Cert.ReferenceIdeal.ReadP.val_main_v99 (F := Ideal) x2 x3 x4 x5 x6 x7 x8 x9) shapeCasts_S65536x256_S512x128x256 := by
  refine (W5_arr m ρ c 7).trans (Spec.ext3 (fun mo q h => ?_))
  rw [KArr2.arr2_7, Bridge.cast3_apply, RFused.ref99, sK_eq_sR]
  rw [show V4 m ρ c (Pipeline.arrRef spec2 0) = _ from f4_v50 m ρ c, show V4 m ρ c (Pipeline.arrRef spec2 1) = _ from f4_v51 m ρ c,
    show V4 m ρ c (Pipeline.arrRef spec2 2) = _ from f4_v52 m ρ c, show V4 m ρ c (Pipeline.arrRef spec2 3) = _ from f4_v53 m ρ c,
    show V4 m ρ c (Pipeline.arrRef spec2 4) = x8 from (KPres.arg8_at_4 m ρ c), show V4 m ρ c (Pipeline.arrRef spec2 5) = x9 from (KPres.arg9_at_4 m ρ c)]
  simp only [Bridge.to3_cast]
theorem f5_v2_0 : W5 m ρ c (Proc.devRef .tc main_call0_v2_0) = (Cert.ReferenceIdeal.ReadP.val_main_v2 (F := Ideal) x2 x7) := (KPres.keep_v2_0_2_5 m ρ c).trans (f2_v2_0 m ρ c)
theorem f5_v3_0 : W5 m ρ c (Proc.devRef .tc main_call0_v3_0) = (Cert.ReferenceIdeal.ReadP.val_main_v3 (F := Ideal) x3 x7) := (KPres.keep_v3_0_3_5 m ρ c).trans (f3_v3_0 m ρ c)

/-! ## The second neighbourhood sums -/
theorem f6_v103 : W6 m ρ c (Proc.devRef .tc main_call0_v103) = shapeCast S512x128x256 (Cert.ReferenceIdeal.ReadP.val_main_v2 (F := Ideal) x2 x7) shapeCasts_S65536x256_S512x128x256 :=
  KGlue3.s3_v103 x2 x7 (W5 m ρ c) (f5_v2_0 m ρ c)
theorem f6_v104 : W6 m ρ c (Proc.devRef .tc main_call0_v104) = shapeCast S512x128x256 (Cert.ReferenceIdeal.ReadP.val_main_v3 (F := Ideal) x3 x7) shapeCasts_S65536x256_S512x128x256 :=
  KGlue3.s3_v104 x3 x7 (W5 m ρ c) (f5_v3_0 m ρ c)
theorem f6_v105 : W6 m ρ c (Proc.devRef .tc main_call0_v105) = shapeCast S512x128x256 (Cert.ReferenceIdeal.ReadP.val_main_v122 (F := Ideal) x2 x3 x4 x5 x6 x7 x8 x9) shapeCasts_S65536x256_S512x128x256 :=
  KGlue3.s3_v105 x2 x3 x4 x5 x6 x7 x8 x9 (W5 m ρ c) (f5_v54_0 m ρ c) (KPres.arg4_at_5 m ρ c) (KPres.arg5_at_5 m ρ c) (KPres.arg6_at_5 m ρ c)
theorem f6_v106 : W6 m ρ c (Proc.devRef .tc main_call0_v106) = shapeCast S512x128x256 (Cert.ReferenceIdeal.ReadP.val_main_v148 (F := Ideal) x2 x3 x4 x5 x6 x7 x8 x9) shapeCasts_S65536x256_S512x128x256 :=
  KGlue3.s3_v106 x2 x3 x4 x5 x6 x7 x8 x9 (W5 m ρ c) (f5_v54_1 m ρ c) (KPres.arg4_at_5 m ρ c) (KPres.arg5_at_5 m ρ c) (KPres.arg6_at_5 m ρ c)

/-! ## The second fused step -/
set_option maxHeartbeats 4000000 in
theorem f7_v107_0 : W7 m ρ c (Proc.devRef .tc main_call0_v107_0) = shapeCast S512x128x256 (Cert.ReferenceIdeal.ReadP.val_main_v172 (F := Ideal) x2 x3 x4 x5 x6 x7 x8 x9) shapeCasts_S65536x256_S512x128x256 := by
  refine (W7_arr m ρ c 6).trans (Spec.ext3 (fun mo q h => ?_))
  rw [KArr3.arr3_6, Bridge.cast3_apply, RFused.ref172, sK_eq_sR]
  rw [show V6 m ρ c (Pipeline.arrRef spec3 0) = _ from f6_v103 m ρ c, show V6 m ρ c (Pipeline.arrRef spec3 1) = _ from f6_v104 m ρ c,
    show V6 m ρ c (Pipeline.arrRef spec3 2) = _ from f6_v105 m ρ c, show V6 m ρ c (Pipeline.arrRef spec3 3) = _ from f6_v106 m ρ c,
    show V6 m ρ c (Pipeline.arrRef spec3 4) = x8 from (KPres.arg8_at_6 m ρ c), show V6 m ρ c (Pipeline.arrRef spec3 5) = x9 from (KPres.arg9_at_6 m ρ c)]
  simp only [Bridge.to3_cast]
set_option maxHeartbeats 4000000 in
theorem f7_v107_1 : W7 m ρ c (Proc.devRef .tc main_call0_v107_1) = shapeCast S512x128x256 (Cert.ReferenceIdeal.ReadP.val_main_v193 (F := Ideal) x2 x3 x4 x5 x6 x7 x8 x9) shapeCasts_S65536x256_S512x128x256 := by
  refine (W7_arr m ρ c 7).trans (Spec.ext3 (fun mo q h => ?_))
  rw [KArr3.arr3_7, Bridge.cast3_apply, RFused.ref193, sK_eq_sR]
  rw [show V6 m ρ c (Pipeline.arrRef spec3 0) = _ from f6_v103 m ρ c, show V6 m ρ c (Pipeline.arrRef spec3 1) = _ from f6_v104 m ρ c,
    show V6 m ρ c (Pipeline.arrRef spec3 2) = _ from f6_v105 m ρ c, show V6 m ρ c (Pipeline.arrRef spec3 3) = _ from f6_v106 m ρ c,
    show V6 m ρ c (Pipeline.arrRef spec3 4) = x8 from (KPres.arg8_at_6 m ρ c), show V6 m ρ c (Pipeline.arrRef spec3 5) = x9 from (KPres.arg9_at_6 m ρ c)]
  simp only [Bridge.to3_cast]
theorem f7_v2_0 : W7 m ρ c (Proc.devRef .tc main_call0_v2_0) = (Cert.ReferenceIdeal.ReadP.val_main_v2 (F := Ideal) x2 x7) := (KPres.keep_v2_0_2_7 m ρ c).trans (f2_v2_0 m ρ c)
theorem f7_v3_0 : W7 m ρ c (Proc.devRef .tc main_call0_v3_0) = (Cert.ReferenceIdeal.ReadP.val_main_v3 (F := Ideal) x3 x7) := (KPres.keep_v3_0_3_7 m ρ c).trans (f3_v3_0 m ρ c)

/-! ## The reaction combination and its neighbourhood sums -/
theorem f8_v113 : W8 m ρ c (Proc.devRef .tc main_call0_v113) = (Cert.ReferenceIdeal.ReadP.val_main_v197 (F := Ideal) x2 x3 x7) :=
  KGlue4.s4_v113 x2 x3 x7 (W7 m ρ c) (f7_v2_0 m ρ c) (f7_v3_0 m ρ c)
theorem f8_v115 : W8 m ρ c (Proc.devRef .tc main_call0_v115) = (Cert.ReferenceIdeal.ReadP.val_main_v199 (F := Ideal) x0 x1) :=
  KGlue4.s4_v115 x0 x1 (W7 m ρ c) (KPres.arg0_at_7 m ρ c) (KPres.arg1_at_7 m ρ c)
theorem f8_v138 : W8 m ρ c (Proc.devRef .tc main_call0_v138) = (Cert.ReferenceIdeal.ReadP.val_main_v222 (F := Ideal) x2 x3 x4 x5 x6 x7 x8 x9) :=
  KGlue4.s4_v138 x2 x3 x4 x5 x6 x7 x8 x9 (W7 m ρ c) (f7_v107_0 m ρ c) (f7_v107_1 m ρ c) (KPres.arg4_at_7 m ρ c) (KPres.arg5_at_7 m ρ c) (KPres.arg6_at_7 m ρ c)
theorem f8_v0 : W8 m ρ c (Proc.devRef .tc main_call0_v0) = shapeCast S1x256 x11 shapeCasts_S256_S1x256 := (KPres.keep_v0_1_8 m ρ c).trans (f1_v0 m ρ c)

/-! ## The two updates with bias -/
set_option maxHeartbeats 4000000 in
theorem f9_v139 : W9 m ρ c (Proc.devRef .tc main_call0_v139) = (Cert.ReferenceIdeal.ReadP.val_main_v228 (F := Ideal) x2 x3 x4 x5 x6 x7 x8 x9 x10 x11) := by
  refine (W9_arr m ρ c 4).trans (Spec.ext2 (fun r k => ?_))
  rw [KArr4.arr4_4, RSmall.ref228]
  rw [show V8 m ρ c (Pipeline.arrRef spec4 0) = _ from f8_v113 m ρ c, show V8 m ρ c (Pipeline.arrRef spec4 1) = _ from f8_v138 m ρ c,
    show V8 m ρ c (Pipeline.arrRef spec4 2) = x10 from (KPres.arg10_at_8 m ρ c), show V8 m ρ c (Pipeline.arrRef spec4 3) = _ from f8_v0 m ρ c,
    Bridge.to2_cast_row]
theorem f10_v162 : W10 m ρ c (Proc.devRef .tc main_call0_v162) = (Cert.ReferenceIdeal.ReadP.val_main_v251 (F := Ideal) x2 x3 x4 x5 x6 x7 x8 x9 x10 x11) :=
  KGlue4.s5_v162 x2 x3 x4 x5 x6 x7 x8 x9 x10 x11 (W9 m ρ c) (f9_v139 m ρ c) (KPres.arg4_at_9 m ρ c) (KPres.arg5_at_9 m ρ c) (KPres.arg6_at_9 m ρ c)
theorem f10_v113 : W10 m ρ c (Proc.devRef .tc main_call0_v113) = (Cert.ReferenceIdeal.ReadP.val_main_v197 (F := Ideal) x2 x3 x7) := (KPres.keep_v113_8_10 m ρ c).trans (f8_v113 m ρ c)
theorem f10_v0 : W10 m ρ c (Proc.devRef .tc main_call0_v0) = shapeCast S1x256 x11 shapeCasts_S256_S1x256 := (KPres.keep_v0_1_10 m ρ c).trans (f1_v0 m ρ c)
set_option maxHeartbeats 4000000 in
theorem f11_v163 : W11 m ρ c (Proc.devRef .tc main_call0_v163) = (Cert.ReferenceIdeal.ReadP.val_main_v257 (F := Ideal) x2 x3 x4 x5 x6 x7 x8 x9 x10 x11) := by
  refine (W11_arr m ρ c 4).trans (Spec.ext2 (fun r k => ?_))
  rw [KArr5.arr5_4, RSmall.ref257]
  rw [show V10 m ρ c (Pipeline.arrRef spec5 0) = _ from f10_v113 m ρ c, show V10 m ρ c (Pipeline.arrRef spec5 1) = _ from f10_v162 m ρ c,
    show V10 m ρ c (Pipeline.arrRef spec5 2) = x10 from (KPres.arg10_at_10 m ρ c), show V10 m ρ c (Pipeline.arrRef spec5 3) = _ from f10_v0 m ρ c,
    Bridge.to2_cast_row]

/-! ## The atoms' incoming sums, the weight's two row ranges, and the read-out -/
theorem f12_v171 : W12 m ρ c (Proc.devRef .tc main_call0_v171) = (Cert.ReferenceIdeal.ReadP.val_main_v265 (F := Ideal) x2 x3 x4 x5 x6 x7 x8 x9 x10 x11) :=
  KGlue0.s6_v171 x2 x3 x4 x5 x6 x7 x8 x9 x10 x11 (W11 m ρ c) (f11_v163 m ρ c) (KPres.arg4_at_11 m ρ c)
theorem f12_v172 : W12 m ρ c (Proc.devRef .tc main_call0_v172) = extractStridedSlice S133x256 ![0, 0] x12 slices_S389x256_S133x256_0_0 :=
  KGlue0.s6_v172 x12 (W11 m ρ c) (KPres.arg12_at_11 m ρ c)
theorem f12_v173 : W12 m ρ c (Proc.devRef .tc main_call0_v173) = extractStridedSlice S256x256 ![133, 0] x12 slices_S389x256_S256x256_133_0 :=
  KGlue0.s6_v173 x12 (W11 m ρ c) (KPres.arg12_at_11 m ρ c)
theorem f12_v115 : W12 m ρ c (Proc.devRef .tc main_call0_v115) = (Cert.ReferenceIdeal.ReadP.val_main_v199 (F := Ideal) x0 x1) := (KPres.keep_v115_8_12 m ρ c).trans (f8_v115 m ρ c)
theorem f12_v1 : W12 m ρ c (Proc.devRef .tc main_call0_v1) = shapeCast S1x256 x13 shapeCasts_S256_S1x256 := (KPres.keep_v1_1_12 m ρ c).trans (f1_v1 m ρ c)

set_option maxHeartbeats 4000000 in
/-- The result buffer at the last boundary holds the reference's result as a function of the argument arrays. -/
theorem result : W13 m ρ c (Proc.devRef .tc main_v0) = (Cert.ReferenceIdeal.ReadP.val_main_v275 (F := Ideal) x0 x1 x2 x3 x4 x5 x6 x7 x8 x9 x10 x11 x12 x13) := by
  refine (W13_arr m ρ c 5).trans (Spec.ext2 (fun mo k => ?_))
  rw [KArr6.arr6_5, RSmall.ref275]
  rw [show V12 m ρ c (Pipeline.arrRef spec6 0) = _ from f12_v115 m ρ c, show V12 m ρ c (Pipeline.arrRef spec6 1) = _ from f12_v171 m ρ c,
    show V12 m ρ c (Pipeline.arrRef spec6 2) = _ from f12_v172 m ρ c, show V12 m ρ c (Pipeline.arrRef spec6 3) = _ from f12_v173 m ρ c,
    show V12 m ρ c (Pipeline.arrRef spec6 4) = _ from f12_v1 m ρ c,
    Bridge.to2_slice_top, Bridge.to2_slice_bot, Bridge.to2_cast_row]

end Cert.KChain

end
-- ==== Proof.RRun.lean ====
import proofs.«135133_j46703474376853_2_alg».proof.Proof.Gen.ReferenceIdeal
import proofs.«135133_j46703474376853_2_alg».proof.Proof.ReadP
import proofs.«135133_j46703474376853_2_alg».proof.Proof.LibFoldSteps
import Idealize.ShloMosaic.Lib.StableHlo.Run

/-!
# The reference's run, read back by parts

The reference program is a straight line of host operations. Its run ends with every buffer at the fold of the
operations' results over the launch contents. The line is cut into consecutive parts at the values that later
operations share; after each part, every buffer that a later part reads holds its named value as a function of the
arguments, and the arguments are unchanged. Chaining the parts gives the result buffer at its named value.
-/

noncomputable section

namespace Cert.RRun

open Cert.ReferenceIdeal Cert.ReferenceIdeal.Gen Cert.ReferenceIdeal.ReadP Cert.Lib Idealize.ShloMosaic Idealize.ShloMosaic.TcCoe Idealize.SL.Sem Idealize.ShloMosaic.StableHlo

variable {F : FTy → Type} [FloatOps F]

/-- Part 0 of the line: 12 operations, ending at `main_v5`. -/
abbrev ops0 : List (HloOp τ sig (Elt F)) :=
  [ nullary main_cst (constant S_ .f32 0x43800000#32),
    unary main_cst main_v0 (Host.sqrt : (⟨S_, .f32⟩ : BufTy).Contents (Elt F) → (⟨S_, .f32⟩ : BufTy).Contents (Elt F)),
    nullary main_cst_0 (constant S_ .f32 0x3F800000#32),
    binary main_cst_0 main_v0 main_v1 (Host.divf : (⟨S_, .f32⟩ : BufTy).Contents (Elt F) → (⟨S_, .f32⟩ : BufTy).Contents (Elt F) → (⟨S_, .f32⟩ : BufTy).Contents (Elt F)),
    binary main_arg2 main_arg7 main_v2 ((fun l r => Host.dotGeneral dot_S65536x147_S147x256_S65536x256_1_0_0_1_n_n none l r) : (⟨S65536x147, .f32⟩ : BufTy).Contents (Elt F) → (⟨S147x256, .f32⟩ : BufTy).Contents (Elt F) → (⟨S65536x256, .f32⟩ : BufTy).Contents (Elt F)),
    binary main_arg3 main_arg7 main_v3 ((fun l r => Host.dotGeneral dot_S65536x147_S147x256_S65536x256_1_0_0_1_n_n none l r) : (⟨S65536x147, .f32⟩ : BufTy).Contents (Elt F) → (⟨S147x256, .f32⟩ : BufTy).Contents (Elt F) → (⟨S65536x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x256, .f32⟩) main_call0_v0) (broadcastInDim S65536x256 ![] bcast_S_S65536x256),
    TRef.binary (TRef.of (T := ⟨S65536x256, .f32⟩) main_v2) (TRef.of (T := ⟨S65536x256, .f32⟩) main_call0_v0) (TRef.of (T := ⟨S65536x256, .f32⟩) main_v4) maximumf,
    TRef.nullary (TRef.of (T := ⟨S_, .f32⟩) main_call1_cst) (constant S_ .f32 0x00000000#32),
    TRef.unary (TRef.of (T := ⟨S_, .f32⟩) main_call1_cst) (TRef.of (T := ⟨S65536x256, .f32⟩) main_call1_v0) (broadcastInDim S65536x256 ![] bcast_S_S65536x256),
    TRef.binary (TRef.of (T := ⟨S65536x256, .f32⟩) main_v3) (TRef.of (T := ⟨S65536x256, .f32⟩) main_call1_v0) (TRef.of (T := ⟨S65536x256, .f32⟩) main_v5) maximumf ]

/-- Part 1 of the line: 35 operations, ending at `main_v31`. -/
abbrev ops1 : List (HloOp τ sig (Elt F)) :=
  [ nullary main_c (constantI S_ 32 0#32),
    unary main_c main_v6 (broadcastInDim S32768x6 ![] bcast_S_S32768x6 : (⟨S_, .i32⟩ : BufTy).Contents (Elt F) → (⟨S32768x6, .i32⟩ : BufTy).Contents (Elt F)),
    binary main_arg4 main_v6 main_v7 (cmpi .slt : (⟨S32768x6, .i32⟩ : BufTy).Contents (Elt F) → (⟨S32768x6, .i32⟩ : BufTy).Contents (Elt F) → (⟨S32768x6, .i1⟩ : BufTy).Contents (Elt F)),
    nullary main_c_1 (constantI S_ 32 65536#32),
    unary main_c_1 main_v8 (broadcastInDim S32768x6 ![] bcast_S_S32768x6 : (⟨S_, .i32⟩ : BufTy).Contents (Elt F) → (⟨S32768x6, .i32⟩ : BufTy).Contents (Elt F)),
    binary main_arg4 main_v8 main_v9 (addi : (⟨S32768x6, .i32⟩ : BufTy).Contents (Elt F) → (⟨S32768x6, .i32⟩ : BufTy).Contents (Elt F) → (⟨S32768x6, .i32⟩ : BufTy).Contents (Elt F)),
    ternary main_v7 main_v9 main_arg4 main_v10 (select : (⟨S32768x6, .i1⟩ : BufTy).Contents (Elt F) → (⟨S32768x6, .i32⟩ : BufTy).Contents (Elt F) → (⟨S32768x6, .i32⟩ : BufTy).Contents (Elt F) → (⟨S32768x6, .i32⟩ : BufTy).Contents (Elt F)),
    unary main_v10 main_v11 (broadcastInDim S32768x6x1 ![0, 1] bcast_S32768x6_S32768x6x1_0_1 : (⟨S32768x6, .i32⟩ : BufTy).Contents (Elt F) → (⟨S32768x6x1, .i32⟩ : BufTy).Contents (Elt F)),
    binary main_v4 main_v11 main_v12 ((fun x i => Host.gather gather_S65536x256_S32768x6x1_S32768x6x256_2_0_n_n_0_2_1256 x i) : (⟨S65536x256, .f32⟩ : BufTy).Contents (Elt F) → (⟨S32768x6x1, .i32⟩ : BufTy).Contents (Elt F) → (⟨S32768x6x256, .f32⟩ : BufTy).Contents (Elt F)),
    nullary main_cst_2 (constant S_ .f32 0x00000000#32),
    binary main_v12 main_cst_2 main_v13 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    nullary main_c_3 (constantI S_ 32 0#32),
    unary main_c_3 main_v14 (broadcastInDim S65536 ![] bcast_S_S65536 : (⟨S_, .i32⟩ : BufTy).Contents (Elt F) → (⟨S65536, .i32⟩ : BufTy).Contents (Elt F)),
    binary main_arg5 main_v14 main_v15 (cmpi .slt : (⟨S65536, .i32⟩ : BufTy).Contents (Elt F) → (⟨S65536, .i32⟩ : BufTy).Contents (Elt F) → (⟨S65536, .i1⟩ : BufTy).Contents (Elt F)),
    nullary main_c_4 (constantI S_ 32 32768#32),
    unary main_c_4 main_v16 (broadcastInDim S65536 ![] bcast_S_S65536 : (⟨S_, .i32⟩ : BufTy).Contents (Elt F) → (⟨S65536, .i32⟩ : BufTy).Contents (Elt F)),
    binary main_arg5 main_v16 main_v17 (addi : (⟨S65536, .i32⟩ : BufTy).Contents (Elt F) → (⟨S65536, .i32⟩ : BufTy).Contents (Elt F) → (⟨S65536, .i32⟩ : BufTy).Contents (Elt F)),
    ternary main_v15 main_v17 main_arg5 main_v18 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v18 main_v19 (broadcastInDim S65536x1 ![0] bcast_S65536_S65536x1_0 : (⟨S65536, .i32⟩ : BufTy).Contents (Elt F) → (⟨S65536x1, .i32⟩ : BufTy).Contents (Elt F)),
    binary main_v13 main_v19 main_v20 ((fun x i => Host.gather gather_S32768x256_S65536x1_S65536x256_1_0_n_n_0_1_1256 x i) : (⟨S32768x256, .f32⟩ : BufTy).Contents (Elt F) → (⟨S65536x1, .i32⟩ : BufTy).Contents (Elt F) → (⟨S65536x256, .f32⟩ : BufTy).Contents (Elt F)),
    nullary main_c_5 (constantI S_ 32 0#32),
    unary main_c_5 main_v21 (broadcastInDim S65536 ![] bcast_S_S65536 : (⟨S_, .i32⟩ : BufTy).Contents (Elt F) → (⟨S65536, .i32⟩ : BufTy).Contents (Elt F)),
    binary main_arg6 main_v21 main_v22 (cmpi .slt : (⟨S65536, .i32⟩ : BufTy).Contents (Elt F) → (⟨S65536, .i32⟩ : BufTy).Contents (Elt F) → (⟨S65536, .i1⟩ : BufTy).Contents (Elt F)),
    nullary main_c_6 (constantI S_ 32 65536#32),
    unary main_c_6 main_v23 (broadcastInDim S65536 ![] bcast_S_S65536 : (⟨S_, .i32⟩ : BufTy).Contents (Elt F) → (⟨S65536, .i32⟩ : BufTy).Contents (Elt F)),
    binary main_arg6 main_v23 main_v24 (addi : (⟨S65536, .i32⟩ : BufTy).Contents (Elt F) → (⟨S65536, .i32⟩ : BufTy).Contents (Elt F) → (⟨S65536, .i32⟩ : BufTy).Contents (Elt F)),
    ternary main_v22 main_v24 main_arg6 main_v25 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v25 main_v26 (broadcastInDim S65536x1 ![0] bcast_S65536_S65536x1_0 : (⟨S65536, .i32⟩ : BufTy).Contents (Elt F) → (⟨S65536x1, .i32⟩ : BufTy).Contents (Elt F)),
    binary main_v4 main_v26 main_v27 ((fun x i => Host.gather gather_S65536x256_S65536x1_S65536x256_1_0_n_n_0_1_1256 x i) : (⟨S65536x256, .f32⟩ : BufTy).Contents (Elt F) → (⟨S65536x1, .i32⟩ : BufTy).Contents (Elt F) → (⟨S65536x256, .f32⟩ : BufTy).Contents (Elt F)),
    binary main_v20 main_v27 main_v28 (subf : (⟨S65536x256, .f32⟩ : BufTy).Contents (Elt F) → (⟨S65536x256, .f32⟩ : BufTy).Contents (Elt F) → (⟨S65536x256, .f32⟩ : BufTy).Contents (Elt F)),
    binary main_v28 main_arg8 main_v29 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v2 main_v29 main_v30 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x256, .f32⟩) main_call2_v0) (broadcastInDim S65536x256 ![] bcast_S_S65536x256),
    TRef.binary (TRef.of (T := ⟨S65536x256, .f32⟩) main_v30) (TRef.of (T := ⟨S65536x256, .f32⟩) main_call2_v0) (TRef.of (T := ⟨S65536x256, .f32⟩) main_v31) maximumf ]

/-- Part 2 of the line: 35 operations, ending at `main_v57`. -/
abbrev ops2 : List (HloOp τ sig (Elt F)) :=
  [ nullary main_c_7 (constantI S_ 32 0#32),
    unary main_c_7 main_v32 (broadcastInDim S32768x6 ![] bcast_S_S32768x6 : (⟨S_, .i32⟩ : BufTy).Contents (Elt F) → (⟨S32768x6, .i32⟩ : BufTy).Contents (Elt F)),
    binary main_arg4 main_v32 main_v33 (cmpi .slt : (⟨S32768x6, .i32⟩ : BufTy).Contents (Elt F) → (⟨S32768x6, .i32⟩ : BufTy).Contents (Elt F) → (⟨S32768x6, .i1⟩ : BufTy).Contents (Elt F)),
    nullary main_c_8 (constantI S_ 32 65536#32),
    unary main_c_8 main_v34 (broadcastInDim S32768x6 ![] bcast_S_S32768x6 : (⟨S_, .i32⟩ : BufTy).Contents (Elt F) → (⟨S32768x6, .i32⟩ : BufTy).Contents (Elt F)),
    binary main_arg4 main_v34 main_v35 (addi : (⟨S32768x6, .i32⟩ : BufTy).Contents (Elt F) → (⟨S32768x6, .i32⟩ : BufTy).Contents (Elt F) → (⟨S32768x6, .i32⟩ : BufTy).Contents (Elt F)),
    ternary main_v33 main_v35 main_arg4 main_v36 (select : (⟨S32768x6, .i1⟩ : BufTy).Contents (Elt F) → (⟨S32768x6, .i32⟩ : BufTy).Contents (Elt F) → (⟨S32768x6, .i32⟩ : BufTy).Contents (Elt F) → (⟨S32768x6, .i32⟩ : BufTy).Contents (Elt F)),
    unary main_v36 main_v37 (broadcastInDim S32768x6x1 ![0, 1] bcast_S32768x6_S32768x6x1_0_1 : (⟨S32768x6, .i32⟩ : BufTy).Contents (Elt F) → (⟨S32768x6x1, .i32⟩ : BufTy).Contents (Elt F)),
    binary main_v5 main_v37 main_v38 ((fun x i => Host.gather gather_S65536x256_S32768x6x1_S32768x6x256_2_0_n_n_0_2_1256 x i) : (⟨S65536x256, .f32⟩ : BufTy).Contents (Elt F) → (⟨S32768x6x1, .i32⟩ : BufTy).Contents (Elt F) → (⟨S32768x6x256, .f32⟩ : BufTy).Contents (Elt F)),
    nullary main_cst_9 (constant S_ .f32 0x00000000#32),
    binary main_v38 main_cst_9 main_v39 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    nullary main_c_10 (constantI S_ 32 0#32),
    unary main_c_10 main_v40 (broadcastInDim S65536 ![] bcast_S_S65536 : (⟨S_, .i32⟩ : BufTy).Contents (Elt F) → (⟨S65536, .i32⟩ : BufTy).Contents (Elt F)),
    binary main_arg5 main_v40 main_v41 (cmpi .slt : (⟨S65536, .i32⟩ : BufTy).Contents (Elt F) → (⟨S65536, .i32⟩ : BufTy).Contents (Elt F) → (⟨S65536, .i1⟩ : BufTy).Contents (Elt F)),
    nullary main_c_11 (constantI S_ 32 32768#32),
    unary main_c_11 main_v42 (broadcastInDim S65536 ![] bcast_S_S65536 : (⟨S_, .i32⟩ : BufTy).Contents (Elt F) → (⟨S65536, .i32⟩ : BufTy).Contents (Elt F)),
    binary main_arg5 main_v42 main_v43 (addi : (⟨S65536, .i32⟩ : BufTy).Contents (Elt F) → (⟨S65536, .i32⟩ : BufTy).Contents (Elt F) → (⟨S65536, .i32⟩ : BufTy).Contents (Elt F)),
    ternary main_v41 main_v43 main_arg5 main_v44 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v44 main_v45 (broadcastInDim S65536x1 ![0] bcast_S65536_S65536x1_0 : (⟨S65536, .i32⟩ : BufTy).Contents (Elt F) → (⟨S65536x1, .i32⟩ : BufTy).Contents (Elt F)),
    binary main_v39 main_v45 main_v46 ((fun x i => Host.gather gather_S32768x256_S65536x1_S65536x256_1_0_n_n_0_1_1256 x i) : (⟨S32768x256, .f32⟩ : BufTy).Contents (Elt F) → (⟨S65536x1, .i32⟩ : BufTy).Contents (Elt F) → (⟨S65536x256, .f32⟩ : BufTy).Contents (Elt F)),
    nullary main_c_12 (constantI S_ 32 0#32),
    unary main_c_12 main_v47 (broadcastInDim S65536 ![] bcast_S_S65536 : (⟨S_, .i32⟩ : BufTy).Contents (Elt F) → (⟨S65536, .i32⟩ : BufTy).Contents (Elt F)),
    binary main_arg6 main_v47 main_v48 (cmpi .slt : (⟨S65536, .i32⟩ : BufTy).Contents (Elt F) → (⟨S65536, .i32⟩ : BufTy).Contents (Elt F) → (⟨S65536, .i1⟩ : BufTy).Contents (Elt F)),
    nullary main_c_13 (constantI S_ 32 65536#32),
    unary main_c_13 main_v49 (broadcastInDim S65536 ![] bcast_S_S65536 : (⟨S_, .i32⟩ : BufTy).Contents (Elt F) → (⟨S65536, .i32⟩ : BufTy).Contents (Elt F)),
    binary main_arg6 main_v49 main_v50 (addi : (⟨S65536, .i32⟩ : BufTy).Contents (Elt F) → (⟨S65536, .i32⟩ : BufTy).Contents (Elt F) → (⟨S65536, .i32⟩ : BufTy).Contents (Elt F)),
    ternary main_v48 main_v50 main_arg6 main_v51 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v51 main_v52 (broadcastInDim S65536x1 ![0] bcast_S65536_S65536x1_0 : (⟨S65536, .i32⟩ : BufTy).Contents (Elt F) → (⟨S65536x1, .i32⟩ : BufTy).Contents (Elt F)),
    binary main_v5 main_v52 main_v53 ((fun x i => Host.gather gather_S65536x256_S65536x1_S65536x256_1_0_n_n_0_1_1256 x i) : (⟨S65536x256, .f32⟩ : BufTy).Contents (Elt F) → (⟨S65536x1, .i32⟩ : BufTy).Contents (Elt F) → (⟨S65536x256, .f32⟩ : BufTy).Contents (Elt F)),
    binary main_v46 main_v53 main_v54 (subf : (⟨S65536x256, .f32⟩ : BufTy).Contents (Elt F) → (⟨S65536x256, .f32⟩ : BufTy).Contents (Elt F) → (⟨S65536x256, .f32⟩ : BufTy).Contents (Elt F)),
    binary main_v54 main_arg8 main_v55 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v3 main_v55 main_v56 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x256, .f32⟩) main_call3_v0) (broadcastInDim S65536x256 ![] bcast_S_S65536x256),
    TRef.binary (TRef.of (T := ⟨S65536x256, .f32⟩) main_v56) (TRef.of (T := ⟨S65536x256, .f32⟩) main_call3_v0) (TRef.of (T := ⟨S65536x256, .f32⟩) main_v57) maximumf ]

/-- Part 3 of the line: 26 operations, ending at `main_v78`. -/
abbrev ops3 : List (HloOp τ sig (Elt F)) :=
  [ reshape main_v57 main_v58 rfl shapeCasts_S65536x256_S512x128x256,
    reshape main_v31 main_v59 rfl shapeCasts_S65536x256_S512x128x256,
    binary main_v59 main_v58 main_v60 ((fun l r => Host.dotGeneral dot_S512x128x256_S512x128x256_S512x128x128_2_2_1_1_0_0 none l r) : (⟨S512x128x256, .f32⟩ : BufTy).Contents (Elt F) → (⟨S512x128x256, .f32⟩ : BufTy).Contents (Elt F) → (⟨S512x128x128, .f32⟩ : BufTy).Contents (Elt F)),
    unary main_v1 main_v61 (broadcastInDim S512x128x128 ![] bcast_S_S512x128x128 : (⟨S_, .f32⟩ : BufTy).Contents (Elt F) → (⟨S512x128x128, .f32⟩ : BufTy).Contents (Elt F)),
    binary main_v60 main_v61 main_v62 (mulf : (⟨S512x128x128, .f32⟩ : BufTy).Contents (Elt F) → (⟨S512x128x128, .f32⟩ : BufTy).Contents (Elt F) → (⟨S512x128x128, .f32⟩ : BufTy).Contents (Elt F)),
    nullary main_cst_14 (constant S_ .f32 0xFF800000#32),
    binary main_v62 main_cst_14 main_v63 ((fun x v => Host.reduce FloatOps.maximumf x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    nullary main_cst_15 (constant S_ .f32 0xFF800000#32),
    unary main_cst_15 main_v64 (broadcastInDim S512x128 ![] bcast_S_S512x128 : (⟨S_, .f32⟩ : BufTy).Contents (Elt F) → (⟨S512x128, .f32⟩ : BufTy).Contents (Elt F)),
    binary main_v64 main_v63 main_v65 (maximumf : (⟨S512x128, .f32⟩ : BufTy).Contents (Elt F) → (⟨S512x128, .f32⟩ : BufTy).Contents (Elt F) → (⟨S512x128, .f32⟩ : BufTy).Contents (Elt F)),
    unary main_v65 main_v66 (broadcastInDim S512x128x1 ![0, 1] bcast_S512x128_S512x128x1_0_1 : (⟨S512x128, .f32⟩ : BufTy).Contents (Elt F) → (⟨S512x128x1, .f32⟩ : BufTy).Contents (Elt F)),
    unary main_v66 main_v67 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v62 main_v67 main_v68 (subf : (⟨S512x128x128, .f32⟩ : BufTy).Contents (Elt F) → (⟨S512x128x128, .f32⟩ : BufTy).Contents (Elt F) → (⟨S512x128x128, .f32⟩ : BufTy).Contents (Elt F)),
    unary main_v68 main_v69 (Host.exp : (⟨S512x128x128, .f32⟩ : BufTy).Contents (Elt F) → (⟨S512x128x128, .f32⟩ : BufTy).Contents (Elt F)),
    nullary main_cst_16 (constant S_ .f32 0x00000000#32),
    binary main_v69 main_cst_16 main_v70 ((fun x v => Host.reduceAdd x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    unary main_v70 main_v71 (broadcastInDim S512x128x1 ![0, 1] bcast_S512x128_S512x128x1_0_1 : (⟨S512x128, .f32⟩ : BufTy).Contents (Elt F) → (⟨S512x128x1, .f32⟩ : BufTy).Contents (Elt F)),
    unary main_v71 main_v72 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v69 main_v72 main_v73 (Host.divf : (⟨S512x128x128, .f32⟩ : BufTy).Contents (Elt F) → (⟨S512x128x128, .f32⟩ : BufTy).Contents (Elt F) → (⟨S512x128x128, .f32⟩ : BufTy).Contents (Elt F)),
    binary main_v73 main_v58 main_v74 ((fun l r => Host.dotGeneral dot_S512x128x128_S512x128x256_S512x128x256_2_1_1_2_0_0 none l r) : (⟨S512x128x128, .f32⟩ : BufTy).Contents (Elt F) → (⟨S512x128x256, .f32⟩ : BufTy).Contents (Elt F) → (⟨S512x128x256, .f32⟩ : BufTy).Contents (Elt F)),
    reshape main_v74 main_v75 rfl shapeCasts_S512x128x256_S65536x256,
    binary main_v75 main_arg9 main_v76 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x256, .f32⟩) main_call4_v0) (broadcastInDim S65536x256 ![] bcast_S_S65536x256),
    TRef.binary (TRef.of (T := ⟨S65536x256, .f32⟩) main_v76) (TRef.of (T := ⟨S65536x256, .f32⟩) main_call4_v0) (TRef.of (T := ⟨S65536x256, .f32⟩) main_v77) maximumf,
    binary main_v77 main_v31 main_v78 (addf : (⟨S65536x256, .f32⟩ : BufTy).Contents (Elt F) → (⟨S65536x256, .f32⟩ : BufTy).Contents (Elt F) → (⟨S65536x256, .f32⟩ : BufTy).Contents (Elt F)) ]

/-- Part 4 of the line: 26 operations, ending at `main_v99`. -/
abbrev ops4 : List (HloOp τ sig (Elt F)) :=
  [ reshape main_v31 main_v79 rfl shapeCasts_S65536x256_S512x128x256,
    reshape main_v57 main_v80 rfl shapeCasts_S65536x256_S512x128x256,
    binary main_v80 main_v79 main_v81 ((fun l r => Host.dotGeneral dot_S512x128x256_S512x128x256_S512x128x128_2_2_1_1_0_0 none l r) : (⟨S512x128x256, .f32⟩ : BufTy).Contents (Elt F) → (⟨S512x128x256, .f32⟩ : BufTy).Contents (Elt F) → (⟨S512x128x128, .f32⟩ : BufTy).Contents (Elt F)),
    unary main_v1 main_v82 (broadcastInDim S512x128x128 ![] bcast_S_S512x128x128 : (⟨S_, .f32⟩ : BufTy).Contents (Elt F) → (⟨S512x128x128, .f32⟩ : BufTy).Contents (Elt F)),
    binary main_v81 main_v82 main_v83 (mulf : (⟨S512x128x128, .f32⟩ : BufTy).Contents (Elt F) → (⟨S512x128x128, .f32⟩ : BufTy).Contents (Elt F) → (⟨S512x128x128, .f32⟩ : BufTy).Contents (Elt F)),
    nullary main_cst_17 (constant S_ .f32 0xFF800000#32),
    binary main_v83 main_cst_17 main_v84 ((fun x v => Host.reduce FloatOps.maximumf x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    nullary main_cst_18 (constant S_ .f32 0xFF800000#32),
    unary main_cst_18 main_v85 (broadcastInDim S512x128 ![] bcast_S_S512x128 : (⟨S_, .f32⟩ : BufTy).Contents (Elt F) → (⟨S512x128, .f32⟩ : BufTy).Contents (Elt F)),
    binary main_v85 main_v84 main_v86 (maximumf : (⟨S512x128, .f32⟩ : BufTy).Contents (Elt F) → (⟨S512x128, .f32⟩ : BufTy).Contents (Elt F) → (⟨S512x128, .f32⟩ : BufTy).Contents (Elt F)),
    unary main_v86 main_v87 (broadcastInDim S512x128x1 ![0, 1] bcast_S512x128_S512x128x1_0_1 : (⟨S512x128, .f32⟩ : BufTy).Contents (Elt F) → (⟨S512x128x1, .f32⟩ : BufTy).Contents (Elt F)),
    unary main_v87 main_v88 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v83 main_v88 main_v89 (subf : (⟨S512x128x128, .f32⟩ : BufTy).Contents (Elt F) → (⟨S512x128x128, .f32⟩ : BufTy).Contents (Elt F) → (⟨S512x128x128, .f32⟩ : BufTy).Contents (Elt F)),
    unary main_v89 main_v90 (Host.exp : (⟨S512x128x128, .f32⟩ : BufTy).Contents (Elt F) → (⟨S512x128x128, .f32⟩ : BufTy).Contents (Elt F)),
    nullary main_cst_19 (constant S_ .f32 0x00000000#32),
    binary main_v90 main_cst_19 main_v91 ((fun x v => Host.reduceAdd x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    unary main_v91 main_v92 (broadcastInDim S512x128x1 ![0, 1] bcast_S512x128_S512x128x1_0_1 : (⟨S512x128, .f32⟩ : BufTy).Contents (Elt F) → (⟨S512x128x1, .f32⟩ : BufTy).Contents (Elt F)),
    unary main_v92 main_v93 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v90 main_v93 main_v94 (Host.divf : (⟨S512x128x128, .f32⟩ : BufTy).Contents (Elt F) → (⟨S512x128x128, .f32⟩ : BufTy).Contents (Elt F) → (⟨S512x128x128, .f32⟩ : BufTy).Contents (Elt F)),
    binary main_v94 main_v79 main_v95 ((fun l r => Host.dotGeneral dot_S512x128x128_S512x128x256_S512x128x256_2_1_1_2_0_0 none l r) : (⟨S512x128x128, .f32⟩ : BufTy).Contents (Elt F) → (⟨S512x128x256, .f32⟩ : BufTy).Contents (Elt F) → (⟨S512x128x256, .f32⟩ : BufTy).Contents (Elt F)),
    reshape main_v95 main_v96 rfl shapeCasts_S512x128x256_S65536x256,
    binary main_v96 main_arg9 main_v97 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S65536x256, .f32⟩) main_call5_v0) (broadcastInDim S65536x256 ![] bcast_S_S65536x256),
    TRef.binary (TRef.of (T := ⟨S65536x256, .f32⟩) main_v97) (TRef.of (T := ⟨S65536x256, .f32⟩) main_call5_v0) (TRef.of (T := ⟨S65536x256, .f32⟩) main_v98) maximumf,
    binary main_v98 main_v57 main_v99 (addf : (⟨S65536x256, .f32⟩ : BufTy).Contents (Elt F) → (⟨S65536x256, .f32⟩ : BufTy).Contents (Elt F) → (⟨S65536x256, .f32⟩ : BufTy).Contents (Elt F)) ]

/-- Part 5 of the line: 35 operations, ending at `main_v125`. -/
abbrev ops5 : List (HloOp τ sig (Elt F)) :=
  [ nullary main_c_20 (constantI S_ 32 0#32),
    unary main_c_20 main_v100 (broadcastInDim S32768x6 ![] bcast_S_S32768x6 : (⟨S_, .i32⟩ : BufTy).Contents (Elt F) → (⟨S32768x6, .i32⟩ : BufTy).Contents (Elt F)),
    binary main_arg4 main_v100 main_v101 (cmpi .slt : (⟨S32768x6, .i32⟩ : BufTy).Contents (Elt F) → (⟨S32768x6, .i32⟩ : BufTy).Contents (Elt F) → (⟨S32768x6, .i1⟩ : BufTy).Contents (Elt F)),
    nullary main_c_21 (constantI S_ 32 65536#32),
    unary main_c_21 main_v102 (broadcastInDim S32768x6 ![] bcast_S_S32768x6 : (⟨S_, .i32⟩ : BufTy).Contents (Elt F) → (⟨S32768x6, .i32⟩ : BufTy).Contents (Elt F)),
    binary main_arg4 main_v102 main_v103 (addi : (⟨S32768x6, .i32⟩ : BufTy).Contents (Elt F) → (⟨S32768x6, .i32⟩ : BufTy).Contents (Elt F) → (⟨S32768x6, .i32⟩ : BufTy).Contents (Elt F)),
    ternary main_v101 main_v103 main_arg4 main_v104 (select : (⟨S32768x6, .i1⟩ : BufTy).Contents (Elt F) → (⟨S32768x6, .i32⟩ : BufTy).Contents (Elt F) → (⟨S32768x6, .i32⟩ : BufTy).Contents (Elt F) → (⟨S32768x6, .i32⟩ : BufTy).Contents (Elt F)),
    unary main_v104 main_v105 (broadcastInDim S32768x6x1 ![0, 1] bcast_S32768x6_S32768x6x1_0_1 : (⟨S32768x6, .i32⟩ : BufTy).Contents (Elt F) → (⟨S32768x6x1, .i32⟩ : BufTy).Contents (Elt F)),
    binary main_v78 main_v105 main_v106 ((fun x i => Host.gather gather_S65536x256_S32768x6x1_S32768x6x256_2_0_n_n_0_2_1256 x i) : (⟨S65536x256, .f32⟩ : BufTy).Contents (Elt F) → (⟨S32768x6x1, .i32⟩ : BufTy).Contents (Elt F) → (⟨S32768x6x256, .f32⟩ : BufTy).Contents (Elt F)),
    nullary main_cst_22 (constant S_ .f32 0x00000000#32),
    binary main_v106 main_cst_22 main_v107 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    nullary main_c_23 (constantI S_ 32 0#32),
    unary main_c_23 main_v108 (broadcastInDim S65536 ![] bcast_S_S65536 : (⟨S_, .i32⟩ : BufTy).Contents (Elt F) → (⟨S65536, .i32⟩ : BufTy).Contents (Elt F)),
    binary main_arg5 main_v108 main_v109 (cmpi .slt : (⟨S65536, .i32⟩ : BufTy).Contents (Elt F) → (⟨S65536, .i32⟩ : BufTy).Contents (Elt F) → (⟨S65536, .i1⟩ : BufTy).Contents (Elt F)),
    nullary main_c_24 (constantI S_ 32 32768#32),
    unary main_c_24 main_v110 (broadcastInDim S65536 ![] bcast_S_S65536 : (⟨S_, .i32⟩ : BufTy).Contents (Elt F) → (⟨S65536, .i32⟩ : BufTy).Contents (Elt F)),
    binary main_arg5 main_v110 main_v111 (addi : (⟨S65536, .i32⟩ : BufTy).Contents (Elt F) → (⟨S65536, .i32⟩ : BufTy).Contents (Elt F) → (⟨S65536, .i32⟩ : BufTy).Contents (Elt F)),
    ternary main_v109 main_v111 main_arg5 main_v112 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v112 main_v113 (broadcastInDim S65536x1 ![0] bcast_S65536_S65536x1_0 : (⟨S65536, .i32⟩ : BufTy).Contents (Elt F) → (⟨S65536x1, .i32⟩ : BufTy).Contents (Elt F)),
    binary main_v107 main_v113 main_v114 ((fun x i => Host.gather gather_S32768x256_S65536x1_S65536x256_1_0_n_n_0_1_1256 x i) : (⟨S32768x256, .f32⟩ : BufTy).Contents (Elt F) → (⟨S65536x1, .i32⟩ : BufTy).Contents (Elt F) → (⟨S65536x256, .f32⟩ : BufTy).Contents (Elt F)),
    nullary main_c_25 (constantI S_ 32 0#32),
    unary main_c_25 main_v115 (broadcastInDim S65536 ![] bcast_S_S65536 : (⟨S_, .i32⟩ : BufTy).Contents (Elt F) → (⟨S65536, .i32⟩ : BufTy).Contents (Elt F)),
    binary main_arg6 main_v115 main_v116 (cmpi .slt : (⟨S65536, .i32⟩ : BufTy).Contents (Elt F) → (⟨S65536, .i32⟩ : BufTy).Contents (Elt F) → (⟨S65536, .i1⟩ : BufTy).Contents (Elt F)),
    nullary main_c_26 (constantI S_ 32 65536#32),
    unary main_c_26 main_v117 (broadcastInDim S65536 ![] bcast_S_S65536 : (⟨S_, .i32⟩ : BufTy).Contents (Elt F) → (⟨S65536, .i32⟩ : BufTy).Contents (Elt F)),
    binary main_arg6 main_v117 main_v118 (addi : (⟨S65536, .i32⟩ : BufTy).Contents (Elt F) → (⟨S65536, .i32⟩ : BufTy).Contents (Elt F) → (⟨S65536, .i32⟩ : BufTy).Contents (Elt F)),
    ternary main_v116 main_v118 main_arg6 main_v119 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v119 main_v120 (broadcastInDim S65536x1 ![0] bcast_S65536_S65536x1_0 : (⟨S65536, .i32⟩ : BufTy).Contents (Elt F) → (⟨S65536x1, .i32⟩ : BufTy).Contents (Elt F)),
    binary main_v78 main_v120 main_v121 ((fun x i => Host.gather gather_S65536x256_S65536x1_S65536x256_1_0_n_n_0_1_1256 x i) : (⟨S65536x256, .f32⟩ : BufTy).Contents (Elt F) → (⟨S65536x1, .i32⟩ : BufTy).Contents (Elt F) → (⟨S65536x256, .f32⟩ : BufTy).Contents (Elt F)),
    binary main_v114 main_v121 main_v122 (subf : (⟨S65536x256, .f32⟩ : BufTy).Contents (Elt F) → (⟨S65536x256, .f32⟩ : BufTy).Contents (Elt F) → (⟨S65536x256, .f32⟩ : BufTy).Contents (Elt F)),
    binary main_v122 main_arg8 main_v123 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v2 main_v123 main_v124 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S65536x256, .f32⟩) main_call6_v0) (broadcastInDim S65536x256 ![] bcast_S_S65536x256),
    TRef.binary (TRef.of (T := ⟨S65536x256, .f32⟩) main_v124) (TRef.of (T := ⟨S65536x256, .f32⟩) main_call6_v0) (TRef.of (T := ⟨S65536x256, .f32⟩) main_v125) maximumf ]

/-- Part 6 of the line: 35 operations, ending at `main_v151`. -/
abbrev ops6 : List (HloOp τ sig (Elt F)) :=
  [ nullary main_c_27 (constantI S_ 32 0#32),
    unary main_c_27 main_v126 (broadcastInDim S32768x6 ![] bcast_S_S32768x6 : (⟨S_, .i32⟩ : BufTy).Contents (Elt F) → (⟨S32768x6, .i32⟩ : BufTy).Contents (Elt F)),
    binary main_arg4 main_v126 main_v127 (cmpi .slt : (⟨S32768x6, .i32⟩ : BufTy).Contents (Elt F) → (⟨S32768x6, .i32⟩ : BufTy).Contents (Elt F) → (⟨S32768x6, .i1⟩ : BufTy).Contents (Elt F)),
    nullary main_c_28 (constantI S_ 32 65536#32),
    unary main_c_28 main_v128 (broadcastInDim S32768x6 ![] bcast_S_S32768x6 : (⟨S_, .i32⟩ : BufTy).Contents (Elt F) → (⟨S32768x6, .i32⟩ : BufTy).Contents (Elt F)),
    binary main_arg4 main_v128 main_v129 (addi : (⟨S32768x6, .i32⟩ : BufTy).Contents (Elt F) → (⟨S32768x6, .i32⟩ : BufTy).Contents (Elt F) → (⟨S32768x6, .i32⟩ : BufTy).Contents (Elt F)),
    ternary main_v127 main_v129 main_arg4 main_v130 (select : (⟨S32768x6, .i1⟩ : BufTy).Contents (Elt F) → (⟨S32768x6, .i32⟩ : BufTy).Contents (Elt F) → (⟨S32768x6, .i32⟩ : BufTy).Contents (Elt F) → (⟨S32768x6, .i32⟩ : BufTy).Contents (Elt F)),
    unary main_v130 main_v131 (broadcastInDim S32768x6x1 ![0, 1] bcast_S32768x6_S32768x6x1_0_1 : (⟨S32768x6, .i32⟩ : BufTy).Contents (Elt F) → (⟨S32768x6x1, .i32⟩ : BufTy).Contents (Elt F)),
    binary main_v99 main_v131 main_v132 ((fun x i => Host.gather gather_S65536x256_S32768x6x1_S32768x6x256_2_0_n_n_0_2_1256 x i) : (⟨S65536x256, .f32⟩ : BufTy).Contents (Elt F) → (⟨S32768x6x1, .i32⟩ : BufTy).Contents (Elt F) → (⟨S32768x6x256, .f32⟩ : BufTy).Contents (Elt F)),
    nullary main_cst_29 (constant S_ .f32 0x00000000#32),
    binary main_v132 main_cst_29 main_v133 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    nullary main_c_30 (constantI S_ 32 0#32),
    unary main_c_30 main_v134 (broadcastInDim S65536 ![] bcast_S_S65536 : (⟨S_, .i32⟩ : BufTy).Contents (Elt F) → (⟨S65536, .i32⟩ : BufTy).Contents (Elt F)),
    binary main_arg5 main_v134 main_v135 (cmpi .slt : (⟨S65536, .i32⟩ : BufTy).Contents (Elt F) → (⟨S65536, .i32⟩ : BufTy).Contents (Elt F) → (⟨S65536, .i1⟩ : BufTy).Contents (Elt F)),
    nullary main_c_31 (constantI S_ 32 32768#32),
    unary main_c_31 main_v136 (broadcastInDim S65536 ![] bcast_S_S65536 : (⟨S_, .i32⟩ : BufTy).Contents (Elt F) → (⟨S65536, .i32⟩ : BufTy).Contents (Elt F)),
    binary main_arg5 main_v136 main_v137 (addi : (⟨S65536, .i32⟩ : BufTy).Contents (Elt F) → (⟨S65536, .i32⟩ : BufTy).Contents (Elt F) → (⟨S65536, .i32⟩ : BufTy).Contents (Elt F)),
    ternary main_v135 main_v137 main_arg5 main_v138 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v138 main_v139 (broadcastInDim S65536x1 ![0] bcast_S65536_S65536x1_0 : (⟨S65536, .i32⟩ : BufTy).Contents (Elt F) → (⟨S65536x1, .i32⟩ : BufTy).Contents (Elt F)),
    binary main_v133 main_v139 main_v140 ((fun x i => Host.gather gather_S32768x256_S65536x1_S65536x256_1_0_n_n_0_1_1256 x i) : (⟨S32768x256, .f32⟩ : BufTy).Contents (Elt F) → (⟨S65536x1, .i32⟩ : BufTy).Contents (Elt F) → (⟨S65536x256, .f32⟩ : BufTy).Contents (Elt F)),
    nullary main_c_32 (constantI S_ 32 0#32),
    unary main_c_32 main_v141 (broadcastInDim S65536 ![] bcast_S_S65536 : (⟨S_, .i32⟩ : BufTy).Contents (Elt F) → (⟨S65536, .i32⟩ : BufTy).Contents (Elt F)),
    binary main_arg6 main_v141 main_v142 (cmpi .slt : (⟨S65536, .i32⟩ : BufTy).Contents (Elt F) → (⟨S65536, .i32⟩ : BufTy).Contents (Elt F) → (⟨S65536, .i1⟩ : BufTy).Contents (Elt F)),
    nullary main_c_33 (constantI S_ 32 65536#32),
    unary main_c_33 main_v143 (broadcastInDim S65536 ![] bcast_S_S65536 : (⟨S_, .i32⟩ : BufTy).Contents (Elt F) → (⟨S65536, .i32⟩ : BufTy).Contents (Elt F)),
    binary main_arg6 main_v143 main_v144 (addi : (⟨S65536, .i32⟩ : BufTy).Contents (Elt F) → (⟨S65536, .i32⟩ : BufTy).Contents (Elt F) → (⟨S65536, .i32⟩ : BufTy).Contents (Elt F)),
    ternary main_v142 main_v144 main_arg6 main_v145 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v145 main_v146 (broadcastInDim S65536x1 ![0] bcast_S65536_S65536x1_0 : (⟨S65536, .i32⟩ : BufTy).Contents (Elt F) → (⟨S65536x1, .i32⟩ : BufTy).Contents (Elt F)),
    binary main_v99 main_v146 main_v147 ((fun x i => Host.gather gather_S65536x256_S65536x1_S65536x256_1_0_n_n_0_1_1256 x i) : (⟨S65536x256, .f32⟩ : BufTy).Contents (Elt F) → (⟨S65536x1, .i32⟩ : BufTy).Contents (Elt F) → (⟨S65536x256, .f32⟩ : BufTy).Contents (Elt F)),
    binary main_v140 main_v147 main_v148 (subf : (⟨S65536x256, .f32⟩ : BufTy).Contents (Elt F) → (⟨S65536x256, .f32⟩ : BufTy).Contents (Elt F) → (⟨S65536x256, .f32⟩ : BufTy).Contents (Elt F)),
    binary main_v148 main_arg8 main_v149 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v3 main_v149 main_v150 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S65536x256, .f32⟩) main_call7_v0) (broadcastInDim S65536x256 ![] bcast_S_S65536x256),
    TRef.binary (TRef.of (T := ⟨S65536x256, .f32⟩) main_v150) (TRef.of (T := ⟨S65536x256, .f32⟩) main_call7_v0) (TRef.of (T := ⟨S65536x256, .f32⟩) main_v151) maximumf ]

/-- Part 7 of the line: 26 operations, ending at `main_v172`. -/
abbrev ops7 : List (HloOp τ sig (Elt F)) :=
  [ reshape main_v151 main_v152 rfl shapeCasts_S65536x256_S512x128x256,
    reshape main_v125 main_v153 rfl shapeCasts_S65536x256_S512x128x256,
    binary main_v153 main_v152 main_v154 ((fun l r => Host.dotGeneral dot_S512x128x256_S512x128x256_S512x128x128_2_2_1_1_0_0 none l r) : (⟨S512x128x256, .f32⟩ : BufTy).Contents (Elt F) → (⟨S512x128x256, .f32⟩ : BufTy).Contents (Elt F) → (⟨S512x128x128, .f32⟩ : BufTy).Contents (Elt F)),
    unary main_v1 main_v155 (broadcastInDim S512x128x128 ![] bcast_S_S512x128x128 : (⟨S_, .f32⟩ : BufTy).Contents (Elt F) → (⟨S512x128x128, .f32⟩ : BufTy).Contents (Elt F)),
    binary main_v154 main_v155 main_v156 (mulf : (⟨S512x128x128, .f32⟩ : BufTy).Contents (Elt F) → (⟨S512x128x128, .f32⟩ : BufTy).Contents (Elt F) → (⟨S512x128x128, .f32⟩ : BufTy).Contents (Elt F)),
    nullary main_cst_34 (constant S_ .f32 0xFF800000#32),
    binary main_v156 main_cst_34 main_v157 ((fun x v => Host.reduce FloatOps.maximumf x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    nullary main_cst_35 (constant S_ .f32 0xFF800000#32),
    unary main_cst_35 main_v158 (broadcastInDim S512x128 ![] bcast_S_S512x128 : (⟨S_, .f32⟩ : BufTy).Contents (Elt F) → (⟨S512x128, .f32⟩ : BufTy).Contents (Elt F)),
    binary main_v158 main_v157 main_v159 (maximumf : (⟨S512x128, .f32⟩ : BufTy).Contents (Elt F) → (⟨S512x128, .f32⟩ : BufTy).Contents (Elt F) → (⟨S512x128, .f32⟩ : BufTy).Contents (Elt F)),
    unary main_v159 main_v160 (broadcastInDim S512x128x1 ![0, 1] bcast_S512x128_S512x128x1_0_1 : (⟨S512x128, .f32⟩ : BufTy).Contents (Elt F) → (⟨S512x128x1, .f32⟩ : BufTy).Contents (Elt F)),
    unary main_v160 main_v161 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v156 main_v161 main_v162 (subf : (⟨S512x128x128, .f32⟩ : BufTy).Contents (Elt F) → (⟨S512x128x128, .f32⟩ : BufTy).Contents (Elt F) → (⟨S512x128x128, .f32⟩ : BufTy).Contents (Elt F)),
    unary main_v162 main_v163 (Host.exp : (⟨S512x128x128, .f32⟩ : BufTy).Contents (Elt F) → (⟨S512x128x128, .f32⟩ : BufTy).Contents (Elt F)),
    nullary main_cst_36 (constant S_ .f32 0x00000000#32),
    binary main_v163 main_cst_36 main_v164 ((fun x v => Host.reduceAdd x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    unary main_v164 main_v165 (broadcastInDim S512x128x1 ![0, 1] bcast_S512x128_S512x128x1_0_1 : (⟨S512x128, .f32⟩ : BufTy).Contents (Elt F) → (⟨S512x128x1, .f32⟩ : BufTy).Contents (Elt F)),
    unary main_v165 main_v166 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v163 main_v166 main_v167 (Host.divf : (⟨S512x128x128, .f32⟩ : BufTy).Contents (Elt F) → (⟨S512x128x128, .f32⟩ : BufTy).Contents (Elt F) → (⟨S512x128x128, .f32⟩ : BufTy).Contents (Elt F)),
    binary main_v167 main_v152 main_v168 ((fun l r => Host.dotGeneral dot_S512x128x128_S512x128x256_S512x128x256_2_1_1_2_0_0 none l r) : (⟨S512x128x128, .f32⟩ : BufTy).Contents (Elt F) → (⟨S512x128x256, .f32⟩ : BufTy).Contents (Elt F) → (⟨S512x128x256, .f32⟩ : BufTy).Contents (Elt F)),
    reshape main_v168 main_v169 rfl shapeCasts_S512x128x256_S65536x256,
    binary main_v169 main_arg9 main_v170 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S65536x256, .f32⟩) main_call8_v0) (broadcastInDim S65536x256 ![] bcast_S_S65536x256),
    TRef.binary (TRef.of (T := ⟨S65536x256, .f32⟩) main_v170) (TRef.of (T := ⟨S65536x256, .f32⟩) main_call8_v0) (TRef.of (T := ⟨S65536x256, .f32⟩) main_v171) maximumf,
    binary main_v171 main_v125 main_v172 (addf : (⟨S65536x256, .f32⟩ : BufTy).Contents (Elt F) → (⟨S65536x256, .f32⟩ : BufTy).Contents (Elt F) → (⟨S65536x256, .f32⟩ : BufTy).Contents (Elt F)) ]

/-- Part 8 of the line: 26 operations, ending at `main_v193`. -/
abbrev ops8 : List (HloOp τ sig (Elt F)) :=
  [ reshape main_v125 main_v173 rfl shapeCasts_S65536x256_S512x128x256,
    reshape main_v151 main_v174 rfl shapeCasts_S65536x256_S512x128x256,
    binary main_v174 main_v173 main_v175 ((fun l r => Host.dotGeneral dot_S512x128x256_S512x128x256_S512x128x128_2_2_1_1_0_0 none l r) : (⟨S512x128x256, .f32⟩ : BufTy).Contents (Elt F) → (⟨S512x128x256, .f32⟩ : BufTy).Contents (Elt F) → (⟨S512x128x128, .f32⟩ : BufTy).Contents (Elt F)),
    unary main_v1 main_v176 (broadcastInDim S512x128x128 ![] bcast_S_S512x128x128 : (⟨S_, .f32⟩ : BufTy).Contents (Elt F) → (⟨S512x128x128, .f32⟩ : BufTy).Contents (Elt F)),
    binary main_v175 main_v176 main_v177 (mulf : (⟨S512x128x128, .f32⟩ : BufTy).Contents (Elt F) → (⟨S512x128x128, .f32⟩ : BufTy).Contents (Elt F) → (⟨S512x128x128, .f32⟩ : BufTy).Contents (Elt F)),
    nullary main_cst_37 (constant S_ .f32 0xFF800000#32),
    binary main_v177 main_cst_37 main_v178 ((fun x v => Host.reduce FloatOps.maximumf x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    nullary main_cst_38 (constant S_ .f32 0xFF800000#32),
    unary main_cst_38 main_v179 (broadcastInDim S512x128 ![] bcast_S_S512x128 : (⟨S_, .f32⟩ : BufTy).Contents (Elt F) → (⟨S512x128, .f32⟩ : BufTy).Contents (Elt F)),
    binary main_v179 main_v178 main_v180 (maximumf : (⟨S512x128, .f32⟩ : BufTy).Contents (Elt F) → (⟨S512x128, .f32⟩ : BufTy).Contents (Elt F) → (⟨S512x128, .f32⟩ : BufTy).Contents (Elt F)),
    unary main_v180 main_v181 (broadcastInDim S512x128x1 ![0, 1] bcast_S512x128_S512x128x1_0_1 : (⟨S512x128, .f32⟩ : BufTy).Contents (Elt F) → (⟨S512x128x1, .f32⟩ : BufTy).Contents (Elt F)),
    unary main_v181 main_v182 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v177 main_v182 main_v183 (subf : (⟨S512x128x128, .f32⟩ : BufTy).Contents (Elt F) → (⟨S512x128x128, .f32⟩ : BufTy).Contents (Elt F) → (⟨S512x128x128, .f32⟩ : BufTy).Contents (Elt F)),
    unary main_v183 main_v184 (Host.exp : (⟨S512x128x128, .f32⟩ : BufTy).Contents (Elt F) → (⟨S512x128x128, .f32⟩ : BufTy).Contents (Elt F)),
    nullary main_cst_39 (constant S_ .f32 0x00000000#32),
    binary main_v184 main_cst_39 main_v185 ((fun x v => Host.reduceAdd x v reducesTo_S512x128x128_S512x128_d2 h_S_) : (⟨S512x128x128, .f32⟩ : BufTy).Contents (Elt F) → (⟨S_, .f32⟩ : BufTy).Contents (Elt F) → (⟨S512x128, .f32⟩ : BufTy).Contents (Elt F)),
    unary main_v185 main_v186 (broadcastInDim S512x128x1 ![0, 1] bcast_S512x128_S512x128x1_0_1 : (⟨S512x128, .f32⟩ : BufTy).Contents (Elt F) → (⟨S512x128x1, .f32⟩ : BufTy).Contents (Elt F)),
    unary main_v186 main_v187 (broadcastInDim S512x128x128 ![0, 1, 2] bcast_S512x128x1_S512x128x128_0_1_2 : (⟨S512x128x1, .f32⟩ : BufTy).Contents (Elt F) → (⟨S512x128x128, .f32⟩ : BufTy).Contents (Elt F)),
    binary main_v184 main_v187 main_v188 (Host.divf : (⟨S512x128x128, .f32⟩ : BufTy).Contents (Elt F) → (⟨S512x128x128, .f32⟩ : BufTy).Contents (Elt F) → (⟨S512x128x128, .f32⟩ : BufTy).Contents (Elt F)),
    binary main_v188 main_v173 main_v189 ((fun l r => Host.dotGeneral dot_S512x128x128_S512x128x256_S512x128x256_2_1_1_2_0_0 none l r) : (⟨S512x128x128, .f32⟩ : BufTy).Contents (Elt F) → (⟨S512x128x256, .f32⟩ : BufTy).Contents (Elt F) → (⟨S512x128x256, .f32⟩ : BufTy).Contents (Elt F)),
    reshape main_v189 main_v190 rfl shapeCasts_S512x128x256_S65536x256,
    binary main_v190 main_arg9 main_v191 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S65536x256, .f32⟩) main_call9_v0) (broadcastInDim S65536x256 ![] bcast_S_S65536x256),
    TRef.binary (TRef.of (T := ⟨S65536x256, .f32⟩) main_v191) (TRef.of (T := ⟨S65536x256, .f32⟩) main_call9_v0) (TRef.of (T := ⟨S65536x256, .f32⟩) main_v192) maximumf,
    binary main_v192 main_v151 main_v193 (addf : (⟨S65536x256, .f32⟩ : BufTy).Contents (Elt F) → (⟨S65536x256, .f32⟩ : BufTy).Contents (Elt F) → (⟨S65536x256, .f32⟩ : BufTy).Contents (Elt F)) ]

/-- Part 9 of the line: 6 operations, ending at `main_v199`. -/
abbrev ops9 : List (HloOp τ sig (Elt F)) :=
  [ binary main_v172 main_v193 main_v194 (subf : (⟨S65536x256, .f32⟩ : BufTy).Contents (Elt F) → (⟨S65536x256, .f32⟩ : BufTy).Contents (Elt F) → (⟨S65536x256, .f32⟩ : BufTy).Contents (Elt F)),
    binary main_v172 main_v194 main_v195 (addf : (⟨S65536x256, .f32⟩ : BufTy).Contents (Elt F) → (⟨S65536x256, .f32⟩ : BufTy).Contents (Elt F) → (⟨S65536x256, .f32⟩ : BufTy).Contents (Elt F)),
    binary main_v2 main_v3 main_v196 (subf : (⟨S65536x256, .f32⟩ : BufTy).Contents (Elt F) → (⟨S65536x256, .f32⟩ : BufTy).Contents (Elt F) → (⟨S65536x256, .f32⟩ : BufTy).Contents (Elt F)),
    binary main_v2 main_v196 main_v197 (addf : (⟨S65536x256, .f32⟩ : BufTy).Contents (Elt F) → (⟨S65536x256, .f32⟩ : BufTy).Contents (Elt F) → (⟨S65536x256, .f32⟩ : BufTy).Contents (Elt F)),
    binary main_arg0 main_arg1 main_v198 (subf : (⟨S32768x133, .f32⟩ : BufTy).Contents (Elt F) → (⟨S32768x133, .f32⟩ : BufTy).Contents (Elt F) → (⟨S32768x133, .f32⟩ : BufTy).Contents (Elt F)),
    binary main_arg0 main_v198 main_v199 (addf : (⟨S32768x133, .f32⟩ : BufTy).Contents (Elt F) → (⟨S32768x133, .f32⟩ : BufTy).Contents (Elt F) → (⟨S32768x133, .f32⟩ : BufTy).Contents (Elt F)) ]

/-- Part 10 of the line: 38 operations, ending at `main_v228`. -/
abbrev ops10 : List (HloOp τ sig (Elt F)) :=
  [ nullary main_c_40 (constantI S_ 32 0#32),
    unary main_c_40 main_v200 (broadcastInDim S32768x6 ![] bcast_S_S32768x6 : (⟨S_, .i32⟩ : BufTy).Contents (Elt F) → (⟨S32768x6, .i32⟩ : BufTy).Contents (Elt F)),
    binary main_arg4 main_v200 main_v201 (cmpi .slt : (⟨S32768x6, .i32⟩ : BufTy).Contents (Elt F) → (⟨S32768x6, .i32⟩ : BufTy).Contents (Elt F) → (⟨S32768x6, .i1⟩ : BufTy).Contents (Elt F)),
    nullary main_c_41 (constantI S_ 32 65536#32),
    unary main_c_41 main_v202 (broadcastInDim S32768x6 ![] bcast_S_S32768x6 : (⟨S_, .i32⟩ : BufTy).Contents (Elt F) → (⟨S32768x6, .i32⟩ : BufTy).Contents (Elt F)),
    binary main_arg4 main_v202 main_v203 (addi : (⟨S32768x6, .i32⟩ : BufTy).Contents (Elt F) → (⟨S32768x6, .i32⟩ : BufTy).Contents (Elt F) → (⟨S32768x6, .i32⟩ : BufTy).Contents (Elt F)),
    ternary main_v201 main_v203 main_arg4 main_v204 (select : (⟨S32768x6, .i1⟩ : BufTy).Contents (Elt F) → (⟨S32768x6, .i32⟩ : BufTy).Contents (Elt F) → (⟨S32768x6, .i32⟩ : BufTy).Contents (Elt F) → (⟨S32768x6, .i32⟩ : BufTy).Contents (Elt F)),
    unary main_v204 main_v205 (broadcastInDim S32768x6x1 ![0, 1] bcast_S32768x6_S32768x6x1_0_1 : (⟨S32768x6, .i32⟩ : BufTy).Contents (Elt F) → (⟨S32768x6x1, .i32⟩ : BufTy).Contents (Elt F)),
    binary main_v195 main_v205 main_v206 ((fun x i => Host.gather gather_S65536x256_S32768x6x1_S32768x6x256_2_0_n_n_0_2_1256 x i) : (⟨S65536x256, .f32⟩ : BufTy).Contents (Elt F) → (⟨S32768x6x1, .i32⟩ : BufTy).Contents (Elt F) → (⟨S32768x6x256, .f32⟩ : BufTy).Contents (Elt F)),
    nullary main_cst_42 (constant S_ .f32 0x00000000#32),
    binary main_v206 main_cst_42 main_v207 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    nullary main_c_43 (constantI S_ 32 0#32),
    unary main_c_43 main_v208 (broadcastInDim S65536 ![] bcast_S_S65536 : (⟨S_, .i32⟩ : BufTy).Contents (Elt F) → (⟨S65536, .i32⟩ : BufTy).Contents (Elt F)),
    binary main_arg5 main_v208 main_v209 (cmpi .slt : (⟨S65536, .i32⟩ : BufTy).Contents (Elt F) → (⟨S65536, .i32⟩ : BufTy).Contents (Elt F) → (⟨S65536, .i1⟩ : BufTy).Contents (Elt F)),
    nullary main_c_44 (constantI S_ 32 32768#32),
    unary main_c_44 main_v210 (broadcastInDim S65536 ![] bcast_S_S65536 : (⟨S_, .i32⟩ : BufTy).Contents (Elt F) → (⟨S65536, .i32⟩ : BufTy).Contents (Elt F)),
    binary main_arg5 main_v210 main_v211 (addi : (⟨S65536, .i32⟩ : BufTy).Contents (Elt F) → (⟨S65536, .i32⟩ : BufTy).Contents (Elt F) → (⟨S65536, .i32⟩ : BufTy).Contents (Elt F)),
    ternary main_v209 main_v211 main_arg5 main_v212 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v212 main_v213 (broadcastInDim S65536x1 ![0] bcast_S65536_S65536x1_0 : (⟨S65536, .i32⟩ : BufTy).Contents (Elt F) → (⟨S65536x1, .i32⟩ : BufTy).Contents (Elt F)),
    binary main_v207 main_v213 main_v214 ((fun x i => Host.gather gather_S32768x256_S65536x1_S65536x256_1_0_n_n_0_1_1256 x i) : (⟨S32768x256, .f32⟩ : BufTy).Contents (Elt F) → (⟨S65536x1, .i32⟩ : BufTy).Contents (Elt F) → (⟨S65536x256, .f32⟩ : BufTy).Contents (Elt F)),
    nullary main_c_45 (constantI S_ 32 0#32),
    unary main_c_45 main_v215 (broadcastInDim S65536 ![] bcast_S_S65536 : (⟨S_, .i32⟩ : BufTy).Contents (Elt F) → (⟨S65536, .i32⟩ : BufTy).Contents (Elt F)),
    binary main_arg6 main_v215 main_v216 (cmpi .slt : (⟨S65536, .i32⟩ : BufTy).Contents (Elt F) → (⟨S65536, .i32⟩ : BufTy).Contents (Elt F) → (⟨S65536, .i1⟩ : BufTy).Contents (Elt F)),
    nullary main_c_46 (constantI S_ 32 65536#32),
    unary main_c_46 main_v217 (broadcastInDim S65536 ![] bcast_S_S65536 : (⟨S_, .i32⟩ : BufTy).Contents (Elt F) → (⟨S65536, .i32⟩ : BufTy).Contents (Elt F)),
    binary main_arg6 main_v217 main_v218 (addi : (⟨S65536, .i32⟩ : BufTy).Contents (Elt F) → (⟨S65536, .i32⟩ : BufTy).Contents (Elt F) → (⟨S65536, .i32⟩ : BufTy).Contents (Elt F)),
    ternary main_v216 main_v218 main_arg6 main_v219 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v219 main_v220 (broadcastInDim S65536x1 ![0] bcast_S65536_S65536x1_0 : (⟨S65536, .i32⟩ : BufTy).Contents (Elt F) → (⟨S65536x1, .i32⟩ : BufTy).Contents (Elt F)),
    binary main_v195 main_v220 main_v221 ((fun x i => Host.gather gather_S65536x256_S65536x1_S65536x256_1_0_n_n_0_1_1256 x i) : (⟨S65536x256, .f32⟩ : BufTy).Contents (Elt F) → (⟨S65536x1, .i32⟩ : BufTy).Contents (Elt F) → (⟨S65536x256, .f32⟩ : BufTy).Contents (Elt F)),
    binary main_v214 main_v221 main_v222 (subf : (⟨S65536x256, .f32⟩ : BufTy).Contents (Elt F) → (⟨S65536x256, .f32⟩ : BufTy).Contents (Elt F) → (⟨S65536x256, .f32⟩ : BufTy).Contents (Elt F)),
    binary main_v222 main_arg10 main_v223 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v197 main_v223 main_v224 (addf : (⟨S65536x256, .f32⟩ : BufTy).Contents (Elt F) → (⟨S65536x256, .f32⟩ : BufTy).Contents (Elt F) → (⟨S65536x256, .f32⟩ : BufTy).Contents (Elt F)),
    unary main_arg11 main_v225 (broadcastInDim S1x256 ![1] bcast_S256_S1x256_1 : (⟨S256, .f32⟩ : BufTy).Contents (Elt F) → (⟨S1x256, .f32⟩ : BufTy).Contents (Elt F)),
    unary main_v225 main_v226 (broadcastInDim S65536x256 ![0, 1] bcast_S1x256_S65536x256_0_1 : (⟨S1x256, .f32⟩ : BufTy).Contents (Elt F) → (⟨S65536x256, .f32⟩ : BufTy).Contents (Elt F)),
    binary main_v224 main_v226 main_v227 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S65536x256, .f32⟩) main_call10_v0) (broadcastInDim S65536x256 ![] bcast_S_S65536x256),
    TRef.binary (TRef.of (T := ⟨S65536x256, .f32⟩) main_v227) (TRef.of (T := ⟨S65536x256, .f32⟩) main_call10_v0) (TRef.of (T := ⟨S65536x256, .f32⟩) main_v228) maximumf ]

/-- Part 11 of the line: 38 operations, ending at `main_v257`. -/
abbrev ops11 : List (HloOp τ sig (Elt F)) :=
  [ nullary main_c_47 (constantI S_ 32 0#32),
    unary main_c_47 main_v229 (broadcastInDim S32768x6 ![] bcast_S_S32768x6 : (⟨S_, .i32⟩ : BufTy).Contents (Elt F) → (⟨S32768x6, .i32⟩ : BufTy).Contents (Elt F)),
    binary main_arg4 main_v229 main_v230 (cmpi .slt : (⟨S32768x6, .i32⟩ : BufTy).Contents (Elt F) → (⟨S32768x6, .i32⟩ : BufTy).Contents (Elt F) → (⟨S32768x6, .i1⟩ : BufTy).Contents (Elt F)),
    nullary main_c_48 (constantI S_ 32 65536#32),
    unary main_c_48 main_v231 (broadcastInDim S32768x6 ![] bcast_S_S32768x6 : (⟨S_, .i32⟩ : BufTy).Contents (Elt F) → (⟨S32768x6, .i32⟩ : BufTy).Contents (Elt F)),
    binary main_arg4 main_v231 main_v232 (addi : (⟨S32768x6, .i32⟩ : BufTy).Contents (Elt F) → (⟨S32768x6, .i32⟩ : BufTy).Contents (Elt F) → (⟨S32768x6, .i32⟩ : BufTy).Contents (Elt F)),
    ternary main_v230 main_v232 main_arg4 main_v233 (select : (⟨S32768x6, .i1⟩ : BufTy).Contents (Elt F) → (⟨S32768x6, .i32⟩ : BufTy).Contents (Elt F) → (⟨S32768x6, .i32⟩ : BufTy).Contents (Elt F) → (⟨S32768x6, .i32⟩ : BufTy).Contents (Elt F)),
    unary main_v233 main_v234 (broadcastInDim S32768x6x1 ![0, 1] bcast_S32768x6_S32768x6x1_0_1 : (⟨S32768x6, .i32⟩ : BufTy).Contents (Elt F) → (⟨S32768x6x1, .i32⟩ : BufTy).Contents (Elt F)),
    binary main_v228 main_v234 main_v235 ((fun x i => Host.gather gather_S65536x256_S32768x6x1_S32768x6x256_2_0_n_n_0_2_1256 x i) : (⟨S65536x256, .f32⟩ : BufTy).Contents (Elt F) → (⟨S32768x6x1, .i32⟩ : BufTy).Contents (Elt F) → (⟨S32768x6x256, .f32⟩ : BufTy).Contents (Elt F)),
    nullary main_cst_49 (constant S_ .f32 0x00000000#32),
    binary main_v235 main_cst_49 main_v236 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    nullary main_c_50 (constantI S_ 32 0#32),
    unary main_c_50 main_v237 (broadcastInDim S65536 ![] bcast_S_S65536 : (⟨S_, .i32⟩ : BufTy).Contents (Elt F) → (⟨S65536, .i32⟩ : BufTy).Contents (Elt F)),
    binary main_arg5 main_v237 main_v238 (cmpi .slt : (⟨S65536, .i32⟩ : BufTy).Contents (Elt F) → (⟨S65536, .i32⟩ : BufTy).Contents (Elt F) → (⟨S65536, .i1⟩ : BufTy).Contents (Elt F)),
    nullary main_c_51 (constantI S_ 32 32768#32),
    unary main_c_51 main_v239 (broadcastInDim S65536 ![] bcast_S_S65536 : (⟨S_, .i32⟩ : BufTy).Contents (Elt F) → (⟨S65536, .i32⟩ : BufTy).Contents (Elt F)),
    binary main_arg5 main_v239 main_v240 (addi : (⟨S65536, .i32⟩ : BufTy).Contents (Elt F) → (⟨S65536, .i32⟩ : BufTy).Contents (Elt F) → (⟨S65536, .i32⟩ : BufTy).Contents (Elt F)),
    ternary main_v238 main_v240 main_arg5 main_v241 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v241 main_v242 (broadcastInDim S65536x1 ![0] bcast_S65536_S65536x1_0 : (⟨S65536, .i32⟩ : BufTy).Contents (Elt F) → (⟨S65536x1, .i32⟩ : BufTy).Contents (Elt F)),
    binary main_v236 main_v242 main_v243 ((fun x i => Host.gather gather_S32768x256_S65536x1_S65536x256_1_0_n_n_0_1_1256 x i) : (⟨S32768x256, .f32⟩ : BufTy).Contents (Elt F) → (⟨S65536x1, .i32⟩ : BufTy).Contents (Elt F) → (⟨S65536x256, .f32⟩ : BufTy).Contents (Elt F)),
    nullary main_c_52 (constantI S_ 32 0#32),
    unary main_c_52 main_v244 (broadcastInDim S65536 ![] bcast_S_S65536 : (⟨S_, .i32⟩ : BufTy).Contents (Elt F) → (⟨S65536, .i32⟩ : BufTy).Contents (Elt F)),
    binary main_arg6 main_v244 main_v245 (cmpi .slt : (⟨S65536, .i32⟩ : BufTy).Contents (Elt F) → (⟨S65536, .i32⟩ : BufTy).Contents (Elt F) → (⟨S65536, .i1⟩ : BufTy).Contents (Elt F)),
    nullary main_c_53 (constantI S_ 32 65536#32),
    unary main_c_53 main_v246 (broadcastInDim S65536 ![] bcast_S_S65536 : (⟨S_, .i32⟩ : BufTy).Contents (Elt F) → (⟨S65536, .i32⟩ : BufTy).Contents (Elt F)),
    binary main_arg6 main_v246 main_v247 (addi : (⟨S65536, .i32⟩ : BufTy).Contents (Elt F) → (⟨S65536, .i32⟩ : BufTy).Contents (Elt F) → (⟨S65536, .i32⟩ : BufTy).Contents (Elt F)),
    ternary main_v245 main_v247 main_arg6 main_v248 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v248 main_v249 (broadcastInDim S65536x1 ![0] bcast_S65536_S65536x1_0 : (⟨S65536, .i32⟩ : BufTy).Contents (Elt F) → (⟨S65536x1, .i32⟩ : BufTy).Contents (Elt F)),
    binary main_v228 main_v249 main_v250 ((fun x i => Host.gather gather_S65536x256_S65536x1_S65536x256_1_0_n_n_0_1_1256 x i) : (⟨S65536x256, .f32⟩ : BufTy).Contents (Elt F) → (⟨S65536x1, .i32⟩ : BufTy).Contents (Elt F) → (⟨S65536x256, .f32⟩ : BufTy).Contents (Elt F)),
    binary main_v243 main_v250 main_v251 (subf : (⟨S65536x256, .f32⟩ : BufTy).Contents (Elt F) → (⟨S65536x256, .f32⟩ : BufTy).Contents (Elt F) → (⟨S65536x256, .f32⟩ : BufTy).Contents (Elt F)),
    binary main_v251 main_arg10 main_v252 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    binary main_v197 main_v252 main_v253 (addf : (⟨S65536x256, .f32⟩ : BufTy).Contents (Elt F) → (⟨S65536x256, .f32⟩ : BufTy).Contents (Elt F) → (⟨S65536x256, .f32⟩ : BufTy).Contents (Elt F)),
    unary main_arg11 main_v254 (broadcastInDim S1x256 ![1] bcast_S256_S1x256_1 : (⟨S256, .f32⟩ : BufTy).Contents (Elt F) → (⟨S1x256, .f32⟩ : BufTy).Contents (Elt F)),
    unary main_v254 main_v255 (broadcastInDim S65536x256 ![0, 1] bcast_S1x256_S65536x256_0_1 : (⟨S1x256, .f32⟩ : BufTy).Contents (Elt F) → (⟨S65536x256, .f32⟩ : BufTy).Contents (Elt F)),
    binary main_v253 main_v255 main_v256 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S65536x256, .f32⟩) main_call11_v0) (broadcastInDim S65536x256 ![] bcast_S_S65536x256),
    TRef.binary (TRef.of (T := ⟨S65536x256, .f32⟩) main_v256) (TRef.of (T := ⟨S65536x256, .f32⟩) main_call11_v0) (TRef.of (T := ⟨S65536x256, .f32⟩) main_v257) maximumf ]

/-- Part 12 of the line: 25 operations, ending at `main_v275`. -/
abbrev ops12 : List (HloOp τ sig (Elt F)) :=
  [ nullary main_c_54 (constantI S_ 32 0#32),
    unary main_c_54 main_v258 (broadcastInDim S32768x6 ![] bcast_S_S32768x6 : (⟨S_, .i32⟩ : BufTy).Contents (Elt F) → (⟨S32768x6, .i32⟩ : BufTy).Contents (Elt F)),
    binary main_arg4 main_v258 main_v259 (cmpi .slt : (⟨S32768x6, .i32⟩ : BufTy).Contents (Elt F) → (⟨S32768x6, .i32⟩ : BufTy).Contents (Elt F) → (⟨S32768x6, .i1⟩ : BufTy).Contents (Elt F)),
    nullary main_c_55 (constantI S_ 32 65536#32),
    unary main_c_55 main_v260 (broadcastInDim S32768x6 ![] bcast_S_S32768x6 : (⟨S_, .i32⟩ : BufTy).Contents (Elt F) → (⟨S32768x6, .i32⟩ : BufTy).Contents (Elt F)),
    binary main_arg4 main_v260 main_v261 (addi : (⟨S32768x6, .i32⟩ : BufTy).Contents (Elt F) → (⟨S32768x6, .i32⟩ : BufTy).Contents (Elt F) → (⟨S32768x6, .i32⟩ : BufTy).Contents (Elt F)),
    ternary main_v259 main_v261 main_arg4 main_v262 (select : (⟨S32768x6, .i1⟩ : BufTy).Contents (Elt F) → (⟨S32768x6, .i32⟩ : BufTy).Contents (Elt F) → (⟨S32768x6, .i32⟩ : BufTy).Contents (Elt F) → (⟨S32768x6, .i32⟩ : BufTy).Contents (Elt F)),
    unary main_v262 main_v263 (broadcastInDim S32768x6x1 ![0, 1] bcast_S32768x6_S32768x6x1_0_1 : (⟨S32768x6, .i32⟩ : BufTy).Contents (Elt F) → (⟨S32768x6x1, .i32⟩ : BufTy).Contents (Elt F)),
    binary main_v257 main_v263 main_v264 ((fun x i => Host.gather gather_S65536x256_S32768x6x1_S32768x6x256_2_0_n_n_0_2_1256 x i) : (⟨S65536x256, .f32⟩ : BufTy).Contents (Elt F) → (⟨S32768x6x1, .i32⟩ : BufTy).Contents (Elt F) → (⟨S32768x6x256, .f32⟩ : BufTy).Contents (Elt F)),
    nullary main_cst_56 (constant S_ .f32 0x00000000#32),
    binary main_v264 main_cst_56 main_v265 ((fun x v => Host.reduceAdd x v reducesTo_S32768x6x256_S32768x256_d1 h_S_) : (⟨S32768x6x256, .f32⟩ : BufTy).Contents (Elt F) → (⟨S_, .f32⟩ : BufTy).Contents (Elt F) → (⟨S32768x256, .f32⟩ : BufTy).Contents (Elt F)),
    binary main_v199 main_v265 main_v266 ((fun a b => concatenate S32768x389 1 [⟨S32768x133, a⟩, ⟨S32768x256, b⟩] concatenates_S32768x133_S32768x256_S32768x389_d1) : (⟨S32768x133, .f32⟩ : BufTy).Contents (Elt F) → (⟨S32768x256, .f32⟩ : BufTy).Contents (Elt F) → (⟨S32768x389, .f32⟩ : BufTy).Contents (Elt F)),
    binary main_v266 main_arg12 main_v267 ((fun l r => Host.dotGeneral dot_S32768x389_S389x256_S32768x256_1_0_0_1_n_n none l r) : (⟨S32768x389, .f32⟩ : BufTy).Contents (Elt F) → (⟨S389x256, .f32⟩ : BufTy).Contents (Elt F) → (⟨S32768x256, .f32⟩ : BufTy).Contents (Elt F)),
    unary main_arg13 main_v268 (broadcastInDim S1x256 ![1] bcast_S256_S1x256_1 : (⟨S256, .f32⟩ : BufTy).Contents (Elt F) → (⟨S1x256, .f32⟩ : BufTy).Contents (Elt F)),
    unary main_v268 main_v269 (broadcastInDim S32768x256 ![0, 1] bcast_S1x256_S32768x256_0_1 : (⟨S1x256, .f32⟩ : BufTy).Contents (Elt F) → (⟨S32768x256, .f32⟩ : BufTy).Contents (Elt F)),
    binary main_v267 main_v269 main_v270 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S32768x256, .f32⟩) main_call12_v0) (broadcastInDim S32768x256 ![] bcast_S_S32768x256),
    TRef.binary (TRef.of (T := ⟨S32768x256, .f32⟩) main_v270) (TRef.of (T := ⟨S32768x256, .f32⟩) main_call12_v0) (TRef.of (T := ⟨S32768x256, .f32⟩) main_v271) maximumf,
    reshape main_v271 main_v272 rfl shapeCasts_S32768x256_S512x64x256,
    nullary main_cst_57 (constant S_ .f32 0x00000000#32),
    binary main_v272 main_cst_57 main_v273 ((fun x v => Host.reduceAdd x v reducesTo_S512x64x256_S512x256_d1 h_S_) : (⟨S512x64x256, .f32⟩ : BufTy).Contents (Elt F) → (⟨S_, .f32⟩ : BufTy).Contents (Elt F) → (⟨S512x256, .f32⟩ : BufTy).Contents (Elt F)),
    nullary main_cst_58 (constant S_ .f32 0x42800000#32),
    unary main_cst_58 main_v274 (broadcastInDim S512x256 ![] bcast_S_S512x256 : (⟨S_, .f32⟩ : BufTy).Contents (Elt F) → (⟨S512x256, .f32⟩ : BufTy).Contents (Elt F)),
    binary main_v273 main_v274 main_v275 (Host.divf : (⟨S512x256, .f32⟩ : BufTy).Contents (Elt F) → (⟨S512x256, .f32⟩ : BufTy).Contents (Elt F) → (⟨S512x256, .f32⟩ : BufTy).Contents (Elt F)) ]

/-- The whole line. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12))))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem sub0 : (ops0 : List (HloOp τ sig (Elt F))).Forall fun op => op.bufs ⊆ tcRefs τ sig :=
  ⟨nullary_bufs_sub .., unary_bufs_sub .., nullary_bufs_sub .., binary_bufs_sub .., binary_bufs_sub .., binary_bufs_sub .., nullary_bufs_sub .., unary_bufs_sub .., binary_bufs_sub .., nullary_bufs_sub .., unary_bufs_sub .., binary_bufs_sub ..⟩
theorem fresh0 : (ops0 : List (HloOp τ sig (Elt F))).Forall fun op => op.fresh = ∅ :=
  ⟨rfl, rfl, rfl, rfl, rfl, rfl, rfl, rfl, rfl, rfl, rfl, rfl⟩
theorem sub1 : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., binary_bufs_sub ..⟩
theorem fresh1 : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem sub2 : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., binary_bufs_sub ..⟩
theorem fresh2 : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem sub3 : (ops3 : List (HloOp τ sig (Elt F))).Forall fun op => op.bufs ⊆ tcRefs τ sig :=
  ⟨reshape_bufs_sub .., reshape_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., binary_bufs_sub .., nullary_bufs_sub .., unary_bufs_sub .., binary_bufs_sub .., binary_bufs_sub ..⟩
theorem fresh3 : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem sub4 : (ops4 : List (HloOp τ sig (Elt F))).Forall fun op => op.bufs ⊆ tcRefs τ sig :=
  ⟨reshape_bufs_sub .., reshape_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., binary_bufs_sub .., nullary_bufs_sub .., unary_bufs_sub .., binary_bufs_sub .., binary_bufs_sub ..⟩
theorem fresh4 : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem sub5 : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., binary_bufs_sub ..⟩
theorem fresh5 : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem sub6 : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., binary_bufs_sub ..⟩
theorem fresh6 : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem sub7 : (ops7 : List (HloOp τ sig (Elt F))).Forall fun op => op.bufs ⊆ tcRefs τ sig :=
  ⟨reshape_bufs_sub .., reshape_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., binary_bufs_sub .., nullary_bufs_sub .., unary_bufs_sub .., binary_bufs_sub .., binary_bufs_sub ..⟩
theorem fresh7 : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem sub8 : (ops8 : List (HloOp τ sig (Elt F))).Forall fun op => op.bufs ⊆ tcRefs τ sig :=
  ⟨reshape_bufs_sub .., reshape_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., binary_bufs_sub .., nullary_bufs_sub .., unary_bufs_sub .., binary_bufs_sub .., binary_bufs_sub ..⟩
theorem fresh8 : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem sub9 : (ops9 : List (HloOp τ sig (Elt F))).Forall fun op => op.bufs ⊆ tcRefs τ sig :=
  ⟨binary_bufs_sub .., binary_bufs_sub .., binary_bufs_sub .., binary_bufs_sub .., binary_bufs_sub .., binary_bufs_sub ..⟩
theorem fresh9 : (ops9 : List (HloOp τ sig (Elt F))).Forall fun op => op.fresh = ∅ :=
  ⟨rfl, rfl, rfl, rfl, rfl, rfl⟩
theorem sub10 : (ops10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
theorem fresh10 : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem sub11 : (ops11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
theorem fresh11 : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem sub12 : (ops12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub .., binary_bufs_sub .., unary_bufs_sub .., unary_bufs_sub .., binary_bufs_sub .., nullary_bufs_sub .., unary_bufs_sub .., binary_bufs_sub .., reshape_bufs_sub .., nullary_bufs_sub .., binary_bufs_sub .., nullary_bufs_sub .., unary_bufs_sub .., binary_bufs_sub ..⟩
theorem fresh12 : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.2 ⟨sub0, List.forall_append.2 ⟨sub1, List.forall_append.2 ⟨sub2, List.forall_append.2 ⟨sub3, List.forall_append.2 ⟨sub4, List.forall_append.2 ⟨sub5, List.forall_append.2 ⟨sub6, List.forall_append.2 ⟨sub7, List.forall_append.2 ⟨sub8, List.forall_append.2 ⟨sub9, List.forall_append.2 ⟨sub10, List.forall_append.2 ⟨sub11, sub12⟩⟩⟩⟩⟩⟩⟩⟩⟩⟩⟩⟩
theorem ops_fresh : ∀ op ∈ (ops : List (HloOp τ sig (Elt F))), op.fresh = ∅ :=
  List.forall_iff_forall_mem.1 (List.forall_append.2 ⟨fresh0, List.forall_append.2 ⟨fresh1, List.forall_append.2 ⟨fresh2, List.forall_append.2 ⟨fresh3, List.forall_append.2 ⟨fresh4, List.forall_append.2 ⟨fresh5, List.forall_append.2 ⟨fresh6, List.forall_append.2 ⟨fresh7, List.forall_append.2 ⟨fresh8, List.forall_append.2 ⟨fresh9, List.forall_append.2 ⟨fresh10, List.forall_append.2 ⟨fresh11, fresh12⟩⟩⟩⟩⟩⟩⟩⟩⟩⟩⟩⟩)

/-- Before the line: the arguments at their launch contents. -/
structure LiveInit (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13

/-- After part 0: what the later parts read, at its named value. -/
structure Live0 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v4 : V (Proc.devRef .tc main_v4) = val_main_v4 (F := F) x2 x7
  v5 : V (Proc.devRef .tc main_v5) = val_main_v5 (F := F) x3 x7

/-- After part 1: what the later parts read, at its named value. -/
structure Live1 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v5 : V (Proc.devRef .tc main_v5) = val_main_v5 (F := F) x3 x7
  v31 : V (Proc.devRef .tc main_v31) = val_main_v31 (F := F) x2 x4 x5 x6 x7 x8

/-- After part 2: what the later parts read, at its named value. -/
structure Live2 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v31 : V (Proc.devRef .tc main_v31) = val_main_v31 (F := F) x2 x4 x5 x6 x7 x8
  v57 : V (Proc.devRef .tc main_v57) = val_main_v57 (F := F) x3 x4 x5 x6 x7 x8

/-- After part 3: what the later parts read, at its named value. -/
structure Live3 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v31 : V (Proc.devRef .tc main_v31) = val_main_v31 (F := F) x2 x4 x5 x6 x7 x8
  v57 : V (Proc.devRef .tc main_v57) = val_main_v57 (F := F) x3 x4 x5 x6 x7 x8
  v78 : V (Proc.devRef .tc main_v78) = val_main_v78 (F := F) x2 x3 x4 x5 x6 x7 x8 x9

/-- After part 4: what the later parts read, at its named value. -/
structure Live4 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v78 : V (Proc.devRef .tc main_v78) = val_main_v78 (F := F) x2 x3 x4 x5 x6 x7 x8 x9
  v99 : V (Proc.devRef .tc main_v99) = val_main_v99 (F := F) x2 x3 x4 x5 x6 x7 x8 x9

/-- After part 5: what the later parts read, at its named value. -/
structure Live5 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v99 : V (Proc.devRef .tc main_v99) = val_main_v99 (F := F) x2 x3 x4 x5 x6 x7 x8 x9
  v125 : V (Proc.devRef .tc main_v125) = val_main_v125 (F := F) x2 x3 x4 x5 x6 x7 x8 x9

/-- After part 6: what the later parts read, at its named value. -/
structure Live6 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v125 : V (Proc.devRef .tc main_v125) = val_main_v125 (F := F) x2 x3 x4 x5 x6 x7 x8 x9
  v151 : V (Proc.devRef .tc main_v151) = val_main_v151 (F := F) x2 x3 x4 x5 x6 x7 x8 x9

/-- After part 7: what the later parts read, at its named value. -/
structure Live7 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v1 : V (Proc.devRef .tc main_v1) = val_main_v1 (F := F)
  v2 : V (Proc.devRef .tc main_v2) = val_main_v2 (F := F) x2 x7
  v3 : V (Proc.devRef .tc main_v3) = val_main_v3 (F := F) x3 x7
  v125 : V (Proc.devRef .tc main_v125) = val_main_v125 (F := F) x2 x3 x4 x5 x6 x7 x8 x9
  v151 : V (Proc.devRef .tc main_v151) = val_main_v151 (F := F) x2 x3 x4 x5 x6 x7 x8 x9
  v172 : V (Proc.devRef .tc main_v172) = val_main_v172 (F := F) x2 x3 x4 x5 x6 x7 x8 x9

/-- After part 8: what the later parts read, at its named value. -/
structure Live8 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v2 : V (Proc.devRef .tc main_v2) = val_main_v2 (F := F) x2 x7
  v3 : V (Proc.devRef .tc main_v3) = val_main_v3 (F := F) x3 x7
  v172 : V (Proc.devRef .tc main_v172) = val_main_v172 (F := F) x2 x3 x4 x5 x6 x7 x8 x9
  v193 : V (Proc.devRef .tc main_v193) = val_main_v193 (F := F) x2 x3 x4 x5 x6 x7 x8 x9

/-- After part 9: what the later parts read, at its named value. -/
structure Live9 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v195 : V (Proc.devRef .tc main_v195) = val_main_v195 (F := F) x2 x3 x4 x5 x6 x7 x8 x9
  v197 : V (Proc.devRef .tc main_v197) = val_main_v197 (F := F) x2 x3 x7
  v199 : V (Proc.devRef .tc main_v199) = val_main_v199 (F := F) x0 x1

/-- After part 10: what the later parts read, at its named value. -/
structure Live10 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v197 : V (Proc.devRef .tc main_v197) = val_main_v197 (F := F) x2 x3 x7
  v199 : V (Proc.devRef .tc main_v199) = val_main_v199 (F := F) x0 x1
  v228 : V (Proc.devRef .tc main_v228) = val_main_v228 (F := F) x2 x3 x4 x5 x6 x7 x8 x9 x10 x11

/-- After part 11: what the later parts read, at its named value. -/
structure Live11 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v199 : V (Proc.devRef .tc main_v199) = val_main_v199 (F := F) x0 x1
  v257 : V (Proc.devRef .tc main_v257) = val_main_v257 (F := F) x2 x3 x4 x5 x6 x7 x8 x9 x10 x11

/-- After part 12: what the later parts read, at its named value. -/
structure Live12 (x0 : (⟨S32768x133, .f32⟩ : BufTy).Contents (Elt F)) (x1 : (⟨S32768x133, .f32⟩ : BufTy).Contents (Elt F)) (x2 : (⟨S65536x147, .f32⟩ : BufTy).Contents (Elt F)) (x3 : (⟨S65536x147, .f32⟩ : BufTy).Contents (Elt F)) (x4 : (⟨S32768x6, .i32⟩ : BufTy).Contents (Elt F)) (x5 : (⟨S65536, .i32⟩ : BufTy).Contents (Elt F)) (x6 : (⟨S65536, .i32⟩ : BufTy).Contents (Elt F)) (x7 : (⟨S147x256, .f32⟩ : BufTy).Contents (Elt F)) (x8 : (⟨S256x256, .f32⟩ : BufTy).Contents (Elt F)) (x9 : (⟨S256x256, .f32⟩ : BufTy).Contents (Elt F)) (x10 : (⟨S256x256, .f32⟩ : BufTy).Contents (Elt F)) (x11 : (⟨S256, .f32⟩ : BufTy).Contents (Elt F)) (x12 : (⟨S389x256, .f32⟩ : BufTy).Contents (Elt F)) (x13 : (⟨S256, .f32⟩ : BufTy).Contents (Elt F)) (V : Valuation τ sig (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12
  arg13 : V (Proc.devRef .tc main_arg13) = x13
  v275 : V (Proc.devRef .tc main_v275) = val_main_v275 (F := F) x0 x1 x2 x3 x4 x5 x6 x7 x8 x9 x10 x11 x12 x13

/-- A buffer in a list of buffers, as a singleton below the list's set. -/
theorem wsub {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.2 (List.mem_toFinset.2 (List.mem_map.2 ⟨y, h, rfl⟩))

/-- The buffers part 0 writes. -/
abbrev W0 : List (Ref sig .tc) :=
  [main_cst, main_v0, main_cst_0, main_v1, main_v2, main_v3, main_call0_cst, main_call0_v0, main_v4, main_call1_cst, main_call1_v0, main_v5]
theorem writes0 : (ops0 : List (HloOp τ sig (Elt F))).Forall fun op => op.writes ⊆ (W0.map (Proc.devRef (τ := τ) .tc)).toFinset :=
  ⟨wsub main_cst (by decide), wsub main_v0 (by decide), wsub main_cst_0 (by decide), wsub main_v1 (by decide), wsub main_v2 (by decide), wsub main_v3 (by decide), wsub main_call0_cst (by decide), wsub main_call0_v0 (by decide), wsub main_v4 (by decide), wsub main_call1_cst (by decide), wsub main_call1_v0 (by decide), wsub main_v5 (by decide)⟩
/-- A buffer part 0 does not write keeps its contents. -/
theorem keep0 {r : Ref sig .tc} (hr : r ∉ W0) (V : Valuation τ sig (Elt F)) :
    after (ops0 (F := F)) V (Proc.devRef .tc r) = V (Proc.devRef .tc r) :=
  after_of_writes_sub ops0 V writes0 hr

set_option maxHeartbeats 4000000 in
theorem step0_v1 {x0 x1 x2 x3 x4 x5 x6 x7 x8 x9 x10 x11 x12 x13} {V : Valuation τ sig (Elt F)} (h : LiveInit (F := F) x0 x1 x2 x3 x4 x5 x6 x7 x8 x9 x10 x11 x12 x13 V) :
    after (ops0 (F := F)) V (Proc.devRef .tc main_v1) = val_main_v1 (F := F) := by
  unfold ops0; after_results_simp
  results_by_rw
  rfl

set_option maxHeartbeats 4000000 in
theorem step0_v2 {x0 x1 x2 x3 x4 x5 x6 x7 x8 x9 x10 x11 x12 x13} {V : Valuation τ sig (Elt F)} (h : LiveInit (F := F) x0 x1 x2 x3 x4 x5 x6 x7 x8 x9 x10 x11 x12 x13 V) :
    after (ops0 (F := F)) V (Proc.devRef .tc main_v2) = val_main_v2 (F := F) x2 x7 := by
  unfold ops0; after_results_simp
  results_by_rw
  try simp only [h.arg2, h.arg7]
  try rw [h.arg2]
  try rw [h.arg7]
  rfl

set_option maxHeartbeats 4000000 in
theorem step0_v3 {x0 x1 x2 x3 x4 x5 x6 x7 x8 x9 x10 x11 x12 x13} {V : Valuation τ sig (Elt F)} (h : LiveInit (F := F) x0 x1 x2 x3 x4 x5 x6 x7 x8 x9 x10 x11 x12 x13 V) :
    after (ops0 (F := F)) V (Proc.devRef .tc main_v3) = val_main_v3 (F := F) x3 x7 := by
  unfold ops0; after_results_simp
  results_by_rw
  try simp only [h.arg3, h.arg7]
  try rw [h.arg3]
  try rw [h.arg7]
  rfl

set_option maxHeartbeats 4000000 in
theorem step0_v4 {x0 x1 x2 x3 x4 x5 x6 x7 x8 x9 x10 x11 x12 x13} {V : Valuation τ sig (Elt F)} (h : LiveInit (F := F) x0 x1 x2 x3 x4 x5 x6 x7 x8 x9 x10 x11 x12 x13 V) :
    after (ops0 (F := F)) V (Proc.devRef .tc main_v4) = val_main_v4 (F := F) x2 x7 := by
  unfold ops0; after_results_simp
  results_by_rw
  try simp only [h.arg2, h.arg7]
  try rw [h.arg2]
  try rw [h.arg7]
  rfl

set_option maxHeartbeats 4000000 in
theorem step0_v5 {x0 x1 x2 x3 x4 x5 x6 x7 x8 x9 x10 x11 x12 x13} {V : Valuation τ sig (Elt F)} (h : LiveInit (F := F) x0 x1 x2 x3 x4 x5 x6 x7 x8 x9 x10 x11 x12 x13 V) :
    after (ops0 (F := F)) V (Proc.devRef .tc main_v5) = val_main_v5 (F := F) x3 x7 := by
  unfold ops0; after_results_simp
  results_by_rw
  try simp only [h.arg3, h.arg7]
  try rw [h.arg3]
  try rw [h.arg7]
  rfl

theorem step0 {x0 x1 x2 x3 x4 x5 x6 x7 x8 x9 x10 x11 x12 x13} {V : Valuation τ sig (Elt F)} (h : LiveInit (F := F) x0 x1 x2 x3 x4 x5 x6 x7 x8 x9 x10 x11 x12 x13 V) :
    Live0 (F := F) x0 x1 x2 x3 x4 x5 x6 x7 x8 x9 x10 x11 x12 x13 (after ops0 V) where
  arg0 := (keep0 (by decide) V).trans h.arg0
  arg1 := (keep0 (by decide) V).trans h.arg1
  arg2 := (keep0 (by decide) V).trans h.arg2
  arg3 := (keep0 (by decide) V).trans h.arg3
  arg4 := (keep0 (by decide) V).trans h.arg4
  arg5 := (keep0 (by decide) V).trans h.arg5
  arg6 := (keep0 (by decide) V).trans h.arg6
  arg7 := (keep0 (by decide) V).trans h.arg7
  arg8 := (keep0 (by decide) V).trans h.arg8
  arg9 := (keep0 (by decide) V).trans h.arg9
  arg10 := (keep0 (by decide) V).trans h.arg10
  arg11 := (keep0 (by decide) V).trans h.arg11
  arg12 := (keep0 (by decide) V).trans h.arg12
  arg13 := (keep0 (by decide) V).trans h.arg13
  v1 := step0_v1 h
  v2 := step0_v2 h
  v3 := step0_v3 h
  v4 := step0_v4 h
  v5 := step0_v5 h

/-- The buffers part 1 writes. -/
abbrev W1 : List (Ref sig .tc) :=
  [main_c, main_v6, main_v7, main_c_1, main_v8, main_v9, main_v10, main_v11, main_v12, main_cst_2, main_v13, main_c_3, main_v14, main_v15, main_c_4, main_v16, main_v17, main_v18, main_v19, main_v20, main_c_5, main_v21, main_v22, main_c_6, main_v23, main_v24, main_v25, main_v26, main_v27, main_v28, main_v29, main_v30, main_call2_cst, main_call2_v0, main_v31]
theorem writes1 : (ops1 : List (HloOp τ sig (Elt F))).Forall fun op => op.writes ⊆ (W1.map (Proc.devRef (τ := τ) .tc)).toFinset :=
  ⟨wsub main_c (by decide), wsub main_v6 (by decide), wsub main_v7 (by decide), wsub main_c_1 (by decide), wsub main_v8 (by decide), wsub main_v9 (by decide), wsub main_v10 (by decide), wsub main_v11 (by decide), wsub main_v12 (by decide), wsub main_cst_2 (by decide), wsub main_v13 (by decide), wsub main_c_3 (by decide), wsub main_v14 (by decide), wsub main_v15 (by decide), wsub main_c_4 (by decide), wsub main_v16 (by decide), wsub main_v17 (by decide), wsub main_v18 (by decide), wsub main_v19 (by decide), wsub main_v20 (by decide), wsub main_c_5 (by decide), wsub main_v21 (by decide), wsub main_v22 (by decide), wsub main_c_6 (by decide), wsub main_v23 (by decide), wsub main_v24 (by decide), wsub main_v25 (by decide), wsub main_v26 (by decide), wsub main_v27 (by decide), wsub main_v28 (by decide), wsub main_v29 (by decide), wsub main_v30 (by decide), wsub main_call2_cst (by decide), wsub main_call2_v0 (by decide), wsub main_v31 (by decide)⟩
/-- A buffer part 1 does not write keeps its contents. -/
theorem keep1 {r : Ref sig .tc} (hr : r ∉ W1) (V : Valuation τ sig (Elt F)) :
    after (ops1 (F := F)) V (Proc.devRef .tc r) = V (Proc.devRef .tc r) :=
  after_of_writes_sub ops1 V writes1 hr

set_option maxHeartbeats 4000000 in
theorem step1_v31 {x0 x1 x2 x3 x4 x5 x6 x7 x8 x9 x10 x11 x12 x13} {V : Valuation τ sig (Elt F)} (h : Live0 (F := F) x0 x1 x2 x3 x4 x5 x6 x7 x8 x9 x10 x11 x12 x13 V) :
    after (ops1 (F := F)) V (Proc.devRef .tc main_v31) = val_main_v31 (F := F) x2 x4 x5 x6 x7 x8 := by
  unfold ops1; after_results_simp
  results_by_rw
  try simp only [h.v2, h.v4, h.arg4, h.arg5, h.arg6, h.arg8]
  try rw [h.v2]
  try rw [h.v4]
  try rw [h.arg4]
  try rw [h.arg5]
  try rw [h.arg6]
  try rw [h.arg8]
  rfl

theorem step1 {x0 x1 x2 x3 x4 x5 x6 x7 x8 x9 x10 x11 x12 x13} {V : Valuation τ sig (Elt F)} (h : Live0 (F := F) x0 x1 x2 x3 x4 x5 x6 x7 x8 x9 x10 x11 x12 x13 V) :
    Live1 (F := F) x0 x1 x2 x3 x4 x5 x6 x7 x8 x9 x10 x11 x12 x13 (after ops1 V) where
  arg0 := (keep1 (by decide) V).trans h.arg0
  arg1 := (keep1 (by decide) V).trans h.arg1
  arg2 := (keep1 (by decide) V).trans h.arg2
  arg3 := (keep1 (by decide) V).trans h.arg3
  arg4 := (keep1 (by decide) V).trans h.arg4
  arg5 := (keep1 (by decide) V).trans h.arg5
  arg6 := (keep1 (by decide) V).trans h.arg6
  arg7 := (keep1 (by decide) V).trans h.arg7
  arg8 := (keep1 (by decide) V).trans h.arg8
  arg9 := (keep1 (by decide) V).trans h.arg9
  arg10 := (keep1 (by decide) V).trans h.arg10
  arg11 := (keep1 (by decide) V).trans h.arg11
  arg12 := (keep1 (by decide) V).trans h.arg12
  arg13 := (keep1 (by decide) V).trans h.arg13
  v1 := (keep1 (by decide) V).trans h.v1
  v2 := (keep1 (by decide) V).trans h.v2
  v3 := (keep1 (by decide) V).trans h.v3
  v5 := (keep1 (by decide) V).trans h.v5
  v31 := step1_v31 h

/-- The buffers part 2 writes. -/
abbrev W2 : List (Ref sig .tc) :=
  [main_c_7, main_v32, main_v33, main_c_8, main_v34, main_v35, main_v36, main_v37, main_v38, main_cst_9, main_v39, main_c_10, main_v40, main_v41, main_c_11, main_v42, main_v43, main_v44, main_v45, main_v46, main_c_12, main_v47, main_v48, main_c_13, main_v49, main_v50, main_v51, main_v52, main_v53, main_v54, main_v55, main_v56, main_call3_cst, main_call3_v0, main_v57]
theorem writes2 : (ops2 : List (HloOp τ sig (Elt F))).Forall fun op => op.writes ⊆ (W2.map (Proc.devRef (τ := τ) .tc)).toFinset :=
  ⟨wsub main_c_7 (by decide), wsub main_v32 (by decide), wsub main_v33 (by decide), wsub main_c_8 (by decide), wsub main_v34 (by decide), wsub main_v35 (by decide), wsub main_v36 (by decide), wsub main_v37 (by decide), wsub main_v38 (by decide), wsub main_cst_9 (by decide), wsub main_v39 (by decide), wsub main_c_10 (by decide), wsub main_v40 (by decide), wsub main_v41 (by decide), wsub main_c_11 (by decide), wsub main_v42 (by decide), wsub main_v43 (by decide), wsub main_v44 (by decide), wsub main_v45 (by decide), wsub main_v46 (by decide), wsub main_c_12 (by decide), wsub main_v47 (by decide), wsub main_v48 (by decide), wsub main_c_13 (by decide), wsub main_v49 (by decide), wsub main_v50 (by decide), wsub main_v51 (by decide), wsub main_v52 (by decide), wsub main_v53 (by decide), wsub main_v54 (by decide), wsub main_v55 (by decide), wsub main_v56 (by decide), wsub main_call3_cst (by decide), wsub main_call3_v0 (by decide), wsub main_v57 (by decide)⟩
/-- A buffer part 2 does not write keeps its contents. -/
theorem keep2 {r : Ref sig .tc} (hr : r ∉ W2) (V : Valuation τ sig (Elt F)) :
    after (ops2 (F := F)) V (Proc.devRef .tc r) = V (Proc.devRef .tc r) :=
  after_of_writes_sub ops2 V writes2 hr

set_option maxHeartbeats 4000000 in
theorem step2_v57 {x0 x1 x2 x3 x4 x5 x6 x7 x8 x9 x10 x11 x12 x13} {V : Valuation τ sig (Elt F)} (h : Live1 (F := F) x0 x1 x2 x3 x4 x5 x6 x7 x8 x9 x10 x11 x12 x13 V) :
    after (ops2 (F := F)) V (Proc.devRef .tc main_v57) = val_main_v57 (F := F) x3 x4 x5 x6 x7 x8 := by
  unfold ops2; after_results_simp
  results_by_rw
  try simp only [h.v3, h.v5, h.arg4, h.arg5, h.arg6, h.arg8]
  try rw [h.v3]
  try rw [h.v5]
  try rw [h.arg4]
  try rw [h.arg5]
  try rw [h.arg6]
  try rw [h.arg8]
  rfl

theorem step2 {x0 x1 x2 x3 x4 x5 x6 x7 x8 x9 x10 x11 x12 x13} {V : Valuation τ sig (Elt F)} (h : Live1 (F := F) x0 x1 x2 x3 x4 x5 x6 x7 x8 x9 x10 x11 x12 x13 V) :
    Live2 (F := F) x0 x1 x2 x3 x4 x5 x6 x7 x8 x9 x10 x11 x12 x13 (after ops2 V) where
  arg0 := (keep2 (by decide) V).trans h.arg0
  arg1 := (keep2 (by decide) V).trans h.arg1
  arg2 := (keep2 (by decide) V).trans h.arg2
  arg3 := (keep2 (by decide) V).trans h.arg3
  arg4 := (keep2 (by decide) V).trans h.arg4
  arg5 := (keep2 (by decide) V).trans h.arg5
  arg6 := (keep2 (by decide) V).trans h.arg6
  arg7 := (keep2 (by decide) V).trans h.arg7
  arg8 := (keep2 (by decide) V).trans h.arg8
  arg9 := (keep2 (by decide) V).trans h.arg9
  arg10 := (keep2 (by decide) V).trans h.arg10
  arg11 := (keep2 (by decide) V).trans h.arg11
  arg12 := (keep2 (by decide) V).trans h.arg12
  arg13 := (keep2 (by decide) V).trans h.arg13
  v1 := (keep2 (by decide) V).trans h.v1
  v2 := (keep2 (by decide) V).trans h.v2
  v3 := (keep2 (by decide) V).trans h.v3
  v31 := (keep2 (by decide) V).trans h.v31
  v57 := step2_v57 h

/-- The buffers part 3 writes. -/
abbrev W3 : List (Ref sig .tc) :=
  [main_v58, main_v59, main_v60, main_v61, main_v62, main_cst_14, main_v63, main_cst_15, main_v64, main_v65, main_v66, main_v67, main_v68, main_v69, main_cst_16, main_v70, main_v71, main_v72, main_v73, main_v74, main_v75, main_v76, main_call4_cst, main_call4_v0, main_v77, main_v78]
theorem writes3 : (ops3 : List (HloOp τ sig (Elt F))).Forall fun op => op.writes ⊆ (W3.map (Proc.devRef (τ := τ) .tc)).toFinset :=
  ⟨wsub main_v58 (by decide), wsub main_v59 (by decide), wsub main_v60 (by decide), wsub main_v61 (by decide), wsub main_v62 (by decide), wsub main_cst_14 (by decide), wsub main_v63 (by decide), wsub main_cst_15 (by decide), wsub main_v64 (by decide), wsub main_v65 (by decide), wsub main_v66 (by decide), wsub main_v67 (by decide), wsub main_v68 (by decide), wsub main_v69 (by decide), wsub main_cst_16 (by decide), wsub main_v70 (by decide), wsub main_v71 (by decide), wsub main_v72 (by decide), wsub main_v73 (by decide), wsub main_v74 (by decide), wsub main_v75 (by decide), wsub main_v76 (by decide), wsub main_call4_cst (by decide), wsub main_call4_v0 (by decide), wsub main_v77 (by decide), wsub main_v78 (by decide)⟩
/-- A buffer part 3 does not write keeps its contents. -/
theorem keep3 {r : Ref sig .tc} (hr : r ∉ W3) (V : Valuation τ sig (Elt F)) :
    after (ops3 (F := F)) V (Proc.devRef .tc r) = V (Proc.devRef .tc r) :=
  after_of_writes_sub ops3 V writes3 hr

set_option maxHeartbeats 4000000 in
theorem step3_v78 {x0 x1 x2 x3 x4 x5 x6 x7 x8 x9 x10 x11 x12 x13} {V : Valuation τ sig (Elt F)} (h : Live2 (F := F) x0 x1 x2 x3 x4 x5 x6 x7 x8 x9 x10 x11 x12 x13 V) :
    after (ops3 (F := F)) V (Proc.devRef .tc main_v78) = val_main_v78 (F := F) x2 x3 x4 x5 x6 x7 x8 x9 := by
  unfold ops3; after_results_simp
  results_by_rw
  try simp only [h.v31, h.v57, h.v1, h.arg9]
  try rw [h.v31]
  try rw [h.v57]
  try rw [h.v1]
  try rw [h.arg9]
  rfl

theorem step3 {x0 x1 x2 x3 x4 x5 x6 x7 x8 x9 x10 x11 x12 x13} {V : Valuation τ sig (Elt F)} (h : Live2 (F := F) x0 x1 x2 x3 x4 x5 x6 x7 x8 x9 x10 x11 x12 x13 V) :
    Live3 (F := F) x0 x1 x2 x3 x4 x5 x6 x7 x8 x9 x10 x11 x12 x13 (after ops3 V) where
  arg0 := (keep3 (by decide) V).trans h.arg0
  arg1 := (keep3 (by decide) V).trans h.arg1
  arg2 := (keep3 (by decide) V).trans h.arg2
  arg3 := (keep3 (by decide) V).trans h.arg3
  arg4 := (keep3 (by decide) V).trans h.arg4
  arg5 := (keep3 (by decide) V).trans h.arg5
  arg6 := (keep3 (by decide) V).trans h.arg6
  arg7 := (keep3 (by decide) V).trans h.arg7
  arg8 := (keep3 (by decide) V).trans h.arg8
  arg9 := (keep3 (by decide) V).trans h.arg9
  arg10 := (keep3 (by decide) V).trans h.arg10
  arg11 := (keep3 (by decide) V).trans h.arg11
  arg12 := (keep3 (by decide) V).trans h.arg12
  arg13 := (keep3 (by decide) V).trans h.arg13
  v1 := (keep3 (by decide) V).trans h.v1
  v2 := (keep3 (by decide) V).trans h.v2
  v3 := (keep3 (by decide) V).trans h.v3
  v31 := (keep3 (by decide) V).trans h.v31
  v57 := (keep3 (by decide) V).trans h.v57
  v78 := step3_v78 h

/-- The buffers part 4 writes. -/
abbrev W4 : List (Ref sig .tc) :=
  [main_v79, main_v80, main_v81, main_v82, main_v83, main_cst_17, main_v84, main_cst_18, main_v85, main_v86, main_v87, main_v88, main_v89, main_v90, main_cst_19, main_v91, main_v92, main_v93, main_v94, main_v95, main_v96, main_v97, main_call5_cst, main_call5_v0, main_v98, main_v99]
theorem writes4 : (ops4 : List (HloOp τ sig (Elt F))).Forall fun op => op.writes ⊆ (W4.map (Proc.devRef (τ := τ) .tc)).toFinset :=
  ⟨wsub main_v79 (by decide), wsub main_v80 (by decide), wsub main_v81 (by decide), wsub main_v82 (by decide), wsub main_v83 (by decide), wsub main_cst_17 (by decide), wsub main_v84 (by decide), wsub main_cst_18 (by decide), wsub main_v85 (by decide), wsub main_v86 (by decide), wsub main_v87 (by decide), wsub main_v88 (by decide), wsub main_v89 (by decide), wsub main_v90 (by decide), wsub main_cst_19 (by decide), wsub main_v91 (by decide), wsub main_v92 (by decide), wsub main_v93 (by decide), wsub main_v94 (by decide), wsub main_v95 (by decide), wsub main_v96 (by decide), wsub main_v97 (by decide), wsub main_call5_cst (by decide), wsub main_call5_v0 (by decide), wsub main_v98 (by decide), wsub main_v99 (by decide)⟩
/-- A buffer part 4 does not write keeps its contents. -/
theorem keep4 {r : Ref sig .tc} (hr : r ∉ W4) (V : Valuation τ sig (Elt F)) :
    after (ops4 (F := F)) V (Proc.devRef .tc r) = V (Proc.devRef .tc r) :=
  after_of_writes_sub ops4 V writes4 hr

set_option maxHeartbeats 4000000 in
theorem step4_v99 {x0 x1 x2 x3 x4 x5 x6 x7 x8 x9 x10 x11 x12 x13} {V : Valuation τ sig (Elt F)} (h : Live3 (F := F) x0 x1 x2 x3 x4 x5 x6 x7 x8 x9 x10 x11 x12 x13 V) :
    after (ops4 (F := F)) V (Proc.devRef .tc main_v99) = val_main_v99 (F := F) x2 x3 x4 x5 x6 x7 x8 x9 := by
  unfold ops4; after_results_simp
  results_by_rw
  try simp only [h.v57, h.v31, h.v1, h.arg9]
  try rw [h.v57]
  try rw [h.v31]
  try rw [h.v1]
  try rw [h.arg9]
  rfl

theorem step4 {x0 x1 x2 x3 x4 x5 x6 x7 x8 x9 x10 x11 x12 x13} {V : Valuation τ sig (Elt F)} (h : Live3 (F := F) x0 x1 x2 x3 x4 x5 x6 x7 x8 x9 x10 x11 x12 x13 V) :
    Live4 (F := F) x0 x1 x2 x3 x4 x5 x6 x7 x8 x9 x10 x11 x12 x13 (after ops4 V) where
  arg0 := (keep4 (by decide) V).trans h.arg0
  arg1 := (keep4 (by decide) V).trans h.arg1
  arg2 := (keep4 (by decide) V).trans h.arg2
  arg3 := (keep4 (by decide) V).trans h.arg3
  arg4 := (keep4 (by decide) V).trans h.arg4
  arg5 := (keep4 (by decide) V).trans h.arg5
  arg6 := (keep4 (by decide) V).trans h.arg6
  arg7 := (keep4 (by decide) V).trans h.arg7
  arg8 := (keep4 (by decide) V).trans h.arg8
  arg9 := (keep4 (by decide) V).trans h.arg9
  arg10 := (keep4 (by decide) V).trans h.arg10
  arg11 := (keep4 (by decide) V).trans h.arg11
  arg12 := (keep4 (by decide) V).trans h.arg12
  arg13 := (keep4 (by decide) V).trans h.arg13
  v1 := (keep4 (by decide) V).trans h.v1
  v2 := (keep4 (by decide) V).trans h.v2
  v3 := (keep4 (by decide) V).trans h.v3
  v78 := (keep4 (by decide) V).trans h.v78
  v99 := step4_v99 h

/-- The buffers part 5 writes. -/
abbrev W5 : List (Ref sig .tc) :=
  [main_c_20, main_v100, main_v101, main_c_21, main_v102, main_v103, main_v104, main_v105, main_v106, main_cst_22, main_v107, main_c_23, main_v108, main_v109, main_c_24, main_v110, main_v111, main_v112, main_v113, main_v114, main_c_25, main_v115, main_v116, main_c_26, main_v117, main_v118, main_v119, main_v120, main_v121, main_v122, main_v123, main_v124, main_call6_cst, main_call6_v0, main_v125]
theorem writes5 : (ops5 : List (HloOp τ sig (Elt F))).Forall fun op => op.writes ⊆ (W5.map (Proc.devRef (τ := τ) .tc)).toFinset :=
  ⟨wsub main_c_20 (by decide), wsub main_v100 (by decide), wsub main_v101 (by decide), wsub main_c_21 (by decide), wsub main_v102 (by decide), wsub main_v103 (by decide), wsub main_v104 (by decide), wsub main_v105 (by decide), wsub main_v106 (by decide), wsub main_cst_22 (by decide), wsub main_v107 (by decide), wsub main_c_23 (by decide), wsub main_v108 (by decide), wsub main_v109 (by decide), wsub main_c_24 (by decide), wsub main_v110 (by decide), wsub main_v111 (by decide), wsub main_v112 (by decide), wsub main_v113 (by decide), wsub main_v114 (by decide), wsub main_c_25 (by decide), wsub main_v115 (by decide), wsub main_v116 (by decide), wsub main_c_26 (by decide), wsub main_v117 (by decide), wsub main_v118 (by decide), wsub main_v119 (by decide), wsub main_v120 (by decide), wsub main_v121 (by decide), wsub main_v122 (by decide), wsub main_v123 (by decide), wsub main_v124 (by decide), wsub main_call6_cst (by decide), wsub main_call6_v0 (by decide), wsub main_v125 (by decide)⟩
/-- A buffer part 5 does not write keeps its contents. -/
theorem keep5 {r : Ref sig .tc} (hr : r ∉ W5) (V : Valuation τ sig (Elt F)) :
    after (ops5 (F := F)) V (Proc.devRef .tc r) = V (Proc.devRef .tc r) :=
  after_of_writes_sub ops5 V writes5 hr

set_option maxHeartbeats 4000000 in
theorem step5_v125 {x0 x1 x2 x3 x4 x5 x6 x7 x8 x9 x10 x11 x12 x13} {V : Valuation τ sig (Elt F)} (h : Live4 (F := F) x0 x1 x2 x3 x4 x5 x6 x7 x8 x9 x10 x11 x12 x13 V) :
    after (ops5 (F := F)) V (Proc.devRef .tc main_v125) = val_main_v125 (F := F) x2 x3 x4 x5 x6 x7 x8 x9 := by
  unfold ops5; after_results_simp
  results_by_rw
  try simp only [h.v2, h.v78, h.arg4, h.arg5, h.arg6, h.arg8]
  try rw [h.v2]
  try rw [h.v78]
  try rw [h.arg4]
  try rw [h.arg5]
  try rw [h.arg6]
  try rw [h.arg8]
  rfl

theorem step5 {x0 x1 x2 x3 x4 x5 x6 x7 x8 x9 x10 x11 x12 x13} {V : Valuation τ sig (Elt F)} (h : Live4 (F := F) x0 x1 x2 x3 x4 x5 x6 x7 x8 x9 x10 x11 x12 x13 V) :
    Live5 (F := F) x0 x1 x2 x3 x4 x5 x6 x7 x8 x9 x10 x11 x12 x13 (after ops5 V) where
  arg0 := (keep5 (by decide) V).trans h.arg0
  arg1 := (keep5 (by decide) V).trans h.arg1
  arg2 := (keep5 (by decide) V).trans h.arg2
  arg3 := (keep5 (by decide) V).trans h.arg3
  arg4 := (keep5 (by decide) V).trans h.arg4
  arg5 := (keep5 (by decide) V).trans h.arg5
  arg6 := (keep5 (by decide) V).trans h.arg6
  arg7 := (keep5 (by decide) V).trans h.arg7
  arg8 := (keep5 (by decide) V).trans h.arg8
  arg9 := (keep5 (by decide) V).trans h.arg9
  arg10 := (keep5 (by decide) V).trans h.arg10
  arg11 := (keep5 (by decide) V).trans h.arg11
  arg12 := (keep5 (by decide) V).trans h.arg12
  arg13 := (keep5 (by decide) V).trans h.arg13
  v1 := (keep5 (by decide) V).trans h.v1
  v2 := (keep5 (by decide) V).trans h.v2
  v3 := (keep5 (by decide) V).trans h.v3
  v99 := (keep5 (by decide) V).trans h.v99
  v125 := step5_v125 h

/-- The buffers part 6 writes. -/
abbrev W6 : List (Ref sig .tc) :=
  [main_c_27, main_v126, main_v127, main_c_28, main_v128, main_v129, main_v130, main_v131, main_v132, main_cst_29, main_v133, main_c_30, main_v134, main_v135, main_c_31, main_v136, main_v137, main_v138, main_v139, main_v140, main_c_32, main_v141, main_v142, main_c_33, main_v143, main_v144, main_v145, main_v146, main_v147, main_v148, main_v149, main_v150, main_call7_cst, main_call7_v0, main_v151]
theorem writes6 : (ops6 : List (HloOp τ sig (Elt F))).Forall fun op => op.writes ⊆ (W6.map (Proc.devRef (τ := τ) .tc)).toFinset :=
  ⟨wsub main_c_27 (by decide), wsub main_v126 (by decide), wsub main_v127 (by decide), wsub main_c_28 (by decide), wsub main_v128 (by decide), wsub main_v129 (by decide), wsub main_v130 (by decide), wsub main_v131 (by decide), wsub main_v132 (by decide), wsub main_cst_29 (by decide), wsub main_v133 (by decide), wsub main_c_30 (by decide), wsub main_v134 (by decide), wsub main_v135 (by decide), wsub main_c_31 (by decide), wsub main_v136 (by decide), wsub main_v137 (by decide), wsub main_v138 (by decide), wsub main_v139 (by decide), wsub main_v140 (by decide), wsub main_c_32 (by decide), wsub main_v141 (by decide), wsub main_v142 (by decide), wsub main_c_33 (by decide), wsub main_v143 (by decide), wsub main_v144 (by decide), wsub main_v145 (by decide), wsub main_v146 (by decide), wsub main_v147 (by decide), wsub main_v148 (by decide), wsub main_v149 (by decide), wsub main_v150 (by decide), wsub main_call7_cst (by decide), wsub main_call7_v0 (by decide), wsub main_v151 (by decide)⟩
/-- A buffer part 6 does not write keeps its contents. -/
theorem keep6 {r : Ref sig .tc} (hr : r ∉ W6) (V : Valuation τ sig (Elt F)) :
    after (ops6 (F := F)) V (Proc.devRef .tc r) = V (Proc.devRef .tc r) :=
  after_of_writes_sub ops6 V writes6 hr

set_option maxHeartbeats 4000000 in
theorem step6_v151 {x0 x1 x2 x3 x4 x5 x6 x7 x8 x9 x10 x11 x12 x13} {V : Valuation τ sig (Elt F)} (h : Live5 (F := F) x0 x1 x2 x3 x4 x5 x6 x7 x8 x9 x10 x11 x12 x13 V) :
    after (ops6 (F := F)) V (Proc.devRef .tc main_v151) = val_main_v151 (F := F) x2 x3 x4 x5 x6 x7 x8 x9 := by
  unfold ops6; after_results_simp
  results_by_rw
  try simp only [h.v3, h.v99, h.arg4, h.arg5, h.arg6, h.arg8]
  try rw [h.v3]
  try rw [h.v99]
  try rw [h.arg4]
  try rw [h.arg5]
  try rw [h.arg6]
  try rw [h.arg8]
  rfl

theorem step6 {x0 x1 x2 x3 x4 x5 x6 x7 x8 x9 x10 x11 x12 x13} {V : Valuation τ sig (Elt F)} (h : Live5 (F := F) x0 x1 x2 x3 x4 x5 x6 x7 x8 x9 x10 x11 x12 x13 V) :
    Live6 (F := F) x0 x1 x2 x3 x4 x5 x6 x7 x8 x9 x10 x11 x12 x13 (after ops6 V) where
  arg0 := (keep6 (by decide) V).trans h.arg0
  arg1 := (keep6 (by decide) V).trans h.arg1
  arg2 := (keep6 (by decide) V).trans h.arg2
  arg3 := (keep6 (by decide) V).trans h.arg3
  arg4 := (keep6 (by decide) V).trans h.arg4
  arg5 := (keep6 (by decide) V).trans h.arg5
  arg6 := (keep6 (by decide) V).trans h.arg6
  arg7 := (keep6 (by decide) V).trans h.arg7
  arg8 := (keep6 (by decide) V).trans h.arg8
  arg9 := (keep6 (by decide) V).trans h.arg9
  arg10 := (keep6 (by decide) V).trans h.arg10
  arg11 := (keep6 (by decide) V).trans h.arg11
  arg12 := (keep6 (by decide) V).trans h.arg12
  arg13 := (keep6 (by decide) V).trans h.arg13
  v1 := (keep6 (by decide) V).trans h.v1
  v2 := (keep6 (by decide) V).trans h.v2
  v3 := (keep6 (by decide) V).trans h.v3
  v125 := (keep6 (by decide) V).trans h.v125
  v151 := step6_v151 h

/-- The buffers part 7 writes. -/
abbrev W7 : List (Ref sig .tc) :=
  [main_v152, main_v153, main_v154, main_v155, main_v156, main_cst_34, main_v157, main_cst_35, main_v158, main_v159, main_v160, main_v161, main_v162, main_v163, main_cst_36, main_v164, main_v165, main_v166, main_v167, main_v168, main_v169, main_v170, main_call8_cst, main_call8_v0, main_v171, main_v172]
theorem writes7 : (ops7 : List (HloOp τ sig (Elt F))).Forall fun op => op.writes ⊆ (W7.map (Proc.devRef (τ := τ) .tc)).toFinset :=
  ⟨wsub main_v152 (by decide), wsub main_v153 (by decide), wsub main_v154 (by decide), wsub main_v155 (by decide), wsub main_v156 (by decide), wsub main_cst_34 (by decide), wsub main_v157 (by decide), wsub main_cst_35 (by decide), wsub main_v158 (by decide), wsub main_v159 (by decide), wsub main_v160 (by decide), wsub main_v161 (by decide), wsub main_v162 (by decide), wsub main_v163 (by decide), wsub main_cst_36 (by decide), wsub main_v164 (by decide), wsub main_v165 (by decide), wsub main_v166 (by decide), wsub main_v167 (by decide), wsub main_v168 (by decide), wsub main_v169 (by decide), wsub main_v170 (by decide), wsub main_call8_cst (by decide), wsub main_call8_v0 (by decide), wsub main_v171 (by decide), wsub main_v172 (by decide)⟩
/-- A buffer part 7 does not write keeps its contents. -/
theorem keep7 {r : Ref sig .tc} (hr : r ∉ W7) (V : Valuation τ sig (Elt F)) :
    after (ops7 (F := F)) V (Proc.devRef .tc r) = V (Proc.devRef .tc r) :=
  after_of_writes_sub ops7 V writes7 hr

set_option maxHeartbeats 4000000 in
theorem step7_v172 {x0 x1 x2 x3 x4 x5 x6 x7 x8 x9 x10 x11 x12 x13} {V : Valuation τ sig (Elt F)} (h : Live6 (F := F) x0 x1 x2 x3 x4 x5 x6 x7 x8 x9 x10 x11 x12 x13 V) :
    after (ops7 (F := F)) V (Proc.devRef .tc main_v172) = val_main_v172 (F := F) x2 x3 x4 x5 x6 x7 x8 x9 := by
  unfold ops7; after_results_simp
  results_by_rw
  try simp only [h.v125, h.v151, h.v1, h.arg9]
  try rw [h.v125]
  try rw [h.v151]
  try rw [h.v1]
  try rw [h.arg9]
  rfl

theorem step7 {x0 x1 x2 x3 x4 x5 x6 x7 x8 x9 x10 x11 x12 x13} {V : Valuation τ sig (Elt F)} (h : Live6 (F := F) x0 x1 x2 x3 x4 x5 x6 x7 x8 x9 x10 x11 x12 x13 V) :
    Live7 (F := F) x0 x1 x2 x3 x4 x5 x6 x7 x8 x9 x10 x11 x12 x13 (after ops7 V) where
  arg0 := (keep7 (by decide) V).trans h.arg0
  arg1 := (keep7 (by decide) V).trans h.arg1
  arg2 := (keep7 (by decide) V).trans h.arg2
  arg3 := (keep7 (by decide) V).trans h.arg3
  arg4 := (keep7 (by decide) V).trans h.arg4
  arg5 := (keep7 (by decide) V).trans h.arg5
  arg6 := (keep7 (by decide) V).trans h.arg6
  arg7 := (keep7 (by decide) V).trans h.arg7
  arg8 := (keep7 (by decide) V).trans h.arg8
  arg9 := (keep7 (by decide) V).trans h.arg9
  arg10 := (keep7 (by decide) V).trans h.arg10
  arg11 := (keep7 (by decide) V).trans h.arg11
  arg12 := (keep7 (by decide) V).trans h.arg12
  arg13 := (keep7 (by decide) V).trans h.arg13
  v1 := (keep7 (by decide) V).trans h.v1
  v2 := (keep7 (by decide) V).trans h.v2
  v3 := (keep7 (by decide) V).trans h.v3
  v125 := (keep7 (by decide) V).trans h.v125
  v151 := (keep7 (by decide) V).trans h.v151
  v172 := step7_v172 h

/-- The buffers part 8 writes. -/
abbrev W8 : List (Ref sig .tc) :=
  [main_v173, main_v174, main_v175, main_v176, main_v177, main_cst_37, main_v178, main_cst_38, main_v179, main_v180, main_v181, main_v182, main_v183, main_v184, main_cst_39, main_v185, main_v186, main_v187, main_v188, main_v189, main_v190, main_v191, main_call9_cst, main_call9_v0, main_v192, main_v193]
theorem writes8 : (ops8 : List (HloOp τ sig (Elt F))).Forall fun op => op.writes ⊆ (W8.map (Proc.devRef (τ := τ) .tc)).toFinset :=
  ⟨wsub main_v173 (by decide), wsub main_v174 (by decide), wsub main_v175 (by decide), wsub main_v176 (by decide), wsub main_v177 (by decide), wsub main_cst_37 (by decide), wsub main_v178 (by decide), wsub main_cst_38 (by decide), wsub main_v179 (by decide), wsub main_v180 (by decide), wsub main_v181 (by decide), wsub main_v182 (by decide), wsub main_v183 (by decide), wsub main_v184 (by decide), wsub main_cst_39 (by decide), wsub main_v185 (by decide), wsub main_v186 (by decide), wsub main_v187 (by decide), wsub main_v188 (by decide), wsub main_v189 (by decide), wsub main_v190 (by decide), wsub main_v191 (by decide), wsub main_call9_cst (by decide), wsub main_call9_v0 (by decide), wsub main_v192 (by decide), wsub main_v193 (by decide)⟩
/-- A buffer part 8 does not write keeps its contents. -/
theorem keep8 {r : Ref sig .tc} (hr : r ∉ W8) (V : Valuation τ sig (Elt F)) :
    after (ops8 (F := F)) V (Proc.devRef .tc r) = V (Proc.devRef .tc r) :=
  after_of_writes_sub ops8 V writes8 hr

set_option maxHeartbeats 4000000 in
theorem step8_v193 {x0 x1 x2 x3 x4 x5 x6 x7 x8 x9 x10 x11 x12 x13} {V : Valuation τ sig (Elt F)} (h : Live7 (F := F) x0 x1 x2 x3 x4 x5 x6 x7 x8 x9 x10 x11 x12 x13 V) :
    after (ops8 (F := F)) V (Proc.devRef .tc main_v193) = val_main_v193 (F := F) x2 x3 x4 x5 x6 x7 x8 x9 := by
  unfold ops8; after_results_simp
  results_by_rw
  try simp only [h.v151, h.v125, h.v1, h.arg9]
  try rw [h.v151]
  try rw [h.v125]
  try rw [h.v1]
  try rw [h.arg9]
  rfl

theorem step8 {x0 x1 x2 x3 x4 x5 x6 x7 x8 x9 x10 x11 x12 x13} {V : Valuation τ sig (Elt F)} (h : Live7 (F := F) x0 x1 x2 x3 x4 x5 x6 x7 x8 x9 x10 x11 x12 x13 V) :
    Live8 (F := F) x0 x1 x2 x3 x4 x5 x6 x7 x8 x9 x10 x11 x12 x13 (after ops8 V) where
  arg0 := (keep8 (by decide) V).trans h.arg0
  arg1 := (keep8 (by decide) V).trans h.arg1
  arg2 := (keep8 (by decide) V).trans h.arg2
  arg3 := (keep8 (by decide) V).trans h.arg3
  arg4 := (keep8 (by decide) V).trans h.arg4
  arg5 := (keep8 (by decide) V).trans h.arg5
  arg6 := (keep8 (by decide) V).trans h.arg6
  arg7 := (keep8 (by decide) V).trans h.arg7
  arg8 := (keep8 (by decide) V).trans h.arg8
  arg9 := (keep8 (by decide) V).trans h.arg9
  arg10 := (keep8 (by decide) V).trans h.arg10
  arg11 := (keep8 (by decide) V).trans h.arg11
  arg12 := (keep8 (by decide) V).trans h.arg12
  arg13 := (keep8 (by decide) V).trans h.arg13
  v2 := (keep8 (by decide) V).trans h.v2
  v3 := (keep8 (by decide) V).trans h.v3
  v172 := (keep8 (by decide) V).trans h.v172
  v193 := step8_v193 h

/-- The buffers part 9 writes. -/
abbrev W9 : List (Ref sig .tc) :=
  [main_v194, main_v195, main_v196, main_v197, main_v198, main_v199]
theorem writes9 : (ops9 : List (HloOp τ sig (Elt F))).Forall fun op => op.writes ⊆ (W9.map (Proc.devRef (τ := τ) .tc)).toFinset :=
  ⟨wsub main_v194 (by decide), wsub main_v195 (by decide), wsub main_v196 (by decide), wsub main_v197 (by decide), wsub main_v198 (by decide), wsub main_v199 (by decide)⟩
/-- A buffer part 9 does not write keeps its contents. -/
theorem keep9 {r : Ref sig .tc} (hr : r ∉ W9) (V : Valuation τ sig (Elt F)) :
    after (ops9 (F := F)) V (Proc.devRef .tc r) = V (Proc.devRef .tc r) :=
  after_of_writes_sub ops9 V writes9 hr

set_option maxHeartbeats 4000000 in
theorem step9_v195 {x0 x1 x2 x3 x4 x5 x6 x7 x8 x9 x10 x11 x12 x13} {V : Valuation τ sig (Elt F)} (h : Live8 (F := F) x0 x1 x2 x3 x4 x5 x6 x7 x8 x9 x10 x11 x12 x13 V) :
    after (ops9 (F := F)) V (Proc.devRef .tc main_v195) = val_main_v195 (F := F) x2 x3 x4 x5 x6 x7 x8 x9 := by
  unfold ops9; after_results_simp
  results_by_rw
  try simp only [h.v172, h.v193]
  try rw [h.v172]
  try rw [h.v193]
  rfl

set_option maxHeartbeats 4000000 in
theorem step9_v197 {x0 x1 x2 x3 x4 x5 x6 x7 x8 x9 x10 x11 x12 x13} {V : Valuation τ sig (Elt F)} (h : Live8 (F := F) x0 x1 x2 x3 x4 x5 x6 x7 x8 x9 x10 x11 x12 x13 V) :
    after (ops9 (F := F)) V (Proc.devRef .tc main_v197) = val_main_v197 (F := F) x2 x3 x7 := by
  unfold ops9; after_results_simp
  results_by_rw
  try simp only [h.v2, h.v3]
  try rw [h.v2]
  try rw [h.v3]
  rfl

set_option maxHeartbeats 4000000 in
theorem step9_v199 {x0 x1 x2 x3 x4 x5 x6 x7 x8 x9 x10 x11 x12 x13} {V : Valuation τ sig (Elt F)} (h : Live8 (F := F) x0 x1 x2 x3 x4 x5 x6 x7 x8 x9 x10 x11 x12 x13 V) :
    after (ops9 (F := F)) V (Proc.devRef .tc main_v199) = val_main_v199 (F := F) x0 x1 := by
  unfold ops9; after_results_simp
  results_by_rw
  try simp only [h.arg0, h.arg1]
  try rw [h.arg0]
  try rw [h.arg1]
  rfl

theorem step9 {x0 x1 x2 x3 x4 x5 x6 x7 x8 x9 x10 x11 x12 x13} {V : Valuation τ sig (Elt F)} (h : Live8 (F := F) x0 x1 x2 x3 x4 x5 x6 x7 x8 x9 x10 x11 x12 x13 V) :
    Live9 (F := F) x0 x1 x2 x3 x4 x5 x6 x7 x8 x9 x10 x11 x12 x13 (after ops9 V) where
  arg0 := (keep9 (by decide) V).trans h.arg0
  arg1 := (keep9 (by decide) V).trans h.arg1
  arg2 := (keep9 (by decide) V).trans h.arg2
  arg3 := (keep9 (by decide) V).trans h.arg3
  arg4 := (keep9 (by decide) V).trans h.arg4
  arg5 := (keep9 (by decide) V).trans h.arg5
  arg6 := (keep9 (by decide) V).trans h.arg6
  arg7 := (keep9 (by decide) V).trans h.arg7
  arg8 := (keep9 (by decide) V).trans h.arg8
  arg9 := (keep9 (by decide) V).trans h.arg9
  arg10 := (keep9 (by decide) V).trans h.arg10
  arg11 := (keep9 (by decide) V).trans h.arg11
  arg12 := (keep9 (by decide) V).trans h.arg12
  arg13 := (keep9 (by decide) V).trans h.arg13
  v195 := step9_v195 h
  v197 := step9_v197 h
  v199 := step9_v199 h

/-- The buffers part 10 writes. -/
abbrev W10 : List (Ref sig .tc) :=
  [main_c_40, main_v200, main_v201, main_c_41, main_v202, main_v203, main_v204, main_v205, main_v206, main_cst_42, main_v207, main_c_43, main_v208, main_v209, main_c_44, main_v210, main_v211, main_v212, main_v213, main_v214, main_c_45, main_v215, main_v216, main_c_46, main_v217, main_v218, main_v219, main_v220, main_v221, main_v222, main_v223, main_v224, main_v225, main_v226, main_v227, main_call10_cst, main_call10_v0, main_v228]
theorem writes10 : (ops10 : List (HloOp τ sig (Elt F))).Forall fun op => op.writes ⊆ (W10.map (Proc.devRef (τ := τ) .tc)).toFinset :=
  ⟨wsub main_c_40 (by decide), wsub main_v200 (by decide), wsub main_v201 (by decide), wsub main_c_41 (by decide), wsub main_v202 (by decide), wsub main_v203 (by decide), wsub main_v204 (by decide), wsub main_v205 (by decide), wsub main_v206 (by decide), wsub main_cst_42 (by decide), wsub main_v207 (by decide), wsub main_c_43 (by decide), wsub main_v208 (by decide), wsub main_v209 (by decide), wsub main_c_44 (by decide), wsub main_v210 (by decide), wsub main_v211 (by decide), wsub main_v212 (by decide), wsub main_v213 (by decide), wsub main_v214 (by decide), wsub main_c_45 (by decide), wsub main_v215 (by decide), wsub main_v216 (by decide), wsub main_c_46 (by decide), wsub main_v217 (by decide), wsub main_v218 (by decide), wsub main_v219 (by decide), wsub main_v220 (by decide), wsub main_v221 (by decide), wsub main_v222 (by decide), wsub main_v223 (by decide), wsub main_v224 (by decide), wsub main_v225 (by decide), wsub main_v226 (by decide), wsub main_v227 (by decide), wsub main_call10_cst (by decide), wsub main_call10_v0 (by decide), wsub main_v228 (by decide)⟩
/-- A buffer part 10 does not write keeps its contents. -/
theorem keep10 {r : Ref sig .tc} (hr : r ∉ W10) (V : Valuation τ sig (Elt F)) :
    after (ops10 (F := F)) V (Proc.devRef .tc r) = V (Proc.devRef .tc r) :=
  after_of_writes_sub ops10 V writes10 hr

set_option maxHeartbeats 4000000 in
theorem step10_v228 {x0 x1 x2 x3 x4 x5 x6 x7 x8 x9 x10 x11 x12 x13} {V : Valuation τ sig (Elt F)} (h : Live9 (F := F) x0 x1 x2 x3 x4 x5 x6 x7 x8 x9 x10 x11 x12 x13 V) :
    after (ops10 (F := F)) V (Proc.devRef .tc main_v228) = val_main_v228 (F := F) x2 x3 x4 x5 x6 x7 x8 x9 x10 x11 := by
  unfold ops10; after_results_simp
  results_by_rw
  try simp only [h.v197, h.v195, h.arg4, h.arg5, h.arg6, h.arg10, h.arg11]
  try rw [h.v197]
  try rw [h.v195]
  try rw [h.arg4]
  try rw [h.arg5]
  try rw [h.arg6]
  try rw [h.arg10]
  try rw [h.arg11]
  rfl

theorem step10 {x0 x1 x2 x3 x4 x5 x6 x7 x8 x9 x10 x11 x12 x13} {V : Valuation τ sig (Elt F)} (h : Live9 (F := F) x0 x1 x2 x3 x4 x5 x6 x7 x8 x9 x10 x11 x12 x13 V) :
    Live10 (F := F) x0 x1 x2 x3 x4 x5 x6 x7 x8 x9 x10 x11 x12 x13 (after ops10 V) where
  arg0 := (keep10 (by decide) V).trans h.arg0
  arg1 := (keep10 (by decide) V).trans h.arg1
  arg2 := (keep10 (by decide) V).trans h.arg2
  arg3 := (keep10 (by decide) V).trans h.arg3
  arg4 := (keep10 (by decide) V).trans h.arg4
  arg5 := (keep10 (by decide) V).trans h.arg5
  arg6 := (keep10 (by decide) V).trans h.arg6
  arg7 := (keep10 (by decide) V).trans h.arg7
  arg8 := (keep10 (by decide) V).trans h.arg8
  arg9 := (keep10 (by decide) V).trans h.arg9
  arg10 := (keep10 (by decide) V).trans h.arg10
  arg11 := (keep10 (by decide) V).trans h.arg11
  arg12 := (keep10 (by decide) V).trans h.arg12
  arg13 := (keep10 (by decide) V).trans h.arg13
  v197 := (keep10 (by decide) V).trans h.v197
  v199 := (keep10 (by decide) V).trans h.v199
  v228 := step10_v228 h

/-- The buffers part 11 writes. -/
abbrev W11 : List (Ref sig .tc) :=
  [main_c_47, main_v229, main_v230, main_c_48, main_v231, main_v232, main_v233, main_v234, main_v235, main_cst_49, main_v236, main_c_50, main_v237, main_v238, main_c_51, main_v239, main_v240, main_v241, main_v242, main_v243, main_c_52, main_v244, main_v245, main_c_53, main_v246, main_v247, main_v248, main_v249, main_v250, main_v251, main_v252, main_v253, main_v254, main_v255, main_v256, main_call11_cst, main_call11_v0, main_v257]
theorem writes11 : (ops11 : List (HloOp τ sig (Elt F))).Forall fun op => op.writes ⊆ (W11.map (Proc.devRef (τ := τ) .tc)).toFinset :=
  ⟨wsub main_c_47 (by decide), wsub main_v229 (by decide), wsub main_v230 (by decide), wsub main_c_48 (by decide), wsub main_v231 (by decide), wsub main_v232 (by decide), wsub main_v233 (by decide), wsub main_v234 (by decide), wsub main_v235 (by decide), wsub main_cst_49 (by decide), wsub main_v236 (by decide), wsub main_c_50 (by decide), wsub main_v237 (by decide), wsub main_v238 (by decide), wsub main_c_51 (by decide), wsub main_v239 (by decide), wsub main_v240 (by decide), wsub main_v241 (by decide), wsub main_v242 (by decide), wsub main_v243 (by decide), wsub main_c_52 (by decide), wsub main_v244 (by decide), wsub main_v245 (by decide), wsub main_c_53 (by decide), wsub main_v246 (by decide), wsub main_v247 (by decide), wsub main_v248 (by decide), wsub main_v249 (by decide), wsub main_v250 (by decide), wsub main_v251 (by decide), wsub main_v252 (by decide), wsub main_v253 (by decide), wsub main_v254 (by decide), wsub main_v255 (by decide), wsub main_v256 (by decide), wsub main_call11_cst (by decide), wsub main_call11_v0 (by decide), wsub main_v257 (by decide)⟩
/-- A buffer part 11 does not write keeps its contents. -/
theorem keep11 {r : Ref sig .tc} (hr : r ∉ W11) (V : Valuation τ sig (Elt F)) :
    after (ops11 (F := F)) V (Proc.devRef .tc r) = V (Proc.devRef .tc r) :=
  after_of_writes_sub ops11 V writes11 hr

set_option maxHeartbeats 4000000 in
theorem step11_v257 {x0 x1 x2 x3 x4 x5 x6 x7 x8 x9 x10 x11 x12 x13} {V : Valuation τ sig (Elt F)} (h : Live10 (F := F) x0 x1 x2 x3 x4 x5 x6 x7 x8 x9 x10 x11 x12 x13 V) :
    after (ops11 (F := F)) V (Proc.devRef .tc main_v257) = val_main_v257 (F := F) x2 x3 x4 x5 x6 x7 x8 x9 x10 x11 := by
  unfold ops11; after_results_simp
  results_by_rw
  try simp only [h.v197, h.v228, h.arg4, h.arg5, h.arg6, h.arg10, h.arg11]
  try rw [h.v197]
  try rw [h.v228]
  try rw [h.arg4]
  try rw [h.arg5]
  try rw [h.arg6]
  try rw [h.arg10]
  try rw [h.arg11]
  rfl

theorem step11 {x0 x1 x2 x3 x4 x5 x6 x7 x8 x9 x10 x11 x12 x13} {V : Valuation τ sig (Elt F)} (h : Live10 (F := F) x0 x1 x2 x3 x4 x5 x6 x7 x8 x9 x10 x11 x12 x13 V) :
    Live11 (F := F) x0 x1 x2 x3 x4 x5 x6 x7 x8 x9 x10 x11 x12 x13 (after ops11 V) where
  arg0 := (keep11 (by decide) V).trans h.arg0
  arg1 := (keep11 (by decide) V).trans h.arg1
  arg2 := (keep11 (by decide) V).trans h.arg2
  arg3 := (keep11 (by decide) V).trans h.arg3
  arg4 := (keep11 (by decide) V).trans h.arg4
  arg5 := (keep11 (by decide) V).trans h.arg5
  arg6 := (keep11 (by decide) V).trans h.arg6
  arg7 := (keep11 (by decide) V).trans h.arg7
  arg8 := (keep11 (by decide) V).trans h.arg8
  arg9 := (keep11 (by decide) V).trans h.arg9
  arg10 := (keep11 (by decide) V).trans h.arg10
  arg11 := (keep11 (by decide) V).trans h.arg11
  arg12 := (keep11 (by decide) V).trans h.arg12
  arg13 := (keep11 (by decide) V).trans h.arg13
  v199 := (keep11 (by decide) V).trans h.v199
  v257 := step11_v257 h

/-- The buffers part 12 writes. -/
abbrev W12 : List (Ref sig .tc) :=
  [main_c_54, main_v258, main_v259, main_c_55, main_v260, main_v261, main_v262, main_v263, main_v264, main_cst_56, main_v265, main_v266, main_v267, main_v268, main_v269, main_v270, main_call12_cst, main_call12_v0, main_v271, main_v272, main_cst_57, main_v273, main_cst_58, main_v274, main_v275]
theorem writes12 : (ops12 : List (HloOp τ sig (Elt F))).Forall fun op => op.writes ⊆ (W12.map (Proc.devRef (τ := τ) .tc)).toFinset :=
  ⟨wsub main_c_54 (by decide), wsub main_v258 (by decide), wsub main_v259 (by decide), wsub main_c_55 (by decide), wsub main_v260 (by decide), wsub main_v261 (by decide), wsub main_v262 (by decide), wsub main_v263 (by decide), wsub main_v264 (by decide), wsub main_cst_56 (by decide), wsub main_v265 (by decide), wsub main_v266 (by decide), wsub main_v267 (by decide), wsub main_v268 (by decide), wsub main_v269 (by decide), wsub main_v270 (by decide), wsub main_call12_cst (by decide), wsub main_call12_v0 (by decide), wsub main_v271 (by decide), wsub main_v272 (by decide), wsub main_cst_57 (by decide), wsub main_v273 (by decide), wsub main_cst_58 (by decide), wsub main_v274 (by decide), wsub main_v275 (by decide)⟩
/-- A buffer part 12 does not write keeps its contents. -/
theorem keep12 {r : Ref sig .tc} (hr : r ∉ W12) (V : Valuation τ sig (Elt F)) :
    after (ops12 (F := F)) V (Proc.devRef .tc r) = V (Proc.devRef .tc r) :=
  after_of_writes_sub ops12 V writes12 hr

set_option maxHeartbeats 4000000 in
theorem step12_v275 {x0 x1 x2 x3 x4 x5 x6 x7 x8 x9 x10 x11 x12 x13} {V : Valuation τ sig (Elt F)} (h : Live11 (F := F) x0 x1 x2 x3 x4 x5 x6 x7 x8 x9 x10 x11 x12 x13 V) :
    after (ops12 (F := F)) V (Proc.devRef .tc main_v275) = val_main_v275 (F := F) x0 x1 x2 x3 x4 x5 x6 x7 x8 x9 x10 x11 x12 x13 := by
  unfold ops12; after_results_simp
  results_by_rw
  try simp only [h.v199, h.v257, h.arg4, h.arg12, h.arg13]
  try rw [h.v199]
  try rw [h.v257]
  try rw [h.arg4]
  try rw [h.arg12]
  try rw [h.arg13]
  rfl

theorem step12 {x0 x1 x2 x3 x4 x5 x6 x7 x8 x9 x10 x11 x12 x13} {V : Valuation τ sig (Elt F)} (h : Live11 (F := F) x0 x1 x2 x3 x4 x5 x6 x7 x8 x9 x10 x11 x12 x13 V) :
    Live12 (F := F) x0 x1 x2 x3 x4 x5 x6 x7 x8 x9 x10 x11 x12 x13 (after ops12 V) where
  arg0 := (keep12 (by decide) V).trans h.arg0
  arg1 := (keep12 (by decide) V).trans h.arg1
  arg2 := (keep12 (by decide) V).trans h.arg2
  arg3 := (keep12 (by decide) V).trans h.arg3
  arg4 := (keep12 (by decide) V).trans h.arg4
  arg5 := (keep12 (by decide) V).trans h.arg5
  arg6 := (keep12 (by decide) V).trans h.arg6
  arg7 := (keep12 (by decide) V).trans h.arg7
  arg8 := (keep12 (by decide) V).trans h.arg8
  arg9 := (keep12 (by decide) V).trans h.arg9
  arg10 := (keep12 (by decide) V).trans h.arg10
  arg11 := (keep12 (by decide) V).trans h.arg11
  arg12 := (keep12 (by decide) V).trans h.arg12
  arg13 := (keep12 (by decide) V).trans h.arg13
  v275 := step12_v275 h

/-- Before the line the arguments are at their launch contents. -/
theorem live_init (V : Valuation τ sig (Elt F)) : LiveInit (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) V :=
  ⟨rfl, rfl, rfl, rfl, rfl, rfl, rfl, rfl, rfl, rfl, rfl, rfl, rfl, rfl⟩

/-- After the whole line: the result at its named value of the arguments' launch contents, the arguments unchanged. -/
theorem live_final (V : Valuation τ sig (Elt F)) : Live12 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (after ops V) := by
  unfold ops
  rw [Cert.Lib.after_append, Cert.Lib.after_append, Cert.Lib.after_append, Cert.Lib.after_append, Cert.Lib.after_append, Cert.Lib.after_append, Cert.Lib.after_append, Cert.Lib.after_append, Cert.Lib.after_append, Cert.Lib.after_append, Cert.Lib.after_append, Cert.Lib.after_append]
  exact step12 (step11 (step10 (step9 (step8 (step7 (step6 (step5 (step4 (step3 (step2 (step1 (step0 (live_init V)))))))))))))

/-- On every device, from any memory with zero counters: every weakly fair execution of the reference terminates with
    the result buffer at its named value of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v275) = val_main_v275 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      have L := live_final (F := Ideal) (launchContents m c)
      exact ⟨(h c main_v275).trans L.v275,
        (h c main_arg0).trans L.arg0,
        (h c main_arg1).trans L.arg1,
        (h c main_arg2).trans L.arg2,
        (h c main_arg3).trans L.arg3,
        (h c main_arg4).trans L.arg4,
        (h c main_arg5).trans L.arg5,
        (h c main_arg6).trans L.arg6,
        (h c main_arg7).trans L.arg7,
        (h c main_arg8).trans L.arg8,
        (h c main_arg9).trans L.arg9,
        (h c main_arg10).trans L.arg10,
        (h c main_arg11).trans L.arg11,
        (h c main_arg12).trans L.arg12,
        (h c main_arg13).trans L.arg13⟩)
    (run_seq scopedRefs_eq scopedSems_eq defs main (fun _ => ops) main_eq (fun _ => ops_sub) m ρ (fun _ => ops_fresh))

end Cert.RRun

end
-- ==== Proof.lean ====
/- The proof of `Cert.Claim`: the three programs run to the end without a fault and leave their arguments as
   launched; the idealized kernel is the kernel's own text read over the extended reals (nothing was rewritten, so
   there is nothing to preserve); and the idealized kernel and the idealized reference, started from the same
   argument arrays, end with the same result array.

   The last claim is where the mathematics is. The kernel program runs seven pipelines among stretches of host
   operations; the reference is one long line of host operations. Stage by stage the two compute the same tables:
   a projection or an update produces each row from the same row of its operands (a matrix product is a sum over the
   contracted coordinate, whatever the tiling); the fused step produces a molecule's bonds from that molecule's bonds
   alone (hidden update, scaled dot products, the row's supremum, shifted exponentials, their sum, the weighted
   context, its projection, the residual), with the scale `0.0625` against `1 / sqrt 256` — the same real number;
   the read-out contracts 133 + 256 coordinates in two sums where the reference contracts 389 in one — addition of
   extended reals is commutative and associative, so no finiteness is needed — and averages each molecule's 64 atoms.
   Between the stages both programs apply the same gathers, sums and re-layings to the same tables. -/
import proofs.«135133_j46703474376853_2_alg».proof.Defs
import proofs.«135133_j46703474376853_2_alg».proof.Proof.Gen.Kernel
import proofs.«135133_j46703474376853_2_alg».proof.Proof.Gen.Kernel.Skeleton
import proofs.«135133_j46703474376853_2_alg».proof.Proof.Gen.Kernel.Launch
import proofs.«135133_j46703474376853_2_alg».proof.Proof.Gen.Kernel.Points
import proofs.«135133_j46703474376853_2_alg».proof.Proof.Gen.Kernel.Frame
import proofs.«135133_j46703474376853_2_alg».proof.Proof.Gen.KernelIdeal
import proofs.«135133_j46703474376853_2_alg».proof.Proof.Gen.KernelIdeal.Skeleton
import proofs.«135133_j46703474376853_2_alg».proof.Proof.Gen.KernelIdeal.Launch
import proofs.«135133_j46703474376853_2_alg».proof.Proof.Gen.KernelIdeal.Points
import proofs.«135133_j46703474376853_2_alg».proof.Proof.Gen.KernelIdeal.Frame
import proofs.«135133_j46703474376853_2_alg».proof.Proof.Gen.ReferenceIdeal
import proofs.«135133_j46703474376853_2_alg».proof.Proof.Gen.Pre_finite_inputs
import proofs.«135133_j46703474376853_2_alg».proof.Proof.KRun
import proofs.«135133_j46703474376853_2_alg».proof.Proof.KChain
import proofs.«135133_j46703474376853_2_alg».proof.Proof.RRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RRun.run m ρ)

/-- Both runs end at the reference's result as a function of the argument arrays: the kernel's by the walk through its
    segments, the reference's by its own run, the arguments agreeing. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.ReadP.val_main_v275 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KChain.result m ρ c), (h c).2⟩) (Cert.KRun.run_result m ρ)
  · refine (θ_run Cert.ReferenceIdeal.defs _ _).mono (fun r h c => ⟨?_, (h c).2⟩) (Cert.RRun.run m' ρ')
    obtain ⟨e0, e1, e2, e3, e4, e5, e6, e7, e8, e9, e10, e11, e12, e13⟩ := hagree c
    rw [(h c).1, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
